-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "d_al_00" .f32 0x42CC7791#32 ((112406956574275 / 1099511627776 : ℝ) : EReal)
  ∧ IdealRules.named_const.Statement Cert.KernelIdeal.κ "d_st_00" .f32 0x43869D8A#32 ((148011179044927 / 549755813888 : ℝ) : EReal)
  ∧ IdealRules.named_const.Statement Cert.KernelIdeal.κ "d_al_01" .f32 0x42496A52#32 ((110729242446295 / 2199023255552 : ℝ) : EReal)
  ∧ IdealRules.named_const.Statement Cert.KernelIdeal.κ "d_st_01" .f32 0x42E6C4ED#32 ((63433366048705 / 549755813888 : ℝ) : EReal)
  ∧ IdealRules.named_const.Statement Cert.KernelIdeal.κ "d_al_22" .f32 0x41CF84D1#32 ((114084670702255 / 4398046511104 : ℝ) : EReal)
  ∧ IdealRules.named_const.Statement Cert.KernelIdeal.κ "d_st_22" .f32 0x4299D89E#32 ((169155638595521 / 2199023255552 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v139)) (v1 : (c : Dev Cert.KernelIdeal.nD) → Buf (Elt Ideal) ((c.tc : Thread Cert.KernelIdeal.nD Cert.KernelIdeal.τ).loc Cert.KernelIdeal.main_v251)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_v251) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v311) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6000 : Shape := ⟨1, ![6000]⟩
abbrev S12000x3 : Shape := ⟨2, ![12000, 3]⟩
abbrev S12000 : Shape := ⟨1, ![12000]⟩
abbrev S400 : Shape := ⟨1, ![400]⟩
abbrev S200 : Shape := ⟨1, ![200]⟩
abbrev S_ : Shape := ⟨0, ![]⟩

class Facts : Prop where
  bcast_S_S6000 : S_.BroadcastsInDim S6000 (![] : Fin 0 → Fin S6000.rank)
  reducesTo_S6000_S_d0 : S6000.ReducesTo [0] S_
  h_S_ : 0 < S_.numel
  bcast_S_S12000 : S_.BroadcastsInDim S12000 (![] : Fin 0 → Fin S12000.rank)
  reducesTo_S12000_S_d0 : S12000.ReducesTo [0] S_
  bcast_S_S400 : S_.BroadcastsInDim S400 (![] : Fin 0 → Fin S400.rank)
  reducesTo_S400_S_d0 : S400.ReducesTo [0] S_
  bcast_S_S200 : S_.BroadcastsInDim S200 (![] : Fin 0 → Fin S200.rank)
  reducesTo_S200_S_d0 : S200.ReducesTo [0] S_

variable [Facts]

def fn_part1 {F : FTy → Type} [FloatOps F] (main_arg7 : FVec F S400 .f32) (main_arg10 : FVec F S200 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg7
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S200 .f32 := Host.absf main_arg10
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  main_v28

def fn {F : FTy → Type} [FloatOps F] (main_arg0 : FVec F S6000 .f32) (main_arg1 : FVec F S6000 .f32) (main_arg2 : IVec S12000x3 32) (main_arg3 : FVec F S12000 .f32) (main_arg4 : IVec S400 32) (main_arg5 : IVec S400 32) (main_arg6 : FVec F S400 .f32) (main_arg7 : FVec F S400 .f32) (main_arg8 : IVec S200 32) (main_arg9 : IVec S200 32) (main_arg10 : FVec F S200 .f32) : IVec S_ 1 :=
  let main_v0 : FVec F S6000 .f32 := Host.absf main_arg0
  let main_cst : FVec F S_ .f32 := constant S_ .f32 0x7F800000#32
  let main_v1 : FVec F S6000 .f32 := broadcastInDim S6000 ![] bcast_S_S6000 main_cst
  let main_v2 : IVec S6000 1 := cmpf .olt main_v0 main_v1
  let main_c : IVec S_ 1 := constantI S_ 1 1#1
  let main_v3 : IVec S_ 1 := (fun x v => Host.reduce IntOp.andi x v reducesTo_S6000_S_d0 h_S_) main_v2 main_c
  let main_v4 : FVec F S6000 .f32 := Host.absf main_arg1
  let main_cst_0 : FVec F S_ .f32 := constant S_ .f32 0x7F800000#32
  let main_v5 : FVec F S6000 .f32 := broadcastInDim S6000 ![] bcast_S_S6000 main_cst_0
  let main_v6 : IVec S6000 1 := cmpf .olt main_v4 main_v5
  let main_c_1 : IVec S_ 1 := constantI S_ 1 1#1
  let main_v7 : IVec S_ 1 := (fun x v => Host.reduce IntOp.andi x v reducesTo_S6000_S_d0 h_S_) main_v6 main_c_1
  let main_v8 : IVec S_ 1 := andi main_v3 main_v7
  let main_v9 : FVec F S12000 .f32 := Host.absf main_arg3
  let main_cst_2 : FVec F S_ .f32 := constant S_ .f32 0x7F800000#32
  let main_v10 : FVec F S12000 .f32 := broadcastInDim S12000 ![] bcast_S_S12000 main_cst_2
  let main_v11 : IVec S12000 1 := cmpf .olt main_v9 main_v10
  let main_c_3 : IVec S_ 1 := constantI S_ 1 1#1
  let main_v12 : IVec S_ 1 := (fun x v => Host.reduce IntOp.andi x v reducesTo_S12000_S_d0 h_S_) main_v11 main_c_3
  let main_v13 : IVec S_ 1 := andi main_v8 main_v12
  let main_v14 : FVec F S400 .f32 := Host.absf main_arg6
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg7 main_arg10 main_v13 main_v16
-- ==== Kernel.lean ====
abbrev S6000 : Shape := ⟨1, ![6000]⟩
abbrev S12000x3 : Shape := ⟨2, ![12000, 3]⟩
abbrev S12000 : Shape := ⟨1, ![12000]⟩
abbrev S400 : Shape := ⟨1, ![400]⟩
abbrev S200 : Shape := ⟨1, ![200]⟩
abbrev S3 : Shape := ⟨1, ![3]⟩
abbrev S12000x1 : Shape := ⟨2, ![12000, 1]⟩
abbrev S_ : Shape := ⟨0, ![]⟩
abbrev S12288 : Shape := ⟨1, ![12288]⟩
abbrev S1x12288 : Shape := ⟨2, ![1, 12288]⟩
abbrev S36x12288 : Shape := ⟨2, ![36, 12288]⟩
abbrev S1x1024 : Shape := ⟨2, ![1, 1024]⟩
abbrev S36x1024 : Shape := ⟨2, ![36, 1024]⟩
abbrev S36x12000 : Shape := ⟨2, ![36, 12000]⟩
abbrev S12000x36 : Shape := ⟨2, ![12000, 36]⟩
abbrev S12000x6x6 : Shape := ⟨3, ![12000, 6, 6]⟩
abbrev S12000x3x1 : Shape := ⟨3, ![12000, 3, 1]⟩
abbrev S12000x3x2 : Shape := ⟨3, ![12000, 3, 2]⟩
abbrev S12000x6 : Shape := ⟨2, ![12000, 6]⟩
abbrev S200x1 : Shape := ⟨2, ![200, 1]⟩
abbrev S12000x6x1 : Shape := ⟨3, ![12000, 6, 1]⟩
abbrev S12000x12000 : Shape := ⟨2, ![12000, 12000]⟩
abbrev S12000x1x6 : Shape := ⟨3, ![12000, 1, 6]⟩
abbrev S12000x6x6x1 : Shape := ⟨4, ![12000, 6, 6, 1]⟩
abbrev S12000x6x6x2 : Shape := ⟨4, ![12000, 6, 6, 2]⟩
abbrev S200x2 : Shape := ⟨2, ![200, 2]⟩
abbrev S400x1 : Shape := ⟨2, ![400, 1]⟩
abbrev S400x2 : Shape := ⟨2, ![400, 2]⟩
abbrev S400x4 : Shape := ⟨2, ![400, 4]⟩
abbrev S400x4x1 : Shape := ⟨3, ![400, 4, 1]⟩

abbrev nBuf : Space → Nat
  | .hbm => 341
  | .vmem => 16
  | .smem => 0
  | _ => 0

abbrev hbmTy0_0 (i : Nat) : BufTy := match i % 128 with
  | 0 => ⟨S6000, .f32⟩
  | 1 => ⟨S6000, .f32⟩
  | 2 => ⟨S12000x3, .i32⟩
  | 3 => ⟨S12000, .f32⟩
  | 4 => ⟨S400, .i32⟩
  | 5 => ⟨S400, .i32⟩
  | 6 => ⟨S400, .f32⟩
  | 7 => ⟨S400, .f32⟩
  | 8 => ⟨S200, .i32⟩
  | 9 => ⟨S200, .i32⟩
  | 10 => ⟨S200, .f32⟩
  | 11 => ⟨S3, .i32⟩
  | 12 => ⟨S12000x1, .i32⟩
  | 13 => ⟨S12000, .i32⟩
  | 14 => ⟨S_, .i32⟩
  | 15 => ⟨S12000, .i32⟩
  | 16 => ⟨S12000, .i1⟩
  | 17 => ⟨S_, .i32⟩
  | 18 => ⟨S12000, .i32⟩
  | 19 => ⟨S12000, .i32⟩
  | 20 => ⟨S12000, .i32⟩
  | 21 => ⟨S12000x1, .i32⟩
  | 22 => ⟨S12000, .f32⟩
  | 23 => ⟨S12000x1, .i32⟩
  | 24 => ⟨S12000, .i32⟩
  | 25 => ⟨S_, .i32⟩
  | 26 => ⟨S12000, .i32⟩
  | 27 => ⟨S12000, .i1⟩
  | 28 => ⟨S_, .i32⟩
  | 29 => ⟨S12000, .i32⟩
  | 30 => ⟨S12000, .i32⟩
  | 31 => ⟨S12000, .i32⟩
  | 32 => ⟨S12000x1, .i32⟩
  | 33 => ⟨S12000, .f32⟩
  | 34 => ⟨S12000x1, .i32⟩
  | 35 => ⟨S12000, .i32⟩
  | 36 => ⟨S_, .i32⟩
  | 37 => ⟨S12000, .i32⟩
  | 38 => ⟨S12000, .i1⟩
  | 39 => ⟨S_, .i32⟩
  | 40 => ⟨S12000, .i32⟩
  | 41 => ⟨S12000, .i32⟩
  | 42 => ⟨S12000, .i32⟩
  | 43 => ⟨S12000x1, .i32⟩
  | 44 => ⟨S12000, .f32⟩
  | 45 => ⟨S12000x1, .i32⟩
  | 46 => ⟨S12000, .i32⟩
  | 47 => ⟨S_, .i32⟩
  | 48 => ⟨S12000, .i32⟩
  | 49 => ⟨S12000, .i1⟩
  | 50 => ⟨S_, .i32⟩
  | 51 => ⟨S12000, .i32⟩
  | 52 => ⟨S12000, .i32⟩
  | 53 => ⟨S12000, .i32⟩
  | 54 => ⟨S12000x1, .i32⟩
  | 55 => ⟨S12000, .f32⟩
  | 56 => ⟨S12000x1, .i32⟩
  | 57 => ⟨S12000, .i32⟩
  | 58 => ⟨S_, .i32⟩
  | 59 => ⟨S12000, .i32⟩
  | 60 => ⟨S12000, .i1⟩
  | 61 => ⟨S_, .i32⟩
  | 62 => ⟨S12000, .i32⟩
  | 63 => ⟨S12000, .i32⟩
  | 64 => ⟨S12000, .i32⟩
  | 65 => ⟨S12000x1, .i32⟩
  | 66 => ⟨S12000, .f32⟩
  | 67 => ⟨S12000x1, .i32⟩
  | 68 => ⟨S12000, .i32⟩
  | 69 => ⟨S_, .i32⟩
  | 70 => ⟨S12000, .i32⟩
  | 71 => ⟨S12000, .i1⟩
  | 72 => ⟨S_, .i32⟩
  | 73 => ⟨S12000, .i32⟩
  | 74 => ⟨S12000, .i32⟩
  | 75 => ⟨S12000, .i32⟩
  | 76 => ⟨S12000x1, .i32⟩
  | 77 => ⟨S12000, .f32⟩
  | 78 => ⟨S_, .i32⟩
  | 79 => ⟨S_, .f32⟩
  | 80 => ⟨S12288, .f32⟩
  | 81 => ⟨S1x12288, .f32⟩
  | 82 => ⟨S_, .i32⟩
  | 83 => ⟨S_, .f32⟩
  | 84 => ⟨S12288, .f32⟩
  | 85 => ⟨S1x12288, .f32⟩
  | 86 => ⟨S_, .i32⟩
  | 87 => ⟨S_, .f32⟩
  | 88 => ⟨S12288, .f32⟩
  | 89 => ⟨S1x12288, .f32⟩
  | 90 => ⟨S_, .i32⟩
  | 91 => ⟨S_, .f32⟩
  | 92 => ⟨S12288, .f32⟩
  | 93 => ⟨S1x12288, .f32⟩
  | 94 => ⟨S_, .i32⟩
  | 95 => ⟨S_, .f32⟩
  | 96 => ⟨S12288, .f32⟩
  | 97 => ⟨S1x12288, .f32⟩
  | 98 => ⟨S_, .i32⟩
  | 99 => ⟨S_, .f32⟩
  | 100 => ⟨S12288, .f32⟩
  | 101 => ⟨S1x12288, .f32⟩
  | 102 => ⟨S_, .i32⟩
  | 103 => ⟨S_, .f32⟩
  | 104 => ⟨S12288, .f32⟩
  | 105 => ⟨S1x12288, .f32⟩
  | 106 => ⟨S36x12288, .f32⟩
  | 107 => ⟨S36x12000, .f32⟩
  | 108 => ⟨S12000x36, .f32⟩
  | 109 => ⟨S12000x6x6, .f32⟩
  | 110 => ⟨S_, .i32⟩
  | 111 => ⟨S12000x3, .i32⟩
  | 112 => ⟨S12000x3, .i32⟩
  | 113 => ⟨S_, .i32⟩
  | 114 => ⟨S12000x3, .i32⟩
  | 115 => ⟨S12000x3, .i32⟩
  | 116 => ⟨S_, .i32⟩
  | 117 => ⟨S12000x3, .i32⟩
  | 118 => ⟨S12000x3, .i32⟩
  | 119 => ⟨S12000x3x1, .i32⟩
  | 120 => ⟨S12000x3x1, .i32⟩
  | 121 => ⟨S12000x3x2, .i32⟩
  | 122 => ⟨S12000x6, .i32⟩
  | 123 => ⟨S_, .i32⟩
  | 124 => ⟨S200, .i32⟩
  | 125 => ⟨S200, .i32⟩
  | 126 => ⟨S200, .i32⟩
  | 127 => ⟨S_, .f32⟩
  | _ => ⟨S6000, .f32⟩

abbrev hbmTy0_1 (i : Nat) : BufTy := match i % 128 with
  | 0 => ⟨S12000, .f32⟩
  | 1 => ⟨S_, .i32⟩
  | 2 => ⟨S200, .i32⟩
  | 3 => ⟨S200, .i1⟩
  | 4 => ⟨S_, .i32⟩
  | 5 => ⟨S200, .i32⟩
  | 6 => ⟨S200, .i32⟩
  | 7 => ⟨S200, .i32⟩
  | 8 => ⟨S200x1, .i32⟩
  | 9 => ⟨S_, .f32⟩
  | 10 => ⟨S200, .f32⟩
  | 11 => ⟨S12000, .f32⟩
  | 12 => ⟨S_, .f32⟩
  | 13 => ⟨S12000, .f32⟩
  | 14 => ⟨S12000, .f32⟩
  | 15 => ⟨S_, .i32⟩
  | 16 => ⟨S12000x6, .i32⟩
  | 17 => ⟨S12000x6, .i1⟩
  | 18 => ⟨S_, .i32⟩
  | 19 => ⟨S12000x6, .i32⟩
  | 20 => ⟨S12000x6, .i32⟩
  | 21 => ⟨S12000x6, .i32⟩
  | 22 => ⟨S12000x6x1, .i32⟩
  | 23 => ⟨S12000x6, .f32⟩
  | 24 => ⟨S12000x6x1, .f32⟩
  | 25 => ⟨S12000x6x6, .f32⟩
  | 26 => ⟨S12000x6x6, .f32⟩
  | 27 => ⟨S_, .f32⟩
  | 28 => ⟨S12000x12000, .f32⟩
  | 29 => ⟨S12000x6x1, .i32⟩
  | 30 => ⟨S12000x1x6, .i32⟩
  | 31 => ⟨S_, .i32⟩
  | 32 => ⟨S12000x6x1, .i32⟩
  | 33 => ⟨S12000x6x1, .i1⟩
  | 34 => ⟨S_, .i32⟩
  | 35 => ⟨S12000x6x1, .i32⟩
  | 36 => ⟨S12000x6x1, .i32⟩
  | 37 => ⟨S12000x6x1, .i32⟩
  | 38 => ⟨S_, .i32⟩
  | 39 => ⟨S12000x1x6, .i32⟩
  | 40 => ⟨S12000x1x6, .i1⟩
  | 41 => ⟨S_, .i32⟩
  | 42 => ⟨S12000x1x6, .i32⟩
  | 43 => ⟨S12000x1x6, .i32⟩
  | 44 => ⟨S12000x1x6, .i32⟩
  | 45 => ⟨S12000x6x6, .i32⟩
  | 46 => ⟨S12000x6x6, .i32⟩
  | 47 => ⟨S12000x6x6x1, .i32⟩
  | 48 => ⟨S12000x6x6x1, .i32⟩
  | 49 => ⟨S12000x6x6x2, .i32⟩
  | 50 => ⟨S12000x12000, .f32⟩
  | 51 => ⟨S_, .i32⟩
  | 52 => ⟨S200, .i32⟩
  | 53 => ⟨S200, .i1⟩
  | 54 => ⟨S_, .i32⟩
  | 55 => ⟨S200, .i32⟩
  | 56 => ⟨S200, .i32⟩
  | 57 => ⟨S200, .i32⟩
  | 58 => ⟨S_, .i32⟩
  | 59 => ⟨S200, .i32⟩
  | 60 => ⟨S200, .i1⟩
  | 61 => ⟨S_, .i32⟩
  | 62 => ⟨S200, .i32⟩
  | 63 => ⟨S200, .i32⟩
  | 64 => ⟨S200, .i32⟩
  | 65 => ⟨S200x1, .i32⟩
  | 66 => ⟨S200x1, .i32⟩
  | 67 => ⟨S200x2, .i32⟩
  | 68 => ⟨S_, .f32⟩
  | 69 => ⟨S200, .f32⟩
  | 70 => ⟨S12000x12000, .f32⟩
  | 71 => ⟨S_, .i32⟩
  | 72 => ⟨S400, .i32⟩
  | 73 => ⟨S400, .i1⟩
  | 74 => ⟨S_, .i32⟩
  | 75 => ⟨S400, .i32⟩
  | 76 => ⟨S400, .i32⟩
  | 77 => ⟨S400, .i32⟩
  | 78 => ⟨S_, .i32⟩
  | 79 => ⟨S400, .i32⟩
  | 80 => ⟨S400, .i1⟩
  | 81 => ⟨S_, .i32⟩
  | 82 => ⟨S400, .i32⟩
  | 83 => ⟨S400, .i32⟩
  | 84 => ⟨S400, .i32⟩
  | 85 => ⟨S400x1, .i32⟩
  | 86 => ⟨S400x1, .i32⟩
  | 87 => ⟨S400x2, .i32⟩
  | 88 => ⟨S400, .i32⟩
  | 89 => ⟨S_, .i32⟩
  | 90 => ⟨S400, .i32⟩
  | 91 => ⟨S400, .i1⟩
  | 92 => ⟨S_, .i32⟩
  | 93 => ⟨S400, .i32⟩
  | 94 => ⟨S400, .i32⟩
  | 95 => ⟨S400, .i32⟩
  | 96 => ⟨S400x1, .i32⟩
  | 97 => ⟨S400, .i32⟩
  | 98 => ⟨S_, .i32⟩
  | 99 => ⟨S400, .i32⟩
  | 100 => ⟨S400, .i1⟩
  | 101 => ⟨S_, .i32⟩
  | 102 => ⟨S400, .i32⟩
  | 103 => ⟨S400, .i32⟩
  | 104 => ⟨S400, .i32⟩
  | 105 => ⟨S_, .i32⟩
  | 106 => ⟨S400, .i32⟩
  | 107 => ⟨S400, .i1⟩
  | 108 => ⟨S_, .i32⟩
  | 109 => ⟨S400, .i32⟩
  | 110 => ⟨S400, .i32⟩
  | 111 => ⟨S400, .i32⟩
  | 112 => ⟨S400x1, .i32⟩
  | 113 => ⟨S400x1, .i32⟩
  | 114 => ⟨S400x2, .i32⟩
  | 115 => ⟨S400, .i32⟩
  | 116 => ⟨S_, .i32⟩
  | 117 => ⟨S400, .i32⟩
  | 118 => ⟨S400, .i1⟩
  | 119 => ⟨S_, .i32⟩
  | 120 => ⟨S400, .i32⟩
  | 121 => ⟨S400, .i32⟩
  | 122 => ⟨S400, .i32⟩
  | 123 => ⟨S400x1, .i32⟩
  | 124 => ⟨S400, .f32⟩
  | 125 => ⟨S_, .i32⟩
  | 126 => ⟨S400, .i32⟩
  | 127 => ⟨S400, .i1⟩
  | _ => ⟨S6000, .f32⟩

abbrev hbmTy0_2 (i : Nat) : BufTy := match i % 128 with
  | 0 => ⟨S_, .i32⟩
  | 1 => ⟨S400, .i32⟩
  | 2 => ⟨S400, .i32⟩
  | 3 => ⟨S400, .i32⟩
  | 4 => ⟨S400x1, .i32⟩
  | 5 => ⟨S400, .f32⟩
  | 6 => ⟨S400, .f32⟩
  | 7 => ⟨S_, .i32⟩
  | 8 => ⟨S400, .i32⟩
  | 9 => ⟨S400, .i1⟩
  | 10 => ⟨S_, .i32⟩
  | 11 => ⟨S400, .i32⟩
  | 12 => ⟨S400, .i32⟩
  | 13 => ⟨S400, .i32⟩
  | 14 => ⟨S400x1, .i32⟩
  | 15 => ⟨S400, .f32⟩
  | 16 => ⟨S_, .i32⟩
  | 17 => ⟨S400, .i32⟩
  | 18 => ⟨S400, .i1⟩
  | 19 => ⟨S_, .i32⟩
  | 20 => ⟨S400, .i32⟩
  | 21 => ⟨S400, .i32⟩
  | 22 => ⟨S400, .i32⟩
  | 23 => ⟨S400x1, .i32⟩
  | 24 => ⟨S400, .f32⟩
  | 25 => ⟨S400, .f32⟩
  | 26 => ⟨S400, .f32⟩
  | 27 => ⟨S400, .f32⟩
  | 28 => ⟨S400, .f32⟩
  | 29 => ⟨S400, .f32⟩
  | 30 => ⟨S_, .f32⟩
  | 31 => ⟨S400, .f32⟩
  | 32 => ⟨S400, .f32⟩
  | 33 => ⟨S_, .i32⟩
  | 34 => ⟨S400, .i32⟩
  | 35 => ⟨S400, .i32⟩
  | 36 => ⟨S_, .i32⟩
  | 37 => ⟨S400, .i32⟩
  | 38 => ⟨S400, .i32⟩
  | 39 => ⟨S_, .i32⟩
  | 40 => ⟨S400, .i32⟩
  | 41 => ⟨S400, .i32⟩
  | 42 => ⟨S_, .i32⟩
  | 43 => ⟨S400, .i32⟩
  | 44 => ⟨S400, .i32⟩
  | 45 => ⟨S_, .i32⟩
  | 46 => ⟨S400, .i32⟩
  | 47 => ⟨S400, .i32⟩
  | 48 => ⟨S_, .i32⟩
  | 49 => ⟨S400, .i32⟩
  | 50 => ⟨S400, .i32⟩
  | 51 => ⟨S400x1, .i32⟩
  | 52 => ⟨S400x1, .i32⟩
  | 53 => ⟨S400x1, .i32⟩
  | 54 => ⟨S400x1, .i32⟩
  | 55 => ⟨S400x4, .i32⟩
  | 56 => ⟨S400x1, .f32⟩
  | 57 => ⟨S400x1, .f32⟩
  | 58 => ⟨S400x1, .f32⟩
  | 59 => ⟨S400x1, .f32⟩
  | 60 => ⟨S400x4, .f32⟩
  | 61 => ⟨S400x1, .f32⟩
  | 62 => ⟨S400x4, .f32⟩
  | 63 => ⟨S400x4, .f32⟩
  | 64 => ⟨S_, .f32⟩
  | 65 => ⟨S12000, .f32⟩
  | 66 => ⟨S_, .i32⟩
  | 67 => ⟨S400x4, .i32⟩
  | 68 => ⟨S400x4, .i1⟩
  | 69 => ⟨S_, .i32⟩
  | 70 => ⟨S400x4, .i32⟩
  | 71 => ⟨S400x4, .i32⟩
  | 72 => ⟨S400x4, .i32⟩
  | 73 => ⟨S400x4x1, .i32⟩
  | 74 => ⟨S12000, .f32⟩
  | 75 => ⟨S_, .i32⟩
  | 76 => ⟨S200, .i32⟩
  | 77 => ⟨S200, .i1⟩
  | 78 => ⟨S_, .i32⟩
  | 79 => ⟨S200, .i32⟩
  | 80 => ⟨S200, .i32⟩
  | 81 => ⟨S200, .i32⟩
  | 82 => ⟨S200x1, .i32⟩
  | 83 => ⟨S12000, .f32⟩
  | 84 => ⟨S12000x1, .f32⟩
  | _ => ⟨S6000, .f32⟩

abbrev hbmTy (i : Nat) : BufTy := match i / 128 with
  | 0 => hbmTy0_0 i
  | 1 => hbmTy0_1 i
  | 2 => hbmTy0_2 i
  | _ => ⟨S6000, .f32⟩

abbrev bufTy : (tb : Table) → Fin (tcTables nBuf tb) → BufTy
  | .hbm, ⟨i, _⟩ => hbmTy i
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S36x1024, .f32⟩
  | .local _ .vmem, ⟨15, _⟩ => ⟨S36x1024, .f32⟩
  | _, _ => ⟨S6000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_2 : Ref sig .tc := ⟨.hbm, 25, rfl⟩
abbrev main_v11 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_call0_v0 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_c_15 : Ref sig .tc := ⟨.hbm, 90, rfl⟩
abbrev main_call3_v0 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_call4_v0 : Ref sig .tc := ⟨.hbm, 95, rfl⟩
abbrev main_v62 : Ref sig .tc := ⟨.hbm, 96, rfl⟩
abbrev main_v63 : Ref sig .tc := ⟨.hbm, 97, rfl⟩
abbrev main_c_17 : Ref sig .tc := ⟨.hbm, 98, rfl⟩
abbrev main_call5_v0 : Ref sig .tc := ⟨.hbm, 99, rfl⟩
abbrev main_v64 : Ref sig .tc := ⟨.hbm, 100, rfl⟩
abbrev main_v65 : Ref sig .tc := ⟨.hbm, 101, rfl⟩
abbrev main_c_18 : Ref sig .tc := ⟨.hbm, 102, rfl⟩
abbrev main_call6_v0 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_c_19 : Ref sig .tc := ⟨.hbm, 110, rfl⟩
abbrev main_v72 : Ref sig .tc := ⟨.hbm, 111, rfl⟩
abbrev main_v73 : Ref sig .tc := ⟨.hbm, 112, rfl⟩
abbrev main_c_20 : Ref sig .tc := ⟨.hbm, 113, rfl⟩
abbrev main_v74 : Ref sig .tc := ⟨.hbm, 114, rfl⟩
abbrev main_v75 : Ref sig .tc := ⟨.hbm, 115, rfl⟩
abbrev main_c_21 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_22 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst : Ref sig .tc := ⟨.hbm, 127, rfl⟩
abbrev main_v85 : Ref sig .tc := ⟨.hbm, 128, rfl⟩
abbrev main_c_23 : Ref sig .tc := ⟨.hbm, 129, rfl⟩
abbrev main_v86 : Ref sig .tc := ⟨.hbm, 130, rfl⟩
abbrev main_v87 : Ref sig .tc := ⟨.hbm, 131, rfl⟩
abbrev main_c_24 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_25 : Ref sig .tc := ⟨.hbm, 137, rfl⟩
abbrev main_v92 : Ref sig .tc := ⟨.hbm, 138, rfl⟩
abbrev main_v93 : Ref sig .tc := ⟨.hbm, 139, rfl⟩
abbrev main_cst_26 : Ref sig .tc := ⟨.hbm, 140, rfl⟩
abbrev main_v94 : Ref sig .tc := ⟨.hbm, 141, rfl⟩
abbrev main_v95 : Ref sig .tc := ⟨.hbm, 142, rfl⟩
abbrev main_c_27 : Ref sig .tc := ⟨.hbm, 143, rfl⟩
abbrev main_v96 : Ref sig .tc := ⟨.hbm, 144, rfl⟩
abbrev main_v97 : Ref sig .tc := ⟨.hbm, 145, rfl⟩
abbrev main_c_28 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_29 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_c_30 : Ref sig .tc := ⟨.hbm, 159, rfl⟩
abbrev main_v109 : Ref sig .tc := ⟨.hbm, 160, rfl⟩
abbrev main_v110 : Ref sig .tc := ⟨.hbm, 161, rfl⟩
abbrev main_c_31 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_32 : Ref sig .tc := ⟨.hbm, 166, rfl⟩
abbrev main_v114 : Ref sig .tc := ⟨.hbm, 167, rfl⟩
abbrev main_v115 : Ref sig .tc := ⟨.hbm, 168, rfl⟩
abbrev main_c_33 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_34 : Ref sig .tc := ⟨.hbm, 179, rfl⟩
abbrev main_v125 : Ref sig .tc := ⟨.hbm, 180, rfl⟩
abbrev main_v126 : Ref sig .tc := ⟨.hbm, 181, rfl⟩
abbrev main_c_35 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_c_36 : Ref sig .tc := ⟨.hbm, 186, rfl⟩
abbrev main_v130 : Ref sig .tc := ⟨.hbm, 187, rfl⟩
abbrev main_v131 : Ref sig .tc := ⟨.hbm, 188, rfl⟩
abbrev main_c_37 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_38 : Ref sig .tc := ⟨.hbm, 196, rfl⟩
abbrev main_v138 : Ref sig .tc := ⟨.hbm, 197, rfl⟩
abbrev main_v139 : Ref sig .tc := ⟨.hbm, 198, rfl⟩
abbrev main_c_39 : Ref sig .tc := ⟨.hbm, 199, rfl⟩
abbrev main_v140 : Ref sig .tc := ⟨.hbm, 200, rfl⟩
abbrev main_v141 : Ref sig .tc := ⟨.hbm, 201, rfl⟩
abbrev main_c_40 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_c_41 : Ref sig .tc := ⟨.hbm, 206, rfl⟩
abbrev main_v145 : Ref sig .tc := ⟨.hbm, 207, rfl⟩
abbrev main_v146 : Ref sig .tc := ⟨.hbm, 208, rfl⟩
abbrev main_c_42 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_c_43 : Ref sig .tc := ⟨.hbm, 217, rfl⟩
abbrev main_v154 : Ref sig .tc := ⟨.hbm, 218, rfl⟩
abbrev main_v155 : Ref sig .tc := ⟨.hbm, 219, rfl⟩
abbrev main_c_44 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_c_45 : Ref sig .tc := ⟨.hbm, 226, rfl⟩
abbrev main_v161 : Ref sig .tc := ⟨.hbm, 227, rfl⟩
abbrev main_v162 : Ref sig .tc := ⟨.hbm, 228, rfl⟩
abbrev main_c_46 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_c_47 : Ref sig .tc := ⟨.hbm, 233, rfl⟩
abbrev main_v166 : Ref sig .tc := ⟨.hbm, 234, rfl⟩
abbrev main_v167 : Ref sig .tc := ⟨.hbm, 235, rfl⟩
abbrev main_c_48 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173 : Ref sig .tc := ⟨.hbm, 242, rfl⟩
abbrev main_v174 : Ref sig .tc := ⟨.hbm, 243, rfl⟩
abbrev main_c_49 : Ref sig .tc := ⟨.hbm, 244, rfl⟩
abbrev main_v175 : Ref sig .tc := ⟨.hbm, 245, rfl⟩
abbrev main_v176 : Ref sig .tc := ⟨.hbm, 246, rfl⟩
abbrev main_c_50 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_c_51 : Ref sig .tc := ⟨.hbm, 253, rfl⟩
abbrev main_v182 : Ref sig .tc := ⟨.hbm, 254, rfl⟩
abbrev main_v183 : Ref sig .tc := ⟨.hbm, 255, rfl⟩
abbrev main_c_52 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_c_53 : Ref sig .tc := ⟨.hbm, 263, rfl⟩
abbrev main_v190 : Ref sig .tc := ⟨.hbm, 264, rfl⟩
abbrev main_v191 : Ref sig .tc := ⟨.hbm, 265, rfl⟩
abbrev main_c_54 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_c_55 : Ref sig .tc := ⟨.hbm, 272, rfl⟩
abbrev main_v197 : Ref sig .tc := ⟨.hbm, 273, rfl⟩
abbrev main_v198 : Ref sig .tc := ⟨.hbm, 274, rfl⟩
abbrev main_c_56 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_cst_57 : Ref sig .tc := ⟨.hbm, 286, rfl⟩
abbrev main_v209 : Ref sig .tc := ⟨.hbm, 287, rfl⟩
abbrev main_v210 : Ref sig .tc := ⟨.hbm, 288, rfl⟩
abbrev main_c_58 : Ref sig .tc := ⟨.hbm, 289, rfl⟩
abbrev main_v211 : Ref sig .tc := ⟨.hbm, 290, rfl⟩
abbrev main_v212 : Ref sig .tc := ⟨.hbm, 291, rfl⟩
abbrev main_c_59 : Ref sig .tc := ⟨.hbm, 292, rfl⟩
abbrev main_v213 : Ref sig .tc := ⟨.hbm, 293, rfl⟩
abbrev main_v214 : Ref sig .tc := ⟨.hbm, 294, rfl⟩
abbrev main_c_60 : Ref sig .tc := ⟨.hbm, 295, rfl⟩
abbrev main_v215 : Ref sig .tc := ⟨.hbm, 296, rfl⟩
abbrev main_v216 : Ref sig .tc := ⟨.hbm, 297, rfl⟩
abbrev main_c_61 : Ref sig .tc := ⟨.hbm, 298, rfl⟩
abbrev main_v217 : Ref sig .tc := ⟨.hbm, 299, rfl⟩
abbrev main_v218 : Ref sig .tc := ⟨.hbm, 300, rfl⟩
abbrev main_c_62 : Ref sig .tc := ⟨.hbm, 301, rfl⟩
abbrev main_v219 : Ref sig .tc := ⟨.hbm, 302, rfl⟩
abbrev main_v220 : Ref sig .tc := ⟨.hbm, 303, rfl⟩
abbrev main_c_63 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_cst_64 : Ref sig .tc := ⟨.hbm, 320, rfl⟩
abbrev main_v236 : Ref sig .tc := ⟨.hbm, 321, rfl⟩
abbrev main_c_65 : Ref sig .tc := ⟨.hbm, 322, rfl⟩
abbrev main_v237 : Ref sig .tc := ⟨.hbm, 323, rfl⟩
abbrev main_v238 : Ref sig .tc := ⟨.hbm, 324, rfl⟩
abbrev main_c_66 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_c_67 : Ref sig .tc := ⟨.hbm, 331, rfl⟩
abbrev main_v244 : Ref sig .tc := ⟨.hbm, 332, rfl⟩
abbrev main_v245 : Ref sig .tc := ⟨.hbm, 333, rfl⟩
abbrev main_c_68 : Ref sig .tc := ⟨.hbm, 334, rfl⟩
abbrev main_v246 : Ref sig .tc := ⟨.hbm, 335, rfl⟩
abbrev main_v247 : Ref sig .tc := ⟨.hbm, 336, rfl⟩
abbrev main_v248 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S36x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S12000x3_S12000x1_0_0 : S12000x3.Slices ![0, 0] S12000x1
  shapeCasts_S12000x1_S12000 : S12000x1.ShapeCasts S12000
  bcast_S_S12000 : S_.BroadcastsInDim S12000 (![] : Fin 0 → Fin S12000.rank)
  bcast_S12000_S12000x1_0 : S12000.BroadcastsInDim S12000x1 (![0] : Fin 1 → Fin S12000x1.rank)
  slices_S12000x3_S12000x1_0_1 : S12000x3.Slices ![0, 1] S12000x1
  slices_S12000x3_S12000x1_0_2 : S12000x3.Slices ![0, 2] S12000x1
  pads_S12000_S12288_02880 : S12000.Pads (![0] : Fin 1 → Nat) ![288] ![0] S12288
  h_S_ : 0 < S_.numel
  shapeCasts_S12288_S1x12288 : S12288.ShapeCasts S1x12288
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S1x1024_S36x1024_d0 : Shape.Concatenates (S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: S1x1024 :: []) S36x1024 0
  inb_S36x1024_S36x1024_0_0 : ∀ a, (![0, 0] : Fin 2 → Nat) a + S36x1024.size a ≤ S36x1024.size a
  h_S36x1024 : 0 < S36x1024.numel
  slices_S36x12288_S36x12000_0_0 : S36x12288.Slices ![0, 0] S36x12000
  transposes_S36x12000_S12000x36_1_0 : S36x12000.Transposes [1, 0] S12000x36
  shapeCasts_S12000x36_S12000x6x6 : S12000x36.ShapeCasts S12000x6x6
  bcast_S_S12000x3 : S_.BroadcastsInDim S12000x3 (![] : Fin 0 → Fin S12000x3.rank)
  bcast_S12000x3_S12000x3x1_0_1 : S12000x3.BroadcastsInDim S12000x3x1 (![0, 1] : Fin 2 → Fin S12000x3x1.rank)
  concatenates_S12000x3x1_S12000x3x1_S12000x3x2_d2 : Shape.Concatenates [S12000x3x1, S12000x3x1] S12000x3x2 2
  shapeCasts_S12000x3x2_S12000x6 : S12000x3x2.ShapeCasts S12000x6
  bcast_S_S200 : S_.BroadcastsInDim S200 (![] : Fin 0 → Fin S200.rank)
  bcast_S200_S200x1_0 : S200.BroadcastsInDim S200x1 (![0] : Fin 1 → Fin S200x1.rank)
  bcast_S_S12000x6 : S_.BroadcastsInDim S12000x6 (![] : Fin 0 → Fin S12000x6.rank)
  bcast_S12000x6_S12000x6x1_0_1 : S12000x6.BroadcastsInDim S12000x6x1 (![0, 1] : Fin 2 → Fin S12000x6x1.rank)
  bcast_S12000x6x1_S12000x6x6_0_1_2 : S12000x6x1.BroadcastsInDim S12000x6x6 (![0, 1, 2] : Fin 3 → Fin S12000x6x6.rank)
  bcast_S_S12000x12000 : S_.BroadcastsInDim S12000x12000 (![] : Fin 0 → Fin S12000x12000.rank)
  bcast_S12000x6_S12000x1x6_0_2 : S12000x6.BroadcastsInDim S12000x1x6 (![0, 2] : Fin 2 → Fin S12000x1x6.rank)
  bcast_S_S12000x6x1 : S_.BroadcastsInDim S12000x6x1 (![] : Fin 0 → Fin S12000x6x1.rank)
  bcast_S_S12000x1x6 : S_.BroadcastsInDim S12000x1x6 (![] : Fin 0 → Fin S12000x1x6.rank)
  bcast_S12000x1x6_S12000x6x6_0_1_2 : S12000x1x6.BroadcastsInDim S12000x6x6 (![0, 1, 2] : Fin 3 → Fin S12000x6x6.rank)
  bcast_S12000x6x6_S12000x6x6x1_0_1_2 : S12000x6x6.BroadcastsInDim S12000x6x6x1 (![0, 1, 2] : Fin 3 → Fin S12000x6x6x1.rank)
  concatenates_S12000x6x6x1_S12000x6x6x1_S12000x6x6x2_d3 : Shape.Concatenates [S12000x6x6x1, S12000x6x6x1] S12000x6x6x2 3
  concatenates_S200x1_S200x1_S200x2_d1 : Shape.Concatenates [S200x1, S200x1] S200x2 1
  bcast_S_S400 : S_.BroadcastsInDim S400 (![] : Fin 0 → Fin S400.rank)
  bcast_S400_S400x1_0 : S400.BroadcastsInDim S400x1 (![0] : Fin 1 → Fin S400x1.rank)
  concatenates_S400x1_S400x1_S400x2_d1 : Shape.Concatenates [S400x1, S400x1] S400x2 1
  concatenates_S400x1_S400x1_S400x1_S400x1_S400x4_d1 : Shape.Concatenates [S400x1, S400x1, S400x1, S400x1] S400x4 1
  bcast_S400x1_S400x4_0_1 : S400x1.BroadcastsInDim S400x4 (![0, 1] : Fin 2 → Fin S400x4.rank)
  bcast_S_S400x4 : S_.BroadcastsInDim S400x4 (![] : Fin 0 → Fin S400x4.rank)
  bcast_S400x4_S400x4x1_0_1 : S400x4.BroadcastsInDim S400x4x1 (![0, 1] : Fin 2 → Fin S400x4x1.rank)
  gather_S6000_S12000x1_S12000_n_0_n_n_0_1_1_wf : GatherDims.WF S6000 S12000x1 S12000 [] [0] [] [0] [] 1 ![1]
  scatter_S12000_S200x1_S200_n_0_0_1_wf : ScatterDims.WF S12000 S200x1 S200 [] [0] [0] 1
  gather_S12000_S12000x6x1_S12000x6_n_0_n_n_0_2_1_wf : GatherDims.WF S12000 S12000x6x1 S12000x6 [] [0] [] [0] [] 2 ![1]
  scatter_S12000x12000_S12000x6x6x2_S12000x6x6_n_01_01_3_wf : ScatterDims.WF S12000x12000 S12000x6x6x2 S12000x6x6 [] [0, 1] [0, 1] 3
  scatter_S12000x12000_S200x2_S200_n_01_01_1_wf : ScatterDims.WF S12000x12000 S200x2 S200 [] [0, 1] [0, 1] 1
  gather_S12000x3_S400x2_S400_n_01_n_n_01_1_11_wf : GatherDims.WF S12000x3 S400x2 S400 [] [0, 1] [] [0, 1] [] 1 ![1, 1]
  gather_S3_S400x1_S400_n_0_n_n_0_1_1_wf : GatherDims.WF S3 S400x1 S400 [] [0] [] [0] [] 1 ![1]
  gather_S6000_S400x1_S400_n_0_n_n_0_1_1_wf : GatherDims.WF S6000 S400x1 S400 [] [0] [] [0] [] 1 ![1]
  scatter_S12000_S400x4x1_S400x4_n_0_0_2_wf : ScatterDims.WF S12000 S400x4x1 S400x4 [] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x12288.size a
  hwx0_0 : ∀ i : grid0.Coords, EltTy.bits .f32 = 32 ∨ (Rect.block (s := S1x12288) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x12288.size a
  hwx0_1 : ∀ i : grid0.Coords, EltTy.bits .f32 = 32 ∨ (Rect.block (s := S1x12288) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x12288.size a
  hwx0_2 : ∀ i : grid0.Coords, EltTy.bits .f32 = 32 ∨ (Rect.block (s := S1x12288) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x12288.size a
  hwx0_3 : ∀ i : grid0.Coords, EltTy.bits .f32 = 32 ∨ (Rect.block (s := S1x12288) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x12288.size a
  hwx0_4 : ∀ i : grid0.Coords, EltTy.bits .f32 = 32 ∨ (Rect.block (s := S1x12288) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x12288.size a
  hwx0_5 : ∀ i : grid0.Coords, EltTy.bits .f32 = 32 ∨ (Rect.block (s := S1x12288) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x12288.size a
  hwx0_6 : ∀ i : grid0.Coords, EltTy.bits .f32 = 32 ∨ (Rect.block (s := S1x12288) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S36x1024.size a ≤ S36x12288.size a
  hwx0_7 : ∀ i : grid0.Coords, EltTy.bits .f32 = 32 ∨ (Rect.block (s := S36x12288) S36x1024.size (cc0_transform_7 i) (hinb0_7 i)).WholeWords (EltTy.packing .f32)

variable [Facts₀]

def gather_S6000_S12000x1_S12000_n_0_n_n_0_1_1 : GatherDims S6000 S12000x1 S12000 where
  offsetDims := []
  collapsedSliceDims := [0]
  operandBatchingDims := []
  startIndicesBatchingDims := []
  startIndexMap := [0]
  indexVectorDim := 1
  sliceSizes := ![1]
  wf := gather_S6000_S12000x1_S12000_n_0_n_n_0_1_1_wf
def scatter_S12000_S200x1_S200_n_0_0_1 : ScatterDims S12000 S200x1 S200 where
  updateWindowDims := []
  insertedWindowDims := [0]
  scatterDimsToOperandDims := [0]
  indexVectorDim := 1
  wf := scatter_S12000_S200x1_S200_n_0_0_1_wf
def gather_S12000_S12000x6x1_S12000x6_n_0_n_n_0_2_1 : GatherDims S12000 S12000x6x1 S12000x6 where
  offsetDims := []
  collapsedSliceDims := [0]
  operandBatchingDims := []
  startIndicesBatchingDims := []
  startIndexMap := [0]
  indexVectorDim := 2
  sliceSizes := ![1]
  wf := gather_S12000_S12000x6x1_S12000x6_n_0_n_n_0_2_1_wf
def scatter_S12000x12000_S12000x6x6x2_S12000x6x6_n_01_01_3 : ScatterDims S12000x12000 S12000x6x6x2 S12000x6x6 where
  updateWindowDims := []
  insertedWindowDims := [0, 1]
  scatterDimsToOperandDims := [0, 1]
  indexVectorDim := 3
  wf := scatter_S12000x12000_S12000x6x6x2_S12000x6x6_n_01_01_3_wf
def scatter_S12000x12000_S200x2_S200_n_01_01_1 : ScatterDims S12000x12000 S200x2 S200 where
  updateWindowDims := []
  insertedWindowDims := [0, 1]
  scatterDimsToOperandDims := [0, 1]
  indexVectorDim := 1
  wf := scatter_S12000x12000_S200x2_S200_n_01_01_1_wf
def gather_S12000x3_S400x2_S400_n_01_n_n_01_1_11 : GatherDims S12000x3 S400x2 S400 where
  offsetDims := []
  collapsedSliceDims := [0, 1]
  operandBatchingDims := []
  startIndicesBatchingDims := []
  startIndexMap := [0, 1]
  indexVectorDim := 1
  sliceSizes := ![1, 1]
  wf := gather_S12000x3_S400x2_S400_n_01_n_n_01_1_11_wf
def gather_S3_S400x1_S400_n_0_n_n_0_1_1 : GatherDims S3 S400x1 S400 where
  offsetDims := []
  collapsedSliceDims := [0]
  operandBatchingDims := []
  startIndicesBatchingDims := []
  startIndexMap := [0]
  indexVectorDim := 1
  sliceSizes := ![1]
  wf := gather_S3_S400x1_S400_n_0_n_n_0_1_1_wf
def gather_S6000_S400x1_S400_n_0_n_n_0_1_1 : GatherDims S6000 S400x1 S400 where
  offsetDims := []
  collapsedSliceDims := [0]
  operandBatchingDims := []
  startIndicesBatchingDims := []
  startIndexMap := [0]
  indexVectorDim := 1
  sliceSizes := ![1]
  wf := gather_S6000_S400x1_S400_n_0_n_n_0_1_1_wf
def scatter_S12000_S400x4x1_S400x4_n_0_0_2 : ScatterDims S12000 S400x4x1 S400x4 where
  updateWindowDims := []
  insertedWindowDims := [0]
  scatterDimsToOperandDims := [0]
  indexVectorDim := 2
  wf := scatter_S12000_S400x4x1_S400x4_n_0_0_2_wf

abbrev win0_0 : Pipeline.Window sig grid0 :=
  Pipeline.Window.ofSpec (Memref.whole main_v55) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v57) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v61) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v65) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v67) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v68) S36x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S6000 : Shape := ⟨1, ![6000]⟩
abbrev S12000x3 : Shape := ⟨2, ![12000, 3]⟩
abbrev S12000 : Shape := ⟨1, ![12000]⟩
abbrev S400 : Shape := ⟨1, ![400]⟩
abbrev S200 : Shape := ⟨1, ![200]⟩
abbrev S3x3 : Shape := ⟨2, ![3, 3]⟩
abbrev S3 : Shape := ⟨1, ![3]⟩
abbrev S_ : Shape := ⟨0, ![]⟩
abbrev S12000x1 : Shape := ⟨2, ![12000, 1]⟩
abbrev S12000x6 : Shape := ⟨2, ![12000, 6]⟩
abbrev S12000x1x6 : Shape := ⟨3, ![12000, 1, 6]⟩
abbrev S12000x3x6 : Shape := ⟨3, ![12000, 3, 6]⟩
abbrev S12000x1x1 : Shape := ⟨3, ![12000, 1, 1]⟩
abbrev S12000x3x3 : Shape := ⟨3, ![12000, 3, 3]⟩
abbrev S12000x6x6 : Shape := ⟨3, ![12000, 6, 6]⟩
abbrev S12000x3x1 : Shape := ⟨3, ![12000, 3, 1]⟩
abbrev S12000x3x2 : Shape := ⟨3, ![12000, 3, 2]⟩
abbrev S12000x12000 : Shape := ⟨2, ![12000, 12000]⟩
abbrev S12000x6x1 : Shape := ⟨3, ![12000, 6, 1]⟩
abbrev S12000x6x6x1 : Shape := ⟨4, ![12000, 6, 6, 1]⟩
abbrev S12000x6x6x2 : Shape := ⟨4, ![12000, 6, 6, 2]⟩
abbrev S400x1 : Shape := ⟨2, ![400, 1]⟩
abbrev S400x2 : Shape := ⟨2, ![400, 2]⟩
abbrev S400x4 : Shape := ⟨2, ![400, 4]⟩
abbrev S400x4x1 : Shape := ⟨3, ![400, 4, 1]⟩
abbrev S200x1 : Shape := ⟨2, ![200, 1]⟩
abbrev S200x2 : Shape := ⟨2, ![200, 2]⟩

abbrev nBuf : Space → Nat
  | .hbm => 395
  | .vmem => 0
  | .smem => 0
  | _ => 0

abbrev hbmTy0_0 (i : Nat) : BufTy := match i % 128 with
  | 0 => ⟨S6000, .f32⟩
  | 1 => ⟨S6000, .f32⟩
  | 2 => ⟨S12000x3, .i32⟩
  | 3 => ⟨S12000, .f32⟩
  | 4 => ⟨S400, .i32⟩
  | 5 => ⟨S400, .i32⟩
  | 6 => ⟨S400, .f32⟩
  | 7 => ⟨S400, .f32⟩
  | 8 => ⟨S200, .i32⟩
  | 9 => ⟨S200, .i32⟩
  | 10 => ⟨S200, .f32⟩
  | 11 => ⟨S3x3, .f32⟩
  | 12 => ⟨S3x3, .f32⟩
  | 13 => ⟨S3, .i32⟩
  | 14 => ⟨S_, .f32⟩
  | 15 => ⟨S3x3, .f32⟩
  | 16 => ⟨S3x3, .f32⟩
  | 17 => ⟨S_, .f32⟩
  | 18 => ⟨S3x3, .f32⟩
  | 19 => ⟨S3x3, .f32⟩
  | 20 => ⟨S12000x1, .i32⟩
  | 21 => ⟨S12000, .i32⟩
  | 22 => ⟨S_, .i32⟩
  | 23 => ⟨S12000, .i32⟩
  | 24 => ⟨S12000, .i1⟩
  | 25 => ⟨S_, .i32⟩
  | 26 => ⟨S12000, .i32⟩
  | 27 => ⟨S12000, .i32⟩
  | 28 => ⟨S12000, .i32⟩
  | 29 => ⟨S12000x1, .i32⟩
  | 30 => ⟨S12000, .f32⟩
  | 31 => ⟨S12000x1, .i32⟩
  | 32 => ⟨S12000, .i32⟩
  | 33 => ⟨S_, .i32⟩
  | 34 => ⟨S12000, .i32⟩
  | 35 => ⟨S12000, .i1⟩
  | 36 => ⟨S_, .i32⟩
  | 37 => ⟨S12000, .i32⟩
  | 38 => ⟨S12000, .i32⟩
  | 39 => ⟨S12000, .i32⟩
  | 40 => ⟨S12000x1, .i32⟩
  | 41 => ⟨S12000, .f32⟩
  | 42 => ⟨S12000x1, .i32⟩
  | 43 => ⟨S12000, .i32⟩
  | 44 => ⟨S_, .i32⟩
  | 45 => ⟨S12000, .i32⟩
  | 46 => ⟨S12000, .i1⟩
  | 47 => ⟨S_, .i32⟩
  | 48 => ⟨S12000, .i32⟩
  | 49 => ⟨S12000, .i32⟩
  | 50 => ⟨S12000, .i32⟩
  | 51 => ⟨S12000x1, .i32⟩
  | 52 => ⟨S12000, .f32⟩
  | 53 => ⟨S12000x1, .i32⟩
  | 54 => ⟨S12000, .i32⟩
  | 55 => ⟨S_, .i32⟩
  | 56 => ⟨S12000, .i32⟩
  | 57 => ⟨S12000, .i1⟩
  | 58 => ⟨S_, .i32⟩
  | 59 => ⟨S12000, .i32⟩
  | 60 => ⟨S12000, .i32⟩
  | 61 => ⟨S12000, .i32⟩
  | 62 => ⟨S12000x1, .i32⟩
  | 63 => ⟨S12000, .f32⟩
  | 64 => ⟨S12000x1, .i32⟩
  | 65 => ⟨S12000, .i32⟩
  | 66 => ⟨S_, .i32⟩
  | 67 => ⟨S12000, .i32⟩
  | 68 => ⟨S12000, .i1⟩
  | 69 => ⟨S_, .i32⟩
  | 70 => ⟨S12000, .i32⟩
  | 71 => ⟨S12000, .i32⟩
  | 72 => ⟨S12000, .i32⟩
  | 73 => ⟨S12000x1, .i32⟩
  | 74 => ⟨S12000, .f32⟩
  | 75 => ⟨S12000x1, .i32⟩
  | 76 => ⟨S12000, .i32⟩
  | 77 => ⟨S_, .i32⟩
  | 78 => ⟨S12000, .i32⟩
  | 79 => ⟨S12000, .i1⟩
  | 80 => ⟨S_, .i32⟩
  | 81 => ⟨S12000, .i32⟩
  | 82 => ⟨S12000, .i32⟩
  | 83 => ⟨S12000, .i32⟩
  | 84 => ⟨S12000x1, .i32⟩
  | 85 => ⟨S12000, .f32⟩
  | 86 => ⟨S12000, .f32⟩
  | 87 => ⟨S12000, .f32⟩
  | 88 => ⟨S12000, .f32⟩
  | 89 => ⟨S12000, .f32⟩
  | 90 => ⟨S12000, .f32⟩
  | 91 => ⟨S12000, .f32⟩
  | 92 => ⟨S12000, .f32⟩
  | 93 => ⟨S12000, .f32⟩
  | 94 => ⟨S12000, .f32⟩
  | 95 => ⟨S12000, .f32⟩
  | 96 => ⟨S12000, .f32⟩
  | 97 => ⟨S12000, .f32⟩
  | 98 => ⟨S12000, .f32⟩
  | 99 => ⟨S12000, .f32⟩
  | 100 => ⟨S12000, .f32⟩
  | 101 => ⟨S12000, .f32⟩
  | 102 => ⟨S12000, .f32⟩
  | 103 => ⟨S12000, .f32⟩
  | 104 => ⟨S12000, .f32⟩
  | 105 => ⟨S12000, .f32⟩
  | 106 => ⟨S12000, .f32⟩
  | 107 => ⟨S12000, .f32⟩
  | 108 => ⟨S12000, .f32⟩
  | 109 => ⟨S12000, .f32⟩
  | 110 => ⟨S12000, .f32⟩
  | 111 => ⟨S12000, .f32⟩
  | 112 => ⟨S12000, .f32⟩
  | 113 => ⟨S12000, .f32⟩
  | 114 => ⟨S12000, .f32⟩
  | 115 => ⟨S12000, .f32⟩
  | 116 => ⟨S12000, .f32⟩
  | 117 => ⟨S12000, .f32⟩
  | 118 => ⟨S12000, .f32⟩
  | 119 => ⟨S12000, .f32⟩
  | 120 => ⟨S12000, .f32⟩
  | 121 => ⟨S12000, .f32⟩
  | 122 => ⟨S12000, .f32⟩
  | 123 => ⟨S12000, .f32⟩
  | 124 => ⟨S12000, .f32⟩
  | 125 => ⟨S12000, .f32⟩
  | 126 => ⟨S12000, .f32⟩
  | 127 => ⟨S12000, .f32⟩
  | _ => ⟨S6000, .f32⟩

abbrev hbmTy0_1 (i : Nat) : BufTy := match i % 128 with
  | 0 => ⟨S12000, .f32⟩
  | 1 => ⟨S12000, .f32⟩
  | 2 => ⟨S_, .f32⟩
  | 3 => ⟨S12000, .f32⟩
  | 4 => ⟨S12000, .f32⟩
  | 5 => ⟨S_, .f32⟩
  | 6 => ⟨S12000, .f32⟩
  | 7 => ⟨S12000x1, .f32⟩
  | 8 => ⟨S12000x1, .f32⟩
  | 9 => ⟨S12000x1, .f32⟩
  | 10 => ⟨S12000x1, .f32⟩
  | 11 => ⟨S12000x1, .f32⟩
  | 12 => ⟨S12000x1, .f32⟩
  | 13 => ⟨S12000x6, .f32⟩
  | 14 => ⟨S12000x1, .f32⟩
  | 15 => ⟨S12000x1, .f32⟩
  | 16 => ⟨S12000x1, .f32⟩
  | 17 => ⟨S12000x1, .f32⟩
  | 18 => ⟨S12000x1, .f32⟩
  | 19 => ⟨S12000x1, .f32⟩
  | 20 => ⟨S12000x6, .f32⟩
  | 21 => ⟨S12000x1, .f32⟩
  | 22 => ⟨S12000x1, .f32⟩
  | 23 => ⟨S12000x1, .f32⟩
  | 24 => ⟨S12000x1, .f32⟩
  | 25 => ⟨S12000x1, .f32⟩
  | 26 => ⟨S12000x1, .f32⟩
  | 27 => ⟨S12000x6, .f32⟩
  | 28 => ⟨S12000x1x6, .f32⟩
  | 29 => ⟨S12000x1x6, .f32⟩
  | 30 => ⟨S12000x1x6, .f32⟩
  | 31 => ⟨S12000x3x6, .f32⟩
  | 32 => ⟨S12000x1x1, .f32⟩
  | 33 => ⟨S_, .f32⟩
  | 34 => ⟨S12000x1x1, .f32⟩
  | 35 => ⟨S12000x1x1, .i1⟩
  | 36 => ⟨S12000x3x3, .i1⟩
  | 37 => ⟨S12000x3x3, .f32⟩
  | 38 => ⟨S12000x3x3, .f32⟩
  | 39 => ⟨S12000x3x3, .f32⟩
  | 40 => ⟨S12000x3x6, .f32⟩
  | 41 => ⟨S12000x6x6, .f32⟩
  | 42 => ⟨S12000x1x1, .f32⟩
  | 43 => ⟨S12000x6x6, .f32⟩
  | 44 => ⟨S12000x6x6, .f32⟩
  | 45 => ⟨S_, .i32⟩
  | 46 => ⟨S12000x3, .i32⟩
  | 47 => ⟨S12000x3, .i32⟩
  | 48 => ⟨S_, .i32⟩
  | 49 => ⟨S12000x3, .i32⟩
  | 50 => ⟨S12000x3, .i32⟩
  | 51 => ⟨S_, .i32⟩
  | 52 => ⟨S12000x3, .i32⟩
  | 53 => ⟨S12000x3, .i32⟩
  | 54 => ⟨S12000x3x1, .i32⟩
  | 55 => ⟨S12000x3x1, .i32⟩
  | 56 => ⟨S12000x3x2, .i32⟩
  | 57 => ⟨S12000x6, .i32⟩
  | 58 => ⟨S_, .f32⟩
  | 59 => ⟨S12000x12000, .f32⟩
  | 60 => ⟨S12000x6x1, .i32⟩
  | 61 => ⟨S12000x1x6, .i32⟩
  | 62 => ⟨S_, .i32⟩
  | 63 => ⟨S12000x6x1, .i32⟩
  | 64 => ⟨S12000x6x1, .i1⟩
  | 65 => ⟨S_, .i32⟩
  | 66 => ⟨S12000x6x1, .i32⟩
  | 67 => ⟨S12000x6x1, .i32⟩
  | 68 => ⟨S12000x6x1, .i32⟩
  | 69 => ⟨S_, .i32⟩
  | 70 => ⟨S12000x1x6, .i32⟩
  | 71 => ⟨S12000x1x6, .i1⟩
  | 72 => ⟨S_, .i32⟩
  | 73 => ⟨S12000x1x6, .i32⟩
  | 74 => ⟨S12000x1x6, .i32⟩
  | 75 => ⟨S12000x1x6, .i32⟩
  | 76 => ⟨S12000x6x6, .i32⟩
  | 77 => ⟨S12000x6x6, .i32⟩
  | 78 => ⟨S12000x6x6x1, .i32⟩
  | 79 => ⟨S12000x6x6x1, .i32⟩
  | 80 => ⟨S12000x6x6x2, .i32⟩
  | 81 => ⟨S12000x12000, .f32⟩
  | 82 => ⟨S_, .i32⟩
  | 83 => ⟨S400, .i32⟩
  | 84 => ⟨S400, .i1⟩
  | 85 => ⟨S_, .i32⟩
  | 86 => ⟨S400, .i32⟩
  | 87 => ⟨S400, .i32⟩
  | 88 => ⟨S400, .i32⟩
  | 89 => ⟨S_, .i32⟩
  | 90 => ⟨S400, .i32⟩
  | 91 => ⟨S400, .i1⟩
  | 92 => ⟨S_, .i32⟩
  | 93 => ⟨S400, .i32⟩
  | 94 => ⟨S400, .i32⟩
  | 95 => ⟨S400, .i32⟩
  | 96 => ⟨S400x1, .i32⟩
  | 97 => ⟨S400x1, .i32⟩
  | 98 => ⟨S400x2, .i32⟩
  | 99 => ⟨S400, .i32⟩
  | 100 => ⟨S_, .i32⟩
  | 101 => ⟨S400, .i32⟩
  | 102 => ⟨S400, .i1⟩
  | 103 => ⟨S_, .i32⟩
  | 104 => ⟨S400, .i32⟩
  | 105 => ⟨S400, .i32⟩
  | 106 => ⟨S400, .i32⟩
  | 107 => ⟨S400x1, .i32⟩
  | 108 => ⟨S400, .i32⟩
  | 109 => ⟨S_, .i32⟩
  | 110 => ⟨S400, .i32⟩
  | 111 => ⟨S400, .i1⟩
  | 112 => ⟨S_, .i32⟩
  | 113 => ⟨S400, .i32⟩
  | 114 => ⟨S400, .i32⟩
  | 115 => ⟨S400, .i32⟩
  | 116 => ⟨S_, .i32⟩
  | 117 => ⟨S400, .i32⟩
  | 118 => ⟨S400, .i1⟩
  | 119 => ⟨S_, .i32⟩
  | 120 => ⟨S400, .i32⟩
  | 121 => ⟨S400, .i32⟩
  | 122 => ⟨S400, .i32⟩
  | 123 => ⟨S400x1, .i32⟩
  | 124 => ⟨S400x1, .i32⟩
  | 125 => ⟨S400x2, .i32⟩
  | 126 => ⟨S400, .i32⟩
  | 127 => ⟨S_, .i32⟩
  | _ => ⟨S6000, .f32⟩

abbrev hbmTy0_2 (i : Nat) : BufTy := match i % 128 with
  | 0 => ⟨S400, .i32⟩
  | 1 => ⟨S400, .i1⟩
  | 2 => ⟨S_, .i32⟩
  | 3 => ⟨S400, .i32⟩
  | 4 => ⟨S400, .i32⟩
  | 5 => ⟨S400, .i32⟩
  | 6 => ⟨S400x1, .i32⟩
  | 7 => ⟨S400, .f32⟩
  | 8 => ⟨S_, .i32⟩
  | 9 => ⟨S400, .i32⟩
  | 10 => ⟨S400, .i1⟩
  | 11 => ⟨S_, .i32⟩
  | 12 => ⟨S400, .i32⟩
  | 13 => ⟨S400, .i32⟩
  | 14 => ⟨S400, .i32⟩
  | 15 => ⟨S400x1, .i32⟩
  | 16 => ⟨S400, .f32⟩
  | 17 => ⟨S400, .f32⟩
  | 18 => ⟨S_, .i32⟩
  | 19 => ⟨S400, .i32⟩
  | 20 => ⟨S400, .i1⟩
  | 21 => ⟨S_, .i32⟩
  | 22 => ⟨S400, .i32⟩
  | 23 => ⟨S400, .i32⟩
  | 24 => ⟨S400, .i32⟩
  | 25 => ⟨S400x1, .i32⟩
  | 26 => ⟨S400, .f32⟩
  | 27 => ⟨S_, .i32⟩
  | 28 => ⟨S400, .i32⟩
  | 29 => ⟨S400, .i1⟩
  | 30 => ⟨S_, .i32⟩
  | 31 => ⟨S400, .i32⟩
  | 32 => ⟨S400, .i32⟩
  | 33 => ⟨S400, .i32⟩
  | 34 => ⟨S400x1, .i32⟩
  | 35 => ⟨S400, .f32⟩
  | 36 => ⟨S400, .f32⟩
  | 37 => ⟨S400, .f32⟩
  | 38 => ⟨S400, .f32⟩
  | 39 => ⟨S400, .f32⟩
  | 40 => ⟨S400, .f32⟩
  | 41 => ⟨S_, .f32⟩
  | 42 => ⟨S400, .f32⟩
  | 43 => ⟨S400, .f32⟩
  | 44 => ⟨S_, .i32⟩
  | 45 => ⟨S400, .i32⟩
  | 46 => ⟨S400, .i32⟩
  | 47 => ⟨S_, .i32⟩
  | 48 => ⟨S400, .i32⟩
  | 49 => ⟨S400, .i32⟩
  | 50 => ⟨S_, .i32⟩
  | 51 => ⟨S400, .i32⟩
  | 52 => ⟨S400, .i32⟩
  | 53 => ⟨S_, .i32⟩
  | 54 => ⟨S400, .i32⟩
  | 55 => ⟨S400, .i32⟩
  | 56 => ⟨S_, .i32⟩
  | 57 => ⟨S400, .i32⟩
  | 58 => ⟨S400, .i32⟩
  | 59 => ⟨S_, .i32⟩
  | 60 => ⟨S400, .i32⟩
  | 61 => ⟨S400, .i32⟩
  | 62 => ⟨S400x1, .i32⟩
  | 63 => ⟨S400x1, .i32⟩
  | 64 => ⟨S400x1, .i32⟩
  | 65 => ⟨S400x1, .i32⟩
  | 66 => ⟨S400x4, .i32⟩
  | 67 => ⟨S400x1, .f32⟩
  | 68 => ⟨S400x1, .f32⟩
  | 69 => ⟨S400x1, .f32⟩
  | 70 => ⟨S400x1, .f32⟩
  | 71 => ⟨S400x4, .f32⟩
  | 72 => ⟨S400x1, .f32⟩
  | 73 => ⟨S400x4, .f32⟩
  | 74 => ⟨S400x4, .f32⟩
  | 75 => ⟨S_, .f32⟩
  | 76 => ⟨S12000, .f32⟩
  | 77 => ⟨S_, .i32⟩
  | 78 => ⟨S400x4, .i32⟩
  | 79 => ⟨S400x4, .i1⟩
  | 80 => ⟨S_, .i32⟩
  | 81 => ⟨S400x4, .i32⟩
  | 82 => ⟨S400x4, .i32⟩
  | 83 => ⟨S400x4, .i32⟩
  | 84 => ⟨S400x4x1, .i32⟩
  | 85 => ⟨S12000, .f32⟩
  | 86 => ⟨S_, .i32⟩
  | 87 => ⟨S200, .i32⟩
  | 88 => ⟨S200, .i32⟩
  | 89 => ⟨S200, .i32⟩
  | 90 => ⟨S_, .f32⟩
  | 91 => ⟨S12000, .f32⟩
  | 92 => ⟨S_, .i32⟩
  | 93 => ⟨S200, .i32⟩
  | 94 => ⟨S200, .i1⟩
  | 95 => ⟨S_, .i32⟩
  | 96 => ⟨S200, .i32⟩
  | 97 => ⟨S200, .i32⟩
  | 98 => ⟨S200, .i32⟩
  | 99 => ⟨S200x1, .i32⟩
  | 100 => ⟨S_, .f32⟩
  | 101 => ⟨S200, .f32⟩
  | 102 => ⟨S12000, .f32⟩
  | 103 => ⟨S_, .f32⟩
  | 104 => ⟨S12000, .f32⟩
  | 105 => ⟨S12000, .f32⟩
  | 106 => ⟨S12000x1, .f32⟩
  | 107 => ⟨S12000x12000, .f32⟩
  | 108 => ⟨S12000x12000, .f32⟩
  | 109 => ⟨S_, .i32⟩
  | 110 => ⟨S200, .i32⟩
  | 111 => ⟨S200, .i1⟩
  | 112 => ⟨S_, .i32⟩
  | 113 => ⟨S200, .i32⟩
  | 114 => ⟨S200, .i32⟩
  | 115 => ⟨S200, .i32⟩
  | 116 => ⟨S_, .i32⟩
  | 117 => ⟨S200, .i32⟩
  | 118 => ⟨S200, .i1⟩
  | 119 => ⟨S_, .i32⟩
  | 120 => ⟨S200, .i32⟩
  | 121 => ⟨S200, .i32⟩
  | 122 => ⟨S200, .i32⟩
  | 123 => ⟨S200x1, .i32⟩
  | 124 => ⟨S200x1, .i32⟩
  | 125 => ⟨S200x2, .i32⟩
  | 126 => ⟨S_, .f32⟩
  | 127 => ⟨S200, .f32⟩
  | _ => ⟨S6000, .f32⟩

abbrev hbmTy0_3 (i : Nat) : BufTy := match i % 128 with
  | 0 => ⟨S12000x12000, .f32⟩
  | 1 => ⟨S_, .i32⟩
  | 2 => ⟨S200, .i32⟩
  | 3 => ⟨S200, .i1⟩
  | 4 => ⟨S_, .i32⟩
  | 5 => ⟨S200, .i32⟩
  | 6 => ⟨S200, .i32⟩
  | 7 => ⟨S200, .i32⟩
  | 8 => ⟨S200x1, .i32⟩
  | 9 => ⟨S12000, .f32⟩
  | 10 => ⟨S12000x1, .f32⟩
  | _ => ⟨S6000, .f32⟩

abbrev hbmTy (i : Nat) : BufTy := match i / 128 with
  | 0 => hbmTy0_0 i
  | 1 => hbmTy0_1 i
  | 2 => hbmTy0_2 i
  | 3 => hbmTy0_3 i
  | _ => ⟨S6000, .f32⟩

abbrev bufTy : (tb : Table) → Fin (tcTables nBuf tb) → BufTy
  | .hbm, ⟨i, _⟩ => hbmTy i
  | _, _ => ⟨S6000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_c : Ref sig .tc := ⟨.hbm, 13, rfl⟩
abbrev main_cst_1 : Ref sig .tc := ⟨.hbm, 14, rfl⟩
abbrev main_v0 : Ref sig .tc := ⟨.hbm, 15, rfl⟩
abbrev main_v1 : Ref sig .tc := ⟨.hbm, 16, rfl⟩
abbrev main_cst_2 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_3 : Ref sig .tc := ⟨.hbm, 22, rfl⟩
abbrev main_v6 : Ref sig .tc := ⟨.hbm, 23, rfl⟩
abbrev main_v7 : Ref sig .tc := ⟨.hbm, 24, rfl⟩
abbrev main_c_4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_c_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_11 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_13 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_15 : Ref sig .tc := ⟨.hbm, 130, rfl⟩
abbrev main_v102 : Ref sig .tc := ⟨.hbm, 131, rfl⟩
abbrev main_v103 : Ref sig .tc := ⟨.hbm, 132, rfl⟩
abbrev main_cst_16 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_cst_17 : Ref sig .tc := ⟨.hbm, 161, rfl⟩
abbrev main_v131 : Ref sig .tc := ⟨.hbm, 162, rfl⟩
abbrev main_v132 : Ref sig .tc := ⟨.hbm, 163, rfl⟩
abbrev main_call0_v0 : Ref sig .tc := ⟨.hbm, 164, rfl⟩
abbrev main_call0_v1 : Ref sig .tc := ⟨.hbm, 165, rfl⟩
abbrev main_call0_v2 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_c_18 : Ref sig .tc := ⟨.hbm, 173, rfl⟩
abbrev main_v139 : Ref sig .tc := ⟨.hbm, 174, rfl⟩
abbrev main_v140 : Ref sig .tc := ⟨.hbm, 175, rfl⟩
abbrev main_c_19 : Ref sig .tc := ⟨.hbm, 176, rfl⟩
abbrev main_v141 : Ref sig .tc := ⟨.hbm, 177, rfl⟩
abbrev main_v142 : Ref sig .tc := ⟨.hbm, 178, rfl⟩
abbrev main_c_20 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_21 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_c_22 : Ref sig .tc := ⟨.hbm, 190, rfl⟩
abbrev main_v152 : Ref sig .tc := ⟨.hbm, 191, rfl⟩
abbrev main_v153 : Ref sig .tc := ⟨.hbm, 192, rfl⟩
abbrev main_c_23 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_c_24 : Ref sig .tc := ⟨.hbm, 197, rfl⟩
abbrev main_v157 : Ref sig .tc := ⟨.hbm, 198, rfl⟩
abbrev main_v158 : Ref sig .tc := ⟨.hbm, 199, rfl⟩
abbrev main_c_25 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_c_26 : Ref sig .tc := ⟨.hbm, 210, rfl⟩
abbrev main_v168 : Ref sig .tc := ⟨.hbm, 211, rfl⟩
abbrev main_v169 : Ref sig .tc := ⟨.hbm, 212, rfl⟩
abbrev main_c_27 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_c_28 : Ref sig .tc := ⟨.hbm, 217, rfl⟩
abbrev main_v173 : Ref sig .tc := ⟨.hbm, 218, rfl⟩
abbrev main_v174 : Ref sig .tc := ⟨.hbm, 219, rfl⟩
abbrev main_c_29 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_c_30 : Ref sig .tc := ⟨.hbm, 228, rfl⟩
abbrev main_v182 : Ref sig .tc := ⟨.hbm, 229, rfl⟩
abbrev main_v183 : Ref sig .tc := ⟨.hbm, 230, rfl⟩
abbrev main_c_31 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_c_32 : Ref sig .tc := ⟨.hbm, 237, rfl⟩
abbrev main_v189 : Ref sig .tc := ⟨.hbm, 238, rfl⟩
abbrev main_v190 : Ref sig .tc := ⟨.hbm, 239, rfl⟩
abbrev main_c_33 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_c_34 : Ref sig .tc := ⟨.hbm, 244, rfl⟩
abbrev main_v194 : Ref sig .tc := ⟨.hbm, 245, rfl⟩
abbrev main_v195 : Ref sig .tc := ⟨.hbm, 246, rfl⟩
abbrev main_c_35 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_c_36 : Ref sig .tc := ⟨.hbm, 255, rfl⟩
abbrev main_v203 : Ref sig .tc := ⟨.hbm, 256, rfl⟩
abbrev main_v204 : Ref sig .tc := ⟨.hbm, 257, rfl⟩
abbrev main_c_37 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_c_38 : Ref sig .tc := ⟨.hbm, 264, rfl⟩
abbrev main_v210 : Ref sig .tc := ⟨.hbm, 265, rfl⟩
abbrev main_v211 : Ref sig .tc := ⟨.hbm, 266, rfl⟩
abbrev main_c_39 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_c_40 : Ref sig .tc := ⟨.hbm, 274, rfl⟩
abbrev main_v218 : Ref sig .tc := ⟨.hbm, 275, rfl⟩
abbrev main_v219 : Ref sig .tc := ⟨.hbm, 276, rfl⟩
abbrev main_c_41 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_c_42 : Ref sig .tc := ⟨.hbm, 283, rfl⟩
abbrev main_v225 : Ref sig .tc := ⟨.hbm, 284, rfl⟩
abbrev main_v226 : Ref sig .tc := ⟨.hbm, 285, rfl⟩
abbrev main_c_43 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_cst_44 : Ref sig .tc := ⟨.hbm, 297, rfl⟩
abbrev main_v237 : Ref sig .tc := ⟨.hbm, 298, rfl⟩
abbrev main_v238 : Ref sig .tc := ⟨.hbm, 299, rfl⟩
abbrev main_c_45 : Ref sig .tc := ⟨.hbm, 300, rfl⟩
abbrev main_v239 : Ref sig .tc := ⟨.hbm, 301, rfl⟩
abbrev main_v240 : Ref sig .tc := ⟨.hbm, 302, rfl⟩
abbrev main_c_46 : Ref sig .tc := ⟨.hbm, 303, rfl⟩
abbrev main_v241 : Ref sig .tc := ⟨.hbm, 304, rfl⟩
abbrev main_v242 : Ref sig .tc := ⟨.hbm, 305, rfl⟩
abbrev main_c_47 : Ref sig .tc := ⟨.hbm, 306, rfl⟩
abbrev main_v243 : Ref sig .tc := ⟨.hbm, 307, rfl⟩
abbrev main_v244 : Ref sig .tc := ⟨.hbm, 308, rfl⟩
abbrev main_c_48 : Ref sig .tc := ⟨.hbm, 309, rfl⟩
abbrev main_v245 : Ref sig .tc := ⟨.hbm, 310, rfl⟩
abbrev main_v246 : Ref sig .tc := ⟨.hbm, 311, rfl⟩
abbrev main_c_49 : Ref sig .tc := ⟨.hbm, 312, rfl⟩
abbrev main_v247 : Ref sig .tc := ⟨.hbm, 313, rfl⟩
abbrev main_v248 : Ref sig .tc := ⟨.hbm, 314, rfl⟩
abbrev main_c_50 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_cst_51 : Ref sig .tc := ⟨.hbm, 331, rfl⟩
abbrev main_v264 : Ref sig .tc := ⟨.hbm, 332, rfl⟩
abbrev main_c_52 : Ref sig .tc := ⟨.hbm, 333, rfl⟩
abbrev main_v265 : Ref sig .tc := ⟨.hbm, 334, rfl⟩
abbrev main_v266 : Ref sig .tc := ⟨.hbm, 335, rfl⟩
abbrev main_c_53 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_c_54 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_cst_55 : Ref sig .tc := ⟨.hbm, 346, rfl⟩
abbrev main_v275 : Ref sig .tc := ⟨.hbm, 347, rfl⟩
abbrev main_c_56 : Ref sig .tc := ⟨.hbm, 348, rfl⟩
abbrev main_v276 : Ref sig .tc := ⟨.hbm, 349, rfl⟩
abbrev main_v277 : Ref sig .tc := ⟨.hbm, 350, rfl⟩
abbrev main_c_57 : Ref sig .tc := ⟨.hbm, 351, rfl⟩
abbrev main_v278 : Ref sig .tc := ⟨.hbm, 352, rfl⟩
abbrev main_v279 : Ref sig .tc := ⟨.hbm, 353, rfl⟩
abbrev main_v280 : Ref sig .tc := ⟨.hbm, 354, rfl⟩
abbrev main_v281 : Ref sig .tc := ⟨.hbm, 355, rfl⟩
abbrev main_cst_58 : Ref sig .tc := ⟨.hbm, 356, rfl⟩
abbrev main_v282 : Ref sig .tc := ⟨.hbm, 357, rfl⟩
abbrev main_v283 : Ref sig .tc := ⟨.hbm, 358, rfl⟩
abbrev main_cst_59 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_c_60 : Ref sig .tc := ⟨.hbm, 365, rfl⟩
abbrev main_v289 : Ref sig .tc := ⟨.hbm, 366, rfl⟩
abbrev main_v290 : Ref sig .tc := ⟨.hbm, 367, rfl⟩
abbrev main_c_61 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_c_62 : Ref sig .tc := ⟨.hbm, 372, rfl⟩
abbrev main_v294 : Ref sig .tc := ⟨.hbm, 373, rfl⟩
abbrev main_v295 : Ref sig .tc := ⟨.hbm, 374, rfl⟩
abbrev main_c_63 : Ref sig .tc := ⟨.hbm, 375, rfl⟩
abbrev main_v296 : Ref sig .tc := ⟨.hbm, 376, rfl⟩
abbrev main_v297 : Ref sig .tc := ⟨.hbm, 377, rfl⟩
abbrev main_v298 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_cst_64 : Ref sig .tc := ⟨.hbm, 382, rfl⟩
abbrev main_v302 : Ref sig .tc := ⟨.hbm, 383, rfl⟩
abbrev main_v303 : Ref sig .tc := ⟨.hbm, 384, rfl⟩
abbrev main_c_65 : Ref sig .tc := ⟨.hbm, 385, rfl⟩
abbrev main_v304 : Ref sig .tc := ⟨.hbm, 386, rfl⟩
abbrev main_v305 : Ref sig .tc := ⟨.hbm, 387, rfl⟩
abbrev main_c_66 : Ref sig .tc := ⟨.hbm, 388, rfl⟩
abbrev main_v306 : Ref sig .tc := ⟨.hbm, 389, rfl⟩
abbrev main_v307 : Ref sig .tc := ⟨.hbm, 390, rfl⟩
abbrev main_v308 : Ref sig .tc := ⟨.hbm, 391, rfl⟩
abbrev main_v309 : Ref sig .tc := ⟨.hbm, 392, rfl⟩
abbrev main_v310 : Ref sig .tc := ⟨.hbm, 393, rfl⟩
abbrev main_v311 : Ref sig .tc := ⟨.hbm, 394, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  slices_S12000x3_S12000x1_0_0 : S12000x3.Slices ![0, 0] S12000x1
  shapeCasts_S12000x1_S12000 : S12000x1.ShapeCasts S12000
  bcast_S_S12000 : S_.BroadcastsInDim S12000 (![] : Fin 0 → Fin S12000.rank)
  bcast_S12000_S12000x1_0 : S12000.BroadcastsInDim S12000x1 (![0] : Fin 1 → Fin S12000x1.rank)
  slices_S12000x3_S12000x1_0_1 : S12000x3.Slices ![0, 1] S12000x1
  slices_S12000x3_S12000x1_0_2 : S12000x3.Slices ![0, 2] S12000x1
  concatenates_S12000x1_S12000x1_S12000x1_S12000x1_S12000x1_S12000x1_S12000x6_d1 : Shape.Concatenates [S12000x1, S12000x1, S12000x1, S12000x1, S12000x1, S12000x1] S12000x6 1
  bcast_S12000x6_S12000x1x6_0_2 : S12000x6.BroadcastsInDim S12000x1x6 (![0, 2] : Fin 2 → Fin S12000x1x6.rank)
  concatenates_S12000x1x6_S12000x1x6_S12000x1x6_S12000x3x6_d1 : Shape.Concatenates [S12000x1x6, S12000x1x6, S12000x1x6] S12000x3x6 1
  bcast_S12000_S12000x1x1_0 : S12000.BroadcastsInDim S12000x1x1 (![0] : Fin 1 → Fin S12000x1x1.rank)
  bcast_S_S12000x1x1 : S_.BroadcastsInDim S12000x1x1 (![] : Fin 0 → Fin S12000x1x1.rank)
  bcast_S12000x1x1_S12000x3x3_0_1_2 : S12000x1x1.BroadcastsInDim S12000x3x3 (![0, 1, 2] : Fin 3 → Fin S12000x3x3.rank)
  bcast_S3x3_S12000x3x3_1_2 : S3x3.BroadcastsInDim S12000x3x3 (![1, 2] : Fin 2 → Fin S12000x3x3.rank)
  bcast_S12000x1x1_S12000x6x6_0_1_2 : S12000x1x1.BroadcastsInDim S12000x6x6 (![0, 1, 2] : Fin 3 → Fin S12000x6x6.rank)
  bcast_S_S12000x3 : S_.BroadcastsInDim S12000x3 (![] : Fin 0 → Fin S12000x3.rank)
  bcast_S12000x3_S12000x3x1_0_1 : S12000x3.BroadcastsInDim S12000x3x1 (![0, 1] : Fin 2 → Fin S12000x3x1.rank)
  concatenates_S12000x3x1_S12000x3x1_S12000x3x2_d2 : Shape.Concatenates [S12000x3x1, S12000x3x1] S12000x3x2 2
  shapeCasts_S12000x3x2_S12000x6 : S12000x3x2.ShapeCasts S12000x6
  bcast_S_S12000x12000 : S_.BroadcastsInDim S12000x12000 (![] : Fin 0 → Fin S12000x12000.rank)
  bcast_S12000x6_S12000x6x1_0_1 : S12000x6.BroadcastsInDim S12000x6x1 (![0, 1] : Fin 2 → Fin S12000x6x1.rank)
  bcast_S_S12000x6x1 : S_.BroadcastsInDim S12000x6x1 (![] : Fin 0 → Fin S12000x6x1.rank)
  bcast_S_S12000x1x6 : S_.BroadcastsInDim S12000x1x6 (![] : Fin 0 → Fin S12000x1x6.rank)
  bcast_S12000x6x1_S12000x6x6_0_1_2 : S12000x6x1.BroadcastsInDim S12000x6x6 (![0, 1, 2] : Fin 3 → Fin S12000x6x6.rank)
  bcast_S12000x1x6_S12000x6x6_0_1_2 : S12000x1x6.BroadcastsInDim S12000x6x6 (![0, 1, 2] : Fin 3 → Fin S12000x6x6.rank)
  bcast_S12000x6x6_S12000x6x6x1_0_1_2 : S12000x6x6.BroadcastsInDim S12000x6x6x1 (![0, 1, 2] : Fin 3 → Fin S12000x6x6x1.rank)
  concatenates_S12000x6x6x1_S12000x6x6x1_S12000x6x6x2_d3 : Shape.Concatenates [S12000x6x6x1, S12000x6x6x1] S12000x6x6x2 3
  bcast_S_S400 : S_.BroadcastsInDim S400 (![] : Fin 0 → Fin S400.rank)
  bcast_S400_S400x1_0 : S400.BroadcastsInDim S400x1 (![0] : Fin 1 → Fin S400x1.rank)
  concatenates_S400x1_S400x1_S400x2_d1 : Shape.Concatenates [S400x1, S400x1] S400x2 1
  concatenates_S400x1_S400x1_S400x1_S400x1_S400x4_d1 : Shape.Concatenates [S400x1, S400x1, S400x1, S400x1] S400x4 1
  bcast_S400x1_S400x4_0_1 : S400x1.BroadcastsInDim S400x4 (![0, 1] : Fin 2 → Fin S400x4.rank)
  bcast_S_S400x4 : S_.BroadcastsInDim S400x4 (![] : Fin 0 → Fin S400x4.rank)
  bcast_S400x4_S400x4x1_0_1 : S400x4.BroadcastsInDim S400x4x1 (![0, 1] : Fin 2 → Fin S400x4x1.rank)
  bcast_S_S200 : S_.BroadcastsInDim S200 (![] : Fin 0 → Fin S200.rank)
  bcast_S200_S200x1_0 : S200.BroadcastsInDim S200x1 (![0] : Fin 1 → Fin S200x1.rank)
  bcast_S12000x1_S12000x12000_0_1 : S12000x1.BroadcastsInDim S12000x12000 (![0, 1] : Fin 2 → Fin S12000x12000.rank)
  concatenates_S200x1_S200x1_S200x2_d1 : Shape.Concatenates [S200x1, S200x1] S200x2 1
  gather_S6000_S12000x1_S12000_n_0_n_n_0_1_1_wf : GatherDims.WF S6000 S12000x1 S12000 [] [0] [] [0] [] 1 ![1]
  dot_S12000x3x3_S12000x3x6_S12000x3x6_1_1_2_2_0_0_wf : DotDims.WF S12000x3x3 S12000x3x6 S12000x3x6 [1] [1] [2] [2] [0] [0]
  dot_S12000x3x6_S12000x3x6_S12000x6x6_1_1_2_2_0_0_wf : DotDims.WF S12000x3x6 S12000x3x6 S12000x6x6 [1] [1] [2] [2] [0] [0]
  scatter_S12000x12000_S12000x6x6x2_S12000x6x6_n_01_01_3_wf : ScatterDims.WF S12000x12000 S12000x6x6x2 S12000x6x6 [] [0, 1] [0, 1] 3
  gather_S12000x3_S400x2_S400_n_01_n_n_01_1_11_wf : GatherDims.WF S12000x3 S400x2 S400 [] [0, 1] [] [0, 1] [] 1 ![1, 1]
  gather_S3_S400x1_S400_n_0_n_n_0_1_1_wf : GatherDims.WF S3 S400x1 S400 [] [0] [] [0] [] 1 ![1]
  gather_S6000_S400x1_S400_n_0_n_n_0_1_1_wf : GatherDims.WF S6000 S400x1 S400 [] [0] [] [0] [] 1 ![1]
  scatter_S12000_S400x4x1_S400x4_n_0_0_2_wf : ScatterDims.WF S12000 S400x4x1 S400x4 [] [0] [0] 2
  scatter_S12000_S200x1_S200_n_0_0_1_wf : ScatterDims.WF S12000 S200x1 S200 [] [0] [0] 1
  scatter_S12000x12000_S200x2_S200_n_01_01_1_wf : ScatterDims.WF S12000x12000 S200x2 S200 [] [0, 1] [0, 1] 1

variable [Facts₀]

def gather_S6000_S12000x1_S12000_n_0_n_n_0_1_1 : GatherDims S6000 S12000x1 S12000 where
  offsetDims := []
  collapsedSliceDims := [0]
  operandBatchingDims := []
  startIndicesBatchingDims := []
  startIndexMap := [0]
  indexVectorDim := 1
  sliceSizes := ![1]
  wf := gather_S6000_S12000x1_S12000_n_0_n_n_0_1_1_wf
def dot_S12000x3x3_S12000x3x6_S12000x3x6_1_1_2_2_0_0 : DotDims S12000x3x3 S12000x3x6 S12000x3x6 where
  lhsContracting := [1]
  rhsContracting := [1]
  lhsNonContracting := [2]
  rhsNonContracting := [2]
  lhsBatch := [0]
  rhsBatch := [0]
  wf := dot_S12000x3x3_S12000x3x6_S12000x3x6_1_1_2_2_0_0_wf
def dot_S12000x3x6_S12000x3x6_S12000x6x6_1_1_2_2_0_0 : DotDims S12000x3x6 S12000x3x6 S12000x6x6 where
  lhsContracting := [1]
  rhsContracting := [1]
  lhsNonContracting := [2]
  rhsNonContracting := [2]
  lhsBatch := [0]
  rhsBatch := [0]
  wf := dot_S12000x3x6_S12000x3x6_S12000x6x6_1_1_2_2_0_0_wf
def scatter_S12000x12000_S12000x6x6x2_S12000x6x6_n_01_01_3 : ScatterDims S12000x12000 S12000x6x6x2 S12000x6x6 where
  updateWindowDims := []
  insertedWindowDims := [0, 1]
  scatterDimsToOperandDims := [0, 1]
  indexVectorDim := 3
  wf := scatter_S12000x12000_S12000x6x6x2_S12000x6x6_n_01_01_3_wf
def gather_S12000x3_S400x2_S400_n_01_n_n_01_1_11 : GatherDims S12000x3 S400x2 S400 where
  offsetDims := []
  collapsedSliceDims := [0, 1]
  operandBatchingDims := []
  startIndicesBatchingDims := []
  startIndexMap := [0, 1]
  indexVectorDim := 1
  sliceSizes := ![1, 1]
  wf := gather_S12000x3_S400x2_S400_n_01_n_n_01_1_11_wf
def gather_S3_S400x1_S400_n_0_n_n_0_1_1 : GatherDims S3 S400x1 S400 where
  offsetDims := []
  collapsedSliceDims := [0]
  operandBatchingDims := []
  startIndicesBatchingDims := []
  startIndexMap := [0]
  indexVectorDim := 1
  sliceSizes := ![1]
  wf := gather_S3_S400x1_S400_n_0_n_n_0_1_1_wf
def gather_S6000_S400x1_S400_n_0_n_n_0_1_1 : GatherDims S6000 S400x1 S400 where
  offsetDims := []
  collapsedSliceDims := [0]
  operandBatchingDims := []
  startIndicesBatchingDims := []
  startIndexMap := [0]
  indexVectorDim := 1
  sliceSizes := ![1]
  wf := gather_S6000_S400x1_S400_n_0_n_n_0_1_1_wf
def scatter_S12000_S400x4x1_S400x4_n_0_0_2 : ScatterDims S12000 S400x4x1 S400x4 where
  updateWindowDims := []
  insertedWindowDims := [0]
  scatterDimsToOperandDims := [0]
  indexVectorDim := 2
  wf := scatter_S12000_S400x4x1_S400x4_n_0_0_2_wf
def scatter_S12000_S200x1_S200_n_0_0_1 : ScatterDims S12000 S200x1 S200 where
  updateWindowDims := []
  insertedWindowDims := [0]
  scatterDimsToOperandDims := [0]
  indexVectorDim := 1
  wf := scatter_S12000_S200x1_S200_n_0_0_1_wf
def scatter_S12000x12000_S200x2_S200_n_01_01_1 : ScatterDims S12000x12000 S200x2 S200 where
  updateWindowDims := []
  insertedWindowDims := [0, 1]
  scatterDimsToOperandDims := [0, 1]
  indexVectorDim := 1
  wf := scatter_S12000x12000_S200x2_S200_n_01_01_1_wf

class Facts : Prop extends Facts₀ where

variable [Facts]
-- ==== Proof.KBody.lean ====
import proofs.«145649_j20933670601054_2_alg».proof.Proof.Gen.Kernel.Launch
import proofs.«145649_j20933670601054_2_alg».proof.Proof.Gen.Kernel.Skeleton
import proofs.«145649_j20933670601054_2_alg».proof.Proof.Gen.Kernel.Points
import Idealize.ShloMosaic.Lib.Pipeline.FrameBody
import Idealize.ShloMosaic.Lib.Ring
import Idealize.ShloMosaic.Lib.Tactic

/-! # The kernel body's triple

The body reads its seven input windows whole, computes the element stiffness rows as pure vector arithmetic, reads the
output window (the value is unused) and overwrites it whole with the 36 computed rows.  This module states what the output
window holds afterwards as one pure term of the seven input blocks (`bodyVal`, `out0_7`) and proves the body's triple. -/

-- membership in a rectangle of these extents recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole input window. -/
abbrev r0_in : Rect S1x1024 := Rect.unit (s := S1x1024) ![0, 0] S1x1024.size inb_S1x1024_S1x1024_0_0
/-- The whole output window. -/
abbrev r0_out : Rect S36x1024 := Rect.unit (s := S36x1024) ![0, 0] S36x1024.size inb_S36x1024_S36x1024_0_0

/-! ## What the body stores -/

/-- The stored value, as one pure term of the seven loaded blocks: the payloads composed in program order. -/
def bodyVal (v0 v2 v4 v6 v8 v10 v12 : Vec F S1x1024 .f32) : FVec F S36x1024 .f32 :=
  let v1 := k0_pay1 v0
  let v3 := k0_pay2 v2
  let v5 := k0_pay3 v4
  let v7 := k0_pay4 v6
  let v9 := k0_pay5 v8
  let v11 := k0_pay6 v10
  let v13 := k0_pay7 v12
  let v27 := k0_pay8 v0 v2 v4 v6 v8 v10
  let v34 := k0_pay9 v0 v2 v4 v6 v8 v10
  let v38 := k0_pay10 v0 v2 v4 v6 v8 v10
  let v40 := k0_pay11 v0 v2 v4 v6 v8 v10
  let cst_15 := (Scalar.ofBits .f32 0x3F800000#32 : F .f32)
  let v50 := k0_pay14 v9 v11 v38
  let v52 := k0_pay15 v3 v5 v38
  let v56 := k0_pay16 v7 v11 v27 v40 cst_15
  let v58 := k0_pay17 v1 v5 v27 v40 cst_15
  let v62 := k0_pay18 v7 v9 v34
  let v64 := k0_pay19 v1 v3 v34
  let v74 := k0_pay20 v1 v3 v5 v7 v9 v11
  let v79 := k0_pay22 v13
  let v82 := k0_pay23 v13
  let v85 := k0_pay24 v13
  let v86 := k0_pay25 v9 v11 v38
  let cst_29 := (Scalar.ofBits .f32 0x00000000#32 : F .f32)
  let v100 := k0_pay26 v50 v52 v74 v79 v82 v85 v86 cst_29
  let v115 := k0_pay27 v50 v52 v74 v79 v82 v85
  let v130 := k0_pay28 v50 v52 v56 v58 v74 v79 v82 v85
  let v136 := k0_pay29 v50 v58 v79
  let v145 := k0_pay30 v50 v52 v56 v58 v74 v82 v85 v136
  let v160 := k0_pay31 v50 v52 v62 v64 v74 v79 v82 v85
  let v175 := k0_pay32 v50 v52 v62 v64 v74 v79 v82 v85
  let v186 := k0_pay33 v50 v52 v79 v82
  let v190 := k0_pay34 v50 v52 v74 v85 v186
  let v205 := k0_pay35 v50 v52 v74 v79 v82 v85
  let v220 := k0_pay36 v50 v52 v56 v58 v74 v79 v82 v85
  let v235 := k0_pay37 v50 v52 v56 v58 v74 v79 v82 v85
  let v236 := k0_pay38 (F := F)
  let v250 := k0_pay39 v50 v52 v62 v64 v74 v79 v82 v85 v236
  let v265 := k0_pay40 v50 v52 v62 v64 v74 v79 v82 v85
  let v280 := k0_pay41 v50 v52 v56 v58 v74 v79 v82 v85
  let v286 := k0_pay42 v52 v56 v79
  let v295 := k0_pay43 v50 v52 v56 v58 v74 v82 v85 v286
  let v310 := k0_pay44 v56 v58 v74 v79 v82 v85
  let v325 := k0_pay45 v56 v58 v74 v79 v82 v85
  let v336 := k0_pay46 v56 v62 v79 v82
  let v340 := k0_pay47 v58 v64 v74 v85 v336
  let v355 := k0_pay48 v56 v58 v62 v64 v74 v79 v82 v85
  let v370 := k0_pay49 v50 v52 v56 v58 v74 v79 v82 v85
  let v385 := k0_pay50 v50 v52 v56 v58 v74 v79 v82 v85
  let v386 := k0_pay51 (F := F)
  let v400 := k0_pay52 v56 v58 v74 v79 v82 v85 v386
  let v415 := k0_pay53 v56 v58 v74 v79 v82 v85
  let v430 := k0_pay54 v56 v58 v62 v64 v74 v79 v82 v85
  let v434 := k0_pay55 v58 v64 v79
  let v436 := k0_pay56 v64
  let v445 := k0_pay57 v56 v58 v62 v74 v82 v85 v434 v436
  let v460 := k0_pay58 v50 v52 v62 v64 v74 v79 v82 v85
  let v475 := k0_pay59 v50 v52 v62 v64 v74 v79 v82 v85
  let v486 := k0_pay60 v56 v62 v79 v82
  let v490 := k0_pay61 v58 v64 v74 v85 v486
  let v505 := k0_pay62 v56 v58 v62 v64 v74 v79 v82 v85
  let v520 := k0_pay63 v62 v64 v74 v79 v82 v85
  let v535 := k0_pay64 v62 v64 v74 v79 v82 v85
  let v536 := k0_pay65 (F := F)
  let v550 := k0_pay66 v50 v52 v62 v64 v74 v79 v82 v85 v536
  let v565 := k0_pay67 v50 v52 v62 v64 v74 v79 v82 v85
  let v580 := k0_pay68 v56 v58 v62 v64 v74 v79 v82 v85
  let v584 := k0_pay69 v58 v64 v79
  let v586 := k0_pay70 v58
  let v595 := k0_pay71 v56 v62 v64 v74 v82 v85 v584 v586
  let v610 := k0_pay72 v62 v64 v74 v79 v82 v85
  let v625 := k0_pay73 v62 v64 v74 v79 v82 v85
  k0_pay74 v100 v115 v130 v145 v160 v175 v190 v205 v220 v235 v250 v265 v280 v295 v310 v325 v340 v355 v370 v385 v400 v415 v430 v445 v460 v475 v490 v505 v520 v535 v550 v565 v580 v595 v610 v625

/-- The output window's buffer after the body, from the input windows' blocks: its one store as a piece. -/
def out0_7 (x0 x1 x2 x3 x4 x5 x6 : Vec F S1x1024 .f32) : Vec F S36x1024 .f32 :=
  View.canon [⟨r0_out, bodyVal (View.ld x0 r0_in) (View.ld x1 r0_in) (View.ld x2 r0_in) (View.ld x3 r0_in) (View.ld x4 r0_in) (View.ld x5 r0_in) (View.ld x6 r0_in)⟩]

/-- The one store tiles the buffer, so it covers it. -/
theorem cover0_7 (p0 : Vec F S36x1024 .f32) (y : S36x1024.Idx) :
    ∃ pc ∈ ([⟨r0_out, p0⟩] : List (View.Piece (Elt F) S36x1024 .f32)), y ∈ pc.1.set :=
  View.cover_of_tiled [⟨r0_out, p0⟩] S36x1024.size (by rfl) y

/-! ## The body's triple -/

set_option maxHeartbeats 4000000 in
/-- The kernel body on whole staging memrefs, the inputs' at contents `xW` and the output's at anything, runs to the
    continuation holding the inputs' as they were and the output's at `out0_7` of the inputs'. -/
theorem sound_kernel (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S36x1024 .f32) (harg8 : arg8.IsWhole)
    (x0 x1 x2 x3 x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__stiff_kernel i arg1 harg1 arg2 harg2 arg3 harg3 arg4 harg4 arg5 harg5 arg6 harg6 arg7 harg7 arg8 harg8) K := by
  simp only [cc0__stiff_kernel_eq_skeleton]; unfold cc0__stiff_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.Kernel.Hand

end
-- ==== Proof.LibSsaAfter.lean ====
/-
  Reading ONE operation of a straight line of host operations.

  `StableHlo.after ops V` is what the buffers hold after the operations `ops` have run in order from contents `V`: a
  fold. When the line is in single-assignment form — every operation writes one buffer, later operations write
  buffers of larger index, and an operation touches no buffer of larger index than the one it writes — what a
  buffer holds at the END of the line is what its own operation left in it, and that operation read its operands at
  what they hold at the end of the line as well. So the final contents `W = after ops V` satisfy, operation by
  operation, `W y = f (W x₁) (W x₂) …`: the line can be read one step at a time, in any order, without composing the
  fold. The single-assignment property (`Rising`) is a recursive predicate over the list, proved once per list with
  one small obligation per operation.
-/
import Idealize.ShloMosaic.Lib.StableHlo.Run

noncomputable section

namespace Cert.LibSsaAfter

open Idealize.ShloMosaic Idealize.ShloMosaic.StableHlo

variable {τ : Topo} {sig : RefSig} {Val : EltTy → Type}

/-- A buffer's rank: its index in its table. Buffers of different ranks are different buffers. -/
def rk (b : DevRef τ sig) : ℕ := b.idx.val

/-- `Rising lo hi ops`: each operation of the line writes exactly ONE buffer; its rank is at least `lo`, at least the
    rank of every buffer the operation touches, and below the ranks the later operations write; all below `hi`. -/
def Rising : ℕ → ℕ → List (HloOp τ sig Val) → Prop
  | lo, hi, [] => lo ≤ hi
  | lo, hi, op :: ops =>
      ∃ y : DevRef τ sig, op.writes = {y} ∧ lo ≤ rk y ∧ (∀ b ∈ op.bufs, rk b ≤ rk y) ∧ Rising (rk y + 1) hi ops

/-- The lower bound may be lowered. -/
theorem Rising.anti {lo lo' hi : ℕ} (h : lo' ≤ lo) : ∀ {ops : List (HloOp τ sig Val)}, Rising lo hi ops → Rising lo' hi ops
  | [], hr => Nat.le_trans h hr
  | _ :: _, ⟨y, hw, hl, hb, hr⟩ => ⟨y, hw, Nat.le_trans h hl, hb, hr⟩

/-- The bounds are in order. -/
theorem Rising.le : ∀ {lo hi : ℕ} {ops : List (HloOp τ sig Val)}, Rising lo hi ops → lo ≤ hi
  | _, _, [], hr => hr
  | _, _, _ :: _, ⟨_, _, hl, _, hr⟩ => Nat.le_trans hl (Nat.le_trans (Nat.le_succ _) hr.le)

/-- Every buffer the line writes has its rank within the bounds. -/
theorem Rising.writes_mem : ∀ {lo hi : ℕ} {ops : List (HloOp τ sig Val)}, Rising lo hi ops →
    ∀ op ∈ ops, ∀ b ∈ op.writes, lo ≤ rk b ∧ rk b < hi
  | _, _, [], _, _, hop, _, _ => absurd hop List.not_mem_nil
  | _, _, o :: os, ⟨y, hw, hl, _, hr⟩, op, hop, b, hbw => by
      rcases List.mem_cons.mp hop with rfl | hop'
      · rw [hw] at hbw
        rw [Finset.mem_singleton.mp hbw]
        exact ⟨hl, Nat.lt_of_succ_le hr.le⟩
      · have := hr.writes_mem op hop' b hbw
        exact ⟨Nat.le_trans hl (Nat.le_trans (Nat.le_succ _) this.1), this.2⟩

/-- Two rising lines, the second starting where the first stops, make one. -/
theorem Rising.append {mid hi : ℕ} {l₂ : List (HloOp τ sig Val)} (h₂ : Rising mid hi l₂) :
    ∀ {lo : ℕ} {l₁ : List (HloOp τ sig Val)}, Rising lo mid l₁ → Rising lo hi (l₁ ++ l₂)
  | _, [], h₁ => h₂.anti h₁
  | _, _ :: _, ⟨y, hw, hl, hb, hr⟩ => ⟨y, hw, hl, hb, Rising.append h₂ hr⟩

/-- A buffer ranked below everything the line writes keeps its contents. -/
theorem after_of_lt {lo hi : ℕ} {ops : List (HloOp τ sig Val)} (h : Rising lo hi ops) (V : Valuation τ sig Val)
    {b : DevRef τ sig} (hb : rk b < lo) : after ops V b = V b :=
  after_of_forall_not_mem ops V fun op hop hmem =>
    absurd (h.writes_mem op hop b hmem).1 (Nat.not_le.mpr hb)

/-- A buffer ranked at or above the upper bound keeps its contents too. -/
theorem after_of_ge {lo hi : ℕ} {ops : List (HloOp τ sig Val)} (h : Rising lo hi ops) (V : Valuation τ sig Val)
    {b : DevRef τ sig} (hb : hi ≤ rk b) : after ops V b = V b :=
  after_of_forall_not_mem ops V fun op hop hmem =>
    absurd (h.writes_mem op hop b hmem).2 (Nat.not_lt.mpr hb)

private theorem after_app : ∀ (l₁ l₂ : List (HloOp τ sig Val)) (V : Valuation τ sig Val),
    after (l₁ ++ l₂) V = after l₂ (after l₁ V)
  | [], _, _ => rfl
  | op :: l₁, l₂, V => after_app l₁ l₂ (op.result V)

private theorem Rising.tail : ∀ {lo hi : ℕ} (l₁ : List (HloOp τ sig Val)) {l₂ : List (HloOp τ sig Val)},
    Rising lo hi (l₁ ++ l₂) → ∃ lo', Rising lo' hi l₂
  | lo, _, [], _, h => ⟨lo, h⟩
  | _, _, _ :: l₁, _, ⟨_, _, _, _, hr⟩ => Rising.tail l₁ hr

/-- THE STEP. At the end of a rising line, a buffer an operation touches holds what that operation left in it, run
    from the contents the operations BEFORE it produced: nothing later writes it. -/
theorem after_at_op {lo hi : ℕ} {l₁ l₂ : List (HloOp τ sig Val)} {op : HloOp τ sig Val}
    (h : Rising lo hi (l₁ ++ op :: l₂)) (V : Valuation τ sig Val) {b : DevRef τ sig} (hb : b ∈ op.bufs) :
    after (l₁ ++ op :: l₂) V b = op.result (after l₁ V) b := by
  obtain ⟨_, y, _, _, hbs, hr⟩ := Rising.tail l₁ h
  rw [after_app, after_cons]
  exact after_of_lt hr _ (Nat.lt_succ_of_le (hbs b hb))

/-- An operand the operation does not write holds at the end what it held when the operation ran. -/
theorem after_operand {lo hi : ℕ} {l₁ l₂ : List (HloOp τ sig Val)} {op : HloOp τ sig Val}
    (h : Rising lo hi (l₁ ++ op :: l₂)) (V : Valuation τ sig Val) {b : DevRef τ sig} (hb : b ∈ op.bufs)
    (hnw : b ∉ op.writes) : after (l₁ ++ op :: l₂) V b = after l₁ V b := by
  rw [after_at_op h V hb, op.result_of_not_mem _ hnw]

/-! ## The step, builder by builder

For an operation of a rising line `ops` built by one of Lib/StableHlo.lean's builders, with its operands other
buffers than its result: the final contents `W = after ops V` satisfy `W y = f (W x) …`. -/

section Builders

variable {x a b c y : Ref sig .tc}

theorem nullary_at {lo hi : ℕ} {ops : List (HloOp τ sig Val)} (h : Rising lo hi ops) (V : Valuation τ sig Val)
    (v : y.ty.Contents Val) (hy) (hop : nullary (τ := τ) y v hy ∈ ops) :
    after ops V (Proc.devRef .tc y) = v := by
  obtain ⟨l₁, l₂, rfl⟩ := List.append_of_mem hop
  rw [after_at_op h V (b := Proc.devRef .tc y) (by simp [nullary]), nullary_result]

theorem unary_at {lo hi : ℕ} {ops : List (HloOp τ sig Val)} (h : Rising lo hi ops) (V : Valuation τ sig Val)
    (f : x.ty.Contents Val → y.ty.Contents Val) (hx hy) (hop : unary (τ := τ) x y f hx hy ∈ ops) (hxy : x ≠ y) :
    after ops V (Proc.devRef .tc y) = f (after ops V (Proc.devRef .tc x)) := by
  obtain ⟨l₁, l₂, rfl⟩ := List.append_of_mem hop
  rw [after_at_op h V (b := Proc.devRef .tc y) (by simp [unary]), unary_result,
    after_operand h V (b := Proc.devRef .tc x) (by simp [unary]) (by simp [unary, devRef_ne_of_ne hxy])]

theorem binary_at {lo hi : ℕ} {ops : List (HloOp τ sig Val)} (h : Rising lo hi ops) (V : Valuation τ sig Val)
    (f : a.ty.Contents Val → b.ty.Contents Val → y.ty.Contents Val) (ha hb hy)
    (hop : binary (τ := τ) a b y f ha hb hy ∈ ops) (hay : a ≠ y) (hby : b ≠ y) :
    after ops V (Proc.devRef .tc y) = f (after ops V (Proc.devRef .tc a)) (after ops V (Proc.devRef .tc b)) := by
  obtain ⟨l₁, l₂, rfl⟩ := List.append_of_mem hop
  rw [after_at_op h V (b := Proc.devRef .tc y) (by simp [binary]), binary_result,
    after_operand h V (b := Proc.devRef .tc a) (by simp [binary]) (by simp [binary, devRef_ne_of_ne hay]),
    after_operand h V (b := Proc.devRef .tc b) (by simp [binary]) (by simp [binary, devRef_ne_of_ne hby])]

theorem ternary_at {lo hi : ℕ} {ops : List (HloOp τ sig Val)} (h : Rising lo hi ops) (V : Valuation τ sig Val)
    (f : c.ty.Contents Val → a.ty.Contents Val → b.ty.Contents Val → y.ty.Contents Val) (hc ha hb hy)
    (hop : ternary (τ := τ) c a b y f hc ha hb hy ∈ ops) (hcy : c ≠ y) (hay : a ≠ y) (hby : b ≠ y) :
    after ops V (Proc.devRef .tc y)
      = f (after ops V (Proc.devRef .tc c)) (after ops V (Proc.devRef .tc a)) (after ops V (Proc.devRef .tc b)) := by
  obtain ⟨l₁, l₂, rfl⟩ := List.append_of_mem hop
  rw [after_at_op h V (b := Proc.devRef .tc y) (by simp [ternary]), ternary_result,
    after_operand h V (b := Proc.devRef .tc c) (by simp [ternary]) (by simp [ternary, devRef_ne_of_ne hcy]),
    after_operand h V (b := Proc.devRef .tc a) (by simp [ternary]) (by simp [ternary, devRef_ne_of_ne hay]),
    after_operand h V (b := Proc.devRef .tc b) (by simp [ternary]) (by simp [ternary, devRef_ne_of_ne hby])]

theorem nary4_at {lo hi : ℕ} {ops : List (HloOp τ sig Val)} (h : Rising lo hi ops) (V : Valuation τ sig Val)
    (f : ((k : Fin 4) → ((![x, a, b, c] : Fin 4 → Ref sig .tc) k).ty.Contents Val) → y.ty.Contents Val) (hxs hy)
    (hop : nary (τ := τ) ![x, a, b, c] y f hxs hy ∈ ops) (hxy : x ≠ y) (hay : a ≠ y) (hby : b ≠ y) (hcy : c ≠ y) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  obtain ⟨l₁, l₂, rfl⟩ := List.append_of_mem hop
  have hm : ∀ k : Fin 4, (Proc.devRef .tc ((![x, a, b, c] : Fin 4 → Ref sig .tc) k) : DevRef τ sig) ∈ (nary (τ := τ) ![x, a, b, c] y f hxs hy).bufs :=
    fun k => Finset.mem_insert_of_mem (Finset.mem_image_of_mem _ (Finset.mem_univ k))
  rw [after_at_op h V (b := Proc.devRef .tc y) (by simp [nary]), nary4_result,
    after_operand h V (b := Proc.devRef .tc x) (hm 0) (by simp [nary, devRef_ne_of_ne hxy]),
    after_operand h V (b := Proc.devRef .tc a) (hm 1) (by simp [nary, devRef_ne_of_ne hay]),
    after_operand h V (b := Proc.devRef .tc b) (hm 2) (by simp [nary, devRef_ne_of_ne hby]),
    after_operand h V (b := Proc.devRef .tc c) (hm 3) (by simp [nary, devRef_ne_of_ne hcy])]

theorem reshape_at {lo hi : ℕ} {ops : List (HloOp τ sig Val)} (h : Rising lo hi ops) (V : Valuation τ sig Val)
    (he hn hx hy) (hop : reshape (τ := τ) (Val := Val) x y he hn hx hy ∈ ops) (hxy : x ≠ y) :
    after ops V (Proc.devRef .tc y) = fun i => he ▸ shapeCast y.ty.shape (after ops V (Proc.devRef .tc x)) hn i := by
  obtain ⟨l₁, l₂, rfl⟩ := List.append_of_mem hop
  rw [after_at_op h V (b := Proc.devRef .tc y) (by simp [reshape]), reshape_result,
    after_operand h V (b := Proc.devRef .tc x) (by simp [reshape]) (by simp [reshape, devRef_ne_of_ne hxy])]

end Builders

/-! ## Proving a literal line rising, one operation at a time -/

section Cons

variable {x a b c y : Ref sig .tc} {lo hi : ℕ} {ops : List (HloOp τ sig Val)}

/-- A TensorCore reference's rank, as a device buffer. -/
abbrev rkR (τ : Topo) (r : Ref sig .tc) : ℕ := rk (Proc.devRef .tc r : DevRef τ sig)

theorem Rising.nil (h : lo ≤ hi) : Rising (τ := τ) (sig := sig) (Val := Val) lo hi [] := h

theorem Rising.cons_nullary {v : y.ty.Contents Val} {hy} (hlo : lo ≤ rkR τ y) (h : Rising (rkR τ y + 1) hi ops) :
    Rising lo hi (nullary (τ := τ) y v hy :: ops) :=
  ⟨Proc.devRef .tc y, rfl, hlo, fun d hd => by
    simp only [nullary, Finset.mem_singleton] at hd; subst hd; exact Nat.le_refl _, h⟩

theorem Rising.cons_unary {f : x.ty.Contents Val → y.ty.Contents Val} {hx hy} (hlo : lo ≤ rkR τ y)
    (h1 : rkR τ x ≤ rkR τ y) (h : Rising (rkR τ y + 1) hi ops) : Rising lo hi (unary (τ := τ) x y f hx hy :: ops) :=
  ⟨Proc.devRef .tc y, rfl, hlo, fun d hd => by
    simp only [unary, Finset.mem_insert, Finset.mem_singleton] at hd
    rcases hd with rfl | rfl
    · exact h1
    · exact Nat.le_refl _, h⟩

theorem Rising.cons_reshape {he hn hx hy} (hlo : lo ≤ rkR τ y) (h1 : rkR τ x ≤ rkR τ y)
    (h : Rising (rkR τ y + 1) hi ops) : Rising lo hi (reshape (τ := τ) (Val := Val) x y he hn hx hy :: ops) :=
  ⟨Proc.devRef .tc y, rfl, hlo, fun d hd => by
    simp only [reshape, Finset.mem_insert, Finset.mem_singleton] at hd
    rcases hd with rfl | rfl
    · exact h1
    · exact Nat.le_refl _, h⟩

theorem Rising.cons_binary {f : a.ty.Contents Val → b.ty.Contents Val → y.ty.Contents Val} {ha hb hy}
    (hlo : lo ≤ rkR τ y) (h1 : rkR τ a ≤ rkR τ y) (h2 : rkR τ b ≤ rkR τ y) (h : Rising (rkR τ y + 1) hi ops) :
    Rising lo hi (binary (τ := τ) a b y f ha hb hy :: ops) :=
  ⟨Proc.devRef .tc y, rfl, hlo, fun d hd => by
    simp only [binary, Finset.mem_insert, Finset.mem_singleton] at hd
    rcases hd with rfl | rfl | rfl
    · exact h1
    · exact h2
    · exact Nat.le_refl _, h⟩

theorem Rising.cons_ternary {f : c.ty.Contents Val → a.ty.Contents Val → b.ty.Contents Val → y.ty.Contents Val}
    {hc ha hb hy} (hlo : lo ≤ rkR τ y) (h0 : rkR τ c ≤ rkR τ y) (h1 : rkR τ a ≤ rkR τ y) (h2 : rkR τ b ≤ rkR τ y)
    (h : Rising (rkR τ y + 1) hi ops) : Rising lo hi (ternary (τ := τ) c a b y f hc ha hb hy :: ops) :=
  ⟨Proc.devRef .tc y, rfl, hlo, fun d hd => by
    simp only [ternary, Finset.mem_insert, Finset.mem_singleton] at hd
    rcases hd with rfl | rfl | rfl | rfl
    · exact h0
    · exact h1
    · exact h2
    · exact Nat.le_refl _, h⟩

theorem Rising.cons_nary {n : ℕ} {xs : Fin n → Ref sig .tc}
    {f : ((k : Fin n) → (xs k).ty.Contents Val) → y.ty.Contents Val} {hxs hy} (hlo : lo ≤ rkR τ y)
    (h1 : ∀ k, rkR τ (xs k) ≤ rkR τ y) (h : Rising (rkR τ y + 1) hi ops) :
    Rising lo hi (nary (τ := τ) xs y f hxs hy :: ops) :=
  ⟨Proc.devRef .tc y, rfl, hlo, fun d hd => by
    simp only [nary, Finset.mem_insert, Finset.mem_image, Finset.mem_univ, true_and] at hd
    rcases hd with rfl | ⟨k, rfl⟩
    · exact Nat.le_refl _
    · exact h1 k, h⟩

end Cons

/-- Closes `Rising lo hi ops` for a LITERAL list of the builders' operations over literal references: one rule per
    operation, its rank comparisons decided. -/
macro "rising_line" : tactic =>
  `(tactic| repeat (first
      | with_reducible exact Rising.nil (by decide)
      | with_reducible refine Rising.cons_nullary (by decide) ?_
      | with_reducible refine Rising.cons_unary (by decide) (by decide) ?_
      | with_reducible refine Rising.cons_reshape (by decide) (by decide) ?_
      | with_reducible refine Rising.cons_binary (by decide) (by decide) (by decide) ?_
      | with_reducible refine Rising.cons_ternary (by decide) (by decide) (by decide) (by decide) ?_
      | with_reducible refine Rising.cons_nary (by decide) (by decide) ?_))

/-! ## The step, by position in a literal line -/

section AtIdx

variable {x a b c y : Ref sig .tc} {lo hi : ℕ} {ops : List (HloOp τ sig Val)}

theorem nullary_at_idx (h : Rising lo hi ops) (V : Valuation τ sig Val) (i : ℕ) {v : y.ty.Contents Val} {hy}
    (hi' : ops[i]? = some (nullary (τ := τ) y v hy)) : after ops V (Proc.devRef .tc y) = v :=
  nullary_at h V v hy (List.mem_of_getElem? hi')

theorem unary_at_idx (h : Rising lo hi ops) (V : Valuation τ sig Val) (i : ℕ)
    {f : x.ty.Contents Val → y.ty.Contents Val} {hx hy} (hi' : ops[i]? = some (unary (τ := τ) x y f hx hy))
    (hxy : x ≠ y := by decide) : after ops V (Proc.devRef .tc y) = f (after ops V (Proc.devRef .tc x)) :=
  unary_at h V f hx hy (List.mem_of_getElem? hi') hxy

theorem reshape_at_idx (h : Rising lo hi ops) (V : Valuation τ sig Val) (i : ℕ) {he hn hx hy}
    (hi' : ops[i]? = some (reshape (τ := τ) (Val := Val) x y he hn hx hy)) (hxy : x ≠ y := by decide) :
    after ops V (Proc.devRef .tc y) = fun j => he ▸ shapeCast y.ty.shape (after ops V (Proc.devRef .tc x)) hn j :=
  reshape_at h V he hn hx hy (List.mem_of_getElem? hi') hxy

theorem binary_at_idx (h : Rising lo hi ops) (V : Valuation τ sig Val) (i : ℕ)
    {f : a.ty.Contents Val → b.ty.Contents Val → y.ty.Contents Val} {ha hb hy}
    (hi' : ops[i]? = some (binary (τ := τ) a b y f ha hb hy)) (hay : a ≠ y := by decide) (hby : b ≠ y := by decide) :
    after ops V (Proc.devRef .tc y) = f (after ops V (Proc.devRef .tc a)) (after ops V (Proc.devRef .tc b)) :=
  binary_at h V f ha hb hy (List.mem_of_getElem? hi') hay hby

theorem ternary_at_idx (h : Rising lo hi ops) (V : Valuation τ sig Val) (i : ℕ)
    {f : c.ty.Contents Val → a.ty.Contents Val → b.ty.Contents Val → y.ty.Contents Val} {hc ha hb hy}
    (hi' : ops[i]? = some (ternary (τ := τ) c a b y f hc ha hb hy)) (hcy : c ≠ y := by decide)
    (hay : a ≠ y := by decide) (hby : b ≠ y := by decide) :
    after ops V (Proc.devRef .tc y)
      = f (after ops V (Proc.devRef .tc c)) (after ops V (Proc.devRef .tc a)) (after ops V (Proc.devRef .tc b)) :=
  ternary_at h V f hc ha hb hy (List.mem_of_getElem? hi') hcy hay hby

theorem nary4_at_idx (h : Rising lo hi ops) (V : Valuation τ sig Val) (i : ℕ)
    {f : ((k : Fin 4) → ((![x, a, b, c] : Fin 4 → Ref sig .tc) k).ty.Contents Val) → y.ty.Contents Val} {hxs hy}
    (hi' : ops[i]? = some (nary (τ := τ) ![x, a, b, c] y f hxs hy)) (hxy : x ≠ y := by decide)
    (hay : a ≠ y := by decide) (hby : b ≠ y := by decide) (hcy : c ≠ y := by decide) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) :=
  nary4_at h V f hxs hy (List.mem_of_getElem? hi') hxy hay hby hcy

end AtIdx

end Cert.LibSsaAfter

end
-- ==== Proof.KRising.lean ====
import proofs.«145649_j20933670601054_2_alg».proof.Proof.Gen.Kernel.Launch
import proofs.«145649_j20933670601054_2_alg».proof.Proof.LibSsaAfter

/-! # The host lines are in single-assignment order

Every host operation of @main writes one buffer, and the buffers are numbered in program order: the eleven arguments
first (0 to 10), then the results of the lines before the region (11 to 105; the seven padded rows the region reads are
among them), the region's output (106), then the results of the lines after it (107 to 340).  So no line writes an
argument, no line after the region writes an array the region stages, and each line can be read on its own off the
final contents. -/

set_option maxRecDepth 16384

noncomputable section

namespace Cert.Kernel.Hand

open Cert.Kernel.Gen Cert.LibSsaAfter
open Idealize.ShloMosaic Idealize.ShloMosaic.TcCoe

variable {F : FTy → Type} [FloatOps F]

/-! ## Stretch by stretch -/

theorem hostOps0_rising : Rising 11 79 (hostOps0 : List (HloOp τ sig (Elt F))) := by rising_line
theorem hostOps0_1_rising : Rising 79 81 (hostOps0_1 : List (HloOp τ sig (Elt F))) := by rising_line
theorem hostOps0_2_rising : Rising 81 83 (hostOps0_2 : List (HloOp τ sig (Elt F))) := by rising_line
theorem hostOps0_3_rising : Rising 83 85 (hostOps0_3 : List (HloOp τ sig (Elt F))) := by rising_line
theorem hostOps0_4_rising : Rising 85 87 (hostOps0_4 : List (HloOp τ sig (Elt F))) := by rising_line
theorem hostOps0_5_rising : Rising 87 89 (hostOps0_5 : List (HloOp τ sig (Elt F))) := by rising_line
theorem hostOps0_6_rising : Rising 89 91 (hostOps0_6 : List (HloOp τ sig (Elt F))) := by rising_line
theorem hostOps0_7_rising : Rising 91 93 (hostOps0_7 : List (HloOp τ sig (Elt F))) := by rising_line
theorem hostOps0_8_rising : Rising 93 95 (hostOps0_8 : List (HloOp τ sig (Elt F))) := by rising_line
theorem hostOps0_9_rising : Rising 95 97 (hostOps0_9 : List (HloOp τ sig (Elt F))) := by rising_line
theorem hostOps0_10_rising : Rising 97 99 (hostOps0_10 : List (HloOp τ sig (Elt F))) := by rising_line
theorem hostOps0_11_rising : Rising 99 101 (hostOps0_11 : List (HloOp τ sig (Elt F))) := by rising_line
theorem hostOps0_12_rising : Rising 101 103 (hostOps0_12 : List (HloOp τ sig (Elt F))) := by rising_line
theorem hostOps0_13_rising : Rising 103 105 (hostOps0_13 : List (HloOp τ sig (Elt F))) := by rising_line
theorem hostOps0_14_rising : Rising 105 107 (hostOps0_14 : List (HloOp τ sig (Elt F))) := by rising_line
set_option maxHeartbeats 4000000 in
/-- The 234 lines after the region. -/
theorem hostOps1_rising : Rising 107 341 (hostOps1 : List (HloOp τ sig (Elt F))) := by rising_line

/-! ## The lines before the region, and the lines after it, each as one line -/

/-- The host operations before the region, in order. -/
abbrev preOps : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

theorem preOps_rising : Rising 11 107 (preOps : List (HloOp τ sig (Elt F))) :=
  (Rising.append (Rising.append (Rising.append (Rising.append (Rising.append (Rising.append (Rising.append (Rising.append (Rising.append (Rising.append (Rising.append (Rising.append (Rising.append (Rising.append (Rising.append (Rising.nil (Nat.le_refl 107)) hostOps0_14_rising) hostOps0_13_rising) hostOps0_12_rising) hostOps0_11_rising) hostOps0_10_rising) hostOps0_9_rising) hostOps0_8_rising) hostOps0_7_rising) hostOps0_6_rising) hostOps0_5_rising) hostOps0_4_rising) hostOps0_3_rising) hostOps0_2_rising) hostOps0_1_rising) hostOps0_rising)

/-- The host operations after the region, in order. -/
abbrev sfxOps : List (HloOp τ sig (Elt F)) := List.flatten [hostOps1]

theorem sfxOps_rising : Rising 107 341 (sfxOps : List (HloOp τ sig (Elt F))) :=
  Rising.append (Rising.nil (Nat.le_refl 341)) hostOps1_rising

end Cert.Kernel.Hand

end
-- ==== Proof.KFrame.lean ====
import proofs.«145649_j20933670601054_2_alg».proof.Proof.KBody
import proofs.«145649_j20933670601054_2_alg».proof.Proof.KRising
import Idealize.ShloMosaic.Lib.Pipeline.FrameBody
import Idealize.ShloMosaic.Lib.Pipeline.FrameSuffix
import Idealize.ShloMosaic.Lib.Ring
import Idealize.ShloMosaic.Lib.Tactic

/-! # The frame: @main runs, and its argument arrays end unchanged

@main is fifteen stretches of host operations, one region (a grid of 12 points over seven input windows and one output
window), and one stretch of 234 host operations after it.  This module runs it: the region by the library's launch
theorem over the body's triple, the lines around it as straight lines.  The host lines are in single-assignment order,
so none of them writes an argument and none after the region writes an array the region stages; the frame claim's post
is read off the run's. -/

set_option maxRecDepth 16384

noncomputable section

namespace Cert.Kernel.Hand

open Cert.Kernel.Gen Cert.LibSsaAfter
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region. -/
abbrev V0 (c : Dev nD) : Valuation τ sig (Elt F) := StableHlo.after preOps (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1])) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Every array the region stages is numbered below 107. -/
theorem arr_rank : ∀ w : Fin 8, rk (Proc.devRef .tc (Pipeline.arrRef spec0 w) : DevRef τ sig) < 107 := by decide
/-- And write no array of the pipeline: each writes only its own result buffer, numbered 107 or more. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  exact absurd (hostOps1_rising.writes_mem op hop _ hmem).1 (Nat.not_le.mpr (arr_rank w))

/-- No host operation before the region writes `main_arg0`: the region finds it as launched. -/
theorem V_main_arg0 (c : Dev nD) : V m c main_arg0 = m ((c : Thread nD τ).loc main_arg0) :=
  after_of_lt preOps_rising (fun b => m (c, b)) (b := Proc.devRef .tc main_arg0) (by decide)
/-- No host operation before the region writes `main_arg1`: the region finds it as launched. -/
theorem V_main_arg1 (c : Dev nD) : V m c main_arg1 = m ((c : Thread nD τ).loc main_arg1) :=
  after_of_lt preOps_rising (fun b => m (c, b)) (b := Proc.devRef .tc main_arg1) (by decide)
/-- No host operation before the region writes `main_arg2`: the region finds it as launched. -/
theorem V_main_arg2 (c : Dev nD) : V m c main_arg2 = m ((c : Thread nD τ).loc main_arg2) :=
  after_of_lt preOps_rising (fun b => m (c, b)) (b := Proc.devRef .tc main_arg2) (by decide)
/-- No host operation before the region writes `main_arg3`: the region finds it as launched. -/
theorem V_main_arg3 (c : Dev nD) : V m c main_arg3 = m ((c : Thread nD τ).loc main_arg3) :=
  after_of_lt preOps_rising (fun b => m (c, b)) (b := Proc.devRef .tc main_arg3) (by decide)
/-- No host operation before the region writes `main_arg4`: the region finds it as launched. -/
theorem V_main_arg4 (c : Dev nD) : V m c main_arg4 = m ((c : Thread nD τ).loc main_arg4) :=
  after_of_lt preOps_rising (fun b => m (c, b)) (b := Proc.devRef .tc main_arg4) (by decide)
/-- No host operation before the region writes `main_arg5`: the region finds it as launched. -/
theorem V_main_arg5 (c : Dev nD) : V m c main_arg5 = m ((c : Thread nD τ).loc main_arg5) :=
  after_of_lt preOps_rising (fun b => m (c, b)) (b := Proc.devRef .tc main_arg5) (by decide)
/-- No host operation before the region writes `main_arg6`: the region finds it as launched. -/
theorem V_main_arg6 (c : Dev nD) : V m c main_arg6 = m ((c : Thread nD τ).loc main_arg6) :=
  after_of_lt preOps_rising (fun b => m (c, b)) (b := Proc.devRef .tc main_arg6) (by decide)
/-- No host operation before the region writes `main_arg7`: the region finds it as launched. -/
theorem V_main_arg7 (c : Dev nD) : V m c main_arg7 = m ((c : Thread nD τ).loc main_arg7) :=
  after_of_lt preOps_rising (fun b => m (c, b)) (b := Proc.devRef .tc main_arg7) (by decide)
/-- No host operation before the region writes `main_arg8`: the region finds it as launched. -/
theorem V_main_arg8 (c : Dev nD) : V m c main_arg8 = m ((c : Thread nD τ).loc main_arg8) :=
  after_of_lt preOps_rising (fun b => m (c, b)) (b := Proc.devRef .tc main_arg8) (by decide)
/-- No host operation before the region writes `main_arg9`: the region finds it as launched. -/
theorem V_main_arg9 (c : Dev nD) : V m c main_arg9 = m ((c : Thread nD τ).loc main_arg9) :=
  after_of_lt preOps_rising (fun b => m (c, b)) (b := Proc.devRef .tc main_arg9) (by decide)
/-- No host operation before the region writes `main_arg10`: the region finds it as launched. -/
theorem V_main_arg10 (c : Dev nD) : V m c main_arg10 = m ((c : Thread nD τ).loc main_arg10) :=
  after_of_lt preOps_rising (fun b => m (c, b)) (b := Proc.devRef .tc main_arg10) (by decide)

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [after_of_lt sfxOps_rising _ (b := Proc.devRef .tc main_arg0) (by decide),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [after_of_lt sfxOps_rising _ (b := Proc.devRef .tc main_arg1) (by decide),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [after_of_lt sfxOps_rising _ (b := Proc.devRef .tc main_arg2) (by decide),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [after_of_lt sfxOps_rising _ (b := Proc.devRef .tc main_arg3) (by decide),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [after_of_lt sfxOps_rising _ (b := Proc.devRef .tc main_arg4) (by decide),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [after_of_lt sfxOps_rising _ (b := Proc.devRef .tc main_arg5) (by decide),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [after_of_lt sfxOps_rising _ (b := Proc.devRef .tc main_arg6) (by decide),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [after_of_lt sfxOps_rising _ (b := Proc.devRef .tc main_arg7) (by decide),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [after_of_lt sfxOps_rising _ (b := Proc.devRef .tc main_arg8) (by decide),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [after_of_lt sfxOps_rising _ (b := Proc.devRef .tc main_arg9) (by decide),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [after_of_lt sfxOps_rising _ (b := Proc.devRef .tc main_arg10) (by decide),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is `V`'s and whose body leaves the block in place: the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is `V`'s and whose body leaves the block in place: the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post, read at the eleven argument arrays (no window stages an argument, and no host line writes one), is the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

/-! ## The pipeline's proof data -/

/-- The proof data of the one pipeline on core `c`: the arrays as the region finds them (`V`); after the body at point
    `t` each input's buffer at its block and the output's at `out0_7` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs (terminates, nothing faulting) and its eleven argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KIBody.lean ====
import proofs.«145649_j20933670601054_2_alg».proof.Proof.Gen.KernelIdeal.Launch
import proofs.«145649_j20933670601054_2_alg».proof.Proof.Gen.KernelIdeal.Skeleton
import proofs.«145649_j20933670601054_2_alg».proof.Proof.Gen.KernelIdeal.Points
import Idealize.ShloMosaic.Lib.Pipeline.FrameBody
import Idealize.ShloMosaic.Lib.Ring
import Idealize.ShloMosaic.Lib.Tactic

/-! # The kernel body's triple

The body reads its seven input windows whole, computes the element stiffness rows as pure vector arithmetic, reads the
output window (the value is unused) and overwrites it whole with the 36 computed rows.  This module states what the output
window holds afterwards as one pure term of the seven input blocks (`bodyVal`, `out0_7`) and proves the body's triple. -/

-- membership in a rectangle of these extents recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses -/

/-- The whole input window. -/
abbrev r0_in : Rect S1x1024 := Rect.unit (s := S1x1024) ![0, 0] S1x1024.size inb_S1x1024_S1x1024_0_0
/-- The whole output window. -/
abbrev r0_out : Rect S36x1024 := Rect.unit (s := S36x1024) ![0, 0] S36x1024.size inb_S36x1024_S36x1024_0_0

/-! ## What the body stores -/

/-- The stored value, as one pure term of the seven loaded blocks: the payloads composed in program order. -/
def bodyVal (v0 v2 v4 v6 v8 v10 v12 : Vec F S1x1024 .f32) : FVec F S36x1024 .f32 :=
  let v1 := k0_pay1 v0
  let v3 := k0_pay2 v2
  let v5 := k0_pay3 v4
  let v7 := k0_pay4 v6
  let v9 := k0_pay5 v8
  let v11 := k0_pay6 v10
  let v13 := k0_pay7 v12
  let v27 := k0_pay8 v0 v2 v4 v6 v8 v10
  let v34 := k0_pay9 v0 v2 v4 v6 v8 v10
  let v38 := k0_pay10 v0 v2 v4 v6 v8 v10
  let v40 := k0_pay11 v0 v2 v4 v6 v8 v10
  let cst_15 := (Scalar.ofBits .f32 0x3F800000#32 : F .f32)
  let v50 := k0_pay14 v9 v11 v38
  let v52 := k0_pay15 v3 v5 v38
  let v56 := k0_pay16 v7 v11 v27 v40 cst_15
  let v58 := k0_pay17 v1 v5 v27 v40 cst_15
  let v62 := k0_pay18 v7 v9 v34
  let v64 := k0_pay19 v1 v3 v34
  let v74 := k0_pay20 v1 v3 v5 v7 v9 v11
  let v79 := k0_pay22 v13
  let v82 := k0_pay23 v13
  let v85 := k0_pay24 v13
  let v86 := k0_pay25 v9 v11 v38
  let cst_29 := (Scalar.ofBits .f32 0x00000000#32 : F .f32)
  let v100 := k0_pay26 v50 v52 v74 v79 v82 v85 v86 cst_29
  let v115 := k0_pay27 v50 v52 v74 v79 v82 v85
  let v130 := k0_pay28 v50 v52 v56 v58 v74 v79 v82 v85
  let v136 := k0_pay29 v50 v58 v79
  let v145 := k0_pay30 v50 v52 v56 v58 v74 v82 v85 v136
  let v160 := k0_pay31 v50 v52 v62 v64 v74 v79 v82 v85
  let v175 := k0_pay32 v50 v52 v62 v64 v74 v79 v82 v85
  let v186 := k0_pay33 v50 v52 v79 v82
  let v190 := k0_pay34 v50 v52 v74 v85 v186
  let v205 := k0_pay35 v50 v52 v74 v79 v82 v85
  let v220 := k0_pay36 v50 v52 v56 v58 v74 v79 v82 v85
  let v235 := k0_pay37 v50 v52 v56 v58 v74 v79 v82 v85
  let v236 := k0_pay38 (F := F)
  let v250 := k0_pay39 v50 v52 v62 v64 v74 v79 v82 v85 v236
  let v265 := k0_pay40 v50 v52 v62 v64 v74 v79 v82 v85
  let v280 := k0_pay41 v50 v52 v56 v58 v74 v79 v82 v85
  let v286 := k0_pay42 v52 v56 v79
  let v295 := k0_pay43 v50 v52 v56 v58 v74 v82 v85 v286
  let v310 := k0_pay44 v56 v58 v74 v79 v82 v85
  let v325 := k0_pay45 v56 v58 v74 v79 v82 v85
  let v336 := k0_pay46 v56 v62 v79 v82
  let v340 := k0_pay47 v58 v64 v74 v85 v336
  let v355 := k0_pay48 v56 v58 v62 v64 v74 v79 v82 v85
  let v370 := k0_pay49 v50 v52 v56 v58 v74 v79 v82 v85
  let v385 := k0_pay50 v50 v52 v56 v58 v74 v79 v82 v85
  let v386 := k0_pay51 (F := F)
  let v400 := k0_pay52 v56 v58 v74 v79 v82 v85 v386
  let v415 := k0_pay53 v56 v58 v74 v79 v82 v85
  let v430 := k0_pay54 v56 v58 v62 v64 v74 v79 v82 v85
  let v434 := k0_pay55 v58 v64 v79
  let v436 := k0_pay56 v64
  let v445 := k0_pay57 v56 v58 v62 v74 v82 v85 v434 v436
  let v460 := k0_pay58 v50 v52 v62 v64 v74 v79 v82 v85
  let v475 := k0_pay59 v50 v52 v62 v64 v74 v79 v82 v85
  let v486 := k0_pay60 v56 v62 v79 v82
  let v490 := k0_pay61 v58 v64 v74 v85 v486
  let v505 := k0_pay62 v56 v58 v62 v64 v74 v79 v82 v85
  let v520 := k0_pay63 v62 v64 v74 v79 v82 v85
  let v535 := k0_pay64 v62 v64 v74 v79 v82 v85
  let v536 := k0_pay65 (F := F)
  let v550 := k0_pay66 v50 v52 v62 v64 v74 v79 v82 v85 v536
  let v565 := k0_pay67 v50 v52 v62 v64 v74 v79 v82 v85
  let v580 := k0_pay68 v56 v58 v62 v64 v74 v79 v82 v85
  let v584 := k0_pay69 v58 v64 v79
  let v586 := k0_pay70 v58
  let v595 := k0_pay71 v56 v62 v64 v74 v82 v85 v584 v586
  let v610 := k0_pay72 v62 v64 v74 v79 v82 v85
  let v625 := k0_pay73 v62 v64 v74 v79 v82 v85
  k0_pay74 v100 v115 v130 v145 v160 v175 v190 v205 v220 v235 v250 v265 v280 v295 v310 v325 v340 v355 v370 v385 v400 v415 v430 v445 v460 v475 v490 v505 v520 v535 v550 v565 v580 v595 v610 v625

/-- The output window's buffer after the body, from the input windows' blocks: its one store as a piece. -/
def out0_7 (x0 x1 x2 x3 x4 x5 x6 : Vec F S1x1024 .f32) : Vec F S36x1024 .f32 :=
  View.canon [⟨r0_out, bodyVal (View.ld x0 r0_in) (View.ld x1 r0_in) (View.ld x2 r0_in) (View.ld x3 r0_in) (View.ld x4 r0_in) (View.ld x5 r0_in) (View.ld x6 r0_in)⟩]

/-- The one store tiles the buffer, so it covers it. -/
theorem cover0_7 (p0 : Vec F S36x1024 .f32) (y : S36x1024.Idx) :
    ∃ pc ∈ ([⟨r0_out, p0⟩] : List (View.Piece (Elt F) S36x1024 .f32)), y ∈ pc.1.set :=
  View.cover_of_tiled [⟨r0_out, p0⟩] S36x1024.size (by rfl) y

/-! ## The body's triple -/

set_option maxHeartbeats 4000000 in
/-- The kernel body on whole staging memrefs, the inputs' at contents `xW` and the output's at anything, runs to the
    continuation holding the inputs' as they were and the output's at `out0_7` of the inputs'. -/
theorem sound_kernel (c : Dev nD) (E : Set ℕ) (i : grid0.Coords) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S36x1024 .f32) (harg8 : arg8.IsWhole)
    (x0 x1 x2 x3 x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__stiff_kernel i arg1 harg1 arg2 harg2 arg3 harg3 arg4 harg4 arg5 harg5 arg6 harg6 arg7 harg7 arg8 harg8) K := by
  simp only [cc0__stiff_kernel_eq_skeleton]; unfold cc0__stiff_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.KernelIdeal.Hand

end
-- ==== Proof.KIRising.lean ====
import proofs.«145649_j20933670601054_2_alg».proof.Proof.Gen.KernelIdeal.Launch
import proofs.«145649_j20933670601054_2_alg».proof.Proof.LibSsaAfter

/-! # The host lines are in single-assignment order

Every host operation of @main writes one buffer, and the buffers are numbered in program order: the eleven arguments
first (0 to 10), then the results of the lines before the region (11 to 105; the seven padded rows the region reads are
among them), the region's output (106), then the results of the lines after it (107 to 340).  So no line writes an
argument, no line after the region writes an array the region stages, and each line can be read on its own off the
final contents. -/

set_option maxRecDepth 16384

noncomputable section

namespace Cert.KernelIdeal.Hand

open Cert.KernelIdeal.Gen Cert.LibSsaAfter
open Idealize.ShloMosaic Idealize.ShloMosaic.TcCoe

variable {F : FTy → Type} [FloatOps F] [Named F]

/-! ## Stretch by stretch -/

theorem hostOps0_rising : Rising 11 79 (hostOps0 : List (HloOp τ sig (Elt F))) := by rising_line
theorem hostOps0_1_rising : Rising 79 81 (hostOps0_1 : List (HloOp τ sig (Elt F))) := by rising_line
theorem hostOps0_2_rising : Rising 81 83 (hostOps0_2 : List (HloOp τ sig (Elt F))) := by rising_line
theorem hostOps0_3_rising : Rising 83 85 (hostOps0_3 : List (HloOp τ sig (Elt F))) := by rising_line
theorem hostOps0_4_rising : Rising 85 87 (hostOps0_4 : List (HloOp τ sig (Elt F))) := by rising_line
theorem hostOps0_5_rising : Rising 87 89 (hostOps0_5 : List (HloOp τ sig (Elt F))) := by rising_line
theorem hostOps0_6_rising : Rising 89 91 (hostOps0_6 : List (HloOp τ sig (Elt F))) := by rising_line
theorem hostOps0_7_rising : Rising 91 93 (hostOps0_7 : List (HloOp τ sig (Elt F))) := by rising_line
theorem hostOps0_8_rising : Rising 93 95 (hostOps0_8 : List (HloOp τ sig (Elt F))) := by rising_line
theorem hostOps0_9_rising : Rising 95 97 (hostOps0_9 : List (HloOp τ sig (Elt F))) := by rising_line
theorem hostOps0_10_rising : Rising 97 99 (hostOps0_10 : List (HloOp τ sig (Elt F))) := by rising_line
theorem hostOps0_11_rising : Rising 99 101 (hostOps0_11 : List (HloOp τ sig (Elt F))) := by rising_line
theorem hostOps0_12_rising : Rising 101 103 (hostOps0_12 : List (HloOp τ sig (Elt F))) := by rising_line
theorem hostOps0_13_rising : Rising 103 105 (hostOps0_13 : List (HloOp τ sig (Elt F))) := by rising_line
theorem hostOps0_14_rising : Rising 105 107 (hostOps0_14 : List (HloOp τ sig (Elt F))) := by rising_line
set_option maxHeartbeats 4000000 in
/-- The 234 lines after the region. -/
theorem hostOps1_rising : Rising 107 341 (hostOps1 : List (HloOp τ sig (Elt F))) := by rising_line

/-! ## The lines before the region, and the lines after it, each as one line -/

/-- The host operations before the region, in order. -/
abbrev preOps : List (HloOp τ sig (Elt F)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14]

theorem preOps_rising : Rising 11 107 (preOps : List (HloOp τ sig (Elt F))) :=
  (Rising.append (Rising.append (Rising.append (Rising.append (Rising.append (Rising.append (Rising.append (Rising.append (Rising.append (Rising.append (Rising.append (Rising.append (Rising.append (Rising.append (Rising.append (Rising.nil (Nat.le_refl 107)) hostOps0_14_rising) hostOps0_13_rising) hostOps0_12_rising) hostOps0_11_rising) hostOps0_10_rising) hostOps0_9_rising) hostOps0_8_rising) hostOps0_7_rising) hostOps0_6_rising) hostOps0_5_rising) hostOps0_4_rising) hostOps0_3_rising) hostOps0_2_rising) hostOps0_1_rising) hostOps0_rising)

/-- The host operations after the region, in order. -/
abbrev sfxOps : List (HloOp τ sig (Elt F)) := List.flatten [hostOps1]

theorem sfxOps_rising : Rising 107 341 (sfxOps : List (HloOp τ sig (Elt F))) :=
  Rising.append (Rising.nil (Nat.le_refl 341)) hostOps1_rising

end Cert.KernelIdeal.Hand

end
-- ==== Proof.KIFrame.lean ====
import proofs.«145649_j20933670601054_2_alg».proof.Proof.KIBody
import proofs.«145649_j20933670601054_2_alg».proof.Proof.KIRising
import Idealize.ShloMosaic.Lib.Pipeline.FrameBody
import Idealize.ShloMosaic.Lib.Pipeline.FrameSuffix
import Idealize.ShloMosaic.Lib.Ring
import Idealize.ShloMosaic.Lib.Tactic

/-! # The frame: @main runs, and its argument arrays end unchanged

@main is fifteen stretches of host operations, one region (a grid of 12 points over seven input windows and one output
window), and one stretch of 234 host operations after it.  This module runs it: the region by the library's launch
theorem over the body's triple, the lines around it as straight lines.  The host lines are in single-assignment order,
so none of them writes an argument and none after the region writes an array the region stages; the frame claim's post
is read off the run's. -/

set_option maxRecDepth 16384

noncomputable section

namespace Cert.KernelIdeal.Hand

open Cert.KernelIdeal.Gen Cert.LibSsaAfter
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered, as a valuation: after the host operations before
    the region. -/
abbrev V0 (c : Dev nD) : Valuation τ sig (Elt F) := StableHlo.after preOps (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [hostOps1])) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Every array the region stages is numbered below 107. -/
theorem arr_rank : ∀ w : Fin 8, rk (Proc.devRef .tc (Pipeline.arrRef spec0 w) : DevRef τ sig) < 107 := by decide
/-- And write no array of the pipeline: each writes only its own result buffer, numbered 107 or more. -/
theorem sfx_keeps : ∀ ops ∈ ([hostOps1] : List (List (HloOp τ sig (Elt F)))), ∀ op ∈ ops,
    ∀ w, Proc.devRef .tc (Pipeline.arrRef spec0 w) ∉ op.writes := by
  intro ops hops op hop w hmem
  simp only [List.mem_cons, List.mem_nil_iff, or_false] at hops
  rcases hops with rfl
  exact absurd (hostOps1_rising.writes_mem op hop _ hmem).1 (Nat.not_le.mpr (arr_rank w))

/-- No host operation before the region writes `main_arg0`: the region finds it as launched. -/
theorem V_main_arg0 (c : Dev nD) : V m c main_arg0 = m ((c : Thread nD τ).loc main_arg0) :=
  after_of_lt preOps_rising (fun b => m (c, b)) (b := Proc.devRef .tc main_arg0) (by decide)
/-- No host operation before the region writes `main_arg1`: the region finds it as launched. -/
theorem V_main_arg1 (c : Dev nD) : V m c main_arg1 = m ((c : Thread nD τ).loc main_arg1) :=
  after_of_lt preOps_rising (fun b => m (c, b)) (b := Proc.devRef .tc main_arg1) (by decide)
/-- No host operation before the region writes `main_arg2`: the region finds it as launched. -/
theorem V_main_arg2 (c : Dev nD) : V m c main_arg2 = m ((c : Thread nD τ).loc main_arg2) :=
  after_of_lt preOps_rising (fun b => m (c, b)) (b := Proc.devRef .tc main_arg2) (by decide)
/-- No host operation before the region writes `main_arg3`: the region finds it as launched. -/
theorem V_main_arg3 (c : Dev nD) : V m c main_arg3 = m ((c : Thread nD τ).loc main_arg3) :=
  after_of_lt preOps_rising (fun b => m (c, b)) (b := Proc.devRef .tc main_arg3) (by decide)
/-- No host operation before the region writes `main_arg4`: the region finds it as launched. -/
theorem V_main_arg4 (c : Dev nD) : V m c main_arg4 = m ((c : Thread nD τ).loc main_arg4) :=
  after_of_lt preOps_rising (fun b => m (c, b)) (b := Proc.devRef .tc main_arg4) (by decide)
/-- No host operation before the region writes `main_arg5`: the region finds it as launched. -/
theorem V_main_arg5 (c : Dev nD) : V m c main_arg5 = m ((c : Thread nD τ).loc main_arg5) :=
  after_of_lt preOps_rising (fun b => m (c, b)) (b := Proc.devRef .tc main_arg5) (by decide)
/-- No host operation before the region writes `main_arg6`: the region finds it as launched. -/
theorem V_main_arg6 (c : Dev nD) : V m c main_arg6 = m ((c : Thread nD τ).loc main_arg6) :=
  after_of_lt preOps_rising (fun b => m (c, b)) (b := Proc.devRef .tc main_arg6) (by decide)
/-- No host operation before the region writes `main_arg7`: the region finds it as launched. -/
theorem V_main_arg7 (c : Dev nD) : V m c main_arg7 = m ((c : Thread nD τ).loc main_arg7) :=
  after_of_lt preOps_rising (fun b => m (c, b)) (b := Proc.devRef .tc main_arg7) (by decide)
/-- No host operation before the region writes `main_arg8`: the region finds it as launched. -/
theorem V_main_arg8 (c : Dev nD) : V m c main_arg8 = m ((c : Thread nD τ).loc main_arg8) :=
  after_of_lt preOps_rising (fun b => m (c, b)) (b := Proc.devRef .tc main_arg8) (by decide)
/-- No host operation before the region writes `main_arg9`: the region finds it as launched. -/
theorem V_main_arg9 (c : Dev nD) : V m c main_arg9 = m ((c : Thread nD τ).loc main_arg9) :=
  after_of_lt preOps_rising (fun b => m (c, b)) (b := Proc.devRef .tc main_arg9) (by decide)
/-- No host operation before the region writes `main_arg10`: the region finds it as launched. -/
theorem V_main_arg10 (c : Dev nD) : V m c main_arg10 = m ((c : Thread nD τ).loc main_arg10) :=
  after_of_lt preOps_rising (fun b => m (c, b)) (b := Proc.devRef .tc main_arg10) (by decide)

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [after_of_lt sfxOps_rising _ (b := Proc.devRef .tc main_arg0) (by decide),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [after_of_lt sfxOps_rising _ (b := Proc.devRef .tc main_arg1) (by decide),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [after_of_lt sfxOps_rising _ (b := Proc.devRef .tc main_arg2) (by decide),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [after_of_lt sfxOps_rising _ (b := Proc.devRef .tc main_arg3) (by decide),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [after_of_lt sfxOps_rising _ (b := Proc.devRef .tc main_arg4) (by decide),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [after_of_lt sfxOps_rising _ (b := Proc.devRef .tc main_arg5) (by decide),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [after_of_lt sfxOps_rising _ (b := Proc.devRef .tc main_arg6) (by decide),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [after_of_lt sfxOps_rising _ (b := Proc.devRef .tc main_arg7) (by decide),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [after_of_lt sfxOps_rising _ (b := Proc.devRef .tc main_arg8) (by decide),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [after_of_lt sfxOps_rising _ (b := Proc.devRef .tc main_arg9) (by decide),
    Pipeline.withArrays_of_ne _ c (V0 m c) _ main_arg9 (by exact (by decide : ∀ w, Pipeline.arrRef spec0 w ≠ main_arg9))]
  exact V_main_arg9 m c
/-- No host operation after the region writes `main_arg10`: it ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [after_of_lt sfxOps_rising _ (b := Proc.devRef .tc main_arg10) (by decide),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place: the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place: the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place: the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is `V`'s and whose body leaves the block in place: the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is `V`'s and whose body leaves the block in place: the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof data
    whose array is `V`'s and whose body leaves the block in place: the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof data
    whose array is `V`'s and whose body leaves the block in place: the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post, read at the eleven argument arrays (no window stages an argument, and no host line writes one), is the
    frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c)⟩) h

/-! ## The pipeline's proof data -/

/-- The proof data of the one pipeline on core `c`: the arrays as the region finds them (`V`); after the body at point
    `t` each input's buffer at its block and the output's at `out0_7` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
  Φ _ := Pipeline.ΦA spec0 c
  q _ := fullShare
  owed _ := 0

/-- The proof data's arrays are the region-entry contents (the definition projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs (terminates, nothing faulting) and its eleven argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.RefRun.lean ====
/-
  The reference program's run and frame.

  The printed @main is a straight line of host operations, stated in seven consecutive windows; one window holds a
  call of the module-local function @_where, whose four operations run over the call's own buffers. Each window is
  the sequence `seq` of its list of operations (the call's operations listed at the call site), so @main is the
  sequence of the concatenated list `ops`. The list is in single-assignment order: the k-th operation writes the
  buffer of rank 11 + k and touches no buffer of larger rank; the eleven arguments have ranks 0 … 10, so no
  operation writes an argument. From a memory with zero counters every weakly fair execution of @main therefore
  terminates, each buffer ends at the fold `after ops` of the operations over its launch contents, and the
  arguments end unchanged.
-/
import proofs.«145649_j20933670601054_2_alg».proof.Proof.Gen.ReferenceIdeal
import proofs.«145649_j20933670601054_2_alg».proof.Proof.LibSsaAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.LibSsaAfter (Rising)

variable {F : FTy → Type} [FloatOps F]

/-! ## The windows' operations -/

/-- @main's statements 1 … 60, in order: they write the buffers of ranks 11 … 70. -/
abbrev ops0 : List (HloOp τ sig (Elt F)) :=
  [ StableHlo.nullary main_cst (fun i => FloatOps.ofBits .f32 (lit0 (S3x3.rowMajor i))),
    StableHlo.nullary main_cst_0 (fun i => FloatOps.ofBits .f32 (lit1 (S3x3.rowMajor i))),
    StableHlo.nullary main_c (fun i => lit2 (S3.rowMajor i)),
    StableHlo.nullary main_cst_1 (constant S_ .f32 0x43C04EC5#32),
    StableHlo.unary main_cst_1 main_v0 (broadcastInDim S3x3 ![] bcast_S_S3x3 : (⟨S_, .f32⟩ : BufTy).Contents (Elt F) → (⟨S3x3, .f32⟩ : BufTy).Contents (Elt F)),
    StableHlo.binary main_v0 main_cst main_v1 (mulf : (⟨S3x3, .f32⟩ : BufTy).Contents (Elt F) → (⟨S3x3, .f32⟩ : BufTy).Contents (Elt F) → (⟨S3x3, .f32⟩ : BufTy).Contents (Elt F)),
    StableHlo.nullary main_cst_2 (constant S_ .f32 0x4318965D#32),
    StableHlo.unary main_cst_2 main_v2 (broadcastInDim S3x3 ![] bcast_S_S3x3 : (⟨S_, .f32⟩ : BufTy).Contents (Elt F) → (⟨S3x3, .f32⟩ : BufTy).Contents (Elt F)),
    StableHlo.binary main_v2 main_cst_0 main_v3 (mulf : (⟨S3x3, .f32⟩ : BufTy).Contents (Elt F) → (⟨S3x3, .f32⟩ : BufTy).Contents (Elt F) → (⟨S3x3, .f32⟩ : BufTy).Contents (Elt F)),
    StableHlo.unary main_arg2 main_v4 ((extractStridedSlice S12000x1 ![0, 0] · slices_S12000x3_S12000x1_0_0) : (⟨S12000x3, .i32⟩ : BufTy).Contents (Elt F) → (⟨S12000x1, .i32⟩ : BufTy).Contents (Elt F)),
    StableHlo.reshape main_v4 main_v5 rfl shapeCasts_S12000x1_S12000,
    StableHlo.nullary main_c_3 (constantI S_ 32 0#32),
    StableHlo.unary main_c_3 main_v6 (broadcastInDim S12000 ![] bcast_S_S12000 : (⟨S_, .i32⟩ : BufTy).Contents (Elt F) → (⟨S12000, .i32⟩ : BufTy).Contents (Elt F)),
    StableHlo.binary main_v5 main_v6 main_v7 (cmpi .slt : (⟨S12000, .i32⟩ : BufTy).Contents (Elt F) → (⟨S12000, .i32⟩ : BufTy).Contents (Elt F) → (⟨S12000, .i1⟩ : BufTy).Contents (Elt F)),
    StableHlo.nullary main_c_4 (constantI S_ 32 6000#32),
    StableHlo.unary main_c_4 main_v8 (broadcastInDim S12000 ![] bcast_S_S12000 : (⟨S_, .i32⟩ : BufTy).Contents (Elt F) → (⟨S12000, .i32⟩ : BufTy).Contents (Elt F)),
    StableHlo.binary main_v5 main_v8 main_v9 (addi : (⟨S12000, .i32⟩ : BufTy).Contents (Elt F) → (⟨S12000, .i32⟩ : BufTy).Contents (Elt F) → (⟨S12000, .i32⟩ : BufTy).Contents (Elt F)),
    StableHlo.ternary main_v7 main_v9 main_v5 main_v10 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v10 main_v11 (broadcastInDim S12000x1 ![0] bcast_S12000_S12000x1_0 : (⟨S12000, .i32⟩ : BufTy).Contents (Elt F) → (⟨S12000x1, .i32⟩ : BufTy).Contents (Elt F)),
    StableHlo.binary main_arg0 main_v11 main_v12 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.unary main_arg2 main_v13 ((extractStridedSlice S12000x1 ![0, 1] · slices_S12000x3_S12000x1_0_1) : (⟨S12000x3, .i32⟩ : BufTy).Contents (Elt F) → (⟨S12000x1, .i32⟩ : BufTy).Contents (Elt F)),
    StableHlo.reshape main_v13 main_v14 rfl shapeCasts_S12000x1_S12000,
    StableHlo.nullary main_c_5 (constantI S_ 32 0#32),
    StableHlo.unary main_c_5 main_v15 (broadcastInDim S12000 ![] bcast_S_S12000 : (⟨S_, .i32⟩ : BufTy).Contents (Elt F) → (⟨S12000, .i32⟩ : BufTy).Contents (Elt F)),
    StableHlo.binary main_v14 main_v15 main_v16 (cmpi .slt : (⟨S12000, .i32⟩ : BufTy).Contents (Elt F) → (⟨S12000, .i32⟩ : BufTy).Contents (Elt F) → (⟨S12000, .i1⟩ : BufTy).Contents (Elt F)),
    StableHlo.nullary main_c_6 (constantI S_ 32 6000#32),
    StableHlo.unary main_c_6 main_v17 (broadcastInDim S12000 ![] bcast_S_S12000 : (⟨S_, .i32⟩ : BufTy).Contents (Elt F) → (⟨S12000, .i32⟩ : BufTy).Contents (Elt F)),
    StableHlo.binary main_v14 main_v17 main_v18 (addi : (⟨S12000, .i32⟩ : BufTy).Contents (Elt F) → (⟨S12000, .i32⟩ : BufTy).Contents (Elt F) → (⟨S12000, .i32⟩ : BufTy).Contents (Elt F)),
    StableHlo.ternary main_v16 main_v18 main_v14 main_v19 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v19 main_v20 (broadcastInDim S12000x1 ![0] bcast_S12000_S12000x1_0 : (⟨S12000, .i32⟩ : BufTy).Contents (Elt F) → (⟨S12000x1, .i32⟩ : BufTy).Contents (Elt F)),
    StableHlo.binary main_arg0 main_v20 main_v21 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.unary main_arg2 main_v22 ((extractStridedSlice S12000x1 ![0, 2] · slices_S12000x3_S12000x1_0_2) : (⟨S12000x3, .i32⟩ : BufTy).Contents (Elt F) → (⟨S12000x1, .i32⟩ : BufTy).Contents (Elt F)),
    StableHlo.reshape main_v22 main_v23 rfl shapeCasts_S12000x1_S12000,
    StableHlo.nullary main_c_7 (constantI S_ 32 0#32),
    StableHlo.unary main_c_7 main_v24 (broadcastInDim S12000 ![] bcast_S_S12000 : (⟨S_, .i32⟩ : BufTy).Contents (Elt F) → (⟨S12000, .i32⟩ : BufTy).Contents (Elt F)),
    StableHlo.binary main_v23 main_v24 main_v25 (cmpi .slt : (⟨S12000, .i32⟩ : BufTy).Contents (Elt F) → (⟨S12000, .i32⟩ : BufTy).Contents (Elt F) → (⟨S12000, .i1⟩ : BufTy).Contents (Elt F)),
    StableHlo.nullary main_c_8 (constantI S_ 32 6000#32),
    StableHlo.unary main_c_8 main_v26 (broadcastInDim S12000 ![] bcast_S_S12000 : (⟨S_, .i32⟩ : BufTy).Contents (Elt F) → (⟨S12000, .i32⟩ : BufTy).Contents (Elt F)),
    StableHlo.binary main_v23 main_v26 main_v27 (addi : (⟨S12000, .i32⟩ : BufTy).Contents (Elt F) → (⟨S12000, .i32⟩ : BufTy).Contents (Elt F) → (⟨S12000, .i32⟩ : BufTy).Contents (Elt F)),
    StableHlo.ternary main_v25 main_v27 main_v23 main_v28 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v28 main_v29 (broadcastInDim S12000x1 ![0] bcast_S12000_S12000x1_0 : (⟨S12000, .i32⟩ : BufTy).Contents (Elt F) → (⟨S12000x1, .i32⟩ : BufTy).Contents (Elt F)),
    StableHlo.binary main_arg0 main_v29 main_v30 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.unary main_arg2 main_v31 ((extractStridedSlice S12000x1 ![0, 0] · slices_S12000x3_S12000x1_0_0) : (⟨S12000x3, .i32⟩ : BufTy).Contents (Elt F) → (⟨S12000x1, .i32⟩ : BufTy).Contents (Elt F)),
    StableHlo.reshape main_v31 main_v32 rfl shapeCasts_S12000x1_S12000,
    StableHlo.nullary main_c_9 (constantI S_ 32 0#32),
    StableHlo.unary main_c_9 main_v33 (broadcastInDim S12000 ![] bcast_S_S12000 : (⟨S_, .i32⟩ : BufTy).Contents (Elt F) → (⟨S12000, .i32⟩ : BufTy).Contents (Elt F)),
    StableHlo.binary main_v32 main_v33 main_v34 (cmpi .slt : (⟨S12000, .i32⟩ : BufTy).Contents (Elt F) → (⟨S12000, .i32⟩ : BufTy).Contents (Elt F) → (⟨S12000, .i1⟩ : BufTy).Contents (Elt F)),
    StableHlo.nullary main_c_10 (constantI S_ 32 6000#32),
    StableHlo.unary main_c_10 main_v35 (broadcastInDim S12000 ![] bcast_S_S12000 : (⟨S_, .i32⟩ : BufTy).Contents (Elt F) → (⟨S12000, .i32⟩ : BufTy).Contents (Elt F)),
    StableHlo.binary main_v32 main_v35 main_v36 (addi : (⟨S12000, .i32⟩ : BufTy).Contents (Elt F) → (⟨S12000, .i32⟩ : BufTy).Contents (Elt F) → (⟨S12000, .i32⟩ : BufTy).Contents (Elt F)),
    StableHlo.ternary main_v34 main_v36 main_v32 main_v37 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v37 main_v38 (broadcastInDim S12000x1 ![0] bcast_S12000_S12000x1_0 : (⟨S12000, .i32⟩ : BufTy).Contents (Elt F) → (⟨S12000x1, .i32⟩ : BufTy).Contents (Elt F)),
    StableHlo.binary main_arg1 main_v38 main_v39 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.unary main_arg2 main_v40 ((extractStridedSlice S12000x1 ![0, 1] · slices_S12000x3_S12000x1_0_1) : (⟨S12000x3, .i32⟩ : BufTy).Contents (Elt F) → (⟨S12000x1, .i32⟩ : BufTy).Contents (Elt F)),
    StableHlo.reshape main_v40 main_v41 rfl shapeCasts_S12000x1_S12000,
    StableHlo.nullary main_c_11 (constantI S_ 32 0#32),
    StableHlo.unary main_c_11 main_v42 (broadcastInDim S12000 ![] bcast_S_S12000 : (⟨S_, .i32⟩ : BufTy).Contents (Elt F) → (⟨S12000, .i32⟩ : BufTy).Contents (Elt F)),
    StableHlo.binary main_v41 main_v42 main_v43 (cmpi .slt : (⟨S12000, .i32⟩ : BufTy).Contents (Elt F) → (⟨S12000, .i32⟩ : BufTy).Contents (Elt F) → (⟨S12000, .i1⟩ : BufTy).Contents (Elt F)),
    StableHlo.nullary main_c_12 (constantI S_ 32 6000#32),
    StableHlo.unary main_c_12 main_v44 (broadcastInDim S12000 ![] bcast_S_S12000 : (⟨S_, .i32⟩ : BufTy).Contents (Elt F) → (⟨S12000, .i32⟩ : BufTy).Contents (Elt F)) ]

theorem main_part0_eq (c : Dev nD) : main_part0 (F := F) c = seq ops0 := rfl

theorem ops0_sub : (ops0 : List (HloOp τ sig (Elt F))).Forall fun op => op.bufs ⊆ tcRefs τ sig :=
  ⟨nullary_bufs_sub .., nullary_bufs_sub .., nullary_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub ..⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising0 : Rising 11 71 (ops0 : List (HloOp τ sig (Elt F))) := by rising_line

/-- @main's statements 61 … 120, in order: they write the buffers of ranks 71 … 130. -/
abbrev ops1 : List (HloOp τ sig (Elt F)) :=
  [ StableHlo.binary main_v41 main_v44 main_v45 (addi : (⟨S12000, .i32⟩ : BufTy).Contents (Elt F) → (⟨S12000, .i32⟩ : BufTy).Contents (Elt F) → (⟨S12000, .i32⟩ : BufTy).Contents (Elt F)),
    StableHlo.ternary main_v43 main_v45 main_v41 main_v46 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v46 main_v47 (broadcastInDim S12000x1 ![0] bcast_S12000_S12000x1_0 : (⟨S12000, .i32⟩ : BufTy).Contents (Elt F) → (⟨S12000x1, .i32⟩ : BufTy).Contents (Elt F)),
    StableHlo.binary main_arg1 main_v47 main_v48 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.unary main_arg2 main_v49 ((extractStridedSlice S12000x1 ![0, 2] · slices_S12000x3_S12000x1_0_2) : (⟨S12000x3, .i32⟩ : BufTy).Contents (Elt F) → (⟨S12000x1, .i32⟩ : BufTy).Contents (Elt F)),
    StableHlo.reshape main_v49 main_v50 rfl shapeCasts_S12000x1_S12000,
    StableHlo.nullary main_c_13 (constantI S_ 32 0#32),
    StableHlo.unary main_c_13 main_v51 (broadcastInDim S12000 ![] bcast_S_S12000 : (⟨S_, .i32⟩ : BufTy).Contents (Elt F) → (⟨S12000, .i32⟩ : BufTy).Contents (Elt F)),
    StableHlo.binary main_v50 main_v51 main_v52 (cmpi .slt : (⟨S12000, .i32⟩ : BufTy).Contents (Elt F) → (⟨S12000, .i32⟩ : BufTy).Contents (Elt F) → (⟨S12000, .i1⟩ : BufTy).Contents (Elt F)),
    StableHlo.nullary main_c_14 (constantI S_ 32 6000#32),
    StableHlo.unary main_c_14 main_v53 (broadcastInDim S12000 ![] bcast_S_S12000 : (⟨S_, .i32⟩ : BufTy).Contents (Elt F) → (⟨S12000, .i32⟩ : BufTy).Contents (Elt F)),
    StableHlo.binary main_v50 main_v53 main_v54 (addi : (⟨S12000, .i32⟩ : BufTy).Contents (Elt F) → (⟨S12000, .i32⟩ : BufTy).Contents (Elt F) → (⟨S12000, .i32⟩ : BufTy).Contents (Elt F)),
    StableHlo.ternary main_v52 main_v54 main_v50 main_v55 (select : (⟨S12000, .i1⟩ : BufTy).Contents (Elt F) → (⟨S12000, .i32⟩ : BufTy).Contents (Elt F) → (⟨S12000, .i32⟩ : BufTy).Contents (Elt F) → (⟨S12000, .i32⟩ : BufTy).Contents (Elt F)),
    StableHlo.unary main_v55 main_v56 (broadcastInDim S12000x1 ![0] bcast_S12000_S12000x1_0 : (⟨S12000, .i32⟩ : BufTy).Contents (Elt F) → (⟨S12000x1, .i32⟩ : BufTy).Contents (Elt F)),
    StableHlo.binary main_arg1 main_v56 main_v57 ((fun x i => Host.gather gather_S6000_S12000x1_S12000_n_0_n_n_0_1_1 x i) : (⟨S6000, .f32⟩ : BufTy).Contents (Elt F) → (⟨S12000x1, .i32⟩ : BufTy).Contents (Elt F) → (⟨S12000, .f32⟩ : BufTy).Contents (Elt F)),
    StableHlo.binary main_v39 main_v48 main_v58 (subf : (⟨S12000, .f32⟩ : BufTy).Contents (Elt F) → (⟨S12000, .f32⟩ : BufTy).Contents (Elt F) → (⟨S12000, .f32⟩ : BufTy).Contents (Elt F)),
    StableHlo.binary main_v30 main_v21 main_v59 (subf : (⟨S12000, .f32⟩ : BufTy).Contents (Elt F) → (⟨S12000, .f32⟩ : BufTy).Contents (Elt F) → (⟨S12000, .f32⟩ : BufTy).Contents (Elt F)),
    StableHlo.binary main_v58 main_v59 main_v60 (mulf : (⟨S12000, .f32⟩ : BufTy).Contents (Elt F) → (⟨S12000, .f32⟩ : BufTy).Contents (Elt F) → (⟨S12000, .f32⟩ : BufTy).Contents (Elt F)),
    StableHlo.binary main_v12 main_v21 main_v61 (subf : (⟨S12000, .f32⟩ : BufTy).Contents (Elt F) → (⟨S12000, .f32⟩ : BufTy).Contents (Elt F) → (⟨S12000, .f32⟩ : BufTy).Contents (Elt F)),
    StableHlo.binary main_v57 main_v48 main_v62 (subf : (⟨S12000, .f32⟩ : BufTy).Contents (Elt F) → (⟨S12000, .f32⟩ : BufTy).Contents (Elt F) → (⟨S12000, .f32⟩ : BufTy).Contents (Elt F)),
    StableHlo.binary main_v61 main_v62 main_v63 (mulf : (⟨S12000, .f32⟩ : BufTy).Contents (Elt F) → (⟨S12000, .f32⟩ : BufTy).Contents (Elt F) → (⟨S12000, .f32⟩ : BufTy).Contents (Elt F)),
    StableHlo.binary main_v60 main_v63 main_v64 (subf : (⟨S12000, .f32⟩ : BufTy).Contents (Elt F) → (⟨S12000, .f32⟩ : BufTy).Contents (Elt F) → (⟨S12000, .f32⟩ : BufTy).Contents (Elt F)),
    StableHlo.binary main_v48 main_v57 main_v65 (subf : (⟨S12000, .f32⟩ : BufTy).Contents (Elt F) → (⟨S12000, .f32⟩ : BufTy).Contents (Elt F) → (⟨S12000, .f32⟩ : BufTy).Contents (Elt F)),
    StableHlo.binary main_v12 main_v30 main_v66 (subf : (⟨S12000, .f32⟩ : BufTy).Contents (Elt F) → (⟨S12000, .f32⟩ : BufTy).Contents (Elt F) → (⟨S12000, .f32⟩ : BufTy).Contents (Elt F)),
    StableHlo.binary main_v65 main_v66 main_v67 (mulf : (⟨S12000, .f32⟩ : BufTy).Contents (Elt F) → (⟨S12000, .f32⟩ : BufTy).Contents (Elt F) → (⟨S12000, .f32⟩ : BufTy).Contents (Elt F)),
    StableHlo.binary main_v21 main_v30 main_v68 (subf : (⟨S12000, .f32⟩ : BufTy).Contents (Elt F) → (⟨S12000, .f32⟩ : BufTy).Contents (Elt F) → (⟨S12000, .f32⟩ : BufTy).Contents (Elt F)),
    StableHlo.binary main_v39 main_v57 main_v69 (subf : (⟨S12000, .f32⟩ : BufTy).Contents (Elt F) → (⟨S12000, .f32⟩ : BufTy).Contents (Elt F) → (⟨S12000, .f32⟩ : BufTy).Contents (Elt F)),
    StableHlo.binary main_v68 main_v69 main_v70 (mulf : (⟨S12000, .f32⟩ : BufTy).Contents (Elt F) → (⟨S12000, .f32⟩ : BufTy).Contents (Elt F) → (⟨S12000, .f32⟩ : BufTy).Contents (Elt F)),
    StableHlo.binary main_v67 main_v70 main_v71 (subf : (⟨S12000, .f32⟩ : BufTy).Contents (Elt F) → (⟨S12000, .f32⟩ : BufTy).Contents (Elt F) → (⟨S12000, .f32⟩ : BufTy).Contents (Elt F)),
    StableHlo.binary main_v57 main_v39 main_v72 (subf : (⟨S12000, .f32⟩ : BufTy).Contents (Elt F) → (⟨S12000, .f32⟩ : BufTy).Contents (Elt F) → (⟨S12000, .f32⟩ : BufTy).Contents (Elt F)),
    StableHlo.binary main_v21 main_v12 main_v73 (subf : (⟨S12000, .f32⟩ : BufTy).Contents (Elt F) → (⟨S12000, .f32⟩ : BufTy).Contents (Elt F) → (⟨S12000, .f32⟩ : BufTy).Contents (Elt F)),
    StableHlo.binary main_v72 main_v73 main_v74 (mulf : (⟨S12000, .f32⟩ : BufTy).Contents (Elt F) → (⟨S12000, .f32⟩ : BufTy).Contents (Elt F) → (⟨S12000, .f32⟩ : BufTy).Contents (Elt F)),
    StableHlo.binary main_v30 main_v12 main_v75 (subf : (⟨S12000, .f32⟩ : BufTy).Contents (Elt F) → (⟨S12000, .f32⟩ : BufTy).Contents (Elt F) → (⟨S12000, .f32⟩ : BufTy).Contents (Elt F)),
    StableHlo.binary main_v48 main_v39 main_v76 (subf : (⟨S12000, .f32⟩ : BufTy).Contents (Elt F) → (⟨S12000, .f32⟩ : BufTy).Contents (Elt F) → (⟨S12000, .f32⟩ : BufTy).Contents (Elt F)),
    StableHlo.binary main_v75 main_v76 main_v77 (mulf : (⟨S12000, .f32⟩ : BufTy).Contents (Elt F) → (⟨S12000, .f32⟩ : BufTy).Contents (Elt F) → (⟨S12000, .f32⟩ : BufTy).Contents (Elt F)),
    StableHlo.binary main_v74 main_v77 main_v78 (subf : (⟨S12000, .f32⟩ : BufTy).Contents (Elt F) → (⟨S12000, .f32⟩ : BufTy).Contents (Elt F) → (⟨S12000, .f32⟩ : BufTy).Contents (Elt F)),
    StableHlo.binary main_v57 main_v48 main_v79 (subf : (⟨S12000, .f32⟩ : BufTy).Contents (Elt F) → (⟨S12000, .f32⟩ : BufTy).Contents (Elt F) → (⟨S12000, .f32⟩ : BufTy).Contents (Elt F)),
    StableHlo.unary main_v79 main_v80 (Host.negf : (⟨S12000, .f32⟩ : BufTy).Contents (Elt F) → (⟨S12000, .f32⟩ : BufTy).Contents (Elt F)),
    StableHlo.binary main_v80 main_v64 main_v81 (Host.divf : (⟨S12000, .f32⟩ : BufTy).Contents (Elt F) → (⟨S12000, .f32⟩ : BufTy).Contents (Elt F) → (⟨S12000, .f32⟩ : BufTy).Contents (Elt F)),
    StableHlo.binary main_v30 main_v21 main_v82 (subf : (⟨S12000, .f32⟩ : BufTy).Contents (Elt F) → (⟨S12000, .f32⟩ : BufTy).Contents (Elt F) → (⟨S12000, .f32⟩ : BufTy).Contents (Elt F)),
    StableHlo.binary main_v82 main_v64 main_v83 (Host.divf : (⟨S12000, .f32⟩ : BufTy).Contents (Elt F) → (⟨S12000, .f32⟩ : BufTy).Contents (Elt F) → (⟨S12000, .f32⟩ : BufTy).Contents (Elt F)),
    StableHlo.binary main_v39 main_v57 main_v84 (subf : (⟨S12000, .f32⟩ : BufTy).Contents (Elt F) → (⟨S12000, .f32⟩ : BufTy).Contents (Elt F) → (⟨S12000, .f32⟩ : BufTy).Contents (Elt F)),
    StableHlo.unary main_v84 main_v85 (Host.negf : (⟨S12000, .f32⟩ : BufTy).Contents (Elt F) → (⟨S12000, .f32⟩ : BufTy).Contents (Elt F)),
    StableHlo.binary main_v85 main_v71 main_v86 (Host.divf : (⟨S12000, .f32⟩ : BufTy).Contents (Elt F) → (⟨S12000, .f32⟩ : BufTy).Contents (Elt F) → (⟨S12000, .f32⟩ : BufTy).Contents (Elt F)),
    StableHlo.binary main_v12 main_v30 main_v87 (subf : (⟨S12000, .f32⟩ : BufTy).Contents (Elt F) → (⟨S12000, .f32⟩ : BufTy).Contents (Elt F) → (⟨S12000, .f32⟩ : BufTy).Contents (Elt F)),
    StableHlo.binary main_v87 main_v71 main_v88 (Host.divf : (⟨S12000, .f32⟩ : BufTy).Contents (Elt F) → (⟨S12000, .f32⟩ : BufTy).Contents (Elt F) → (⟨S12000, .f32⟩ : BufTy).Contents (Elt F)),
    StableHlo.binary main_v48 main_v39 main_v89 (subf : (⟨S12000, .f32⟩ : BufTy).Contents (Elt F) → (⟨S12000, .f32⟩ : BufTy).Contents (Elt F) → (⟨S12000, .f32⟩ : BufTy).Contents (Elt F)),
    StableHlo.unary main_v89 main_v90 (Host.negf : (⟨S12000, .f32⟩ : BufTy).Contents (Elt F) → (⟨S12000, .f32⟩ : BufTy).Contents (Elt F)),
    StableHlo.binary main_v90 main_v78 main_v91 (Host.divf : (⟨S12000, .f32⟩ : BufTy).Contents (Elt F) → (⟨S12000, .f32⟩ : BufTy).Contents (Elt F) → (⟨S12000, .f32⟩ : BufTy).Contents (Elt F)),
    StableHlo.binary main_v21 main_v12 main_v92 (subf : (⟨S12000, .f32⟩ : BufTy).Contents (Elt F) → (⟨S12000, .f32⟩ : BufTy).Contents (Elt F) → (⟨S12000, .f32⟩ : BufTy).Contents (Elt F)),
    StableHlo.binary main_v92 main_v78 main_v93 (Host.divf : (⟨S12000, .f32⟩ : BufTy).Contents (Elt F) → (⟨S12000, .f32⟩ : BufTy).Contents (Elt F) → (⟨S12000, .f32⟩ : BufTy).Contents (Elt F)),
    StableHlo.binary main_v21 main_v12 main_v94 (subf : (⟨S12000, .f32⟩ : BufTy).Contents (Elt F) → (⟨S12000, .f32⟩ : BufTy).Contents (Elt F) → (⟨S12000, .f32⟩ : BufTy).Contents (Elt F)),
    StableHlo.binary main_v57 main_v39 main_v95 (subf : (⟨S12000, .f32⟩ : BufTy).Contents (Elt F) → (⟨S12000, .f32⟩ : BufTy).Contents (Elt F) → (⟨S12000, .f32⟩ : BufTy).Contents (Elt F)),
    StableHlo.binary main_v94 main_v95 main_v96 (mulf : (⟨S12000, .f32⟩ : BufTy).Contents (Elt F) → (⟨S12000, .f32⟩ : BufTy).Contents (Elt F) → (⟨S12000, .f32⟩ : BufTy).Contents (Elt F)),
    StableHlo.binary main_v30 main_v12 main_v97 (subf : (⟨S12000, .f32⟩ : BufTy).Contents (Elt F) → (⟨S12000, .f32⟩ : BufTy).Contents (Elt F) → (⟨S12000, .f32⟩ : BufTy).Contents (Elt F)),
    StableHlo.binary main_v48 main_v39 main_v98 (subf : (⟨S12000, .f32⟩ : BufTy).Contents (Elt F) → (⟨S12000, .f32⟩ : BufTy).Contents (Elt F) → (⟨S12000, .f32⟩ : BufTy).Contents (Elt F)),
    StableHlo.binary main_v97 main_v98 main_v99 (mulf : (⟨S12000, .f32⟩ : BufTy).Contents (Elt F) → (⟨S12000, .f32⟩ : BufTy).Contents (Elt F) → (⟨S12000, .f32⟩ : BufTy).Contents (Elt F)),
    StableHlo.binary main_v96 main_v99 main_v100 (subf : (⟨S12000, .f32⟩ : BufTy).Contents (Elt F) → (⟨S12000, .f32⟩ : BufTy).Contents (Elt F) → (⟨S12000, .f32⟩ : BufTy).Contents (Elt F)),
    StableHlo.unary main_v100 main_v101 (Host.absf : (⟨S12000, .f32⟩ : BufTy).Contents (Elt F) → (⟨S12000, .f32⟩ : BufTy).Contents (Elt F)),
    StableHlo.nullary main_cst_15 (constant S_ .f32 0x3F000000#32) ]

theorem main_part1_eq (c : Dev nD) : main_part1 (F := F) c = seq ops1 := rfl

theorem ops1_sub : (ops1 : List (HloOp τ sig (Elt F))).Forall fun op => op.bufs ⊆ tcRefs τ sig :=
  ⟨binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., unary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., unary_bufs_sub .., nullary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising1 : Rising 71 131 (ops1 : List (HloOp τ sig (Elt F))) := by rising_line

/-- @main's statements 121 … 180 (the call of @_where as its four operations over the call's buffers), in order: they write the buffers of ranks 131 … 193. -/
abbrev ops2 : List (HloOp τ sig (Elt F)) :=
  [ StableHlo.unary main_cst_15 main_v102 (broadcastInDim S12000 ![] bcast_S_S12000 : (⟨S_, .f32⟩ : BufTy).Contents (Elt F) → (⟨S12000, .f32⟩ : BufTy).Contents (Elt F)),
    StableHlo.binary main_v102 main_v101 main_v103 (mulf : (⟨S12000, .f32⟩ : BufTy).Contents (Elt F) → (⟨S12000, .f32⟩ : BufTy).Contents (Elt F) → (⟨S12000, .f32⟩ : BufTy).Contents (Elt F)),
    StableHlo.nullary main_cst_16 (constant S_ .f32 0x00000000#32),
    StableHlo.unary main_cst_16 main_v104 (broadcastInDim S12000 ![] bcast_S_S12000 : (⟨S_, .f32⟩ : BufTy).Contents (Elt F) → (⟨S12000, .f32⟩ : BufTy).Contents (Elt F)),
    StableHlo.unary main_v81 main_v105 (broadcastInDim S12000x1 ![0] bcast_S12000_S12000x1_0 : (⟨S12000, .f32⟩ : BufTy).Contents (Elt F) → (⟨S12000x1, .f32⟩ : BufTy).Contents (Elt F)),
    StableHlo.unary main_v104 main_v106 (broadcastInDim S12000x1 ![0] bcast_S12000_S12000x1_0 : (⟨S12000, .f32⟩ : BufTy).Contents (Elt F) → (⟨S12000x1, .f32⟩ : BufTy).Contents (Elt F)),
    StableHlo.unary main_v86 main_v107 (broadcastInDim S12000x1 ![0] bcast_S12000_S12000x1_0 : (⟨S12000, .f32⟩ : BufTy).Contents (Elt F) → (⟨S12000x1, .f32⟩ : BufTy).Contents (Elt F)),
    StableHlo.unary main_v104 main_v108 (broadcastInDim S12000x1 ![0] bcast_S12000_S12000x1_0 : (⟨S12000, .f32⟩ : BufTy).Contents (Elt F) → (⟨S12000x1, .f32⟩ : BufTy).Contents (Elt F)),
    StableHlo.unary main_v91 main_v109 (broadcastInDim S12000x1 ![0] bcast_S12000_S12000x1_0 : (⟨S12000, .f32⟩ : BufTy).Contents (Elt F) → (⟨S12000x1, .f32⟩ : BufTy).Contents (Elt F)),
    StableHlo.unary main_v104 main_v110 (broadcastInDim S12000x1 ![0] bcast_S12000_S12000x1_0 : (⟨S12000, .f32⟩ : BufTy).Contents (Elt F) → (⟨S12000x1, .f32⟩ : BufTy).Contents (Elt F)),
    StableHlo.nary ![main_v105, main_v106, main_v107, main_v108, main_v109, main_v110] main_v111 (fun u => concatenate S12000x6 1 [⟨S12000x1, u 0⟩, ⟨S12000x1, u 1⟩, ⟨S12000x1, u 2⟩, ⟨S12000x1, u 3⟩, ⟨S12000x1, u 4⟩, ⟨S12000x1, u 5⟩] concatenates_S12000x1_S12000x1_S12000x1_S12000x1_S12000x1_S12000x1_S12000x6_d1),
    StableHlo.unary main_v104 main_v112 (broadcastInDim S12000x1 ![0] bcast_S12000_S12000x1_0 : (⟨S12000, .f32⟩ : BufTy).Contents (Elt F) → (⟨S12000x1, .f32⟩ : BufTy).Contents (Elt F)),
    StableHlo.unary main_v83 main_v113 (broadcastInDim S12000x1 ![0] bcast_S12000_S12000x1_0 : (⟨S12000, .f32⟩ : BufTy).Contents (Elt F) → (⟨S12000x1, .f32⟩ : BufTy).Contents (Elt F)),
    StableHlo.unary main_v104 main_v114 (broadcastInDim S12000x1 ![0] bcast_S12000_S12000x1_0 : (⟨S12000, .f32⟩ : BufTy).Contents (Elt F) → (⟨S12000x1, .f32⟩ : BufTy).Contents (Elt F)),
    StableHlo.unary main_v88 main_v115 (broadcastInDim S12000x1 ![0] bcast_S12000_S12000x1_0 : (⟨S12000, .f32⟩ : BufTy).Contents (Elt F) → (⟨S12000x1, .f32⟩ : BufTy).Contents (Elt F)),
    StableHlo.unary main_v104 main_v116 (broadcastInDim S12000x1 ![0] bcast_S12000_S12000x1_0 : (⟨S12000, .f32⟩ : BufTy).Contents (Elt F) → (⟨S12000x1, .f32⟩ : BufTy).Contents (Elt F)),
    StableHlo.unary main_v93 main_v117 (broadcastInDim S12000x1 ![0] bcast_S12000_S12000x1_0 : (⟨S12000, .f32⟩ : BufTy).Contents (Elt F) → (⟨S12000x1, .f32⟩ : BufTy).Contents (Elt F)),
    StableHlo.nary ![main_v112, main_v113, main_v114, main_v115, main_v116, main_v117] main_v118 (fun u => concatenate S12000x6 1 [⟨S12000x1, u 0⟩, ⟨S12000x1, u 1⟩, ⟨S12000x1, u 2⟩, ⟨S12000x1, u 3⟩, ⟨S12000x1, u 4⟩, ⟨S12000x1, u 5⟩] concatenates_S12000x1_S12000x1_S12000x1_S12000x1_S12000x1_S12000x1_S12000x6_d1),
    StableHlo.unary main_v83 main_v119 (broadcastInDim S12000x1 ![0] bcast_S12000_S12000x1_0 : (⟨S12000, .f32⟩ : BufTy).Contents (Elt F) → (⟨S12000x1, .f32⟩ : BufTy).Contents (Elt F)),
    StableHlo.unary main_v81 main_v120 (broadcastInDim S12000x1 ![0] bcast_S12000_S12000x1_0 : (⟨S12000, .f32⟩ : BufTy).Contents (Elt F) → (⟨S12000x1, .f32⟩ : BufTy).Contents (Elt F)),
    StableHlo.unary main_v88 main_v121 (broadcastInDim S12000x1 ![0] bcast_S12000_S12000x1_0 : (⟨S12000, .f32⟩ : BufTy).Contents (Elt F) → (⟨S12000x1, .f32⟩ : BufTy).Contents (Elt F)),
    StableHlo.unary main_v86 main_v122 (broadcastInDim S12000x1 ![0] bcast_S12000_S12000x1_0 : (⟨S12000, .f32⟩ : BufTy).Contents (Elt F) → (⟨S12000x1, .f32⟩ : BufTy).Contents (Elt F)),
    StableHlo.unary main_v93 main_v123 (broadcastInDim S12000x1 ![0] bcast_S12000_S12000x1_0 : (⟨S12000, .f32⟩ : BufTy).Contents (Elt F) → (⟨S12000x1, .f32⟩ : BufTy).Contents (Elt F)),
    StableHlo.unary main_v91 main_v124 (broadcastInDim S12000x1 ![0] bcast_S12000_S12000x1_0 : (⟨S12000, .f32⟩ : BufTy).Contents (Elt F) → (⟨S12000x1, .f32⟩ : BufTy).Contents (Elt F)),
    StableHlo.nary ![main_v119, main_v120, main_v121, main_v122, main_v123, main_v124] main_v125 (fun u => concatenate S12000x6 1 [⟨S12000x1, u 0⟩, ⟨S12000x1, u 1⟩, ⟨S12000x1, u 2⟩, ⟨S12000x1, u 3⟩, ⟨S12000x1, u 4⟩, ⟨S12000x1, u 5⟩] concatenates_S12000x1_S12000x1_S12000x1_S12000x1_S12000x1_S12000x1_S12000x6_d1),
    StableHlo.unary main_v111 main_v126 (broadcastInDim S12000x1x6 ![0, 2] bcast_S12000x6_S12000x1x6_0_2 : (⟨S12000x6, .f32⟩ : BufTy).Contents (Elt F) → (⟨S12000x1x6, .f32⟩ : BufTy).Contents (Elt F)),
    StableHlo.unary main_v118 main_v127 (broadcastInDim S12000x1x6 ![0, 2] bcast_S12000x6_S12000x1x6_0_2 : (⟨S12000x6, .f32⟩ : BufTy).Contents (Elt F) → (⟨S12000x1x6, .f32⟩ : BufTy).Contents (Elt F)),
    StableHlo.unary main_v125 main_v128 (broadcastInDim S12000x1x6 ![0, 2] bcast_S12000x6_S12000x1x6_0_2 : (⟨S12000x6, .f32⟩ : BufTy).Contents (Elt F) → (⟨S12000x1x6, .f32⟩ : BufTy).Contents (Elt F)),
    StableHlo.nary ![main_v126, main_v127, main_v128] main_v129 (fun u => concatenate S12000x3x6 1 [⟨S12000x1x6, u 0⟩, ⟨S12000x1x6, u 1⟩, ⟨S12000x1x6, u 2⟩] concatenates_S12000x1x6_S12000x1x6_S12000x1x6_S12000x3x6_d1),
    StableHlo.unary main_arg3 main_v130 (broadcastInDim S12000x1x1 ![0] bcast_S12000_S12000x1x1_0 : (⟨S12000, .f32⟩ : BufTy).Contents (Elt F) → (⟨S12000x1x1, .f32⟩ : BufTy).Contents (Elt F)),
    StableHlo.nullary main_cst_17 (constant S_ .f32 0x3F000000#32),
    StableHlo.unary main_cst_17 main_v131 (broadcastInDim S12000x1x1 ![] bcast_S_S12000x1x1 : (⟨S_, .f32⟩ : BufTy).Contents (Elt F) → (⟨S12000x1x1, .f32⟩ : BufTy).Contents (Elt F)),
    StableHlo.binary main_v130 main_v131 main_v132 (cmpf .ogt : (⟨S12000x1x1, .f32⟩ : BufTy).Contents (Elt F) → (⟨S12000x1x1, .f32⟩ : BufTy).Contents (Elt F) → (⟨S12000x1x1, .i1⟩ : BufTy).Contents (Elt F)),
    StableHlo.unary main_v132 main_call0_v0 (broadcastInDim S12000x3x3 ![0, 1, 2] bcast_S12000x1x1_S12000x3x3_0_1_2 : (⟨S12000x1x1, .i1⟩ : BufTy).Contents (Elt F) → (⟨S12000x3x3, .i1⟩ : BufTy).Contents (Elt F)),
    StableHlo.unary main_v3 main_call0_v1 (broadcastInDim S12000x3x3 ![1, 2] bcast_S3x3_S12000x3x3_1_2 : (⟨S3x3, .f32⟩ : BufTy).Contents (Elt F) → (⟨S12000x3x3, .f32⟩ : BufTy).Contents (Elt F)),
    StableHlo.unary main_v1 main_call0_v2 (broadcastInDim S12000x3x3 ![1, 2] bcast_S3x3_S12000x3x3_1_2 : (⟨S3x3, .f32⟩ : BufTy).Contents (Elt F) → (⟨S12000x3x3, .f32⟩ : BufTy).Contents (Elt F)),
    StableHlo.ternary main_call0_v0 main_call0_v1 main_call0_v2 main_v133 (select : (⟨S12000x3x3, .i1⟩ : BufTy).Contents (Elt F) → (⟨S12000x3x3, .f32⟩ : BufTy).Contents (Elt F) → (⟨S12000x3x3, .f32⟩ : BufTy).Contents (Elt F) → (⟨S12000x3x3, .f32⟩ : BufTy).Contents (Elt F)),
    StableHlo.binary main_v133 main_v129 main_v134 ((fun l r => Host.dotGeneral dot_S12000x3x3_S12000x3x6_S12000x3x6_1_1_2_2_0_0 none l r) : (⟨S12000x3x3, .f32⟩ : BufTy).Contents (Elt F) → (⟨S12000x3x6, .f32⟩ : BufTy).Contents (Elt F) → (⟨S12000x3x6, .f32⟩ : BufTy).Contents (Elt F)),
    StableHlo.binary main_v134 main_v129 main_v135 ((fun l r => Host.dotGeneral dot_S12000x3x6_S12000x3x6_S12000x6x6_1_1_2_2_0_0 none l r) : (⟨S12000x3x6, .f32⟩ : BufTy).Contents (Elt F) → (⟨S12000x3x6, .f32⟩ : BufTy).Contents (Elt F) → (⟨S12000x6x6, .f32⟩ : BufTy).Contents (Elt F)),
    StableHlo.unary main_v103 main_v136 (broadcastInDim S12000x1x1 ![0] bcast_S12000_S12000x1x1_0 : (⟨S12000, .f32⟩ : BufTy).Contents (Elt F) → (⟨S12000x1x1, .f32⟩ : BufTy).Contents (Elt F)),
    StableHlo.unary main_v136 main_v137 (broadcastInDim S12000x6x6 ![0, 1, 2] bcast_S12000x1x1_S12000x6x6_0_1_2 : (⟨S12000x1x1, .f32⟩ : BufTy).Contents (Elt F) → (⟨S12000x6x6, .f32⟩ : BufTy).Contents (Elt F)),
    StableHlo.binary main_v135 main_v137 main_v138 (mulf : (⟨S12000x6x6, .f32⟩ : BufTy).Contents (Elt F) → (⟨S12000x6x6, .f32⟩ : BufTy).Contents (Elt F) → (⟨S12000x6x6, .f32⟩ : BufTy).Contents (Elt F)),
    StableHlo.nullary main_c_18 (constantI S_ 32 2#32),
    StableHlo.unary main_c_18 main_v139 (broadcastInDim S12000x3 ![] bcast_S_S12000x3 : (⟨S_, .i32⟩ : BufTy).Contents (Elt F) → (⟨S12000x3, .i32⟩ : BufTy).Contents (Elt F)),
    StableHlo.binary main_v139 main_arg2 main_v140 (muli : (⟨S12000x3, .i32⟩ : BufTy).Contents (Elt F) → (⟨S12000x3, .i32⟩ : BufTy).Contents (Elt F) → (⟨S12000x3, .i32⟩ : BufTy).Contents (Elt F)),
    StableHlo.nullary main_c_19 (constantI S_ 32 2#32),
    StableHlo.unary main_c_19 main_v141 (broadcastInDim S12000x3 ![] bcast_S_S12000x3 : (⟨S_, .i32⟩ : BufTy).Contents (Elt F) → (⟨S12000x3, .i32⟩ : BufTy).Contents (Elt F)),
    StableHlo.binary main_v141 main_arg2 main_v142 (muli : (⟨S12000x3, .i32⟩ : BufTy).Contents (Elt F) → (⟨S12000x3, .i32⟩ : BufTy).Contents (Elt F) → (⟨S12000x3, .i32⟩ : BufTy).Contents (Elt F)),
    StableHlo.nullary main_c_20 (constantI S_ 32 1#32),
    StableHlo.unary main_c_20 main_v143 (broadcastInDim S12000x3 ![] bcast_S_S12000x3 : (⟨S_, .i32⟩ : BufTy).Contents (Elt F) → (⟨S12000x3, .i32⟩ : BufTy).Contents (Elt F)),
    StableHlo.binary main_v142 main_v143 main_v144 (addi : (⟨S12000x3, .i32⟩ : BufTy).Contents (Elt F) → (⟨S12000x3, .i32⟩ : BufTy).Contents (Elt F) → (⟨S12000x3, .i32⟩ : BufTy).Contents (Elt F)),
    StableHlo.unary main_v140 main_v145 (broadcastInDim S12000x3x1 ![0, 1] bcast_S12000x3_S12000x3x1_0_1 : (⟨S12000x3, .i32⟩ : BufTy).Contents (Elt F) → (⟨S12000x3x1, .i32⟩ : BufTy).Contents (Elt F)),
    StableHlo.unary main_v144 main_v146 (broadcastInDim S12000x3x1 ![0, 1] bcast_S12000x3_S12000x3x1_0_1 : (⟨S12000x3, .i32⟩ : BufTy).Contents (Elt F) → (⟨S12000x3x1, .i32⟩ : BufTy).Contents (Elt F)),
    StableHlo.binary main_v145 main_v146 main_v147 ((fun a b => concatenate S12000x3x2 2 [⟨S12000x3x1, a⟩, ⟨S12000x3x1, b⟩] concatenates_S12000x3x1_S12000x3x1_S12000x3x2_d2) : (⟨S12000x3x1, .i32⟩ : BufTy).Contents (Elt F) → (⟨S12000x3x1, .i32⟩ : BufTy).Contents (Elt F) → (⟨S12000x3x2, .i32⟩ : BufTy).Contents (Elt F)),
    StableHlo.reshape main_v147 main_v148 rfl shapeCasts_S12000x3x2_S12000x6,
    StableHlo.nullary main_cst_21 (constant S_ .f32 0x00000000#32),
    StableHlo.unary main_cst_21 main_v149 (broadcastInDim S12000x12000 ![] bcast_S_S12000x12000 : (⟨S_, .f32⟩ : BufTy).Contents (Elt F) → (⟨S12000x12000, .f32⟩ : BufTy).Contents (Elt F)),
    StableHlo.unary main_v148 main_v150 (broadcastInDim S12000x6x1 ![0, 1] bcast_S12000x6_S12000x6x1_0_1 : (⟨S12000x6, .i32⟩ : BufTy).Contents (Elt F) → (⟨S12000x6x1, .i32⟩ : BufTy).Contents (Elt F)),
    StableHlo.unary main_v148 main_v151 (broadcastInDim S12000x1x6 ![0, 2] bcast_S12000x6_S12000x1x6_0_2 : (⟨S12000x6, .i32⟩ : BufTy).Contents (Elt F) → (⟨S12000x1x6, .i32⟩ : BufTy).Contents (Elt F)),
    StableHlo.nullary main_c_22 (constantI S_ 32 0#32),
    StableHlo.unary main_c_22 main_v152 (broadcastInDim S12000x6x1 ![] bcast_S_S12000x6x1 : (⟨S_, .i32⟩ : BufTy).Contents (Elt F) → (⟨S12000x6x1, .i32⟩ : BufTy).Contents (Elt F)),
    StableHlo.binary main_v150 main_v152 main_v153 (cmpi .slt : (⟨S12000x6x1, .i32⟩ : BufTy).Contents (Elt F) → (⟨S12000x6x1, .i32⟩ : BufTy).Contents (Elt F) → (⟨S12000x6x1, .i1⟩ : BufTy).Contents (Elt F)),
    StableHlo.nullary main_c_23 (constantI S_ 32 12000#32) ]

theorem main_part2_eq (c : Dev nD) : main_part2 (F := F) c = seq ops2 := rfl

theorem ops2_sub : (ops2 : List (HloOp τ sig (Elt F))).Forall fun op => op.bufs ⊆ tcRefs τ sig :=
  ⟨unary_bufs_sub .., binary_bufs_sub .., nullary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., nary_bufs_sub .., unary_bufs_sub .., unary_bufs_sub .., unary_bufs_sub .., nary_bufs_sub .., unary_bufs_sub .., nullary_bufs_sub .., unary_bufs_sub .., binary_bufs_sub .., unary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., unary_bufs_sub .., unary_bufs_sub .., nullary_bufs_sub .., unary_bufs_sub .., binary_bufs_sub .., nullary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising2 : Rising 131 194 (ops2 : List (HloOp τ sig (Elt F))) := by rising_line

/-- @main's statements 181 … 240, in order: they write the buffers of ranks 194 … 253. -/
abbrev ops3 : List (HloOp τ sig (Elt F)) :=
  [ StableHlo.unary main_c_23 main_v154 (broadcastInDim S12000x6x1 ![] bcast_S_S12000x6x1 : (⟨S_, .i32⟩ : BufTy).Contents (Elt F) → (⟨S12000x6x1, .i32⟩ : BufTy).Contents (Elt F)),
    StableHlo.binary main_v150 main_v154 main_v155 (addi : (⟨S12000x6x1, .i32⟩ : BufTy).Contents (Elt F) → (⟨S12000x6x1, .i32⟩ : BufTy).Contents (Elt F) → (⟨S12000x6x1, .i32⟩ : BufTy).Contents (Elt F)),
    StableHlo.ternary main_v153 main_v155 main_v150 main_v156 (select : (⟨S12000x6x1, .i1⟩ : BufTy).Contents (Elt F) → (⟨S12000x6x1, .i32⟩ : BufTy).Contents (Elt F) → (⟨S12000x6x1, .i32⟩ : BufTy).Contents (Elt F) → (⟨S12000x6x1, .i32⟩ : BufTy).Contents (Elt F)),
    StableHlo.nullary main_c_24 (constantI S_ 32 0#32),
    StableHlo.unary main_c_24 main_v157 (broadcastInDim S12000x1x6 ![] bcast_S_S12000x1x6 : (⟨S_, .i32⟩ : BufTy).Contents (Elt F) → (⟨S12000x1x6, .i32⟩ : BufTy).Contents (Elt F)),
    StableHlo.binary main_v151 main_v157 main_v158 (cmpi .slt : (⟨S12000x1x6, .i32⟩ : BufTy).Contents (Elt F) → (⟨S12000x1x6, .i32⟩ : BufTy).Contents (Elt F) → (⟨S12000x1x6, .i1⟩ : BufTy).Contents (Elt F)),
    StableHlo.nullary main_c_25 (constantI S_ 32 12000#32),
    StableHlo.unary main_c_25 main_v159 (broadcastInDim S12000x1x6 ![] bcast_S_S12000x1x6 : (⟨S_, .i32⟩ : BufTy).Contents (Elt F) → (⟨S12000x1x6, .i32⟩ : BufTy).Contents (Elt F)),
    StableHlo.binary main_v151 main_v159 main_v160 (addi : (⟨S12000x1x6, .i32⟩ : BufTy).Contents (Elt F) → (⟨S12000x1x6, .i32⟩ : BufTy).Contents (Elt F) → (⟨S12000x1x6, .i32⟩ : BufTy).Contents (Elt F)),
    StableHlo.ternary main_v158 main_v160 main_v151 main_v161 (select : (⟨S12000x1x6, .i1⟩ : BufTy).Contents (Elt F) → (⟨S12000x1x6, .i32⟩ : BufTy).Contents (Elt F) → (⟨S12000x1x6, .i32⟩ : BufTy).Contents (Elt F) → (⟨S12000x1x6, .i32⟩ : BufTy).Contents (Elt F)),
    StableHlo.unary main_v156 main_v162 (broadcastInDim S12000x6x6 ![0, 1, 2] bcast_S12000x6x1_S12000x6x6_0_1_2 : (⟨S12000x6x1, .i32⟩ : BufTy).Contents (Elt F) → (⟨S12000x6x6, .i32⟩ : BufTy).Contents (Elt F)),
    StableHlo.unary main_v161 main_v163 (broadcastInDim S12000x6x6 ![0, 1, 2] bcast_S12000x1x6_S12000x6x6_0_1_2 : (⟨S12000x1x6, .i32⟩ : BufTy).Contents (Elt F) → (⟨S12000x6x6, .i32⟩ : BufTy).Contents (Elt F)),
    StableHlo.unary main_v162 main_v164 (broadcastInDim S12000x6x6x1 ![0, 1, 2] bcast_S12000x6x6_S12000x6x6x1_0_1_2 : (⟨S12000x6x6, .i32⟩ : BufTy).Contents (Elt F) → (⟨S12000x6x6x1, .i32⟩ : BufTy).Contents (Elt F)),
    StableHlo.unary main_v163 main_v165 (broadcastInDim S12000x6x6x1 ![0, 1, 2] bcast_S12000x6x6_S12000x6x6x1_0_1_2 : (⟨S12000x6x6, .i32⟩ : BufTy).Contents (Elt F) → (⟨S12000x6x6x1, .i32⟩ : BufTy).Contents (Elt F)),
    StableHlo.binary main_v164 main_v165 main_v166 ((fun a b => concatenate S12000x6x6x2 3 [⟨S12000x6x6x1, a⟩, ⟨S12000x6x6x1, b⟩] concatenates_S12000x6x6x1_S12000x6x6x1_S12000x6x6x2_d3) : (⟨S12000x6x6x1, .i32⟩ : BufTy).Contents (Elt F) → (⟨S12000x6x6x1, .i32⟩ : BufTy).Contents (Elt F) → (⟨S12000x6x6x2, .i32⟩ : BufTy).Contents (Elt F)),
    StableHlo.ternary main_v149 main_v166 main_v138 main_v167 ((fun x i u => Host.scatterAdd scatter_S12000x12000_S12000x6x6x2_S12000x6x6_n_01_01_3 x i u) : (⟨S12000x12000, .f32⟩ : BufTy).Contents (Elt F) → (⟨S12000x6x6x2, .i32⟩ : BufTy).Contents (Elt F) → (⟨S12000x6x6, .f32⟩ : BufTy).Contents (Elt F) → (⟨S12000x12000, .f32⟩ : BufTy).Contents (Elt F)),
    StableHlo.nullary main_c_26 (constantI S_ 32 0#32),
    StableHlo.unary main_c_26 main_v168 (broadcastInDim S400 ![] bcast_S_S400 : (⟨S_, .i32⟩ : BufTy).Contents (Elt F) → (⟨S400, .i32⟩ : BufTy).Contents (Elt F)),
    StableHlo.binary main_arg4 main_v168 main_v169 (cmpi .slt : (⟨S400, .i32⟩ : BufTy).Contents (Elt F) → (⟨S400, .i32⟩ : BufTy).Contents (Elt F) → (⟨S400, .i1⟩ : BufTy).Contents (Elt F)),
    StableHlo.nullary main_c_27 (constantI S_ 32 12000#32),
    StableHlo.unary main_c_27 main_v170 (broadcastInDim S400 ![] bcast_S_S400 : (⟨S_, .i32⟩ : BufTy).Contents (Elt F) → (⟨S400, .i32⟩ : BufTy).Contents (Elt F)),
    StableHlo.binary main_arg4 main_v170 main_v171 (addi : (⟨S400, .i32⟩ : BufTy).Contents (Elt F) → (⟨S400, .i32⟩ : BufTy).Contents (Elt F) → (⟨S400, .i32⟩ : BufTy).Contents (Elt F)),
    StableHlo.ternary main_v169 main_v171 main_arg4 main_v172 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.nullary main_c_28 (constantI S_ 32 0#32),
    StableHlo.unary main_c_28 main_v173 (broadcastInDim S400 ![] bcast_S_S400 : (⟨S_, .i32⟩ : BufTy).Contents (Elt F) → (⟨S400, .i32⟩ : BufTy).Contents (Elt F)),
    StableHlo.binary main_arg5 main_v173 main_v174 (cmpi .slt : (⟨S400, .i32⟩ : BufTy).Contents (Elt F) → (⟨S400, .i32⟩ : BufTy).Contents (Elt F) → (⟨S400, .i1⟩ : BufTy).Contents (Elt F)),
    StableHlo.nullary main_c_29 (constantI S_ 32 3#32),
    StableHlo.unary main_c_29 main_v175 (broadcastInDim S400 ![] bcast_S_S400 : (⟨S_, .i32⟩ : BufTy).Contents (Elt F) → (⟨S400, .i32⟩ : BufTy).Contents (Elt F)),
    StableHlo.binary main_arg5 main_v175 main_v176 (addi : (⟨S400, .i32⟩ : BufTy).Contents (Elt F) → (⟨S400, .i32⟩ : BufTy).Contents (Elt F) → (⟨S400, .i32⟩ : BufTy).Contents (Elt F)),
    StableHlo.ternary main_v174 main_v176 main_arg5 main_v177 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v172 main_v178 (broadcastInDim S400x1 ![0] bcast_S400_S400x1_0 : (⟨S400, .i32⟩ : BufTy).Contents (Elt F) → (⟨S400x1, .i32⟩ : BufTy).Contents (Elt F)),
    StableHlo.unary main_v177 main_v179 (broadcastInDim S400x1 ![0] bcast_S400_S400x1_0 : (⟨S400, .i32⟩ : BufTy).Contents (Elt F) → (⟨S400x1, .i32⟩ : BufTy).Contents (Elt F)),
    StableHlo.binary main_v178 main_v179 main_v180 ((fun a b => concatenate S400x2 1 [⟨S400x1, a⟩, ⟨S400x1, b⟩] concatenates_S400x1_S400x1_S400x2_d1) : (⟨S400x1, .i32⟩ : BufTy).Contents (Elt F) → (⟨S400x1, .i32⟩ : BufTy).Contents (Elt F) → (⟨S400x2, .i32⟩ : BufTy).Contents (Elt F)),
    StableHlo.binary main_arg2 main_v180 main_v181 ((fun x i => Host.gather gather_S12000x3_S400x2_S400_n_01_n_n_01_1_11 x i) : (⟨S12000x3, .i32⟩ : BufTy).Contents (Elt F) → (⟨S400x2, .i32⟩ : BufTy).Contents (Elt F) → (⟨S400, .i32⟩ : BufTy).Contents (Elt F)),
    StableHlo.nullary main_c_30 (constantI S_ 32 0#32),
    StableHlo.unary main_c_30 main_v182 (broadcastInDim S400 ![] bcast_S_S400 : (⟨S_, .i32⟩ : BufTy).Contents (Elt F) → (⟨S400, .i32⟩ : BufTy).Contents (Elt F)),
    StableHlo.binary main_arg5 main_v182 main_v183 (cmpi .slt : (⟨S400, .i32⟩ : BufTy).Contents (Elt F) → (⟨S400, .i32⟩ : BufTy).Contents (Elt F) → (⟨S400, .i1⟩ : BufTy).Contents (Elt F)),
    StableHlo.nullary main_c_31 (constantI S_ 32 3#32),
    StableHlo.unary main_c_31 main_v184 (broadcastInDim S400 ![] bcast_S_S400 : (⟨S_, .i32⟩ : BufTy).Contents (Elt F) → (⟨S400, .i32⟩ : BufTy).Contents (Elt F)),
    StableHlo.binary main_arg5 main_v184 main_v185 (addi : (⟨S400, .i32⟩ : BufTy).Contents (Elt F) → (⟨S400, .i32⟩ : BufTy).Contents (Elt F) → (⟨S400, .i32⟩ : BufTy).Contents (Elt F)),
    StableHlo.ternary main_v183 main_v185 main_arg5 main_v186 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v186 main_v187 (broadcastInDim S400x1 ![0] bcast_S400_S400x1_0 : (⟨S400, .i32⟩ : BufTy).Contents (Elt F) → (⟨S400x1, .i32⟩ : BufTy).Contents (Elt F)),
    StableHlo.binary main_c main_v187 main_v188 ((fun x i => Host.gather gather_S3_S400x1_S400_n_0_n_n_0_1_1 x i) : (⟨S3, .i32⟩ : BufTy).Contents (Elt F) → (⟨S400x1, .i32⟩ : BufTy).Contents (Elt F) → (⟨S400, .i32⟩ : BufTy).Contents (Elt F)),
    StableHlo.nullary main_c_32 (constantI S_ 32 0#32),
    StableHlo.unary main_c_32 main_v189 (broadcastInDim S400 ![] bcast_S_S400 : (⟨S_, .i32⟩ : BufTy).Contents (Elt F) → (⟨S400, .i32⟩ : BufTy).Contents (Elt F)),
    StableHlo.binary main_arg4 main_v189 main_v190 (cmpi .slt : (⟨S400, .i32⟩ : BufTy).Contents (Elt F) → (⟨S400, .i32⟩ : BufTy).Contents (Elt F) → (⟨S400, .i1⟩ : BufTy).Contents (Elt F)),
    StableHlo.nullary main_c_33 (constantI S_ 32 12000#32),
    StableHlo.unary main_c_33 main_v191 (broadcastInDim S400 ![] bcast_S_S400 : (⟨S_, .i32⟩ : BufTy).Contents (Elt F) → (⟨S400, .i32⟩ : BufTy).Contents (Elt F)),
    StableHlo.binary main_arg4 main_v191 main_v192 (addi : (⟨S400, .i32⟩ : BufTy).Contents (Elt F) → (⟨S400, .i32⟩ : BufTy).Contents (Elt F) → (⟨S400, .i32⟩ : BufTy).Contents (Elt F)),
    StableHlo.ternary main_v190 main_v192 main_arg4 main_v193 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.nullary main_c_34 (constantI S_ 32 0#32),
    StableHlo.unary main_c_34 main_v194 (broadcastInDim S400 ![] bcast_S_S400 : (⟨S_, .i32⟩ : BufTy).Contents (Elt F) → (⟨S400, .i32⟩ : BufTy).Contents (Elt F)),
    StableHlo.binary main_v188 main_v194 main_v195 (cmpi .slt : (⟨S400, .i32⟩ : BufTy).Contents (Elt F) → (⟨S400, .i32⟩ : BufTy).Contents (Elt F) → (⟨S400, .i1⟩ : BufTy).Contents (Elt F)),
    StableHlo.nullary main_c_35 (constantI S_ 32 3#32),
    StableHlo.unary main_c_35 main_v196 (broadcastInDim S400 ![] bcast_S_S400 : (⟨S_, .i32⟩ : BufTy).Contents (Elt F) → (⟨S400, .i32⟩ : BufTy).Contents (Elt F)),
    StableHlo.binary main_v188 main_v196 main_v197 (addi : (⟨S400, .i32⟩ : BufTy).Contents (Elt F) → (⟨S400, .i32⟩ : BufTy).Contents (Elt F) → (⟨S400, .i32⟩ : BufTy).Contents (Elt F)),
    StableHlo.ternary main_v195 main_v197 main_v188 main_v198 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v193 main_v199 (broadcastInDim S400x1 ![0] bcast_S400_S400x1_0 : (⟨S400, .i32⟩ : BufTy).Contents (Elt F) → (⟨S400x1, .i32⟩ : BufTy).Contents (Elt F)),
    StableHlo.unary main_v198 main_v200 (broadcastInDim S400x1 ![0] bcast_S400_S400x1_0 : (⟨S400, .i32⟩ : BufTy).Contents (Elt F) → (⟨S400x1, .i32⟩ : BufTy).Contents (Elt F)),
    StableHlo.binary main_v199 main_v200 main_v201 ((fun a b => concatenate S400x2 1 [⟨S400x1, a⟩, ⟨S400x1, b⟩] concatenates_S400x1_S400x1_S400x2_d1) : (⟨S400x1, .i32⟩ : BufTy).Contents (Elt F) → (⟨S400x1, .i32⟩ : BufTy).Contents (Elt F) → (⟨S400x2, .i32⟩ : BufTy).Contents (Elt F)) ]

theorem main_part3_eq (c : Dev nD) : main_part3 (F := F) c = seq ops3 := rfl

theorem ops3_sub : (ops3 : List (HloOp τ sig (Elt F))).Forall fun op => op.bufs ⊆ tcRefs τ sig :=
  ⟨unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising3 : Rising 194 254 (ops3 : List (HloOp τ sig (Elt F))) := by rising_line

/-- @main's statements 241 … 300, in order: they write the buffers of ranks 254 … 313. -/
abbrev ops4 : List (HloOp τ sig (Elt F)) :=
  [ StableHlo.binary main_arg2 main_v201 main_v202 ((fun x i => Host.gather gather_S12000x3_S400x2_S400_n_01_n_n_01_1_11 x i) : (⟨S12000x3, .i32⟩ : BufTy).Contents (Elt F) → (⟨S400x2, .i32⟩ : BufTy).Contents (Elt F) → (⟨S400, .i32⟩ : BufTy).Contents (Elt F)),
    StableHlo.nullary main_c_36 (constantI S_ 32 0#32),
    StableHlo.unary main_c_36 main_v203 (broadcastInDim S400 ![] bcast_S_S400 : (⟨S_, .i32⟩ : BufTy).Contents (Elt F) → (⟨S400, .i32⟩ : BufTy).Contents (Elt F)),
    StableHlo.binary main_v181 main_v203 main_v204 (cmpi .slt : (⟨S400, .i32⟩ : BufTy).Contents (Elt F) → (⟨S400, .i32⟩ : BufTy).Contents (Elt F) → (⟨S400, .i1⟩ : BufTy).Contents (Elt F)),
    StableHlo.nullary main_c_37 (constantI S_ 32 6000#32),
    StableHlo.unary main_c_37 main_v205 (broadcastInDim S400 ![] bcast_S_S400 : (⟨S_, .i32⟩ : BufTy).Contents (Elt F) → (⟨S400, .i32⟩ : BufTy).Contents (Elt F)),
    StableHlo.binary main_v181 main_v205 main_v206 (addi : (⟨S400, .i32⟩ : BufTy).Contents (Elt F) → (⟨S400, .i32⟩ : BufTy).Contents (Elt F) → (⟨S400, .i32⟩ : BufTy).Contents (Elt F)),
    StableHlo.ternary main_v204 main_v206 main_v181 main_v207 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v207 main_v208 (broadcastInDim S400x1 ![0] bcast_S400_S400x1_0 : (⟨S400, .i32⟩ : BufTy).Contents (Elt F) → (⟨S400x1, .i32⟩ : BufTy).Contents (Elt F)),
    StableHlo.binary main_arg0 main_v208 main_v209 ((fun x i => Host.gather gather_S6000_S400x1_S400_n_0_n_n_0_1_1 x i) : (⟨S6000, .f32⟩ : BufTy).Contents (Elt F) → (⟨S400x1, .i32⟩ : BufTy).Contents (Elt F) → (⟨S400, .f32⟩ : BufTy).Contents (Elt F)),
    StableHlo.nullary main_c_38 (constantI S_ 32 0#32),
    StableHlo.unary main_c_38 main_v210 (broadcastInDim S400 ![] bcast_S_S400 : (⟨S_, .i32⟩ : BufTy).Contents (Elt F) → (⟨S400, .i32⟩ : BufTy).Contents (Elt F)),
    StableHlo.binary main_v202 main_v210 main_v211 (cmpi .slt : (⟨S400, .i32⟩ : BufTy).Contents (Elt F) → (⟨S400, .i32⟩ : BufTy).Contents (Elt F) → (⟨S400, .i1⟩ : BufTy).Contents (Elt F)),
    StableHlo.nullary main_c_39 (constantI S_ 32 6000#32),
    StableHlo.unary main_c_39 main_v212 (broadcastInDim S400 ![] bcast_S_S400 : (⟨S_, .i32⟩ : BufTy).Contents (Elt F) → (⟨S400, .i32⟩ : BufTy).Contents (Elt F)),
    StableHlo.binary main_v202 main_v212 main_v213 (addi : (⟨S400, .i32⟩ : BufTy).Contents (Elt F) → (⟨S400, .i32⟩ : BufTy).Contents (Elt F) → (⟨S400, .i32⟩ : BufTy).Contents (Elt F)),
    StableHlo.ternary main_v211 main_v213 main_v202 main_v214 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v214 main_v215 (broadcastInDim S400x1 ![0] bcast_S400_S400x1_0 : (⟨S400, .i32⟩ : BufTy).Contents (Elt F) → (⟨S400x1, .i32⟩ : BufTy).Contents (Elt F)),
    StableHlo.binary main_arg0 main_v215 main_v216 ((fun x i => Host.gather gather_S6000_S400x1_S400_n_0_n_n_0_1_1 x i) : (⟨S6000, .f32⟩ : BufTy).Contents (Elt F) → (⟨S400x1, .i32⟩ : BufTy).Contents (Elt F) → (⟨S400, .f32⟩ : BufTy).Contents (Elt F)),
    StableHlo.binary main_v209 main_v216 main_v217 (subf : (⟨S400, .f32⟩ : BufTy).Contents (Elt F) → (⟨S400, .f32⟩ : BufTy).Contents (Elt F) → (⟨S400, .f32⟩ : BufTy).Contents (Elt F)),
    StableHlo.nullary main_c_40 (constantI S_ 32 0#32),
    StableHlo.unary main_c_40 main_v218 (broadcastInDim S400 ![] bcast_S_S400 : (⟨S_, .i32⟩ : BufTy).Contents (Elt F) → (⟨S400, .i32⟩ : BufTy).Contents (Elt F)),
    StableHlo.binary main_v181 main_v218 main_v219 (cmpi .slt : (⟨S400, .i32⟩ : BufTy).Contents (Elt F) → (⟨S400, .i32⟩ : BufTy).Contents (Elt F) → (⟨S400, .i1⟩ : BufTy).Contents (Elt F)),
    StableHlo.nullary main_c_41 (constantI S_ 32 6000#32),
    StableHlo.unary main_c_41 main_v220 (broadcastInDim S400 ![] bcast_S_S400 : (⟨S_, .i32⟩ : BufTy).Contents (Elt F) → (⟨S400, .i32⟩ : BufTy).Contents (Elt F)),
    StableHlo.binary main_v181 main_v220 main_v221 (addi : (⟨S400, .i32⟩ : BufTy).Contents (Elt F) → (⟨S400, .i32⟩ : BufTy).Contents (Elt F) → (⟨S400, .i32⟩ : BufTy).Contents (Elt F)),
    StableHlo.ternary main_v219 main_v221 main_v181 main_v222 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v222 main_v223 (broadcastInDim S400x1 ![0] bcast_S400_S400x1_0 : (⟨S400, .i32⟩ : BufTy).Contents (Elt F) → (⟨S400x1, .i32⟩ : BufTy).Contents (Elt F)),
    StableHlo.binary main_arg1 main_v223 main_v224 ((fun x i => Host.gather gather_S6000_S400x1_S400_n_0_n_n_0_1_1 x i) : (⟨S6000, .f32⟩ : BufTy).Contents (Elt F) → (⟨S400x1, .i32⟩ : BufTy).Contents (Elt F) → (⟨S400, .f32⟩ : BufTy).Contents (Elt F)),
    StableHlo.nullary main_c_42 (constantI S_ 32 0#32),
    StableHlo.unary main_c_42 main_v225 (broadcastInDim S400 ![] bcast_S_S400 : (⟨S_, .i32⟩ : BufTy).Contents (Elt F) → (⟨S400, .i32⟩ : BufTy).Contents (Elt F)),
    StableHlo.binary main_v202 main_v225 main_v226 (cmpi .slt : (⟨S400, .i32⟩ : BufTy).Contents (Elt F) → (⟨S400, .i32⟩ : BufTy).Contents (Elt F) → (⟨S400, .i1⟩ : BufTy).Contents (Elt F)),
    StableHlo.nullary main_c_43 (constantI S_ 32 6000#32),
    StableHlo.unary main_c_43 main_v227 (broadcastInDim S400 ![] bcast_S_S400 : (⟨S_, .i32⟩ : BufTy).Contents (Elt F) → (⟨S400, .i32⟩ : BufTy).Contents (Elt F)),
    StableHlo.binary main_v202 main_v227 main_v228 (addi : (⟨S400, .i32⟩ : BufTy).Contents (Elt F) → (⟨S400, .i32⟩ : BufTy).Contents (Elt F) → (⟨S400, .i32⟩ : BufTy).Contents (Elt F)),
    StableHlo.ternary main_v226 main_v228 main_v202 main_v229 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    StableHlo.unary main_v229 main_v230 (broadcastInDim S400x1 ![0] bcast_S400_S400x1_0 : (⟨S400, .i32⟩ : BufTy).Contents (Elt F) → (⟨S400x1, .i32⟩ : BufTy).Contents (Elt F)),
    StableHlo.binary main_arg1 main_v230 main_v231 ((fun x i => Host.gather gather_S6000_S400x1_S400_n_0_n_n_0_1_1 x i) : (⟨S6000, .f32⟩ : BufTy).Contents (Elt F) → (⟨S400x1, .i32⟩ : BufTy).Contents (Elt F) → (⟨S400, .f32⟩ : BufTy).Contents (Elt F)),
    StableHlo.binary main_v224 main_v231 main_v232 (subf : (⟨S400, .f32⟩ : BufTy).Contents (Elt F) → (⟨S400, .f32⟩ : BufTy).Contents (Elt F) → (⟨S400, .f32⟩ : BufTy).Contents (Elt F)),
    StableHlo.binary main_v217 main_v217 main_v233 (mulf : (⟨S400, .f32⟩ : BufTy).Contents (Elt F) → (⟨S400, .f32⟩ : BufTy).Contents (Elt F) → (⟨S400, .f32⟩ : BufTy).Contents (Elt F)),
    StableHlo.binary main_v232 main_v232 main_v234 (mulf : (⟨S400, .f32⟩ : BufTy).Contents (Elt F) → (⟨S400, .f32⟩ : BufTy).Contents (Elt F) → (⟨S400, .f32⟩ : BufTy).Contents (Elt F)),
    StableHlo.binary main_v233 main_v234 main_v235 (addf : (⟨S400, .f32⟩ : BufTy).Contents (Elt F) → (⟨S400, .f32⟩ : BufTy).Contents (Elt F) → (⟨S400, .f32⟩ : BufTy).Contents (Elt F)),
    StableHlo.unary main_v235 main_v236 (Host.sqrt : (⟨S400, .f32⟩ : BufTy).Contents (Elt F) → (⟨S400, .f32⟩ : BufTy).Contents (Elt F)),
    StableHlo.nullary main_cst_44 (constant S_ .f32 0x3F000000#32),
    StableHlo.unary main_cst_44 main_v237 (broadcastInDim S400 ![] bcast_S_S400 : (⟨S_, .f32⟩ : BufTy).Contents (Elt F) → (⟨S400, .f32⟩ : BufTy).Contents (Elt F)),
    StableHlo.binary main_v237 main_v236 main_v238 (mulf : (⟨S400, .f32⟩ : BufTy).Contents (Elt F) → (⟨S400, .f32⟩ : BufTy).Contents (Elt F) → (⟨S400, .f32⟩ : BufTy).Contents (Elt F)),
    StableHlo.nullary main_c_45 (constantI S_ 32 2#32),
    StableHlo.unary main_c_45 main_v239 (broadcastInDim S400 ![] bcast_S_S400 : (⟨S_, .i32⟩ : BufTy).Contents (Elt F) → (⟨S400, .i32⟩ : BufTy).Contents (Elt F)),
    StableHlo.binary main_v239 main_v181 main_v240 (muli : (⟨S400, .i32⟩ : BufTy).Contents (Elt F) → (⟨S400, .i32⟩ : BufTy).Contents (Elt F) → (⟨S400, .i32⟩ : BufTy).Contents (Elt F)),
    StableHlo.nullary main_c_46 (constantI S_ 32 2#32),
    StableHlo.unary main_c_46 main_v241 (broadcastInDim S400 ![] bcast_S_S400 : (⟨S_, .i32⟩ : BufTy).Contents (Elt F) → (⟨S400, .i32⟩ : BufTy).Contents (Elt F)),
    StableHlo.binary main_v241 main_v181 main_v242 (muli : (⟨S400, .i32⟩ : BufTy).Contents (Elt F) → (⟨S400, .i32⟩ : BufTy).Contents (Elt F) → (⟨S400, .i32⟩ : BufTy).Contents (Elt F)),
    StableHlo.nullary main_c_47 (constantI S_ 32 1#32),
    StableHlo.unary main_c_47 main_v243 (broadcastInDim S400 ![] bcast_S_S400 : (⟨S_, .i32⟩ : BufTy).Contents (Elt F) → (⟨S400, .i32⟩ : BufTy).Contents (Elt F)),
    StableHlo.binary main_v242 main_v243 main_v244 (addi : (⟨S400, .i32⟩ : BufTy).Contents (Elt F) → (⟨S400, .i32⟩ : BufTy).Contents (Elt F) → (⟨S400, .i32⟩ : BufTy).Contents (Elt F)),
    StableHlo.nullary main_c_48 (constantI S_ 32 2#32),
    StableHlo.unary main_c_48 main_v245 (broadcastInDim S400 ![] bcast_S_S400 : (⟨S_, .i32⟩ : BufTy).Contents (Elt F) → (⟨S400, .i32⟩ : BufTy).Contents (Elt F)),
    StableHlo.binary main_v245 main_v202 main_v246 (muli : (⟨S400, .i32⟩ : BufTy).Contents (Elt F) → (⟨S400, .i32⟩ : BufTy).Contents (Elt F) → (⟨S400, .i32⟩ : BufTy).Contents (Elt F)),
    StableHlo.nullary main_c_49 (constantI S_ 32 2#32),
    StableHlo.unary main_c_49 main_v247 (broadcastInDim S400 ![] bcast_S_S400 : (⟨S_, .i32⟩ : BufTy).Contents (Elt F) → (⟨S400, .i32⟩ : BufTy).Contents (Elt F)) ]

theorem main_part4_eq (c : Dev nD) : main_part4 (F := F) c = seq ops4 := rfl

theorem ops4_sub : (ops4 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising4 : Rising 254 314 (ops4 : List (HloOp τ sig (Elt F))) := by rising_line

/-- @main's statements 301 … 360, in order: they write the buffers of ranks 314 … 373. -/
abbrev ops5 : List (HloOp τ sig (Elt F)) :=
  [ StableHlo.binary main_v247 main_v202 main_v248 (muli : (⟨S400, .i32⟩ : BufTy).Contents (Elt F) → (⟨S400, .i32⟩ : BufTy).Contents (Elt F) → (⟨S400, .i32⟩ : BufTy).Contents (Elt F)),
    StableHlo.nullary main_c_50 (constantI S_ 32 1#32),
    StableHlo.unary main_c_50 main_v249 (broadcastInDim S400 ![] bcast_S_S400 : (⟨S_, .i32⟩ : BufTy).Contents (Elt F) → (⟨S400, .i32⟩ : BufTy).Contents (Elt F)),
    StableHlo.binary main_v248 main_v249 main_v250 (addi : (⟨S400, .i32⟩ : BufTy).Contents (Elt F) → (⟨S400, .i32⟩ : BufTy).Contents (Elt F) → (⟨S400, .i32⟩ : BufTy).Contents (Elt F)),
    StableHlo.unary main_v240 main_v251 (broadcastInDim S400x1 ![0] bcast_S400_S400x1_0 : (⟨S400, .i32⟩ : BufTy).Contents (Elt F) → (⟨S400x1, .i32⟩ : BufTy).Contents (Elt F)),
    StableHlo.unary main_v244 main_v252 (broadcastInDim S400x1 ![0] bcast_S400_S400x1_0 : (⟨S400, .i32⟩ : BufTy).Contents (Elt F) → (⟨S400x1, .i32⟩ : BufTy).Contents (Elt F)),
    StableHlo.unary main_v246 main_v253 (broadcastInDim S400x1 ![0] bcast_S400_S400x1_0 : (⟨S400, .i32⟩ : BufTy).Contents (Elt F) → (⟨S400x1, .i32⟩ : BufTy).Contents (Elt F)),
    StableHlo.unary main_v250 main_v254 (broadcastInDim S400x1 ![0] bcast_S400_S400x1_0 : (⟨S400, .i32⟩ : BufTy).Contents (Elt F) → (⟨S400x1, .i32⟩ : BufTy).Contents (Elt F)),
    StableHlo.nary ![main_v251, main_v252, main_v253, main_v254] main_v255 (fun u => concatenate S400x4 1 [⟨S400x1, u 0⟩, ⟨S400x1, u 1⟩, ⟨S400x1, u 2⟩, ⟨S400x1, u 3⟩] concatenates_S400x1_S400x1_S400x1_S400x1_S400x4_d1),
    StableHlo.unary main_arg6 main_v256 (broadcastInDim S400x1 ![0] bcast_S400_S400x1_0 : (⟨S400, .f32⟩ : BufTy).Contents (Elt F) → (⟨S400x1, .f32⟩ : BufTy).Contents (Elt F)),
    StableHlo.unary main_arg7 main_v257 (broadcastInDim S400x1 ![0] bcast_S400_S400x1_0 : (⟨S400, .f32⟩ : BufTy).Contents (Elt F) → (⟨S400x1, .f32⟩ : BufTy).Contents (Elt F)),
    StableHlo.unary main_arg6 main_v258 (broadcastInDim S400x1 ![0] bcast_S400_S400x1_0 : (⟨S400, .f32⟩ : BufTy).Contents (Elt F) → (⟨S400x1, .f32⟩ : BufTy).Contents (Elt F)),
    StableHlo.unary main_arg7 main_v259 (broadcastInDim S400x1 ![0] bcast_S400_S400x1_0 : (⟨S400, .f32⟩ : BufTy).Contents (Elt F) → (⟨S400x1, .f32⟩ : BufTy).Contents (Elt F)),
    StableHlo.nary ![main_v256, main_v257, main_v258, main_v259] main_v260 (fun u => concatenate S400x4 1 [⟨S400x1, u 0⟩, ⟨S400x1, u 1⟩, ⟨S400x1, u 2⟩, ⟨S400x1, u 3⟩] concatenates_S400x1_S400x1_S400x1_S400x1_S400x4_d1),
    StableHlo.unary main_v238 main_v261 (broadcastInDim S400x1 ![0] bcast_S400_S400x1_0 : (⟨S400, .f32⟩ : BufTy).Contents (Elt F) → (⟨S400x1, .f32⟩ : BufTy).Contents (Elt F)),
    StableHlo.unary main_v261 main_v262 (broadcastInDim S400x4 ![0, 1] bcast_S400x1_S400x4_0_1 : (⟨S400x1, .f32⟩ : BufTy).Contents (Elt F) → (⟨S400x4, .f32⟩ : BufTy).Contents (Elt F)),
    StableHlo.binary main_v260 main_v262 main_v263 (mulf : (⟨S400x4, .f32⟩ : BufTy).Contents (Elt F) → (⟨S400x4, .f32⟩ : BufTy).Contents (Elt F) → (⟨S400x4, .f32⟩ : BufTy).Contents (Elt F)),
    StableHlo.nullary main_cst_51 (constant S_ .f32 0x00000000#32),
    StableHlo.unary main_cst_51 main_v264 (broadcastInDim S12000 ![] bcast_S_S12000 : (⟨S_, .f32⟩ : BufTy).Contents (Elt F) → (⟨S12000, .f32⟩ : BufTy).Contents (Elt F)),
    StableHlo.nullary main_c_52 (constantI S_ 32 0#32),
    StableHlo.unary main_c_52 main_v265 (broadcastInDim S400x4 ![] bcast_S_S400x4 : (⟨S_, .i32⟩ : BufTy).Contents (Elt F) → (⟨S400x4, .i32⟩ : BufTy).Contents (Elt F)),
    StableHlo.binary main_v255 main_v265 main_v266 (cmpi .slt : (⟨S400x4, .i32⟩ : BufTy).Contents (Elt F) → (⟨S400x4, .i32⟩ : BufTy).Contents (Elt F) → (⟨S400x4, .i1⟩ : BufTy).Contents (Elt F)),
    StableHlo.nullary main_c_53 (constantI S_ 32 12000#32),
    StableHlo.unary main_c_53 main_v267 (broadcastInDim S400x4 ![] bcast_S_S400x4 : (⟨S_, .i32⟩ : BufTy).Contents (Elt F) → (⟨S400x4, .i32⟩ : BufTy).Contents (Elt F)),
    StableHlo.binary main_v255 main_v267 main_v268 (addi : (⟨S400x4, .i32⟩ : BufTy).Contents (Elt F) → (⟨S400x4, .i32⟩ : BufTy).Contents (Elt F) → (⟨S400x4, .i32⟩ : BufTy).Contents (Elt F)),
    StableHlo.ternary main_v266 main_v268 main_v255 main_v269 (select : (⟨S400x4, .i1⟩ : BufTy).Contents (Elt F) → (⟨S400x4, .i32⟩ : BufTy).Contents (Elt F) → (⟨S400x4, .i32⟩ : BufTy).Contents (Elt F) → (⟨S400x4, .i32⟩ : BufTy).Contents (Elt F)),
    StableHlo.unary main_v269 main_v270 (broadcastInDim S400x4x1 ![0, 1] bcast_S400x4_S400x4x1_0_1 : (⟨S400x4, .i32⟩ : BufTy).Contents (Elt F) → (⟨S400x4x1, .i32⟩ : BufTy).Contents (Elt F)),
    StableHlo.ternary main_v264 main_v270 main_v263 main_v271 ((fun x i u => Host.scatterAdd scatter_S12000_S400x4x1_S400x4_n_0_0_2 x i u) : (⟨S12000, .f32⟩ : BufTy).Contents (Elt F) → (⟨S400x4x1, .i32⟩ : BufTy).Contents (Elt F) → (⟨S400x4, .f32⟩ : BufTy).Contents (Elt F) → (⟨S12000, .f32⟩ : BufTy).Contents (Elt F)),
    StableHlo.nullary main_c_54 (constantI S_ 32 2#32),
    StableHlo.unary main_c_54 main_v272 (broadcastInDim S200 ![] bcast_S_S200 : (⟨S_, .i32⟩ : BufTy).Contents (Elt F) → (⟨S200, .i32⟩ : BufTy).Contents (Elt F)),
    StableHlo.binary main_v272 main_arg8 main_v273 (muli : (⟨S200, .i32⟩ : BufTy).Contents (Elt F) → (⟨S200, .i32⟩ : BufTy).Contents (Elt F) → (⟨S200, .i32⟩ : BufTy).Contents (Elt F)),
    StableHlo.binary main_v273 main_arg9 main_v274 (addi : (⟨S200, .i32⟩ : BufTy).Contents (Elt F) → (⟨S200, .i32⟩ : BufTy).Contents (Elt F) → (⟨S200, .i32⟩ : BufTy).Contents (Elt F)),
    StableHlo.nullary main_cst_55 (constant S_ .f32 0x00000000#32),
    StableHlo.unary main_cst_55 main_v275 (broadcastInDim S12000 ![] bcast_S_S12000 : (⟨S_, .f32⟩ : BufTy).Contents (Elt F) → (⟨S12000, .f32⟩ : BufTy).Contents (Elt F)),
    StableHlo.nullary main_c_56 (constantI S_ 32 0#32),
    StableHlo.unary main_c_56 main_v276 (broadcastInDim S200 ![] bcast_S_S200 : (⟨S_, .i32⟩ : BufTy).Contents (Elt F) → (⟨S200, .i32⟩ : BufTy).Contents (Elt F)),
    StableHlo.binary main_v274 main_v276 main_v277 (cmpi .slt : (⟨S200, .i32⟩ : BufTy).Contents (Elt F) → (⟨S200, .i32⟩ : BufTy).Contents (Elt F) → (⟨S200, .i1⟩ : BufTy).Contents (Elt F)),
    StableHlo.nullary main_c_57 (constantI S_ 32 12000#32),
    StableHlo.unary main_c_57 main_v278 (broadcastInDim S200 ![] bcast_S_S200 : (⟨S_, .i32⟩ : BufTy).Contents (Elt F) → (⟨S200, .i32⟩ : BufTy).Contents (Elt F)),
    StableHlo.binary main_v274 main_v278 main_v279 (addi : (⟨S200, .i32⟩ : BufTy).Contents (Elt F) → (⟨S200, .i32⟩ : BufTy).Contents (Elt F) → (⟨S200, .i32⟩ : BufTy).Contents (Elt F)),
    StableHlo.ternary main_v277 main_v279 main_v274 main_v280 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.unary main_v280 main_v281 (broadcastInDim S200x1 ![0] bcast_S200_S200x1_0 : (⟨S200, .i32⟩ : BufTy).Contents (Elt F) → (⟨S200x1, .i32⟩ : BufTy).Contents (Elt F)),
    StableHlo.nullary main_cst_58 (constant S_ .f32 0x3F800000#32),
    StableHlo.unary main_cst_58 main_v282 (broadcastInDim S200 ![] bcast_S_S200 : (⟨S_, .f32⟩ : BufTy).Contents (Elt F) → (⟨S200, .f32⟩ : BufTy).Contents (Elt F)),
    StableHlo.ternary main_v275 main_v281 main_v282 main_v283 ((fun x i u => Host.scatter scatter_S12000_S200x1_S200_n_0_0_1 (fun _ b => b) x i u) : (⟨S12000, .f32⟩ : BufTy).Contents (Elt F) → (⟨S200x1, .i32⟩ : BufTy).Contents (Elt F) → (⟨S200, .f32⟩ : BufTy).Contents (Elt F) → (⟨S12000, .f32⟩ : BufTy).Contents (Elt F)),
    StableHlo.nullary main_cst_59 (constant S_ .f32 0x3F800000#32),
    StableHlo.unary main_cst_59 main_v284 (broadcastInDim S12000 ![] bcast_S_S12000 : (⟨S_, .f32⟩ : BufTy).Contents (Elt F) → (⟨S12000, .f32⟩ : BufTy).Contents (Elt F)),
    StableHlo.binary main_v284 main_v283 main_v285 (subf : (⟨S12000, .f32⟩ : BufTy).Contents (Elt F) → (⟨S12000, .f32⟩ : BufTy).Contents (Elt F) → (⟨S12000, .f32⟩ : BufTy).Contents (Elt F)),
    StableHlo.unary main_v285 main_v286 (broadcastInDim S12000x1 ![0] bcast_S12000_S12000x1_0 : (⟨S12000, .f32⟩ : BufTy).Contents (Elt F) → (⟨S12000x1, .f32⟩ : BufTy).Contents (Elt F)),
    StableHlo.unary main_v286 main_v287 (broadcastInDim S12000x12000 ![0, 1] bcast_S12000x1_S12000x12000_0_1 : (⟨S12000x1, .f32⟩ : BufTy).Contents (Elt F) → (⟨S12000x12000, .f32⟩ : BufTy).Contents (Elt F)),
    StableHlo.binary main_v167 main_v287 main_v288 (mulf : (⟨S12000x12000, .f32⟩ : BufTy).Contents (Elt F) → (⟨S12000x12000, .f32⟩ : BufTy).Contents (Elt F) → (⟨S12000x12000, .f32⟩ : BufTy).Contents (Elt F)),
    StableHlo.nullary main_c_60 (constantI S_ 32 0#32),
    StableHlo.unary main_c_60 main_v289 (broadcastInDim S200 ![] bcast_S_S200 : (⟨S_, .i32⟩ : BufTy).Contents (Elt F) → (⟨S200, .i32⟩ : BufTy).Contents (Elt F)),
    StableHlo.binary main_v274 main_v289 main_v290 (cmpi .slt : (⟨S200, .i32⟩ : BufTy).Contents (Elt F) → (⟨S200, .i32⟩ : BufTy).Contents (Elt F) → (⟨S200, .i1⟩ : BufTy).Contents (Elt F)),
    StableHlo.nullary main_c_61 (constantI S_ 32 12000#32),
    StableHlo.unary main_c_61 main_v291 (broadcastInDim S200 ![] bcast_S_S200 : (⟨S_, .i32⟩ : BufTy).Contents (Elt F) → (⟨S200, .i32⟩ : BufTy).Contents (Elt F)),
    StableHlo.binary main_v274 main_v291 main_v292 (addi : (⟨S200, .i32⟩ : BufTy).Contents (Elt F) → (⟨S200, .i32⟩ : BufTy).Contents (Elt F) → (⟨S200, .i32⟩ : BufTy).Contents (Elt F)),
    StableHlo.ternary main_v290 main_v292 main_v274 main_v293 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.nullary main_c_62 (constantI S_ 32 0#32),
    StableHlo.unary main_c_62 main_v294 (broadcastInDim S200 ![] bcast_S_S200 : (⟨S_, .i32⟩ : BufTy).Contents (Elt F) → (⟨S200, .i32⟩ : BufTy).Contents (Elt F)) ]

theorem main_part5_eq (c : Dev nD) : main_part5 (F := F) c = seq ops5 := rfl

theorem ops5_sub : (ops5 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem rising5 : Rising 314 374 (ops5 : List (HloOp τ sig (Elt F))) := by rising_line

/-- @main's statements 361 … 382, in order: they write the buffers of ranks 374 … 394. -/
abbrev ops6 : List (HloOp τ sig (Elt F)) :=
  [ StableHlo.binary main_v274 main_v294 main_v295 (cmpi .slt : (⟨S200, .i32⟩ : BufTy).Contents (Elt F) → (⟨S200, .i32⟩ : BufTy).Contents (Elt F) → (⟨S200, .i1⟩ : BufTy).Contents (Elt F)),
    StableHlo.nullary main_c_63 (constantI S_ 32 12000#32),
    StableHlo.unary main_c_63 main_v296 (broadcastInDim S200 ![] bcast_S_S200 : (⟨S_, .i32⟩ : BufTy).Contents (Elt F) → (⟨S200, .i32⟩ : BufTy).Contents (Elt F)),
    StableHlo.binary main_v274 main_v296 main_v297 (addi : (⟨S200, .i32⟩ : BufTy).Contents (Elt F) → (⟨S200, .i32⟩ : BufTy).Contents (Elt F) → (⟨S200, .i32⟩ : BufTy).Contents (Elt F)),
    StableHlo.ternary main_v295 main_v297 main_v274 main_v298 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.unary main_v293 main_v299 (broadcastInDim S200x1 ![0] bcast_S200_S200x1_0 : (⟨S200, .i32⟩ : BufTy).Contents (Elt F) → (⟨S200x1, .i32⟩ : BufTy).Contents (Elt F)),
    StableHlo.unary main_v298 main_v300 (broadcastInDim S200x1 ![0] bcast_S200_S200x1_0 : (⟨S200, .i32⟩ : BufTy).Contents (Elt F) → (⟨S200x1, .i32⟩ : BufTy).Contents (Elt F)),
    StableHlo.binary main_v299 main_v300 main_v301 ((fun a b => concatenate S200x2 1 [⟨S200x1, a⟩, ⟨S200x1, b⟩] concatenates_S200x1_S200x1_S200x2_d1) : (⟨S200x1, .i32⟩ : BufTy).Contents (Elt F) → (⟨S200x1, .i32⟩ : BufTy).Contents (Elt F) → (⟨S200x2, .i32⟩ : BufTy).Contents (Elt F)),
    StableHlo.nullary main_cst_64 (constant S_ .f32 0x3F800000#32),
    StableHlo.unary main_cst_64 main_v302 (broadcastInDim S200 ![] bcast_S_S200 : (⟨S_, .f32⟩ : BufTy).Contents (Elt F) → (⟨S200, .f32⟩ : BufTy).Contents (Elt F)),
    StableHlo.ternary main_v288 main_v301 main_v302 main_v303 ((fun x i u => Host.scatter scatter_S12000x12000_S200x2_S200_n_01_01_1 (fun _ b => b) x i u) : (⟨S12000x12000, .f32⟩ : BufTy).Contents (Elt F) → (⟨S200x2, .i32⟩ : BufTy).Contents (Elt F) → (⟨S200, .f32⟩ : BufTy).Contents (Elt F) → (⟨S12000x12000, .f32⟩ : BufTy).Contents (Elt F)),
    StableHlo.nullary main_c_65 (constantI S_ 32 0#32),
    StableHlo.unary main_c_65 main_v304 (broadcastInDim S200 ![] bcast_S_S200 : (⟨S_, .i32⟩ : BufTy).Contents (Elt F) → (⟨S200, .i32⟩ : BufTy).Contents (Elt F)),
    StableHlo.binary main_v274 main_v304 main_v305 (cmpi .slt : (⟨S200, .i32⟩ : BufTy).Contents (Elt F) → (⟨S200, .i32⟩ : BufTy).Contents (Elt F) → (⟨S200, .i1⟩ : BufTy).Contents (Elt F)),
    StableHlo.nullary main_c_66 (constantI S_ 32 12000#32),
    StableHlo.unary main_c_66 main_v306 (broadcastInDim S200 ![] bcast_S_S200 : (⟨S_, .i32⟩ : BufTy).Contents (Elt F) → (⟨S200, .i32⟩ : BufTy).Contents (Elt F)),
    StableHlo.binary main_v274 main_v306 main_v307 (addi : (⟨S200, .i32⟩ : BufTy).Contents (Elt F) → (⟨S200, .i32⟩ : BufTy).Contents (Elt F) → (⟨S200, .i32⟩ : BufTy).Contents (Elt F)),
    StableHlo.ternary main_v305 main_v307 main_v274 main_v308 (select : (⟨S200, .i1⟩ : BufTy).Contents (Elt F) → (⟨S200, .i32⟩ : BufTy).Contents (Elt F) → (⟨S200, .i32⟩ : BufTy).Contents (Elt F) → (⟨S200, .i32⟩ : BufTy).Contents (Elt F)),
    StableHlo.unary main_v308 main_v309 (broadcastInDim S200x1 ![0] bcast_S200_S200x1_0 : (⟨S200, .i32⟩ : BufTy).Contents (Elt F) → (⟨S200x1, .i32⟩ : BufTy).Contents (Elt F)),
    StableHlo.ternary main_v271 main_v309 main_arg10 main_v310 ((fun x i u => Host.scatter scatter_S12000_S200x1_S200_n_0_0_1 (fun _ b => b) x i u) : (⟨S12000, .f32⟩ : BufTy).Contents (Elt F) → (⟨S200x1, .i32⟩ : BufTy).Contents (Elt F) → (⟨S200, .f32⟩ : BufTy).Contents (Elt F) → (⟨S12000, .f32⟩ : BufTy).Contents (Elt F)),
    StableHlo.unary main_v310 main_v311 (broadcastInDim S12000x1 ![0] bcast_S12000_S12000x1_0 : (⟨S12000, .f32⟩ : BufTy).Contents (Elt F) → (⟨S12000x1, .f32⟩ : BufTy).Contents (Elt F)) ]

theorem main_part6_eq (c : Dev nD) : main_part6 (F := F) c = seq ops6 := rfl

theorem ops6_sub : (ops6 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem rising6 : Rising 374 395 (ops6 : List (HloOp τ sig (Elt F))) := by rising_line

/-! ## @main as one line -/

/-- @main's 384 operations, in order (382 statements, the call counted as its four operations, the return as none). -/
abbrev ops : List (HloOp τ sig (Elt F)) :=
  ops0 ++ (ops1 ++ (ops2 ++ (ops3 ++ (ops4 ++ (ops5 ++ ops6)))))

/-- @main is the sequence of its operations: window by window, joined by `seq_append`. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, ops6_sub⟩⟩⟩⟩⟩⟩

/-- Every operation determines what it writes. -/
theorem ops_fresh : ∀ op ∈ (ops : List (HloOp τ sig (Elt F))), op.fresh = ∅ :=
  List.forall_iff_forall_mem.mp (List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, ops6_fresh⟩⟩⟩⟩⟩⟩)

/-- The whole line is in single-assignment order: operation k writes the buffer of rank 11 + k and touches none above it. -/
theorem rising : Rising 11 395 (ops : List (HloOp τ sig (Elt F))) :=
  Rising.append (Rising.append (Rising.append (Rising.append (Rising.append (Rising.append (rising6) rising5) rising4) rising3) rising2) rising1) rising0

/-! ## The run -/

/-- From any memory with zero counters, for any float values: every weakly fair execution of @main terminates, and on
    every device each buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (fun b => m (c, b)) (Proc.devRef .tc b) :=
  run_seq scopedRefs_eq scopedSems_eq defs main (fun _ => ops) main_eq (fun _ => ops_sub) m ρ (fun _ => ops_fresh)

/-! ## The arguments are kept: their ranks 0 … 10 lie below every rank the line writes -/

theorem kept_main_arg0 (m : (ℓ : Loc nD τ sig) → Buf (Elt F) ℓ) (c : Dev nD) :
    StableHlo.after ops (fun b => m (c, b)) (Proc.devRef .tc main_arg0) = m ((c.tc : Thread nD τ).loc main_arg0) :=
  Cert.LibSsaAfter.after_of_lt rising _ (by decide)

theorem kept_main_arg1 (m : (ℓ : Loc nD τ sig) → Buf (Elt F) ℓ) (c : Dev nD) :
    StableHlo.after ops (fun b => m (c, b)) (Proc.devRef .tc main_arg1) = m ((c.tc : Thread nD τ).loc main_arg1) :=
  Cert.LibSsaAfter.after_of_lt rising _ (by decide)

theorem kept_main_arg2 (m : (ℓ : Loc nD τ sig) → Buf (Elt F) ℓ) (c : Dev nD) :
    StableHlo.after ops (fun b => m (c, b)) (Proc.devRef .tc main_arg2) = m ((c.tc : Thread nD τ).loc main_arg2) :=
  Cert.LibSsaAfter.after_of_lt rising _ (by decide)

theorem kept_main_arg3 (m : (ℓ : Loc nD τ sig) → Buf (Elt F) ℓ) (c : Dev nD) :
    StableHlo.after ops (fun b => m (c, b)) (Proc.devRef .tc main_arg3) = m ((c.tc : Thread nD τ).loc main_arg3) :=
  Cert.LibSsaAfter.after_of_lt rising _ (by decide)

theorem kept_main_arg4 (m : (ℓ : Loc nD τ sig) → Buf (Elt F) ℓ) (c : Dev nD) :
    StableHlo.after ops (fun b => m (c, b)) (Proc.devRef .tc main_arg4) = m ((c.tc : Thread nD τ).loc main_arg4) :=
  Cert.LibSsaAfter.after_of_lt rising _ (by decide)

theorem kept_main_arg5 (m : (ℓ : Loc nD τ sig) → Buf (Elt F) ℓ) (c : Dev nD) :
    StableHlo.after ops (fun b => m (c, b)) (Proc.devRef .tc main_arg5) = m ((c.tc : Thread nD τ).loc main_arg5) :=
  Cert.LibSsaAfter.after_of_lt rising _ (by decide)

theorem kept_main_arg6 (m : (ℓ : Loc nD τ sig) → Buf (Elt F) ℓ) (c : Dev nD) :
    StableHlo.after ops (fun b => m (c, b)) (Proc.devRef .tc main_arg6) = m ((c.tc : Thread nD τ).loc main_arg6) :=
  Cert.LibSsaAfter.after_of_lt rising _ (by decide)

theorem kept_main_arg7 (m : (ℓ : Loc nD τ sig) → Buf (Elt F) ℓ) (c : Dev nD) :
    StableHlo.after ops (fun b => m (c, b)) (Proc.devRef .tc main_arg7) = m ((c.tc : Thread nD τ).loc main_arg7) :=
  Cert.LibSsaAfter.after_of_lt rising _ (by decide)

theorem kept_main_arg8 (m : (ℓ : Loc nD τ sig) → Buf (Elt F) ℓ) (c : Dev nD) :
    StableHlo.after ops (fun b => m (c, b)) (Proc.devRef .tc main_arg8) = m ((c.tc : Thread nD τ).loc main_arg8) :=
  Cert.LibSsaAfter.after_of_lt rising _ (by decide)

theorem kept_main_arg9 (m : (ℓ : Loc nD τ sig) → Buf (Elt F) ℓ) (c : Dev nD) :
    StableHlo.after ops (fun b => m (c, b)) (Proc.devRef .tc main_arg9) = m ((c.tc : Thread nD τ).loc main_arg9) :=
  Cert.LibSsaAfter.after_of_lt rising _ (by decide)

theorem kept_main_arg10 (m : (ℓ : Loc nD τ sig) → Buf (Elt F) ℓ) (c : Dev nD) :
    StableHlo.after ops (fun b => m (c, b)) (Proc.devRef .tc main_arg10) = m ((c.tc : Thread nD τ).loc main_arg10) :=
  Cert.LibSsaAfter.after_of_lt rising _ (by decide)

/-! ## The frame -/

/-- Every weakly fair execution of @main terminates without a fault, and its eleven argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
      ⟨(h c main_arg0).trans (kept_main_arg0 m c),
       (h c main_arg1).trans (kept_main_arg1 m c),
       (h c main_arg2).trans (kept_main_arg2 m c),
       (h c main_arg3).trans (kept_main_arg3 m c),
       (h c main_arg4).trans (kept_main_arg4 m c),
       (h c main_arg5).trans (kept_main_arg5 m c),
       (h c main_arg6).trans (kept_main_arg6 m c),
       (h c main_arg7).trans (kept_main_arg7 m c),
       (h c main_arg8).trans (kept_main_arg8 m c),
       (h c main_arg9).trans (kept_main_arg9 m c),
       (h c main_arg10).trans (kept_main_arg10 m c)⟩)
    (run_after m ρ)

end Cert.ReferenceIdeal.RefRun

end
-- ==== Proof.Assemble.lean ====
/-
  From equal final buffers to the algebraic conjunct.

  The kernel program's results are what its host operations after the region compute from the contents the region leaves;
  the reference's are what its host operations compute from the launch memory. If, for agreeing arguments under the
  precondition, the two matrices are equal and the two load vectors are equal, then the two runs end with equal results and
  unchanged arguments.
-/
import proofs.«145649_j20933670601054_2_alg».proof.Defs
import proofs.«145649_j20933670601054_2_alg».proof.Proof.Gen.Kernel
import proofs.«145649_j20933670601054_2_alg».proof.Proof.Gen.KernelIdeal
import proofs.«145649_j20933670601054_2_alg».proof.Proof.Gen.ReferenceIdeal
import proofs.«145649_j20933670601054_2_alg».proof.Proof.Gen.Pre_finite_inputs
import proofs.«145649_j20933670601054_2_alg».proof.Proof.KIFrame
import proofs.«145649_j20933670601054_2_alg».proof.Proof.RefRun

set_option maxRecDepth 16384

noncomputable section

namespace Cert.Alg

open Idealize.ShloMosaic Idealize.SL.Sem Idealize.ShloMosaic.StableHlo

/-- What the kernel program's buffers hold when its region has ended: the pipeline's arrays at what the region left, every
    other buffer at its contents on entry. -/
abbrev UK (m : (ℓ : Loc Cert.KernelIdeal.nD Cert.KernelIdeal.τ Cert.KernelIdeal.sig) → Buf (Elt Ideal) ℓ) (c : Dev Cert.KernelIdeal.nD) :
    Valuation Cert.KernelIdeal.τ Cert.KernelIdeal.sig (Elt Ideal) :=
  Pipeline.withArrays (Cert.KernelIdeal.cfgs 0).spec c (Cert.KernelIdeal.Hand.V0 m c)
    fun w => (Cert.KernelIdeal.Hand.dats m 0 c).arrAt w (Cert.KernelIdeal.cfgs 0).N

theorem afterTail_eq (m : (ℓ : Loc Cert.KernelIdeal.nD Cert.KernelIdeal.τ Cert.KernelIdeal.sig) → Buf (Elt Ideal) ℓ) (c : Dev Cert.KernelIdeal.nD)
    (b : Ref Cert.KernelIdeal.sig .tc) :
    Pipeline.afterTail₀ Cert.KernelIdeal.cfgs (Cert.KernelIdeal.Hand.dats m) 0 (Cert.KernelIdeal.Hand.V0 m) [Cert.KernelIdeal.Gen.hostOps1] c b
      = after (Cert.KernelIdeal.Gen.hostOps1 (F := Ideal)) (UK m c) (Proc.devRef .tc b) := by
  unfold Pipeline.afterTail₀
  simp only [List.flatten_cons, List.flatten_nil, List.append_nil]

/-- The two runs end with equal results as soon as the two final buffer pairs are equal functions of agreeing arguments. -/
theorem algebraic_of [hKernelIdeal : Cert.KernelIdeal.Facts] [hReferenceIdeal : Cert.ReferenceIdeal.Facts] [hPre_finite_inputs : Cert.Pre_finite_inputs.Facts]
    (H : ∀ (m : (ℓ : Loc Cert.KernelIdeal.nD Cert.KernelIdeal.τ Cert.KernelIdeal.sig) → Buf (Elt Ideal) ℓ)
        (m' : (ℓ : Loc Cert.ReferenceIdeal.nD Cert.ReferenceIdeal.τ Cert.ReferenceIdeal.sig) → Buf (Elt Ideal) ℓ) (c : Dev Cert.KernelIdeal.nD),
        Cert.Pre_KernelIdeal m →
        (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
        after (Cert.KernelIdeal.Gen.hostOps1 (F := Ideal)) (UK m c) (Proc.devRef .tc Cert.KernelIdeal.main_v139)
            = after (Cert.ReferenceIdeal.RefRun.ops (F := Ideal)) (fun b => m' (c, b)) (Proc.devRef .tc Cert.ReferenceIdeal.main_v303)
          ∧ after (Cert.KernelIdeal.Gen.hostOps1 (F := Ideal)) (UK m c) (Proc.devRef .tc Cert.KernelIdeal.main_v251)
            = after (Cert.ReferenceIdeal.RefRun.ops (F := Ideal)) (fun b => m' (c, b)) (Proc.devRef .tc Cert.ReferenceIdeal.main_v311)) :
    Cert.algebraic_KernelIdeal_ReferenceIdeal := by
  intro m g m' g' hpre hagree
  refine ⟨fun c => after (Cert.KernelIdeal.Gen.hostOps1 (F := Ideal)) (UK m c) (Proc.devRef .tc Cert.KernelIdeal.main_v139),
    fun c => after (Cert.KernelIdeal.Gen.hostOps1 (F := Ideal)) (UK m c) (Proc.devRef .tc Cert.KernelIdeal.main_v251), ?_, ?_⟩
  · refine (θ_run Cert.KernelIdeal.defs _ _).mono (fun r h c => ?_) (Cert.KernelIdeal.Hand.run_main (F := Ideal) m g)
    have hc := h c
    exact ⟨(hc.2 Cert.KernelIdeal.main_v139 (Pipeline.mem_restRefs_of _ (by decide) (by decide))).trans (afterTail_eq m c _),
      (hc.2 Cert.KernelIdeal.main_v251 (Pipeline.mem_restRefs_of _ (by decide) (by decide))).trans (afterTail_eq m c _),
      ((hc.2 Cert.KernelIdeal.main_arg0 (Pipeline.mem_restRefs_of _ (by decide) (by decide))).trans (Cert.KernelIdeal.Hand.W_main_arg0 m (Cert.KernelIdeal.Hand.dats m) c)),
      ((hc.2 Cert.KernelIdeal.main_arg1 (Pipeline.mem_restRefs_of _ (by decide) (by decide))).trans (Cert.KernelIdeal.Hand.W_main_arg1 m (Cert.KernelIdeal.Hand.dats m) c)),
      ((hc.2 Cert.KernelIdeal.main_arg2 (Pipeline.mem_restRefs_of _ (by decide) (by decide))).trans (Cert.KernelIdeal.Hand.W_main_arg2 m (Cert.KernelIdeal.Hand.dats m) c)),
      ((hc.2 Cert.KernelIdeal.main_arg3 (Pipeline.mem_restRefs_of _ (by decide) (by decide))).trans (Cert.KernelIdeal.Hand.W_main_arg3 m (Cert.KernelIdeal.Hand.dats m) c)),
      ((hc.2 Cert.KernelIdeal.main_arg4 (Pipeline.mem_restRefs_of _ (by decide) (by decide))).trans (Cert.KernelIdeal.Hand.W_main_arg4 m (Cert.KernelIdeal.Hand.dats m) c)),
      ((hc.2 Cert.KernelIdeal.main_arg5 (Pipeline.mem_restRefs_of _ (by decide) (by decide))).trans (Cert.KernelIdeal.Hand.W_main_arg5 m (Cert.KernelIdeal.Hand.dats m) c)),
      ((hc.2 Cert.KernelIdeal.main_arg6 (Pipeline.mem_restRefs_of _ (by decide) (by decide))).trans (Cert.KernelIdeal.Hand.W_main_arg6 m (Cert.KernelIdeal.Hand.dats m) c)),
      ((hc.2 Cert.KernelIdeal.main_arg7 (Pipeline.mem_restRefs_of _ (by decide) (by decide))).trans (Cert.KernelIdeal.Hand.W_main_arg7 m (Cert.KernelIdeal.Hand.dats m) c)),
      ((hc.2 Cert.KernelIdeal.main_arg8 (Pipeline.mem_restRefs_of _ (by decide) (by decide))).trans (Cert.KernelIdeal.Hand.W_main_arg8 m (Cert.KernelIdeal.Hand.dats m) c)),
      ((hc.2 Cert.KernelIdeal.main_arg9 (Pipeline.mem_restRefs_of _ (by decide) (by decide))).trans (Cert.KernelIdeal.Hand.W_main_arg9 m (Cert.KernelIdeal.Hand.dats m) c)),
      ((hc.2 Cert.KernelIdeal.main_arg10 (Pipeline.mem_restRefs_of _ (by decide) (by decide))).trans (Cert.KernelIdeal.Hand.W_main_arg10 m (Cert.KernelIdeal.Hand.dats m) c))⟩
  · refine (θ_run Cert.ReferenceIdeal.defs _ _).mono (fun r h c => ?_) (Cert.ReferenceIdeal.RefRun.run_after (F := Ideal) m' g')
    obtain ⟨h1, h2⟩ := H m m' c hpre (hagree c)
    exact ⟨(h c Cert.ReferenceIdeal.main_v303).trans h1.symm, (h c Cert.ReferenceIdeal.main_v311).trans h2.symm,
      (h c Cert.ReferenceIdeal.main_arg0).trans (Cert.ReferenceIdeal.RefRun.kept_main_arg0 m' c),
      (h c Cert.ReferenceIdeal.main_arg1).trans (Cert.ReferenceIdeal.RefRun.kept_main_arg1 m' c),
      (h c Cert.ReferenceIdeal.main_arg2).trans (Cert.ReferenceIdeal.RefRun.kept_main_arg2 m' c),
      (h c Cert.ReferenceIdeal.main_arg3).trans (Cert.ReferenceIdeal.RefRun.kept_main_arg3 m' c),
      (h c Cert.ReferenceIdeal.main_arg4).trans (Cert.ReferenceIdeal.RefRun.kept_main_arg4 m' c),
      (h c Cert.ReferenceIdeal.main_arg5).trans (Cert.ReferenceIdeal.RefRun.kept_main_arg5 m' c),
      (h c Cert.ReferenceIdeal.main_arg6).trans (Cert.ReferenceIdeal.RefRun.kept_main_arg6 m' c),
      (h c Cert.ReferenceIdeal.main_arg7).trans (Cert.ReferenceIdeal.RefRun.kept_main_arg7 m' c),
      (h c Cert.ReferenceIdeal.main_arg8).trans (Cert.ReferenceIdeal.RefRun.kept_main_arg8 m' c),
      (h c Cert.ReferenceIdeal.main_arg9).trans (Cert.ReferenceIdeal.RefRun.kept_main_arg9 m' c),
      (h c Cert.ReferenceIdeal.main_arg10).trans (Cert.ReferenceIdeal.RefRun.kept_main_arg10 m' c)⟩

end Cert.Alg

end
-- ==== Proof.LibGatherScatter.lean ====
/-
  StableHLO's gather and scatter READ AT AN INDEX, for the dimension numbers that picking rows of a matrix (or entries
  of a vector) by a column of indices, and summing rows into segments named by a column of indices, are written with.

  Throughout, the indices are an array `idx : [E, 1]` of `w`-bit words; entry `e`'s index is `idx[e, 0]` read as a
  SIGNED integer.
  * `rowGather_apply`: the gather of rows of `x : [N, C]` at `idx` is, at `(e, f)`, `x[clamp(idx[e, 0]), f]`, the
    index clamped into `[0, N − 1]`.
  * `nodeGather_apply`: the gather of entries of `x : [N]` at `idx` is, at `e`, `x[clamp(idx[e, 0])]`.
  * `rowScatter_resultIdx` / `rowScatter_resultIdx_eq_some_iff`: the scatter of the rows of updates `[E, C]` into an
    operand `[N, C]` sends update element `(e, f)` to operand element `(idx[e, 0], f)` when `0 ≤ idx[e, 0] < N` (the
    index is NOT clamped) and drops it otherwise; so it lands on `(n, g)` exactly when `idx[e, 0] = n` and `f = g`.
  * `nodeScatter_resultIdx` / `nodeScatter_resultIdx_eq_some_iff`: the same for updates `[E]` into an operand `[N]`.
  The records take their well-formedness proof as a parameter and are reducible, so a structure literal with the same
  lists and any proof of the same conditions is definitionally the record here.
-/
import Idealize.ShloMosaic.Lib.ValueIdx

noncomputable section

namespace Cert.LibGatherScatter

open Idealize.ShloMosaic Idealize.ShloMosaic.ValueIdx

/-! ## `stablehlo.gather` of the rows of a matrix at a column of start indices -/

section RowGather
variable {α : Type}

/-- The dimension numbers of "rows of `x : [N, C]` picked by `idx : [E, 1]`", result `[E, C]`: offset_dims `[1]`,
    collapsed_slice_dims `[0]`, start_index_map `[0]`, index_vector_dim 1, slice_sizes `[1, C]` (one whole row per
    start index). Their conditions `wf` are decided on literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: column `f` of the operand's row `idx[e, 0]`, that index read signed and clamped
    into `[0, N − 1]`. (On axis 0 the operand coordinate is the clamped start, the axis being collapsed; on axis 1 the
    start is 0 and the offset coordinate is `f`.) -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e f) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    have hs : (rowGatherDims N C E wf).start (ix2 e f) idx (1 : Fin 2) = 0 := by
      unfold GatherDims.start
      rw [dif_neg (show (1 : Fin 2) ∉ ([0] : List (Fin 2)) by decide)]
    have ho : (rowGatherDims N C E wf).offCoord (ix2 e f) (1 : Fin 2) = f.val := by
      unfold GatherDims.offCoord
      rw [dif_pos ((GatherDims.mem_sKept _ _).mpr ⟨show (1 : Fin 2) ∉ ([0] : List (Fin 2)) by decide, List.not_mem_nil⟩)]
      rfl
    rw [hs, GatherDims.batchCoord_eq_zero _ _ _ List.not_mem_nil, ho]
    simp only [Nat.zero_add, Nat.add_zero]

end RowGather

/-! ## `stablehlo.gather` of the entries of a vector at a column of start indices -/

section NodeGather
variable {α : Type}

/-- The dimension numbers of "entries of `x : [N]` picked by `idx : [E, 1]`", result `[E]`: offset_dims `[]`,
    collapsed_slice_dims `[0]`, start_index_map `[0]`, index_vector_dim 1, slice_sizes `[1]`. -/
abbrev nodeGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry `idx[e, 0]`, that index read signed and clamped into
    `[0, N − 1]`. -/
theorem nodeGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (nodeGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (nodeGatherDims N E wf).start (ix1 e) idx 0 + (nodeGatherDims N E wf).batchCoord (ix1 e) 0
    + (nodeGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeGatherDims N E wf).startIndexMap from List.mem_singleton.mpr rfl)]
  have hsi : (nodeGatherDims N E wf).siIdx (ix1 e) ⟨List.idxOf (0 : Fin 1) (nodeGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end NodeGather

/-! ## `stablehlo.scatter` of rows of updates into the rows of a matrix named by a column of indices -/

section RowScatter

/-- The dimension numbers of "row `e` of the updates `[E, C]` goes to row `idx[e, 0]` of the operand `[N, C]`":
    update_window_dims `[1]`, inserted_window_dims `[0]`, scatter_dims_to_operand_dims `[0]`, index_vector_dim 1. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)
  (idx : IVec ⟨2, ![E, 1]⟩ w) (e : Fin E) (f : Fin C)

/-- On operand axis 0 the window of update `(e, f)` starts at `idx[e, 0]`, read signed and not clamped. -/
theorem rowScatter_start0 :
    (rowScatterDims N C E wf).start (ix2 e f) idx (0 : Fin 2) = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e f)
      ⟨List.idxOf (0 : Fin 2) (rowScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the index map does not name, the window starts at 0. -/
theorem rowScatter_start1 : (rowScatterDims N C E wf).start (ix2 e f) idx (1 : Fin 2) = 0 := by
  unfold ScatterDims.start
  rw [dif_neg (show (1 : Fin 2) ∉ ([0] : List (Fin 2)) by decide)]

/-- Operand axis 0 is an inserted axis: the window coordinate there is 0. -/
theorem rowScatter_window0 : (rowScatterDims N C E wf).window (ix2 e f) (0 : Fin 2) = 0 := by
  unfold ScatterDims.window
  have hk : (0 : Fin 2) ∉ (rowScatterDims N C E wf).sKept :=
    show (0 : Fin 2) ∉ (List.finRange 2).filter (· ∉ ([0] : List (Fin 2))) by decide
  rw [dif_neg hk]

/-- On operand axis 1 the window coordinate of update `(e, f)` is `f`. -/
theorem rowScatter_window1 : (rowScatterDims N C E wf).window (ix2 e f) (1 : Fin 2) = f.val := by
  unfold ScatterDims.window
  have hk : (1 : Fin 2) ∈ (rowScatterDims N C E wf).sKept :=
    show (1 : Fin 2) ∈ (List.finRange 2).filter (· ∉ ([0] : List (Fin 2))) by decide
  rw [dif_pos hk]
  rfl

/-- WHERE UPDATE `(e, f)` LANDS: with `v = idx[e, 0]` read signed, at `(v, f)` when `0 ≤ v < N`; otherwise the
    update is dropped. -/
theorem rowScatter_resultIdx :
    (rowScatterDims N C E wf).resultIdx? (ix2 e f) idx
      = if h : 0 ≤ (idx (ix2 e (0 : Fin 1))).toInt ∧ (idx (ix2 e (0 : Fin 1))).toInt < (N : Int) then
          some (ix2 (⟨(idx (ix2 e (0 : Fin 1))).toInt.toNat, by omega⟩ : Fin N) f)
        else none := by
  unfold ScatterDims.resultIdx?
  by_cases h : 0 ≤ (idx (ix2 e (0 : Fin 1))).toInt ∧ (idx (ix2 e (0 : Fin 1))).toInt < (N : Int)
  · have H : ∀ a : Fin 2, 0 ≤ (rowScatterDims N C E wf).start (ix2 e f) idx a + ((rowScatterDims N C E wf).window (ix2 e f) a : Int) ∧
        (rowScatterDims N C E wf).start (ix2 e f) idx a + ((rowScatterDims N C E wf).window (ix2 e f) a : Int)
          < ((⟨2, ![N, C]⟩ : Shape).size a : Int) := by
      intro a
      match a with
      | ⟨0, _⟩ =>
        show 0 ≤ (rowScatterDims N C E wf).start (ix2 e f) idx (0 : Fin 2) + ((rowScatterDims N C E wf).window (ix2 e f) (0 : Fin 2) : Int) ∧
          (rowScatterDims N C E wf).start (ix2 e f) idx (0 : Fin 2) + ((rowScatterDims N C E wf).window (ix2 e f) (0 : Fin 2) : Int) < (N : Int)
        rw [rowScatter_start0, rowScatter_window0]
        omega
      | ⟨1, _⟩ =>
        show 0 ≤ (rowScatterDims N C E wf).start (ix2 e f) idx (1 : Fin 2) + ((rowScatterDims N C E wf).window (ix2 e f) (1 : Fin 2) : Int) ∧
          (rowScatterDims N C E wf).start (ix2 e f) idx (1 : Fin 2) + ((rowScatterDims N C E wf).window (ix2 e f) (1 : Fin 2) : Int) < (C : Int)
        rw [rowScatter_start1, rowScatter_window1]
        have := f.isLt
        omega
    rw [dif_pos H, dif_pos h]
    congr 1
    funext a
    refine Fin.ext ?_
    match a with
    | ⟨0, _⟩ =>
      show ((rowScatterDims N C E wf).start (ix2 e f) idx (0 : Fin 2) + ((rowScatterDims N C E wf).window (ix2 e f) (0 : Fin 2) : Int)).toNat
        = (idx (ix2 e (0 : Fin 1))).toInt.toNat
      rw [rowScatter_start0, rowScatter_window0]
      simp
    | ⟨1, _⟩ =>
      show ((rowScatterDims N C E wf).start (ix2 e f) idx (1 : Fin 2) + ((rowScatterDims N C E wf).window (ix2 e f) (1 : Fin 2) : Int)).toNat
        = f.val
      rw [rowScatter_start1, rowScatter_window1]
      simp
  · rw [dif_neg h, dif_neg]
    intro H
    apply h
    have := H (0 : Fin 2)
    rw [rowScatter_start0, rowScatter_window0] at this
    have h2 : (idx (ix2 e (0 : Fin 1))).toInt + ((0 : Nat) : Int) < (N : Int) := this.2
    omega

/-- Update `(e, f)` lands on operand element `(n, g)` exactly when its index `idx[e, 0]`, read signed, is `n` and
    `f = g`. -/
theorem rowScatter_resultIdx_eq_some_iff (n : Fin N) (g : Fin C) :
    (rowScatterDims N C E wf).resultIdx? (ix2 e f) idx = some (ix2 n g)
      ↔ (idx (ix2 e (0 : Fin 1))).toInt = (n.val : Int) ∧ f = g := by
  rw [rowScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 2))
      have h1 : f = g := congrFun H' (1 : Fin 2)
      exact ⟨by omega, h1⟩
    · rintro ⟨hv, rfl⟩
      have : (⟨(idx (ix2 e (0 : Fin 1))).toInt.toNat, by omega⟩ : Fin N) = n := Fin.ext (by show (idx (ix2 e (0 : Fin 1))).toInt.toNat = n.val; omega)
      rw [this]
  · rw [dif_neg h]
    constructor
    · intro H; cases H
    · rintro ⟨hv, _⟩
      exact absurd ⟨by omega, by have := n.isLt; omega⟩ h

end RowScatter

/-! ## `stablehlo.scatter` of a vector of updates into the entries of a vector named by a column of indices -/

section NodeScatter

/-- The dimension numbers of "entry `e` of the updates `[E]` goes to entry `idx[e, 0]` of the operand `[N]`":
    update_window_dims `[]`, inserted_window_dims `[0]`, scatter_dims_to_operand_dims `[0]`, index_vector_dim 1. -/
abbrev nodeScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at `idx[e, 0]`, read signed and not clamped. -/
theorem nodeScatter_start0 :
    (nodeScatterDims N E wf).start (ix1 e) idx (0 : Fin 1) = (idx (ix2 e (0 : Fin 1))).toInt := by
  unfold ScatterDims.start
  rw [dif_pos (show (0 : Fin 1) ∈ (nodeScatterDims N E wf).scatterDimsToOperandDims from List.mem_singleton.mpr rfl)]
  have hsi : (nodeScatterDims N E wf).siIdx (ix1 e)
      ⟨List.idxOf (0 : Fin 1) (nodeScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted axis: the window coordinate there is 0. -/
theorem nodeScatter_window0 : (nodeScatterDims N E wf).window (ix1 e) (0 : Fin 1) = 0 := by
  unfold ScatterDims.window
  have hk : (0 : Fin 1) ∉ (nodeScatterDims N E wf).sKept :=
    show (0 : Fin 1) ∉ (List.finRange 1).filter (· ∉ ([0] : List (Fin 1))) by decide
  rw [dif_neg hk]

/-- WHERE UPDATE `e` LANDS: with `v = idx[e, 0]` read signed, at `v` when `0 ≤ v < N`; otherwise the update is
    dropped. -/
theorem nodeScatter_resultIdx :
    (nodeScatterDims N E wf).resultIdx? (ix1 e) idx
      = if h : 0 ≤ (idx (ix2 e (0 : Fin 1))).toInt ∧ (idx (ix2 e (0 : Fin 1))).toInt < (N : Int) then
          some (ix1 (⟨(idx (ix2 e (0 : Fin 1))).toInt.toNat, by omega⟩ : Fin N))
        else none := by
  unfold ScatterDims.resultIdx?
  by_cases h : 0 ≤ (idx (ix2 e (0 : Fin 1))).toInt ∧ (idx (ix2 e (0 : Fin 1))).toInt < (N : Int)
  · have H : ∀ a : Fin 1, 0 ≤ (nodeScatterDims N E wf).start (ix1 e) idx a + ((nodeScatterDims N E wf).window (ix1 e) a : Int) ∧
        (nodeScatterDims N E wf).start (ix1 e) idx a + ((nodeScatterDims N E wf).window (ix1 e) a : Int)
          < ((⟨1, ![N]⟩ : Shape).size a : Int) := by
      intro a
      obtain rfl : a = 0 := Subsingleton.elim _ _
      show 0 ≤ (nodeScatterDims N E wf).start (ix1 e) idx (0 : Fin 1) + ((nodeScatterDims N E wf).window (ix1 e) (0 : Fin 1) : Int) ∧
        (nodeScatterDims N E wf).start (ix1 e) idx (0 : Fin 1) + ((nodeScatterDims N E wf).window (ix1 e) (0 : Fin 1) : Int) < (N : Int)
      rw [nodeScatter_start0, nodeScatter_window0]
      omega
    rw [dif_pos H, dif_pos h]
    congr 1
    funext a
    obtain rfl : a = 0 := Subsingleton.elim _ _
    refine Fin.ext ?_
    show ((nodeScatterDims N E wf).start (ix1 e) idx (0 : Fin 1) + ((nodeScatterDims N E wf).window (ix1 e) (0 : Fin 1) : Int)).toNat
      = (idx (ix2 e (0 : Fin 1))).toInt.toNat
    rw [nodeScatter_start0, nodeScatter_window0]
    simp
  · rw [dif_neg h, dif_neg]
    intro H
    apply h
    have := H (0 : Fin 1)
    rw [nodeScatter_start0, nodeScatter_window0] at this
    have h2 : (idx (ix2 e (0 : Fin 1))).toInt + ((0 : Nat) : Int) < (N : Int) := this.2
    omega

/-- Update `e` lands on operand entry `n` exactly when its index `idx[e, 0]`, read signed, is `n`. -/
theorem nodeScatter_resultIdx_eq_some_iff (n : Fin N) :
    (nodeScatterDims N E wf).resultIdx? (ix1 e) idx = some (ix1 n)
      ↔ (idx (ix2 e (0 : Fin 1))).toInt = (n.val : Int) := by
  rw [nodeScatter_resultIdx]
  by_cases h : 0 ≤ (idx (ix2 e (0 : Fin 1))).toInt ∧ (idx (ix2 e (0 : Fin 1))).toInt < (N : Int)
  · rw [dif_pos h]
    constructor
    · intro H
      have H' := Option.some.inj H
      have h0 : (idx (ix2 e (0 : Fin 1))).toInt.toNat = n.val := congrArg Fin.val (congrFun H' (0 : Fin 1))
      omega
    · intro hv
      have : (⟨(idx (ix2 e (0 : Fin 1))).toInt.toNat, by omega⟩ : Fin N) = n :=
        Fin.ext (by show (idx (ix2 e (0 : Fin 1))).toInt.toNat = n.val; omega)
      rw [this]
  · rw [dif_neg h]
    constructor
    · intro H; cases H
    · intro hv
      exact absurd ⟨by omega, by have := n.isLt; omega⟩ h

end NodeScatter

end Cert.LibGatherScatter

end
-- ==== Proof.Coords.lean ====
/-
  The six gathered vertex coordinates.

  Both programs pick, for every triangle, the x and y coordinates of its three vertices out of the coordinate vectors by the
  same chain of host operations on the connectivity table (a column slice, the wrap of negative indices, a gather with
  clamped indices). Read one operation at a time the two chains are the same function of the coordinate vector and the
  table; and a gathered entry is an entry of the coordinate vector.
-/
import proofs.«145649_j20933670601054_2_alg».proof.Proof.KIRising
import proofs.«145649_j20933670601054_2_alg».proof.Proof.RefRun
import proofs.«145649_j20933670601054_2_alg».proof.Proof.LibGatherScatter

set_option maxRecDepth 16384

noncomputable section

namespace Cert.Alg

open Idealize.ShloMosaic Idealize.ShloMosaic.StableHlo Cert.LibSsaAfter

local notation "KV" => Valuation Cert.KernelIdeal.τ Cert.KernelIdeal.sig (Elt Ideal)
local notation "RV" => Valuation Cert.ReferenceIdeal.τ Cert.ReferenceIdeal.sig (Elt Ideal)
local notation "Kpre" => (Cert.KernelIdeal.Hand.preOps (F := Ideal))
local notation "Rops" => (Cert.ReferenceIdeal.RefRun.ops (F := Ideal))

/-- The kernel program's and the reference's gathered xa are one function of the coordinate vector and the table. -/
theorem coord_xa (VK : KV) (VR : RV)
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2)) :
    after Kpre VK (Proc.devRef .tc Cert.KernelIdeal.main_v8) = after Rops VR (Proc.devRef .tc Cert.ReferenceIdeal.main_v12) := by
  rw [binary_at_idx Cert.KernelIdeal.Hand.preOps_rising VK 11 rfl,
    unary_at_idx Cert.KernelIdeal.Hand.preOps_rising VK 10 rfl,
    ternary_at_idx Cert.KernelIdeal.Hand.preOps_rising VK 9 rfl,
    binary_at_idx Cert.KernelIdeal.Hand.preOps_rising VK 8 rfl,
    unary_at_idx Cert.KernelIdeal.Hand.preOps_rising VK 7 rfl,
    nullary_at_idx Cert.KernelIdeal.Hand.preOps_rising VK 6 rfl,
    binary_at_idx Cert.KernelIdeal.Hand.preOps_rising VK 5 rfl,
    unary_at_idx Cert.KernelIdeal.Hand.preOps_rising VK 4 rfl,
    nullary_at_idx Cert.KernelIdeal.Hand.preOps_rising VK 3 rfl,
    reshape_at_idx Cert.KernelIdeal.Hand.preOps_rising VK 2 rfl,
    unary_at_idx Cert.KernelIdeal.Hand.preOps_rising VK 1 rfl,
    after_of_lt Cert.KernelIdeal.Hand.preOps_rising VK (b := Proc.devRef .tc Cert.KernelIdeal.main_arg0) (by decide),
    after_of_lt Cert.KernelIdeal.Hand.preOps_rising VK (b := Proc.devRef .tc Cert.KernelIdeal.main_arg2) (by decide)]
  rw [binary_at_idx Cert.ReferenceIdeal.RefRun.rising VR 19 rfl,
    unary_at_idx Cert.ReferenceIdeal.RefRun.rising VR 18 rfl,
    ternary_at_idx Cert.ReferenceIdeal.RefRun.rising VR 17 rfl,
    binary_at_idx Cert.ReferenceIdeal.RefRun.rising VR 16 rfl,
    unary_at_idx Cert.ReferenceIdeal.RefRun.rising VR 15 rfl,
    nullary_at_idx Cert.ReferenceIdeal.RefRun.rising VR 14 rfl,
    binary_at_idx Cert.ReferenceIdeal.RefRun.rising VR 13 rfl,
    unary_at_idx Cert.ReferenceIdeal.RefRun.rising VR 12 rfl,
    nullary_at_idx Cert.ReferenceIdeal.RefRun.rising VR 11 rfl,
    reshape_at_idx Cert.ReferenceIdeal.RefRun.rising VR 10 rfl,
    unary_at_idx Cert.ReferenceIdeal.RefRun.rising VR 9 rfl,
    after_of_lt Cert.ReferenceIdeal.RefRun.rising VR (b := Proc.devRef .tc Cert.ReferenceIdeal.main_arg0) (by decide),
    after_of_lt Cert.ReferenceIdeal.RefRun.rising VR (b := Proc.devRef .tc Cert.ReferenceIdeal.main_arg2) (by decide)]
  rw [h0, h2]
  rfl

/-- Triangle e's gathered xa is an entry of the coordinate vector. -/
theorem coord_xa_mem (VK : KV) (e : Fin 12000) :
    ∃ n : Fin 6000, after Kpre VK (Proc.devRef .tc Cert.KernelIdeal.main_v8) (ValueIdx.ix1 e)
      = VK (Proc.devRef .tc Cert.KernelIdeal.main_arg0) (ValueIdx.ix1 n) := by
  rw [binary_at_idx Cert.KernelIdeal.Hand.preOps_rising VK 11 rfl, after_of_lt Cert.KernelIdeal.Hand.preOps_rising VK (b := Proc.devRef .tc Cert.KernelIdeal.main_arg0) (by decide)]
  exact ⟨_, Cert.LibGatherScatter.nodeGather_apply (by norm_num) _ _ _ e⟩

/-- The kernel program's and the reference's gathered xb are one function of the coordinate vector and the table. -/
theorem coord_xb (VK : KV) (VR : RV)
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2)) :
    after Kpre VK (Proc.devRef .tc Cert.KernelIdeal.main_v17) = after Rops VR (Proc.devRef .tc Cert.ReferenceIdeal.main_v21) := by
  rw [binary_at_idx Cert.KernelIdeal.Hand.preOps_rising VK 22 rfl,
    unary_at_idx Cert.KernelIdeal.Hand.preOps_rising VK 21 rfl,
    ternary_at_idx Cert.KernelIdeal.Hand.preOps_rising VK 20 rfl,
    binary_at_idx Cert.KernelIdeal.Hand.preOps_rising VK 19 rfl,
    unary_at_idx Cert.KernelIdeal.Hand.preOps_rising VK 18 rfl,
    nullary_at_idx Cert.KernelIdeal.Hand.preOps_rising VK 17 rfl,
    binary_at_idx Cert.KernelIdeal.Hand.preOps_rising VK 16 rfl,
    unary_at_idx Cert.KernelIdeal.Hand.preOps_rising VK 15 rfl,
    nullary_at_idx Cert.KernelIdeal.Hand.preOps_rising VK 14 rfl,
    reshape_at_idx Cert.KernelIdeal.Hand.preOps_rising VK 13 rfl,
    unary_at_idx Cert.KernelIdeal.Hand.preOps_rising VK 12 rfl,
    after_of_lt Cert.KernelIdeal.Hand.preOps_rising VK (b := Proc.devRef .tc Cert.KernelIdeal.main_arg0) (by decide),
    after_of_lt Cert.KernelIdeal.Hand.preOps_rising VK (b := Proc.devRef .tc Cert.KernelIdeal.main_arg2) (by decide)]
  rw [binary_at_idx Cert.ReferenceIdeal.RefRun.rising VR 30 rfl,
    unary_at_idx Cert.ReferenceIdeal.RefRun.rising VR 29 rfl,
    ternary_at_idx Cert.ReferenceIdeal.RefRun.rising VR 28 rfl,
    binary_at_idx Cert.ReferenceIdeal.RefRun.rising VR 27 rfl,
    unary_at_idx Cert.ReferenceIdeal.RefRun.rising VR 26 rfl,
    nullary_at_idx Cert.ReferenceIdeal.RefRun.rising VR 25 rfl,
    binary_at_idx Cert.ReferenceIdeal.RefRun.rising VR 24 rfl,
    unary_at_idx Cert.ReferenceIdeal.RefRun.rising VR 23 rfl,
    nullary_at_idx Cert.ReferenceIdeal.RefRun.rising VR 22 rfl,
    reshape_at_idx Cert.ReferenceIdeal.RefRun.rising VR 21 rfl,
    unary_at_idx Cert.ReferenceIdeal.RefRun.rising VR 20 rfl,
    after_of_lt Cert.ReferenceIdeal.RefRun.rising VR (b := Proc.devRef .tc Cert.ReferenceIdeal.main_arg0) (by decide),
    after_of_lt Cert.ReferenceIdeal.RefRun.rising VR (b := Proc.devRef .tc Cert.ReferenceIdeal.main_arg2) (by decide)]
  rw [h0, h2]
  rfl

/-- Triangle e's gathered xb is an entry of the coordinate vector. -/
theorem coord_xb_mem (VK : KV) (e : Fin 12000) :
    ∃ n : Fin 6000, after Kpre VK (Proc.devRef .tc Cert.KernelIdeal.main_v17) (ValueIdx.ix1 e)
      = VK (Proc.devRef .tc Cert.KernelIdeal.main_arg0) (ValueIdx.ix1 n) := by
  rw [binary_at_idx Cert.KernelIdeal.Hand.preOps_rising VK 22 rfl, after_of_lt Cert.KernelIdeal.Hand.preOps_rising VK (b := Proc.devRef .tc Cert.KernelIdeal.main_arg0) (by decide)]
  exact ⟨_, Cert.LibGatherScatter.nodeGather_apply (by norm_num) _ _ _ e⟩

/-- The kernel program's and the reference's gathered xc are one function of the coordinate vector and the table. -/
theorem coord_xc (VK : KV) (VR : RV)
    (h0 : VK (Proc.devRef .tc Cert.KernelIdeal.main_arg0) = VR (Proc.devRef .tc Cert.ReferenceIdeal.main_arg0))
    (h2 : VK (Proc.devRef .tc Cert.KernelIdeal.main_arg2) = VR (Proc.devRef .tc Cert.ReferenceIdeal.main_arg2)) :
    after Kpre VK (Proc.devRef .tc Cert.KernelIdeal.main_v26) = after Rops VR (Proc.devRef .tc Cert.ReferenceIdeal.main_v30) := by
  rw [binary_at_idx Cert.KernelIdeal.Hand.preOps_rising VK 33 rfl,
    unary_at_idx Cert.KernelIdeal.Hand.preOps_rising VK 32 rfl,
    ternary_at_idx Cert.KernelIdeal.Hand.preOps_rising VK 31 rfl,
    binary_at_idx Cert.KernelIdeal.Hand.preOps_rising VK 30 rfl,
    unary_at_idx Cert.KernelIdeal.Hand.preOps_rising VK 29 rfl,
    nullary_at_idx Cert.KernelIdeal.Hand.preOps_rising VK 28 rfl,
    binary_at_idx Cert.KernelIdeal.Hand.preOps_rising VK 27 rfl,
    unary_at_idx Cert.KernelIdeal.Hand.preOps_rising VK 26 rfl,
    nullary_at_idx Cert.KernelIdeal.Hand.preOps_rising VK 25 rfl,
    reshape_at_idx Cert.KernelIdeal.Hand.preOps_rising VK 24 rfl,
    unary_at_idx Cert.KernelIdeal.Hand.preOps_rising VK 23 rfl,
    after_of_lt Cert.KernelIdeal.Hand.preOps_rising VK (b := Proc.devRef .tc Cert.KernelIdeal.main_arg0) (by decide),
    after_of_lt Cert.KernelIdeal.Hand.preOps_rising VK (b := Proc.devRef .tc Cert.KernelIdeal.main_arg2) (by decide)]
  rw [binary_at_idx Cert.ReferenceIdeal.RefRun.rising VR 41 rfl,
    unary_at_idx Cert.ReferenceIdeal.RefRun.rising VR 40 rfl,
    ternary_at_idx Cert.ReferenceIdeal.RefRun.rising VR 39 rfl,
    binary_at_idx Cert.ReferenceIdeal.RefRun.rising VR 38 rfl,
    unary_at_idx Cert.ReferenceIdeal.RefRun.rising VR 37 rfl,
    nullary_at_idx Cert.ReferenceIdeal.RefRun.rising VR 36 rfl,
    binary_at_idx Cert.ReferenceIdeal.RefRun.rising VR 35 rfl,
    unary_at_idx Cert.ReferenceIdeal.RefRun.rising VR 34 rfl,
    nullary_at_idx Cert.ReferenceIdeal.RefRun.rising VR 33 rfl,
    reshape_at_idx Cert.ReferenceIdeal.RefRun.rising VR 32 rfl,
    unary_at_idx Cert.ReferenceIdeal.RefRun.rising VR 31 rfl,
    after_of_lt Cert.ReferenceIdeal.RefRun.rising VR (b := Proc.devRef .tc Cert.ReferenceIdeal.main_arg0) (by decide),
    after_of_lt Cert.ReferenceIdeal.RefRun.rising VR (b := Proc.devRef .tc Cert.ReferenceIdeal.main_arg2) (by decide)]
  rw [h0, h2]
  rfl

/-- Triangle e's gathered xc is an entry of the coordinate vector. -/
theorem coord_xc_mem (VK : KV) (e : Fin 12000) :
    ∃ n : Fin 6000, after Kpre VK (Proc.devRef .tc Cert.KernelIdeal.main_v26) (ValueIdx.ix1 e)
      = VK (Proc.devRef .tc Cert.KernelIdeal.main_arg0) (ValueIdx.ix1 n) := by
  rw [binary_at_idx Cert.KernelIdeal.Hand.preOps_rising VK 33 rfl, after_of_lt Cert.KernelIdeal.Hand.preOps_rising VK (b := Proc.devRef .tc Cert.KernelIdeal.main_arg0) (by decide)]
  exact ⟨_, Cert.LibGatherScatter.nodeGather_apply (by norm_num) _ _ _ e⟩

/-- The kernel program's and the reference's gathered ya are one function of the coordinate vector and the table. -/
theorem coord_ya (VK : KV) (VR : RV)
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) :
    after Kpre VK (Proc.devRef .tc Cert.KernelIdeal.main_v35) = after Rops VR (Proc.devRef .tc Cert.ReferenceIdeal.main_v39) := by
  rw [binary_at_idx Cert.KernelIdeal.Hand.preOps_rising VK 44 rfl,
    unary_at_idx Cert.KernelIdeal.Hand.preOps_rising VK 43 rfl,
    ternary_at_idx Cert.KernelIdeal.Hand.preOps_rising VK 42 rfl,
    binary_at_idx Cert.KernelIdeal.Hand.preOps_rising VK 41 rfl,
    unary_at_idx Cert.KernelIdeal.Hand.preOps_rising VK 40 rfl,
    nullary_at_idx Cert.KernelIdeal.Hand.preOps_rising VK 39 rfl,
    binary_at_idx Cert.KernelIdeal.Hand.preOps_rising VK 38 rfl,
    unary_at_idx Cert.KernelIdeal.Hand.preOps_rising VK 37 rfl,
    nullary_at_idx Cert.KernelIdeal.Hand.preOps_rising VK 36 rfl,
    reshape_at_idx Cert.KernelIdeal.Hand.preOps_rising VK 35 rfl,
    unary_at_idx Cert.KernelIdeal.Hand.preOps_rising VK 34 rfl,
    after_of_lt Cert.KernelIdeal.Hand.preOps_rising VK (b := Proc.devRef .tc Cert.KernelIdeal.main_arg1) (by decide),
    after_of_lt Cert.KernelIdeal.Hand.preOps_rising VK (b := Proc.devRef .tc Cert.KernelIdeal.main_arg2) (by decide)]
  rw [binary_at_idx Cert.ReferenceIdeal.RefRun.rising VR 52 rfl,
    unary_at_idx Cert.ReferenceIdeal.RefRun.rising VR 51 rfl,
    ternary_at_idx Cert.ReferenceIdeal.RefRun.rising VR 50 rfl,
    binary_at_idx Cert.ReferenceIdeal.RefRun.rising VR 49 rfl,
    unary_at_idx Cert.ReferenceIdeal.RefRun.rising VR 48 rfl,
    nullary_at_idx Cert.ReferenceIdeal.RefRun.rising VR 47 rfl,
    binary_at_idx Cert.ReferenceIdeal.RefRun.rising VR 46 rfl,
    unary_at_idx Cert.ReferenceIdeal.RefRun.rising VR 45 rfl,
    nullary_at_idx Cert.ReferenceIdeal.RefRun.rising VR 44 rfl,
    reshape_at_idx Cert.ReferenceIdeal.RefRun.rising VR 43 rfl,
    unary_at_idx Cert.ReferenceIdeal.RefRun.rising VR 42 rfl,
    after_of_lt Cert.ReferenceIdeal.RefRun.rising VR (b := Proc.devRef .tc Cert.ReferenceIdeal.main_arg1) (by decide),
    after_of_lt Cert.ReferenceIdeal.RefRun.rising VR (b := Proc.devRef .tc Cert.ReferenceIdeal.main_arg2) (by decide)]
  rw [h1, h2]
  rfl

/-- Triangle e's gathered ya is an entry of the coordinate vector. -/
theorem coord_ya_mem (VK : KV) (e : Fin 12000) :
    ∃ n : Fin 6000, after Kpre VK (Proc.devRef .tc Cert.KernelIdeal.main_v35) (ValueIdx.ix1 e)
      = VK (Proc.devRef .tc Cert.KernelIdeal.main_arg1) (ValueIdx.ix1 n) := by
  rw [binary_at_idx Cert.KernelIdeal.Hand.preOps_rising VK 44 rfl, after_of_lt Cert.KernelIdeal.Hand.preOps_rising VK (b := Proc.devRef .tc Cert.KernelIdeal.main_arg1) (by decide)]
  exact ⟨_, Cert.LibGatherScatter.nodeGather_apply (by norm_num) _ _ _ e⟩

/-- The kernel program's and the reference's gathered yb are one function of the coordinate vector and the table. -/
theorem coord_yb (VK : KV) (VR : RV)
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) :
    after Kpre VK (Proc.devRef .tc Cert.KernelIdeal.main_v44) = after Rops VR (Proc.devRef .tc Cert.ReferenceIdeal.main_v48) := by
  rw [binary_at_idx Cert.KernelIdeal.Hand.preOps_rising VK 55 rfl,
    unary_at_idx Cert.KernelIdeal.Hand.preOps_rising VK 54 rfl,
    ternary_at_idx Cert.KernelIdeal.Hand.preOps_rising VK 53 rfl,
    binary_at_idx Cert.KernelIdeal.Hand.preOps_rising VK 52 rfl,
    unary_at_idx Cert.KernelIdeal.Hand.preOps_rising VK 51 rfl,
    nullary_at_idx Cert.KernelIdeal.Hand.preOps_rising VK 50 rfl,
    binary_at_idx Cert.KernelIdeal.Hand.preOps_rising VK 49 rfl,
    unary_at_idx Cert.KernelIdeal.Hand.preOps_rising VK 48 rfl,
    nullary_at_idx Cert.KernelIdeal.Hand.preOps_rising VK 47 rfl,
    reshape_at_idx Cert.KernelIdeal.Hand.preOps_rising VK 46 rfl,
    unary_at_idx Cert.KernelIdeal.Hand.preOps_rising VK 45 rfl,
    after_of_lt Cert.KernelIdeal.Hand.preOps_rising VK (b := Proc.devRef .tc Cert.KernelIdeal.main_arg1) (by decide),
    after_of_lt Cert.KernelIdeal.Hand.preOps_rising VK (b := Proc.devRef .tc Cert.KernelIdeal.main_arg2) (by decide)]
  rw [binary_at_idx Cert.ReferenceIdeal.RefRun.rising VR 63 rfl,
    unary_at_idx Cert.ReferenceIdeal.RefRun.rising VR 62 rfl,
    ternary_at_idx Cert.ReferenceIdeal.RefRun.rising VR 61 rfl,
    binary_at_idx Cert.ReferenceIdeal.RefRun.rising VR 60 rfl,
    unary_at_idx Cert.ReferenceIdeal.RefRun.rising VR 59 rfl,
    nullary_at_idx Cert.ReferenceIdeal.RefRun.rising VR 58 rfl,
    binary_at_idx Cert.ReferenceIdeal.RefRun.rising VR 57 rfl,
    unary_at_idx Cert.ReferenceIdeal.RefRun.rising VR 56 rfl,
    nullary_at_idx Cert.ReferenceIdeal.RefRun.rising VR 55 rfl,
    reshape_at_idx Cert.ReferenceIdeal.RefRun.rising VR 54 rfl,
    unary_at_idx Cert.ReferenceIdeal.RefRun.rising VR 53 rfl,
    after_of_lt Cert.ReferenceIdeal.RefRun.rising VR (b := Proc.devRef .tc Cert.ReferenceIdeal.main_arg1) (by decide),
    after_of_lt Cert.ReferenceIdeal.RefRun.rising VR (b := Proc.devRef .tc Cert.ReferenceIdeal.main_arg2) (by decide)]
  rw [h1, h2]
  rfl

/-- Triangle e's gathered yb is an entry of the coordinate vector. -/
theorem coord_yb_mem (VK : KV) (e : Fin 12000) :
    ∃ n : Fin 6000, after Kpre VK (Proc.devRef .tc Cert.KernelIdeal.main_v44) (ValueIdx.ix1 e)
      = VK (Proc.devRef .tc Cert.KernelIdeal.main_arg1) (ValueIdx.ix1 n) := by
  rw [binary_at_idx Cert.KernelIdeal.Hand.preOps_rising VK 55 rfl, after_of_lt Cert.KernelIdeal.Hand.preOps_rising VK (b := Proc.devRef .tc Cert.KernelIdeal.main_arg1) (by decide)]
  exact ⟨_, Cert.LibGatherScatter.nodeGather_apply (by norm_num) _ _ _ e⟩

/-- The kernel program's and the reference's gathered yc are one function of the coordinate vector and the table. -/
theorem coord_yc (VK : KV) (VR : RV)
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2)) :
    after Kpre VK (Proc.devRef .tc Cert.KernelIdeal.main_v53) = after Rops VR (Proc.devRef .tc Cert.ReferenceIdeal.main_v57) := by
  rw [binary_at_idx Cert.KernelIdeal.Hand.preOps_rising VK 66 rfl,
    unary_at_idx Cert.KernelIdeal.Hand.preOps_rising VK 65 rfl,
    ternary_at_idx Cert.KernelIdeal.Hand.preOps_rising VK 64 rfl,
    binary_at_idx Cert.KernelIdeal.Hand.preOps_rising VK 63 rfl,
    unary_at_idx Cert.KernelIdeal.Hand.preOps_rising VK 62 rfl,
    nullary_at_idx Cert.KernelIdeal.Hand.preOps_rising VK 61 rfl,
    binary_at_idx Cert.KernelIdeal.Hand.preOps_rising VK 60 rfl,
    unary_at_idx Cert.KernelIdeal.Hand.preOps_rising VK 59 rfl,
    nullary_at_idx Cert.KernelIdeal.Hand.preOps_rising VK 58 rfl,
    reshape_at_idx Cert.KernelIdeal.Hand.preOps_rising VK 57 rfl,
    unary_at_idx Cert.KernelIdeal.Hand.preOps_rising VK 56 rfl,
    after_of_lt Cert.KernelIdeal.Hand.preOps_rising VK (b := Proc.devRef .tc Cert.KernelIdeal.main_arg1) (by decide),
    after_of_lt Cert.KernelIdeal.Hand.preOps_rising VK (b := Proc.devRef .tc Cert.KernelIdeal.main_arg2) (by decide)]
  rw [binary_at_idx Cert.ReferenceIdeal.RefRun.rising VR 74 rfl,
    unary_at_idx Cert.ReferenceIdeal.RefRun.rising VR 73 rfl,
    ternary_at_idx Cert.ReferenceIdeal.RefRun.rising VR 72 rfl,
    binary_at_idx Cert.ReferenceIdeal.RefRun.rising VR 71 rfl,
    unary_at_idx Cert.ReferenceIdeal.RefRun.rising VR 70 rfl,
    nullary_at_idx Cert.ReferenceIdeal.RefRun.rising VR 69 rfl,
    binary_at_idx Cert.ReferenceIdeal.RefRun.rising VR 68 rfl,
    unary_at_idx Cert.ReferenceIdeal.RefRun.rising VR 67 rfl,
    nullary_at_idx Cert.ReferenceIdeal.RefRun.rising VR 66 rfl,
    reshape_at_idx Cert.ReferenceIdeal.RefRun.rising VR 65 rfl,
    unary_at_idx Cert.ReferenceIdeal.RefRun.rising VR 64 rfl,
    after_of_lt Cert.ReferenceIdeal.RefRun.rising VR (b := Proc.devRef .tc Cert.ReferenceIdeal.main_arg1) (by decide),
    after_of_lt Cert.ReferenceIdeal.RefRun.rising VR (b := Proc.devRef .tc Cert.ReferenceIdeal.main_arg2) (by decide)]
  rw [h1, h2]
  rfl

/-- Triangle e's gathered yc is an entry of the coordinate vector. -/
theorem coord_yc_mem (VK : KV) (e : Fin 12000) :
    ∃ n : Fin 6000, after Kpre VK (Proc.devRef .tc Cert.KernelIdeal.main_v53) (ValueIdx.ix1 e)
      = VK (Proc.devRef .tc Cert.KernelIdeal.main_arg1) (ValueIdx.ix1 n) := by
  rw [binary_at_idx Cert.KernelIdeal.Hand.preOps_rising VK 66 rfl, after_of_lt Cert.KernelIdeal.Hand.preOps_rising VK (b := Proc.devRef .tc Cert.KernelIdeal.main_arg1) (by decide)]
  exact ⟨_, Cert.LibGatherScatter.nodeGather_apply (by norm_num) _ _ _ e⟩

end Cert.Alg

end
-- ==== Proof.Finite.lean ====
/-
  Finite inputs are real numbers.

  The precondition says of each float input that the absolute value of every entry is strictly below +∞, all conjoined.
  Read back for the two coordinate vectors: every coordinate is a real number.
-/
import proofs.«145649_j20933670601054_2_alg».proof.Pre_finite_inputs
import Idealize.ShloMosaic.Lib.ReduceAll
import Idealize.ShloMosaic.Lib.ValueIdx
import Idealize.ShloMosaic.PureOps.Ideal.Laws

noncomputable section

namespace Cert.Alg

open Idealize.ShloMosaic Cert.Pre_finite_inputs

instance subsingleton_S_ : Subsingleton Cert.Pre_finite_inputs.S_.Idx := ⟨fun a b => funext fun d => d.elim0⟩

/-- An extended real whose absolute value is strictly below +∞ is a real number. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  unfold Ideal.cmp at h
  induction x using EReal.rec with
  | bot => simp at h
  | coe r => exact ⟨r, rfl⟩
  | top => simp at h

theorem finite_xy [Cert.Pre_finite_inputs.Facts] (a0 a1 : FVec Ideal S6000 .f32) (a2 : IVec S12000x3 32) (a3 : FVec Ideal S12000 .f32) (a4 a5 : IVec S400 32)
    (a6 a7 : FVec Ideal S400 .f32) (a8 a9 : IVec S200 32) (a10 : FVec Ideal S200 .f32)
    (h : Cert.Pre_finite_inputs.fn (F := Ideal) a0 a1 a2 a3 a4 a5 a6 a7 a8 a9 a10 = fun _ => 1#1) :
    (∀ n, ∃ r : ℝ, a0 n = (r : EReal)) ∧ (∀ n, ∃ r : ℝ, a1 n = (r : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, h6⟩ := IntOp.andi_eq_one.1 h4
  refine ⟨fun n => ?_, fun n => ?_⟩
  · exact real_of_abs_lt (a0 n) (Host.reduce_andi_all _ _ _ _ ValueIdx.ix0 h5 n)
  · exact real_of_abs_lt (a1 n) (Host.reduce_andi_all _ _ _ _ ValueIdx.ix0 h6 n)

end Cert.Alg

end
-- ==== Proof.ElemStiff.lean ====
/-
  One triangle's 6×6 stiffness entry, two ways.

  For a triangle with vertices a, b, c the three "denominators"
      (ya − yb)(xc − xb) − (xa − xb)(yc − yb),  (yb − yc)(xa − xc) − (xb − xc)(ya − yc),  (yc − ya)(xb − xa) − (xc − xa)(yb − ya)
  are one polynomial P (twice the signed area), and so is the quantity under the absolute value of the area,
  (xb − xa)(yc − ya) − (xc − xa)(yb − ya). The shape-function gradients are quotients by P; the entry (i, j) is the area
  times Bᵀ D B at (i, j), where B is the 3×6 strain matrix of the gradients and D the plane-stress matrix with entries
  d00, d01, d22 and zeros.

  One program replaces a vanishing denominator by 1 and expands Bᵀ D B entry by entry using D's zeros; the other divides by
  P itself and contracts twice. When P ≠ 0 everything is a real number and the two agree by distributivity. When P = 0
  the area factor is 0 and both products are 0, whatever the quotients by zero are read as. All inputs are finite here.
-/
import Idealize.ShloMosaic.PureOps.Ideal
import Idealize.ShloMosaic.PureOps.Ideal.Laws

noncomputable section

namespace Cert.ElemStiff

open Idealize.ShloMosaic

/-- A denominator with the exact zero replaced by one. -/
def guard (d : EReal) : EReal := Scalar.select (Ideal.cmp .oeq d 0) 1 d

theorem guard_coe (p : ℝ) : guard (p : EReal) = ((if p = 0 then 1 else p : ℝ) : EReal) := by
  unfold guard Ideal.cmp Scalar.select
  by_cases h : p = 0
  · subst h; simp
  · have h' : ¬ ((p : EReal) = 0) := by exact_mod_cast h
    simp [h, h']

/-- The strain matrix of six gradient components. -/
def Bmat (nax nay nbx nby ncx ncy : EReal) : Fin 3 → Fin 6 → EReal
  | 0, 0 => nax | 0, 2 => nbx | 0, 4 => ncx
  | 1, 1 => nay | 1, 3 => nby | 1, 5 => ncy
  | 2, 0 => nay | 2, 1 => nax | 2, 2 => nby | 2, 3 => nbx | 2, 4 => ncy | 2, 5 => ncx
  | _, _ => 0

/-- The plane-stress matrix. -/
def Dmat (d00 d01 d22 : EReal) : Fin 3 → Fin 3 → EReal
  | 0, 0 => d00 | 0, 1 => d01 | 1, 0 => d01 | 1, 1 => d00 | 2, 2 => d22
  | _, _ => 0

theorem Dmat_apply (d00 d01 d22 : EReal) :
    Dmat d00 d01 d22 0 0 = d00 ∧ Dmat d00 d01 d22 0 1 = d01 ∧ Dmat d00 d01 d22 0 2 = 0
    ∧ Dmat d00 d01 d22 1 0 = d01 ∧ Dmat d00 d01 d22 1 1 = d00 ∧ Dmat d00 d01 d22 1 2 = 0
    ∧ Dmat d00 d01 d22 2 0 = 0 ∧ Dmat d00 d01 d22 2 1 = 0 ∧ Dmat d00 d01 d22 2 2 = d22 :=
  ⟨rfl, rfl, rfl, rfl, rfl, rfl, rfl, rfl, rfl⟩

/-- Bᵀ D B at (i, j), expanded over D's five nonzero entries. -/
def expTerm (B : Fin 3 → Fin 6 → EReal) (d00 d01 d22 : EReal) (i j : Fin 6) : EReal :=
  d00 * (B 0 i * B 0 j + B 1 i * B 1 j) + d01 * (B 0 i * B 1 j + B 1 i * B 0 j) + d22 * (B 2 i * B 2 j)

/-- Bᵀ D B at (i, j), as two contractions from a zero accumulator. -/
def conTerm (B : Fin 3 → Fin 6 → EReal) (D : Fin 3 → Fin 3 → EReal) (i j : Fin 6) : EReal :=
  0 + ∑ l : Fin 3, (0 + ∑ k : Fin 3, D k l * B k i) * B l j

/-- For real entries the expansion and the double contraction agree. -/
theorem expTerm_eq_conTerm (b : Fin 3 → Fin 6 → ℝ) (d00 d01 d22 : ℝ) (i j : Fin 6) :
    expTerm (fun k a => (b k a : EReal)) d00 d01 d22 i j
      = conTerm (fun k a => (b k a : EReal)) (Dmat d00 d01 d22) i j := by
  obtain ⟨h00, h01, h02, h10, h11, h12, h20, h21, h22⟩ := Dmat_apply (d00 : EReal) d01 d22
  unfold expTerm conTerm
  simp only [Fin.sum_univ_three, h00, h01, h02, h10, h11, h12, h20, h21, h22, zero_mul, add_zero, zero_add]
  norm_cast
  ring

/-! ## The two programs' entry, as scalar functions of one triangle's data -/

section Entry

variable (xa xb xc ya yb yc : EReal)

/-- The three denominators and the area's determinant, as the programs spell them. -/
def denA : EReal := (ya - yb) * (xc - xb) - (xa - xb) * (yc - yb)
def denB : EReal := (yb - yc) * (xa - xc) - (xb - xc) * (ya - yc)
def denC : EReal := (yc - ya) * (xb - xa) - (xc - xa) * (yb - ya)
def detQ : EReal := (xb - xa) * (yc - ya) - (xc - xa) * (yb - ya)

/-- Half the absolute value of the determinant (both programs). -/
def area (half : EReal) : EReal := half * max (detQ xa xb xc ya yb yc) (-(detQ xa xb xc ya yb yc))

/-- The strain matrix with guarded denominators and negation spelt as subtraction from zero. -/
def kerB : Fin 3 → Fin 6 → EReal :=
  Bmat (Ideal.div (0 - (yc - yb)) (guard (denA xa xb xc ya yb yc))) (Ideal.div (xc - xb) (guard (denA xa xb xc ya yb yc)))
       (Ideal.div (0 - (ya - yc)) (guard (denB xa xb xc ya yb yc))) (Ideal.div (xa - xc) (guard (denB xa xb xc ya yb yc)))
       (Ideal.div (0 - (yb - ya)) (guard (denC xa xb xc ya yb yc))) (Ideal.div (xb - xa) (guard (denC xa xb xc ya yb yc)))

/-- The strain matrix with the denominators as they are. -/
def refB : Fin 3 → Fin 6 → EReal :=
  Bmat (Ideal.div (-(yc - yb)) (denA xa xb xc ya yb yc)) (Ideal.div (xc - xb) (denA xa xb xc ya yb yc))
       (Ideal.div (-(ya - yc)) (denB xa xb xc ya yb yc)) (Ideal.div (xa - xc) (denB xa xb xc ya yb yc))
       (Ideal.div (-(yb - ya)) (denC xa xb xc ya yb yc)) (Ideal.div (xb - xa) (denC xa xb xc ya yb yc))

/-- The entry as the device kernel computes it: area times the expanded Bᵀ D B. -/
def kerEntry (half d00 d01 d22 : EReal) (i j : Fin 6) : EReal :=
  area xa xb xc ya yb yc half * expTerm (kerB xa xb xc ya yb yc) d00 d01 d22 i j

/-- The entry as the reference computes it: the doubly contracted Bᵀ D B times the area. -/
def refEntry (half : EReal) (D : Fin 3 → Fin 3 → EReal) (i j : Fin 6) : EReal :=
  conTerm (refB xa xb xc ya yb yc) D i j * area xa xb xc ya yb yc half

end Entry

/-- The real strain matrix. -/
def BmatR (nax nay nbx nby ncx ncy : ℝ) : Fin 3 → Fin 6 → ℝ
  | 0, 0 => nax | 0, 2 => nbx | 0, 4 => ncx
  | 1, 1 => nay | 1, 3 => nby | 1, 5 => ncy
  | 2, 0 => nay | 2, 1 => nax | 2, 2 => nby | 2, 3 => nbx | 2, 4 => ncy | 2, 5 => ncx
  | _, _ => 0

theorem Bmat_coe (nax nay nbx nby ncx ncy : ℝ) :
    Bmat (nax : EReal) nay nbx nby ncx ncy = fun k a => ((BmatR nax nay nbx nby ncx ncy k a : ℝ) : EReal) := by
  funext k a
  fin_cases k <;> fin_cases a <;> rfl

/-- A quotient of reals by a nonzero real is the real quotient. -/
theorem div_coe_coe (x p : ℝ) (hp : p ≠ 0) : Ideal.div (x : EReal) (p : EReal) = ((x / p : ℝ) : EReal) := by
  rw [Ideal.div_coe hp, ← EReal.coe_mul]; congr 1; field_simp

/-- THE ENTRY: for finite coordinates the two programs' entries are equal. -/
theorem kerEntry_eq_refEntry (xa xb xc ya yb yc half d00 d01 d22 : ℝ) (i j : Fin 6) :
    kerEntry (xa : EReal) xb xc ya yb yc half d00 d01 d22 i j
      = refEntry (xa : EReal) xb xc ya yb yc half (Dmat d00 d01 d22) i j := by
  have hA : denA (xa : EReal) xb xc ya yb yc = (((ya - yb) * (xc - xb) - (xa - xb) * (yc - yb) : ℝ) : EReal) := by
    unfold denA; norm_cast
  have hB : denB (xa : EReal) xb xc ya yb yc = (((ya - yb) * (xc - xb) - (xa - xb) * (yc - yb) : ℝ) : EReal) := by
    unfold denB; norm_cast; ring
  have hC : denC (xa : EReal) xb xc ya yb yc = (((ya - yb) * (xc - xb) - (xa - xb) * (yc - yb) : ℝ) : EReal) := by
    unfold denC; norm_cast; ring
  have hQ : detQ (xa : EReal) xb xc ya yb yc = (((ya - yb) * (xc - xb) - (xa - xb) * (yc - yb) : ℝ) : EReal) := by
    unfold detQ; norm_cast; ring
  generalize hP : (ya - yb) * (xc - xb) - (xa - xb) * (yc - yb) = P at hA hB hC hQ
  unfold kerEntry refEntry
  by_cases h0 : P = 0
  · have hz : area (xa : EReal) xb xc ya yb yc half = 0 := by
      unfold area; rw [hQ, h0]; simp
    rw [hz, zero_mul, mul_zero]
  · unfold kerB refB
    rw [hA, hB, hC, guard_coe, if_neg h0]
    have e0 : ∀ y : ℝ, (0 : EReal) - (y : EReal) = ((-y : ℝ) : EReal) := fun y => by
      rw [zero_sub, EReal.coe_neg]
    have e1 : ∀ y : ℝ, -(y : EReal) = ((-y : ℝ) : EReal) := fun y => (EReal.coe_neg y).symm
    simp only [← EReal.coe_sub, e0, e1, div_coe_coe _ _ h0]
    rw [Bmat_coe, expTerm_eq_conTerm, mul_comm]

/-! ## The material's choice -/

/-- One entry of the plane-stress matrix chosen by the material flag: the first when the flag exceeds the threshold. -/
def selD (mat thr al st : EReal) : EReal := Scalar.select (Ideal.cmp .ogt mat thr) al st

theorem selD_coe (mat thr : EReal) (al st : ℝ) :
    selD mat thr (al : EReal) st = (((if thr < mat then al else st) : ℝ) : EReal) := by
  unfold selD Ideal.cmp Scalar.select
  by_cases h : thr < mat <;> simp [h]

end Cert.ElemStiff

end
-- ==== Proof.Consts.lean ====
/-
  The float constants of the two programs as the extended reals their bit patterns denote.

  The reference multiplies, on the host, the 3×3 plane-stress matrix pattern of each material (entries
  1 − ν, ν, (1 − 2ν)/2 and zeros, each one binary32 word) by the binary32 word of E / ((1 + ν)(1 − 2ν)); at the
  exact instance that product is the product of two dyadic rationals. The kernel carries each product already
  folded, and its six folded words are NAMED as exactly those products. This module evaluates the eight words
  once and states the six products as the rationals the names denote.
-/
import Idealize.ShloMosaic.PureOps.Ideal
import Idealize.ShloMosaic.PureOps.Ideal.Laws

noncomputable section

namespace Cert.Consts

open Idealize.ShloMosaic

/-- binary32 of 0.7 (steel's 1 − ν). -/
theorem ofBits_st00 : Ideal.ofBits .f32 0x3F333333#32 = ((11744051 / 16777216 : ℝ) : EReal) := by
  simp [Ideal.ofBits, Ideal.ieee, -EReal.coe_mul]; norm_num
/-- binary32 of 0.3 (steel's ν). -/
theorem ofBits_st01 : Ideal.ofBits .f32 0x3E99999A#32 = ((5033165 / 16777216 : ℝ) : EReal) := by
  simp [Ideal.ofBits, Ideal.ieee, -EReal.coe_mul]; norm_num
/-- binary32 of 0.2 (steel's (1 − 2ν)/2). -/
theorem ofBits_st22 : Ideal.ofBits .f32 0x3E4CCCCD#32 = ((13421773 / 67108864 : ℝ) : EReal) := by
  simp [Ideal.ofBits, Ideal.ieee, -EReal.coe_mul]; norm_num
/-- binary32 of 0.67 (aluminium's 1 − ν). -/
theorem ofBits_al00 : Ideal.ofBits .f32 0x3F2B851F#32 = ((11240735 / 16777216 : ℝ) : EReal) := by
  simp [Ideal.ofBits, Ideal.ieee, -EReal.coe_mul]; norm_num
/-- binary32 of 0.33 (aluminium's ν). -/
theorem ofBits_al01 : Ideal.ofBits .f32 0x3EA8F5C3#32 = ((11072963 / 33554432 : ℝ) : EReal) := by
  simp [Ideal.ofBits, Ideal.ieee, -EReal.coe_mul]; norm_num
/-- binary32 of 0.17 (aluminium's (1 − 2ν)/2). -/
theorem ofBits_al22 : Ideal.ofBits .f32 0x3E2E147B#32 = ((11408507 / 67108864 : ℝ) : EReal) := by
  simp [Ideal.ofBits, Ideal.ieee, -EReal.coe_mul]; norm_num
/-- binary32 of 200 / (1.3 · 0.4). -/
theorem ofBits_cst : Ideal.ofBits .f32 0x43C04EC5#32 = ((12603077 / 32768 : ℝ) : EReal) := by
  simp [Ideal.ofBits, Ideal.ieee, -EReal.coe_mul]; norm_num
/-- binary32 of 69 / (1.33 · 0.34). -/
theorem ofBits_cal : Ideal.ofBits .f32 0x4318965D#32 = ((9999965 / 65536 : ℝ) : EReal) := by
  simp [Ideal.ofBits, Ideal.ieee, -EReal.coe_mul]; norm_num
/-- 0.5 and 1. -/
theorem ofBits_half : Ideal.ofBits .f32 0x3F000000#32 = ((1 / 2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- The six products scale · entry, as the rationals the kernel's names denote. -/
theorem prod_st00 : Ideal.ofBits .f32 0x43C04EC5#32 * Ideal.ofBits .f32 0x3F333333#32 = ((148011179044927 / 549755813888 : ℝ) : EReal) := by
  rw [ofBits_cst, ofBits_st00, ← EReal.coe_mul]; norm_num
theorem prod_st01 : Ideal.ofBits .f32 0x43C04EC5#32 * Ideal.ofBits .f32 0x3E99999A#32 = ((63433366048705 / 549755813888 : ℝ) : EReal) := by
  rw [ofBits_cst, ofBits_st01, ← EReal.coe_mul]; norm_num
theorem prod_st22 : Ideal.ofBits .f32 0x43C04EC5#32 * Ideal.ofBits .f32 0x3E4CCCCD#32 = ((169155638595521 / 2199023255552 : ℝ) : EReal) := by
  rw [ofBits_cst, ofBits_st22, ← EReal.coe_mul]; norm_num
theorem prod_al00 : Ideal.ofBits .f32 0x4318965D#32 * Ideal.ofBits .f32 0x3F2B851F#32 = ((112406956574275 / 1099511627776 : ℝ) : EReal) := by
  rw [ofBits_cal, ofBits_al00, ← EReal.coe_mul]; norm_num
theorem prod_al01 : Ideal.ofBits .f32 0x4318965D#32 * Ideal.ofBits .f32 0x3EA8F5C3#32 = ((110729242446295 / 2199023255552 : ℝ) : EReal) := by
  rw [ofBits_cal, ofBits_al01, ← EReal.coe_mul]; norm_num
theorem prod_al22 : Ideal.ofBits .f32 0x4318965D#32 * Ideal.ofBits .f32 0x3E2E147B#32 = ((114084670702255 / 4398046511104 : ℝ) : EReal) := by
  rw [ofBits_cal, ofBits_al22, ← EReal.coe_mul]; norm_num

end Cert.Consts

end
-- ==== Proof.KEntry.lean ====
/-
  One triangle's entry in the two programs, from the same finite coordinates.

  The kernel program's entry is the device kernel's formula at the triangle's six gathered coordinates and its material
  flag; the reference's is the contracted formula at its own six gathered coordinates and flag. The gathers agree, each
  gathered coordinate is an entry of a finite coordinate vector, hence a real number, and for real coordinates the two
  formulas are equal.
-/
import proofs.«145649_j20933670601054_2_alg».proof.Proof.Coords
import proofs.«145649_j20933670601054_2_alg».proof.Proof.Finite
import proofs.«145649_j20933670601054_2_alg».proof.Proof.ElemStiff
import proofs.«145649_j20933670601054_2_alg».proof.Proof.Consts

set_option maxRecDepth 16384

noncomputable section

namespace Cert.Alg

open Idealize.ShloMosaic Idealize.ShloMosaic.StableHlo Cert.LibSsaAfter Cert.ElemStiff

local notation "KV" => Valuation Cert.KernelIdeal.τ Cert.KernelIdeal.sig (Elt Ideal)
local notation "RV" => Valuation Cert.ReferenceIdeal.τ Cert.ReferenceIdeal.sig (Elt Ideal)
local notation "Kpre" => (Cert.KernelIdeal.Hand.preOps (F := Ideal))
local notation "Rops" => (Cert.ReferenceIdeal.RefRun.ops (F := Ideal))

/-- The material's plane-stress entries (aluminium above the threshold, steel otherwise). -/
abbrev d00 (mat : EReal) : EReal := selD mat (Ideal.ofBits .f32 0x3F000000#32) ((112406956574275 / 1099511627776 : ℝ) : EReal) ((148011179044927 / 549755813888 : ℝ) : EReal)
abbrev d01 (mat : EReal) : EReal := selD mat (Ideal.ofBits .f32 0x3F000000#32) ((110729242446295 / 2199023255552 : ℝ) : EReal) ((63433366048705 / 549755813888 : ℝ) : EReal)
abbrev d22 (mat : EReal) : EReal := selD mat (Ideal.ofBits .f32 0x3F000000#32) ((114084670702255 / 4398046511104 : ℝ) : EReal) ((169155638595521 / 2199023255552 : ℝ) : EReal)

theorem entry_eq (VK : KV) (VR : RV)
    (h0 : VK (Proc.devRef .tc Cert.KernelIdeal.main_arg0) = VR (Proc.devRef .tc Cert.ReferenceIdeal.main_arg0))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (hx : ∀ n, ∃ r : ℝ, VK (Proc.devRef .tc Cert.KernelIdeal.main_arg0) n = (r : EReal))
    (hy : ∀ n, ∃ r : ℝ, VK (Proc.devRef .tc Cert.KernelIdeal.main_arg1) n = (r : EReal))
    (mat : EReal) (e : Fin 12000) (i j : Fin 6) :
    kerEntry (after Kpre VK (Proc.devRef .tc Cert.KernelIdeal.main_v8) (ValueIdx.ix1 e))
        (after Kpre VK (Proc.devRef .tc Cert.KernelIdeal.main_v17) (ValueIdx.ix1 e))
        (after Kpre VK (Proc.devRef .tc Cert.KernelIdeal.main_v26) (ValueIdx.ix1 e))
        (after Kpre VK (Proc.devRef .tc Cert.KernelIdeal.main_v35) (ValueIdx.ix1 e))
        (after Kpre VK (Proc.devRef .tc Cert.KernelIdeal.main_v44) (ValueIdx.ix1 e))
        (after Kpre VK (Proc.devRef .tc Cert.KernelIdeal.main_v53) (ValueIdx.ix1 e))
        (Ideal.ofBits .f32 0x3F000000#32) (d00 mat) (d01 mat) (d22 mat) i j
      = refEntry (after Rops VR (Proc.devRef .tc Cert.ReferenceIdeal.main_v12) (ValueIdx.ix1 e))
        (after Rops VR (Proc.devRef .tc Cert.ReferenceIdeal.main_v21) (ValueIdx.ix1 e))
        (after Rops VR (Proc.devRef .tc Cert.ReferenceIdeal.main_v30) (ValueIdx.ix1 e))
        (after Rops VR (Proc.devRef .tc Cert.ReferenceIdeal.main_v39) (ValueIdx.ix1 e))
        (after Rops VR (Proc.devRef .tc Cert.ReferenceIdeal.main_v48) (ValueIdx.ix1 e))
        (after Rops VR (Proc.devRef .tc Cert.ReferenceIdeal.main_v57) (ValueIdx.ix1 e))
        (Ideal.ofBits .f32 0x3F000000#32) (Dmat (d00 mat) (d01 mat) (d22 mat)) i j := by
  rw [← coord_xa VK VR h0 h2, ← coord_xb VK VR h0 h2, ← coord_xc VK VR h0 h2,
    ← coord_ya VK VR h1 h2, ← coord_yb VK VR h1 h2, ← coord_yc VK VR h1 h2]
  obtain ⟨n1, e1⟩ := coord_xa_mem VK e
  obtain ⟨n2, e2⟩ := coord_xb_mem VK e
  obtain ⟨n3, e3⟩ := coord_xc_mem VK e
  obtain ⟨n4, e4⟩ := coord_ya_mem VK e
  obtain ⟨n5, e5⟩ := coord_yb_mem VK e
  obtain ⟨n6, e6⟩ := coord_yc_mem VK e
  obtain ⟨r1, q1⟩ := hx (ValueIdx.ix1 n1)
  obtain ⟨r2, q2⟩ := hx (ValueIdx.ix1 n2)
  obtain ⟨r3, q3⟩ := hx (ValueIdx.ix1 n3)
  obtain ⟨r4, q4⟩ := hy (ValueIdx.ix1 n4)
  obtain ⟨r5, q5⟩ := hy (ValueIdx.ix1 n5)
  obtain ⟨r6, q6⟩ := hy (ValueIdx.ix1 n6)
  rw [e1, e2, e3, e4, e5, e6, q1, q2, q3, q4, q5, q6, Cert.Consts.ofBits_half]
  simp only [d00, d01, d22, selD_coe]
  exact kerEntry_eq_refEntry r1 r2 r3 r4 r5 r6 (1 / 2) _ _ _ i j

end Cert.Alg

end
-- ==== Proof.KIValue.lean ====
import proofs.«145649_j20933670601054_2_alg».proof.Proof.KIBody
import proofs.«145649_j20933670601054_2_alg».proof.Proof.ElemStiff
import proofs.«145649_j20933670601054_2_alg».proof.Proof.Consts
import Idealize.ShloMosaic.Lib.ValueIdx
import Idealize.ShloMosaic.Lib.Pipeline.Value
import Idealize.ShloMosaic.PureOps.IdealRules

/-!
# The kernel body's value at an index, at the exact instance

The body stacks 36 row vectors of 1024 lanes.  Row `6 i + j` is, lane by lane, the area of the lane's triangle times the
`(i, j)` entry of `Bᵀ D B` expanded over the plane-stress matrix's nonzero entries, with the shape-function gradients
taken over guarded denominators and the matrix entries chosen by the material flag.  Every operation is lanewise, so a
row read at lane `l` is the same scalar expression of the seven inputs read at lane `l`.

The proof goes in four steps: the stacked block read at row `k` is the `k`-th row vector at row `0`
(`pay74_apply`); each row vector at a lane is the area times the expanded product over the six gradient vectors and
the three coefficient vectors at that lane, after the products with the literal zeros of the strain matrix are
simplified by `x * 0 = 0`, `0 * x = 0`, `x + 0 = x` on the extended reals (`row_K`); the gradient, area and
coefficient vectors at a lane are the scalar formulas of the inputs at that lane (`payN_apply`); together they are the
entry (`entry_of_base`, `bodyVal_apply`).
-/

set_option maxRecDepth 16384

noncomputable section

namespace Cert.KernelIdeal.Hand

open Cert.KernelIdeal.Gen Cert.ElemStiff
open Idealize.ShloMosaic Idealize.ShloMosaic.ValueIdx

/-! ## The zero and one words -/

theorem zeroW : (Scalar.ofBits .f32 0x00000000#32 : Ideal .f32) = (0 : EReal) := Ideal.ofBits_zero_f32
theorem oneW : (Scalar.ofBits .f32 0x3F800000#32 : Ideal .f32) = (1 : EReal) := by
  rw [Ideal.ofBits_def, Cert.Consts.ofBits_one, EReal.coe_one]

/-! ## Reading a stack of unit rows -/

/-- A concatenation of pieces of one shape, each of extent one along the axis, read at an index: the piece the axis
    coordinate names, at the index with the same other coordinates. -/
theorem concatenate_units_apply {α : Type} {t s₁ : Shape} (a : Fin t.rank) (xs : List ((s : Shape) × (s.Idx → α)))
    (h : Shape.Concatenates (xs.map (·.1)) t a) (hall : xs.map (·.1) = List.replicate xs.length s₁) (hr : s₁.rank = t.rank)
    (h1 : s₁.size (a.cast hr.symm) = 1) (j : t.Idx) (k : Nat) (x₁ : s₁.Idx → α)
    (hxk : xs[k]? = some ⟨s₁, x₁⟩) (hn : (j a).val = k) (i : s₁.Idx)
    (hi : ∀ b : Fin s₁.rank, b.cast hr ≠ a → (i b).val = (j (b.cast hr)).val) :
    concatenate t a xs h j = x₁ i := by
  obtain ⟨hk, hxk'⟩ := List.getElem?_eq_some_iff.mp hxk
  refine concatenate_apply_piece a xs h j k hk s₁ x₁ hxk' hr k ?_ i hi ?_
  · rw [List.map_take, hall, List.take_replicate, List.map_replicate, List.sum_replicate, dif_pos hr, h1,
      Nat.min_eq_left (le_of_lt hk)]
    simp
  · have hlt := (i (a.cast hr.symm)).isLt
    omega

/-- The 36 stacked rows read at row `k`: the `k`-th row vector. -/
theorem pay74_apply (a0 a1 a2 a3 a4 a5 a6 a7 a8 a9 a10 a11 a12 a13 a14 a15 a16 a17 a18 a19 a20 a21 a22 a23 a24 a25 a26 a27 a28 a29 a30 a31 a32 a33 a34 a35 : FVec Ideal S1x1024 .f32) (k : Nat) (hk : k < 36) (l : Fin 1024)
    (x₁ : FVec Ideal S1x1024 .f32)
    (hxk : ([⟨S1x1024, a0⟩, ⟨S1x1024, a1⟩, ⟨S1x1024, a2⟩, ⟨S1x1024, a3⟩, ⟨S1x1024, a4⟩, ⟨S1x1024, a5⟩, ⟨S1x1024, a6⟩, ⟨S1x1024, a7⟩, ⟨S1x1024, a8⟩, ⟨S1x1024, a9⟩, ⟨S1x1024, a10⟩, ⟨S1x1024, a11⟩, ⟨S1x1024, a12⟩, ⟨S1x1024, a13⟩, ⟨S1x1024, a14⟩, ⟨S1x1024, a15⟩, ⟨S1x1024, a16⟩, ⟨S1x1024, a17⟩, ⟨S1x1024, a18⟩, ⟨S1x1024, a19⟩, ⟨S1x1024, a20⟩, ⟨S1x1024, a21⟩, ⟨S1x1024, a22⟩, ⟨S1x1024, a23⟩, ⟨S1x1024, a24⟩, ⟨S1x1024, a25⟩, ⟨S1x1024, a26⟩, ⟨S1x1024, a27⟩, ⟨S1x1024, a28⟩, ⟨S1x1024, a29⟩, ⟨S1x1024, a30⟩, ⟨S1x1024, a31⟩, ⟨S1x1024, a32⟩, ⟨S1x1024, a33⟩, ⟨S1x1024, a34⟩, ⟨S1x1024, a35⟩] : List ((s : Shape) × (s.Idx → Ideal .f32)))[k]? = some ⟨S1x1024, x₁⟩) :
    k0_pay74 a0 a1 a2 a3 a4 a5 a6 a7 a8 a9 a10 a11 a12 a13 a14 a15 a16 a17 a18 a19 a20 a21 a22 a23 a24 a25 a26 a27 a28 a29 a30 a31 a32 a33 a34 a35 (ix2 (⟨k, hk⟩ : Fin 36) l) = x₁ (ix2 0 l) := by
  unfold k0_pay74
  refine concatenate_units_apply (t := S36x1024) (s₁ := S1x1024) 0 _ _ rfl rfl rfl _ k x₁ hxk ?_ (ix2 0 l) ?_
  · rfl
  intro b hb
  fin_cases b
  · exact absurd rfl hb
  · rfl

/-! ## The strain matrix at literal positions -/

theorem Bmat_0_0 (nax nay nbx nby ncx ncy : EReal) : Bmat nax nay nbx nby ncx ncy (0 : Fin 3) (0 : Fin 6) = nax := rfl
theorem Bmat_0_1 (nax nay nbx nby ncx ncy : EReal) : Bmat nax nay nbx nby ncx ncy (0 : Fin 3) (1 : Fin 6) = 0 := rfl
theorem Bmat_0_2 (nax nay nbx nby ncx ncy : EReal) : Bmat nax nay nbx nby ncx ncy (0 : Fin 3) (2 : Fin 6) = nbx := rfl
theorem Bmat_0_3 (nax nay nbx nby ncx ncy : EReal) : Bmat nax nay nbx nby ncx ncy (0 : Fin 3) (3 : Fin 6) = 0 := rfl
theorem Bmat_0_4 (nax nay nbx nby ncx ncy : EReal) : Bmat nax nay nbx nby ncx ncy (0 : Fin 3) (4 : Fin 6) = ncx := rfl
theorem Bmat_0_5 (nax nay nbx nby ncx ncy : EReal) : Bmat nax nay nbx nby ncx ncy (0 : Fin 3) (5 : Fin 6) = 0 := rfl
theorem Bmat_1_0 (nax nay nbx nby ncx ncy : EReal) : Bmat nax nay nbx nby ncx ncy (1 : Fin 3) (0 : Fin 6) = 0 := rfl
theorem Bmat_1_1 (nax nay nbx nby ncx ncy : EReal) : Bmat nax nay nbx nby ncx ncy (1 : Fin 3) (1 : Fin 6) = nay := rfl
theorem Bmat_1_2 (nax nay nbx nby ncx ncy : EReal) : Bmat nax nay nbx nby ncx ncy (1 : Fin 3) (2 : Fin 6) = 0 := rfl
theorem Bmat_1_3 (nax nay nbx nby ncx ncy : EReal) : Bmat nax nay nbx nby ncx ncy (1 : Fin 3) (3 : Fin 6) = nby := rfl
theorem Bmat_1_4 (nax nay nbx nby ncx ncy : EReal) : Bmat nax nay nbx nby ncx ncy (1 : Fin 3) (4 : Fin 6) = 0 := rfl
theorem Bmat_1_5 (nax nay nbx nby ncx ncy : EReal) : Bmat nax nay nbx nby ncx ncy (1 : Fin 3) (5 : Fin 6) = ncy := rfl
theorem Bmat_2_0 (nax nay nbx nby ncx ncy : EReal) : Bmat nax nay nbx nby ncx ncy (2 : Fin 3) (0 : Fin 6) = nay := rfl
theorem Bmat_2_1 (nax nay nbx nby ncx ncy : EReal) : Bmat nax nay nbx nby ncx ncy (2 : Fin 3) (1 : Fin 6) = nax := rfl
theorem Bmat_2_2 (nax nay nbx nby ncx ncy : EReal) : Bmat nax nay nbx nby ncx ncy (2 : Fin 3) (2 : Fin 6) = nby := rfl
theorem Bmat_2_3 (nax nay nbx nby ncx ncy : EReal) : Bmat nax nay nbx nby ncx ncy (2 : Fin 3) (3 : Fin 6) = nbx := rfl
theorem Bmat_2_4 (nax nay nbx nby ncx ncy : EReal) : Bmat nax nay nbx nby ncx ncy (2 : Fin 3) (4 : Fin 6) = ncy := rfl
theorem Bmat_2_5 (nax nay nbx nby ncx ncy : EReal) : Bmat nax nay nbx nby ncx ncy (2 : Fin 3) (5 : Fin 6) = ncx := rfl

/-! ## Each row vector at a lane -/

theorem row_0 (v9 v11 v38 v52 v74 v79 v82 v85 : FVec Ideal S1x1024 .f32) (n56 n58 n62 n64 : EReal) (p : S1x1024.Idx) :
    k0_pay26 (k0_pay14 v9 v11 v38) v52 v74 v79 v82 v85 (k0_pay25 v9 v11 v38) (Scalar.ofBits .f32 0x00000000#32 : Ideal .f32) p
      = (v74 p) * expTerm (Bmat (k0_pay14 v9 v11 v38 p) (v52 p) n56 n58 n62 n64) (v79 p) (v82 p) (v85 p) (0 : Fin 6) (0 : Fin 6) := by
  simp only [k0_pay26, k0_pay25, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_1 (v50 v52 v74 v79 v82 v85 : FVec Ideal S1x1024 .f32) (n56 n58 n62 n64 : EReal) (p : S1x1024.Idx) :
    k0_pay27 v50 v52 v74 v79 v82 v85 p
      = (v74 p) * expTerm (Bmat (v50 p) (v52 p) n56 n58 n62 n64) (v79 p) (v82 p) (v85 p) (0 : Fin 6) (1 : Fin 6) := by
  simp only [k0_pay27, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_2 (v50 v52 v56 v58 v74 v79 v82 v85 : FVec Ideal S1x1024 .f32) (n62 n64 : EReal) (p : S1x1024.Idx) :
    k0_pay28 v50 v52 v56 v58 v74 v79 v82 v85 p
      = (v74 p) * expTerm (Bmat (v50 p) (v52 p) (v56 p) (v58 p) n62 n64) (v79 p) (v82 p) (v85 p) (0 : Fin 6) (2 : Fin 6) := by
  simp only [k0_pay28, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_3 (v50 v52 v56 v58 v74 v82 v85 v79 : FVec Ideal S1x1024 .f32) (n62 n64 : EReal) (p : S1x1024.Idx) :
    k0_pay30 v50 v52 v56 v58 v74 v82 v85 (k0_pay29 v50 v58 v79) p
      = (v74 p) * expTerm (Bmat (v50 p) (v52 p) (v56 p) (v58 p) n62 n64) (v79 p) (v82 p) (v85 p) (0 : Fin 6) (3 : Fin 6) := by
  simp only [k0_pay30, k0_pay29, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_4 (v50 v52 v62 v64 v74 v79 v82 v85 : FVec Ideal S1x1024 .f32) (n56 n58 : EReal) (p : S1x1024.Idx) :
    k0_pay31 v50 v52 v62 v64 v74 v79 v82 v85 p
      = (v74 p) * expTerm (Bmat (v50 p) (v52 p) n56 n58 (v62 p) (v64 p)) (v79 p) (v82 p) (v85 p) (0 : Fin 6) (4 : Fin 6) := by
  simp only [k0_pay31, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_5 (v50 v52 v62 v64 v74 v79 v82 v85 : FVec Ideal S1x1024 .f32) (n56 n58 : EReal) (p : S1x1024.Idx) :
    k0_pay32 v50 v52 v62 v64 v74 v79 v82 v85 p
      = (v74 p) * expTerm (Bmat (v50 p) (v52 p) n56 n58 (v62 p) (v64 p)) (v79 p) (v82 p) (v85 p) (0 : Fin 6) (5 : Fin 6) := by
  simp only [k0_pay32, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_6 (v50 v52 v74 v85 v79 v82 : FVec Ideal S1x1024 .f32) (n56 n58 n62 n64 : EReal) (p : S1x1024.Idx) :
    k0_pay34 v50 v52 v74 v85 (k0_pay33 v50 v52 v79 v82) p
      = (v74 p) * expTerm (Bmat (v50 p) (v52 p) n56 n58 n62 n64) (v79 p) (v82 p) (v85 p) (1 : Fin 6) (0 : Fin 6) := by
  simp only [k0_pay34, k0_pay33, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_7 (v50 v52 v74 v79 v82 v85 : FVec Ideal S1x1024 .f32) (n56 n58 n62 n64 : EReal) (p : S1x1024.Idx) :
    k0_pay35 v50 v52 v74 v79 v82 v85 p
      = (v74 p) * expTerm (Bmat (v50 p) (v52 p) n56 n58 n62 n64) (v79 p) (v82 p) (v85 p) (1 : Fin 6) (1 : Fin 6) := by
  simp only [k0_pay35, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_8 (v50 v52 v56 v58 v74 v79 v82 v85 : FVec Ideal S1x1024 .f32) (n62 n64 : EReal) (p : S1x1024.Idx) :
    k0_pay36 v50 v52 v56 v58 v74 v79 v82 v85 p
      = (v74 p) * expTerm (Bmat (v50 p) (v52 p) (v56 p) (v58 p) n62 n64) (v79 p) (v82 p) (v85 p) (1 : Fin 6) (2 : Fin 6) := by
  simp only [k0_pay36, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_9 (v50 v52 v56 v58 v74 v79 v82 v85 : FVec Ideal S1x1024 .f32) (n62 n64 : EReal) (p : S1x1024.Idx) :
    k0_pay37 v50 v52 v56 v58 v74 v79 v82 v85 p
      = (v74 p) * expTerm (Bmat (v50 p) (v52 p) (v56 p) (v58 p) n62 n64) (v79 p) (v82 p) (v85 p) (1 : Fin 6) (3 : Fin 6) := by
  simp only [k0_pay37, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_10 (v50 v52 v62 v64 v74 v79 v82 v85 : FVec Ideal S1x1024 .f32) (n56 n58 : EReal) (p : S1x1024.Idx) :
    k0_pay39 v50 v52 v62 v64 v74 v79 v82 v85 (k0_pay38 (F := Ideal)) p
      = (v74 p) * expTerm (Bmat (v50 p) (v52 p) n56 n58 (v62 p) (v64 p)) (v79 p) (v82 p) (v85 p) (1 : Fin 6) (4 : Fin 6) := by
  simp only [k0_pay39, k0_pay38, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_11 (v50 v52 v62 v64 v74 v79 v82 v85 : FVec Ideal S1x1024 .f32) (n56 n58 : EReal) (p : S1x1024.Idx) :
    k0_pay40 v50 v52 v62 v64 v74 v79 v82 v85 p
      = (v74 p) * expTerm (Bmat (v50 p) (v52 p) n56 n58 (v62 p) (v64 p)) (v79 p) (v82 p) (v85 p) (1 : Fin 6) (5 : Fin 6) := by
  simp only [k0_pay40, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_12 (v50 v52 v56 v58 v74 v79 v82 v85 : FVec Ideal S1x1024 .f32) (n62 n64 : EReal) (p : S1x1024.Idx) :
    k0_pay41 v50 v52 v56 v58 v74 v79 v82 v85 p
      = (v74 p) * expTerm (Bmat (v50 p) (v52 p) (v56 p) (v58 p) n62 n64) (v79 p) (v82 p) (v85 p) (2 : Fin 6) (0 : Fin 6) := by
  simp only [k0_pay41, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_13 (v50 v52 v56 v58 v74 v82 v85 v79 : FVec Ideal S1x1024 .f32) (n62 n64 : EReal) (p : S1x1024.Idx) :
    k0_pay43 v50 v52 v56 v58 v74 v82 v85 (k0_pay42 v52 v56 v79) p
      = (v74 p) * expTerm (Bmat (v50 p) (v52 p) (v56 p) (v58 p) n62 n64) (v79 p) (v82 p) (v85 p) (2 : Fin 6) (1 : Fin 6) := by
  simp only [k0_pay43, k0_pay42, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_14 (v56 v58 v74 v79 v82 v85 : FVec Ideal S1x1024 .f32) (n50 n52 n62 n64 : EReal) (p : S1x1024.Idx) :
    k0_pay44 v56 v58 v74 v79 v82 v85 p
      = (v74 p) * expTerm (Bmat n50 n52 (v56 p) (v58 p) n62 n64) (v79 p) (v82 p) (v85 p) (2 : Fin 6) (2 : Fin 6) := by
  simp only [k0_pay44, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_15 (v56 v58 v74 v79 v82 v85 : FVec Ideal S1x1024 .f32) (n50 n52 n62 n64 : EReal) (p : S1x1024.Idx) :
    k0_pay45 v56 v58 v74 v79 v82 v85 p
      = (v74 p) * expTerm (Bmat n50 n52 (v56 p) (v58 p) n62 n64) (v79 p) (v82 p) (v85 p) (2 : Fin 6) (3 : Fin 6) := by
  simp only [k0_pay45, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_16 (v58 v64 v74 v85 v56 v62 v79 v82 : FVec Ideal S1x1024 .f32) (n50 n52 : EReal) (p : S1x1024.Idx) :
    k0_pay47 v58 v64 v74 v85 (k0_pay46 v56 v62 v79 v82) p
      = (v74 p) * expTerm (Bmat n50 n52 (v56 p) (v58 p) (v62 p) (v64 p)) (v79 p) (v82 p) (v85 p) (2 : Fin 6) (4 : Fin 6) := by
  simp only [k0_pay47, k0_pay46, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_17 (v56 v58 v62 v64 v74 v79 v82 v85 : FVec Ideal S1x1024 .f32) (n50 n52 : EReal) (p : S1x1024.Idx) :
    k0_pay48 v56 v58 v62 v64 v74 v79 v82 v85 p
      = (v74 p) * expTerm (Bmat n50 n52 (v56 p) (v58 p) (v62 p) (v64 p)) (v79 p) (v82 p) (v85 p) (2 : Fin 6) (5 : Fin 6) := by
  simp only [k0_pay48, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_18 (v50 v52 v56 v58 v74 v79 v82 v85 : FVec Ideal S1x1024 .f32) (n62 n64 : EReal) (p : S1x1024.Idx) :
    k0_pay49 v50 v52 v56 v58 v74 v79 v82 v85 p
      = (v74 p) * expTerm (Bmat (v50 p) (v52 p) (v56 p) (v58 p) n62 n64) (v79 p) (v82 p) (v85 p) (3 : Fin 6) (0 : Fin 6) := by
  simp only [k0_pay49, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_19 (v50 v52 v56 v58 v74 v79 v82 v85 : FVec Ideal S1x1024 .f32) (n62 n64 : EReal) (p : S1x1024.Idx) :
    k0_pay50 v50 v52 v56 v58 v74 v79 v82 v85 p
      = (v74 p) * expTerm (Bmat (v50 p) (v52 p) (v56 p) (v58 p) n62 n64) (v79 p) (v82 p) (v85 p) (3 : Fin 6) (1 : Fin 6) := by
  simp only [k0_pay50, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_20 (v56 v58 v74 v79 v82 v85 : FVec Ideal S1x1024 .f32) (n50 n52 n62 n64 : EReal) (p : S1x1024.Idx) :
    k0_pay52 v56 v58 v74 v79 v82 v85 (k0_pay51 (F := Ideal)) p
      = (v74 p) * expTerm (Bmat n50 n52 (v56 p) (v58 p) n62 n64) (v79 p) (v82 p) (v85 p) (3 : Fin 6) (2 : Fin 6) := by
  simp only [k0_pay52, k0_pay51, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_21 (v56 v58 v74 v79 v82 v85 : FVec Ideal S1x1024 .f32) (n50 n52 n62 n64 : EReal) (p : S1x1024.Idx) :
    k0_pay53 v56 v58 v74 v79 v82 v85 p
      = (v74 p) * expTerm (Bmat n50 n52 (v56 p) (v58 p) n62 n64) (v79 p) (v82 p) (v85 p) (3 : Fin 6) (3 : Fin 6) := by
  simp only [k0_pay53, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_22 (v56 v58 v62 v64 v74 v79 v82 v85 : FVec Ideal S1x1024 .f32) (n50 n52 : EReal) (p : S1x1024.Idx) :
    k0_pay54 v56 v58 v62 v64 v74 v79 v82 v85 p
      = (v74 p) * expTerm (Bmat n50 n52 (v56 p) (v58 p) (v62 p) (v64 p)) (v79 p) (v82 p) (v85 p) (3 : Fin 6) (4 : Fin 6) := by
  simp only [k0_pay54, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_23 (v56 v58 v62 v74 v82 v85 v64 v79 : FVec Ideal S1x1024 .f32) (n50 n52 : EReal) (p : S1x1024.Idx) :
    k0_pay57 v56 v58 v62 v74 v82 v85 (k0_pay55 v58 v64 v79) (k0_pay56 v64) p
      = (v74 p) * expTerm (Bmat n50 n52 (v56 p) (v58 p) (v62 p) (v64 p)) (v79 p) (v82 p) (v85 p) (3 : Fin 6) (5 : Fin 6) := by
  simp only [k0_pay57, k0_pay55, k0_pay56, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_24 (v50 v52 v62 v64 v74 v79 v82 v85 : FVec Ideal S1x1024 .f32) (n56 n58 : EReal) (p : S1x1024.Idx) :
    k0_pay58 v50 v52 v62 v64 v74 v79 v82 v85 p
      = (v74 p) * expTerm (Bmat (v50 p) (v52 p) n56 n58 (v62 p) (v64 p)) (v79 p) (v82 p) (v85 p) (4 : Fin 6) (0 : Fin 6) := by
  simp only [k0_pay58, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_25 (v50 v52 v62 v64 v74 v79 v82 v85 : FVec Ideal S1x1024 .f32) (n56 n58 : EReal) (p : S1x1024.Idx) :
    k0_pay59 v50 v52 v62 v64 v74 v79 v82 v85 p
      = (v74 p) * expTerm (Bmat (v50 p) (v52 p) n56 n58 (v62 p) (v64 p)) (v79 p) (v82 p) (v85 p) (4 : Fin 6) (1 : Fin 6) := by
  simp only [k0_pay59, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_26 (v58 v64 v74 v85 v56 v62 v79 v82 : FVec Ideal S1x1024 .f32) (n50 n52 : EReal) (p : S1x1024.Idx) :
    k0_pay61 v58 v64 v74 v85 (k0_pay60 v56 v62 v79 v82) p
      = (v74 p) * expTerm (Bmat n50 n52 (v56 p) (v58 p) (v62 p) (v64 p)) (v79 p) (v82 p) (v85 p) (4 : Fin 6) (2 : Fin 6) := by
  simp only [k0_pay61, k0_pay60, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_27 (v56 v58 v62 v64 v74 v79 v82 v85 : FVec Ideal S1x1024 .f32) (n50 n52 : EReal) (p : S1x1024.Idx) :
    k0_pay62 v56 v58 v62 v64 v74 v79 v82 v85 p
      = (v74 p) * expTerm (Bmat n50 n52 (v56 p) (v58 p) (v62 p) (v64 p)) (v79 p) (v82 p) (v85 p) (4 : Fin 6) (3 : Fin 6) := by
  simp only [k0_pay62, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_28 (v62 v64 v74 v79 v82 v85 : FVec Ideal S1x1024 .f32) (n50 n52 n56 n58 : EReal) (p : S1x1024.Idx) :
    k0_pay63 v62 v64 v74 v79 v82 v85 p
      = (v74 p) * expTerm (Bmat n50 n52 n56 n58 (v62 p) (v64 p)) (v79 p) (v82 p) (v85 p) (4 : Fin 6) (4 : Fin 6) := by
  simp only [k0_pay63, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_29 (v62 v64 v74 v79 v82 v85 : FVec Ideal S1x1024 .f32) (n50 n52 n56 n58 : EReal) (p : S1x1024.Idx) :
    k0_pay64 v62 v64 v74 v79 v82 v85 p
      = (v74 p) * expTerm (Bmat n50 n52 n56 n58 (v62 p) (v64 p)) (v79 p) (v82 p) (v85 p) (4 : Fin 6) (5 : Fin 6) := by
  simp only [k0_pay64, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_30 (v50 v52 v62 v64 v74 v79 v82 v85 : FVec Ideal S1x1024 .f32) (n56 n58 : EReal) (p : S1x1024.Idx) :
    k0_pay66 v50 v52 v62 v64 v74 v79 v82 v85 (k0_pay65 (F := Ideal)) p
      = (v74 p) * expTerm (Bmat (v50 p) (v52 p) n56 n58 (v62 p) (v64 p)) (v79 p) (v82 p) (v85 p) (5 : Fin 6) (0 : Fin 6) := by
  simp only [k0_pay66, k0_pay65, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_31 (v50 v52 v62 v64 v74 v79 v82 v85 : FVec Ideal S1x1024 .f32) (n56 n58 : EReal) (p : S1x1024.Idx) :
    k0_pay67 v50 v52 v62 v64 v74 v79 v82 v85 p
      = (v74 p) * expTerm (Bmat (v50 p) (v52 p) n56 n58 (v62 p) (v64 p)) (v79 p) (v82 p) (v85 p) (5 : Fin 6) (1 : Fin 6) := by
  simp only [k0_pay67, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_32 (v56 v58 v62 v64 v74 v79 v82 v85 : FVec Ideal S1x1024 .f32) (n50 n52 : EReal) (p : S1x1024.Idx) :
    k0_pay68 v56 v58 v62 v64 v74 v79 v82 v85 p
      = (v74 p) * expTerm (Bmat n50 n52 (v56 p) (v58 p) (v62 p) (v64 p)) (v79 p) (v82 p) (v85 p) (5 : Fin 6) (2 : Fin 6) := by
  simp only [k0_pay68, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_33 (v56 v62 v64 v74 v82 v85 v58 v79 : FVec Ideal S1x1024 .f32) (n50 n52 : EReal) (p : S1x1024.Idx) :
    k0_pay71 v56 v62 v64 v74 v82 v85 (k0_pay69 v58 v64 v79) (k0_pay70 v58) p
      = (v74 p) * expTerm (Bmat n50 n52 (v56 p) (v58 p) (v62 p) (v64 p)) (v79 p) (v82 p) (v85 p) (5 : Fin 6) (3 : Fin 6) := by
  simp only [k0_pay71, k0_pay69, k0_pay70, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_34 (v62 v64 v74 v79 v82 v85 : FVec Ideal S1x1024 .f32) (n50 n52 n56 n58 : EReal) (p : S1x1024.Idx) :
    k0_pay72 v62 v64 v74 v79 v82 v85 p
      = (v74 p) * expTerm (Bmat n50 n52 n56 n58 (v62 p) (v64 p)) (v79 p) (v82 p) (v85 p) (5 : Fin 6) (4 : Fin 6) := by
  simp only [k0_pay72, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

theorem row_35 (v62 v64 v74 v79 v82 v85 : FVec Ideal S1x1024 .f32) (n50 n52 n56 n58 : EReal) (p : S1x1024.Idx) :
    k0_pay73 v62 v64 v74 v79 v82 v85 p
      = (v74 p) * expTerm (Bmat n50 n52 n56 n58 (v62 p) (v64 p)) (v79 p) (v82 p) (v85 p) (5 : Fin 6) (5 : Fin 6) := by
  simp only [k0_pay73, mulf_apply, addf_apply, broadcast_apply, zeroW, expTerm, Bmat_0_0, Bmat_0_1, Bmat_0_2, Bmat_0_3, Bmat_0_4, Bmat_0_5, Bmat_1_0, Bmat_1_1, Bmat_1_2, Bmat_1_3, Bmat_1_4, Bmat_1_5, Bmat_2_0, Bmat_2_1, Bmat_2_2, Bmat_2_3, Bmat_2_4, Bmat_2_5,
    mul_zero, zero_mul, add_zero, zero_add]
  first | done | rfl | ac_rfl

/-! ## The constants at the exact instance -/

theorem named_al00 : Named.named (F := Ideal) κ "d_al_00" (φ := .f32) 0x42CC7791#32 = ((112406956574275 / 1099511627776 : ℝ) : EReal) :=
  IdealRules.named_const.ideal_named_scalar _ _ _ _ rfl
theorem named_st00 : Named.named (F := Ideal) κ "d_st_00" (φ := .f32) 0x43869D8A#32 = ((148011179044927 / 549755813888 : ℝ) : EReal) :=
  IdealRules.named_const.ideal_named_scalar _ _ _ _ rfl
theorem named_al01 : Named.named (F := Ideal) κ "d_al_01" (φ := .f32) 0x42496A52#32 = ((110729242446295 / 2199023255552 : ℝ) : EReal) :=
  IdealRules.named_const.ideal_named_scalar _ _ _ _ rfl
theorem named_st01 : Named.named (F := Ideal) κ "d_st_01" (φ := .f32) 0x42E6C4ED#32 = ((63433366048705 / 549755813888 : ℝ) : EReal) :=
  IdealRules.named_const.ideal_named_scalar _ _ _ _ rfl
theorem named_al22 : Named.named (F := Ideal) κ "d_al_22" (φ := .f32) 0x41CF84D1#32 = ((114084670702255 / 4398046511104 : ℝ) : EReal) :=
  IdealRules.named_const.ideal_named_scalar _ _ _ _ rfl
theorem named_st22 : Named.named (F := Ideal) κ "d_st_22" (φ := .f32) 0x4299D89E#32 = ((169155638595521 / 2199023255552 : ℝ) : EReal) :=
  IdealRules.named_const.ideal_named_scalar _ _ _ _ rfl

/-! ## The shared values at an index -/

theorem absf_apply' {s : Shape} {φ : FTy} (a : FVec Ideal s φ) (i : s.Idx) : absf a i = max (a i) (-(a i)) := rfl

section Base
variable (v0 v2 v4 v6 v8 v10 v12 : Vec Ideal S1x1024 .f32)
variable (w1 w3 w5 w7 w9 w11 w13 w27 w34 w38 : FVec Ideal S1x1024 .f32) (w40 : IVec S1x1024 1) (c : Ideal .f32)
variable (p : S1x1024.Idx)

theorem pay1_apply : k0_pay1 v0 p = v0 p := by unfold k0_pay1; rw [shapeCast_self]
theorem pay2_apply : k0_pay2 v2 p = v2 p := by unfold k0_pay2; rw [shapeCast_self]
theorem pay3_apply : k0_pay3 v4 p = v4 p := by unfold k0_pay3; rw [shapeCast_self]
theorem pay4_apply : k0_pay4 v6 p = v6 p := by unfold k0_pay4; rw [shapeCast_self]
theorem pay5_apply : k0_pay5 v8 p = v8 p := by unfold k0_pay5; rw [shapeCast_self]
theorem pay6_apply : k0_pay6 v10 p = v10 p := by unfold k0_pay6; rw [shapeCast_self]
theorem pay7_apply : k0_pay7 v12 p = v12 p := by unfold k0_pay7; rw [shapeCast_self]

/-- The first denominator, guarded. -/
theorem pay10_apply : k0_pay10 v0 v2 v4 v6 v8 v10 p = guard (denA (v0 p) (v2 p) (v4 p) (v6 p) (v8 p) (v10 p)) := by
  simp only [k0_pay10, k0_pay1, k0_pay2, k0_pay3, k0_pay4, k0_pay5, k0_pay6, shapeCast_self, select_apply, cmpf_apply,
    subf_apply, mulf_apply, broadcast_apply, zeroW, oneW, Ideal.cmpf_def]
  rfl
/-- The second denominator. -/
theorem pay8_apply : k0_pay8 v0 v2 v4 v6 v8 v10 p = denB (v0 p) (v2 p) (v4 p) (v6 p) (v8 p) (v10 p) := by
  simp only [k0_pay8, k0_pay1, k0_pay2, k0_pay3, k0_pay4, k0_pay5, k0_pay6, shapeCast_self, subf_apply, mulf_apply]
  rfl
/-- The third denominator. -/
theorem pay9_apply : k0_pay9 v0 v2 v4 v6 v8 v10 p = denC (v0 p) (v2 p) (v4 p) (v6 p) (v8 p) (v10 p) := by
  simp only [k0_pay9, k0_pay1, k0_pay2, k0_pay3, k0_pay4, k0_pay5, k0_pay6, shapeCast_self, subf_apply, mulf_apply]
  rfl
/-- Whether the second denominator vanishes. -/
theorem pay11_apply : k0_pay11 v0 v2 v4 v6 v8 v10 p = Ideal.cmp .oeq (denB (v0 p) (v2 p) (v4 p) (v6 p) (v8 p) (v10 p)) 0 := by
  simp only [k0_pay11, cmpf_apply, broadcast_apply, zeroW, Ideal.cmpf_def, pay8_apply]

theorem pay12_apply : k0_pay12 w27 w40 c p = Scalar.select (w40 p) c (w27 p) := by
  simp only [k0_pay12, select_apply, broadcast_apply]
theorem pay13_apply : k0_pay13 w34 p = guard (w34 p) := by
  simp only [k0_pay13, select_apply, cmpf_apply, broadcast_apply, zeroW, oneW, Ideal.cmpf_def]
  rfl
theorem pay14_apply : k0_pay14 w9 w11 w38 p = Ideal.div (0 - (w11 p - w9 p)) (w38 p) := by
  simp only [k0_pay14, divf_apply, subf_apply, broadcast_apply, zeroW]
theorem pay15_apply : k0_pay15 w3 w5 w38 p = Ideal.div (w5 p - w3 p) (w38 p) := by
  simp only [k0_pay15, divf_apply, subf_apply]
theorem pay16_apply : k0_pay16 w7 w11 w27 w40 c p = Ideal.div (0 - (w7 p - w11 p)) (Scalar.select (w40 p) c (w27 p)) := by
  simp only [k0_pay16, k0_pay12, divf_apply, subf_apply, select_apply, broadcast_apply, zeroW]
theorem pay17_apply : k0_pay17 w1 w5 w27 w40 c p = Ideal.div (w1 p - w5 p) (Scalar.select (w40 p) c (w27 p)) := by
  simp only [k0_pay17, k0_pay12, divf_apply, subf_apply, select_apply, broadcast_apply]
theorem pay18_apply : k0_pay18 w7 w9 w34 p = Ideal.div (0 - (w9 p - w7 p)) (guard (w34 p)) := by
  simp only [k0_pay18, divf_apply, subf_apply, broadcast_apply, zeroW, pay13_apply]
theorem pay19_apply : k0_pay19 w1 w3 w34 p = Ideal.div (w3 p - w1 p) (guard (w34 p)) := by
  simp only [k0_pay19, divf_apply, subf_apply, pay13_apply]
/-- Half the absolute value of the area determinant. -/
theorem pay20_apply : k0_pay20 w1 w3 w5 w7 w9 w11 p
    = area (w1 p) (w3 p) (w5 p) (w7 p) (w9 p) (w11 p) (Ideal.ofBits .f32 0x3F000000#32) := by
  simp only [k0_pay20, mulf_apply, subf_apply, absf_apply', broadcast_apply, Ideal.ofBits_def]
  rfl
theorem pay21_apply : k0_pay21 w13 p = Ideal.cmp .ogt (w13 p) (Ideal.ofBits .f32 0x3F000000#32) := by
  simp only [k0_pay21, cmpf_apply, broadcast_apply, Ideal.cmpf_def, Ideal.ofBits_def]
theorem pay22_apply : k0_pay22 w13 p = selD (w13 p) (Ideal.ofBits .f32 0x3F000000#32)
    ((112406956574275 / 1099511627776 : ℝ) : EReal) ((148011179044927 / 549755813888 : ℝ) : EReal) := by
  simp only [k0_pay22, select_apply, broadcast_apply, pay21_apply, named_al00, named_st00]
  rfl
theorem pay23_apply : k0_pay23 w13 p = selD (w13 p) (Ideal.ofBits .f32 0x3F000000#32)
    ((110729242446295 / 2199023255552 : ℝ) : EReal) ((63433366048705 / 549755813888 : ℝ) : EReal) := by
  simp only [k0_pay23, select_apply, broadcast_apply, pay21_apply, named_al01, named_st01]
  rfl
theorem pay24_apply : k0_pay24 w13 p = selD (w13 p) (Ideal.ofBits .f32 0x3F000000#32)
    ((114084670702255 / 4398046511104 : ℝ) : EReal) ((169155638595521 / 2199023255552 : ℝ) : EReal) := by
  simp only [k0_pay24, select_apply, broadcast_apply, pay21_apply, named_al22, named_st22]
  rfl

end Base

/-! ## From the shared values to the entry -/

/-- The area times the expanded product over the six gradients, the area and the three chosen coefficients as the body
    computes them, is the entry over the six coordinates and the material flag. -/
theorem entry_of_base (v0 v2 v4 v6 v8 v10 v12 : Vec Ideal S1x1024 .f32) (p : S1x1024.Idx) (i j : Fin 6) :
    (k0_pay20 (k0_pay1 v0) (k0_pay2 v2) (k0_pay3 v4) (k0_pay4 v6) (k0_pay5 v8) (k0_pay6 v10)) p * expTerm (Bmat ((k0_pay14 (k0_pay5 v8) (k0_pay6 v10) (k0_pay10 v0 v2 v4 v6 v8 v10)) p) ((k0_pay15 (k0_pay2 v2) (k0_pay3 v4) (k0_pay10 v0 v2 v4 v6 v8 v10)) p)
        ((k0_pay16 (k0_pay4 v6) (k0_pay6 v10) (k0_pay8 v0 v2 v4 v6 v8 v10) (k0_pay11 v0 v2 v4 v6 v8 v10) (Scalar.ofBits .f32 0x3F800000#32 : Ideal .f32)) p)
        ((k0_pay17 (k0_pay1 v0) (k0_pay3 v4) (k0_pay8 v0 v2 v4 v6 v8 v10) (k0_pay11 v0 v2 v4 v6 v8 v10) (Scalar.ofBits .f32 0x3F800000#32 : Ideal .f32)) p)
        ((k0_pay18 (k0_pay4 v6) (k0_pay5 v8) (k0_pay9 v0 v2 v4 v6 v8 v10)) p) ((k0_pay19 (k0_pay1 v0) (k0_pay2 v2) (k0_pay9 v0 v2 v4 v6 v8 v10)) p))
      ((k0_pay22 (k0_pay7 v12)) p) ((k0_pay23 (k0_pay7 v12)) p) ((k0_pay24 (k0_pay7 v12)) p) i j
    = kerEntry (v0 p) (v2 p) (v4 p) (v6 p) (v8 p) (v10 p) (Ideal.ofBits .f32 0x3F000000#32)
        (selD (v12 p) (Ideal.ofBits .f32 0x3F000000#32) ((112406956574275 / 1099511627776 : ℝ) : EReal) ((148011179044927 / 549755813888 : ℝ) : EReal))
        (selD (v12 p) (Ideal.ofBits .f32 0x3F000000#32) ((110729242446295 / 2199023255552 : ℝ) : EReal) ((63433366048705 / 549755813888 : ℝ) : EReal))
        (selD (v12 p) (Ideal.ofBits .f32 0x3F000000#32) ((114084670702255 / 4398046511104 : ℝ) : EReal) ((169155638595521 / 2199023255552 : ℝ) : EReal))
        i j := by
  simp only [pay14_apply, pay15_apply, pay16_apply, pay17_apply, pay18_apply, pay19_apply, pay20_apply, pay22_apply,
    pay23_apply, pay24_apply, pay1_apply, pay2_apply, pay3_apply, pay4_apply, pay5_apply, pay6_apply, pay7_apply,
    pay8_apply, pay9_apply, pay10_apply, pay11_apply, oneW]
  rfl

/-! ## The 36 rows -/

theorem bodyVal_apply_0_0 (v0 v2 v4 v6 v8 v10 v12 : Vec Ideal S1x1024 .f32) (l : Fin 1024) :
    bodyVal (F := Ideal) v0 v2 v4 v6 v8 v10 v12 (ix2 (⟨0, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (0 : Fin 6) :=
  (pay74_apply _ _ _ _ _ _ _ _ _ _ _ _ _ _ _ _ _ _ _ _ _ _ _ _ _ _ _ _ _ _ _ _ _ _ _ _ 0 (by omega) l _ rfl).trans
    ((row_0
      (k0_pay5 v8)
      (k0_pay6 v10)
      (k0_pay10 v0 v2 v4 v6 v8 v10)
      (k0_pay15 (k0_pay2 v2) (k0_pay3 v4) (k0_pay10 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 0 0))

theorem bodyVal_apply_0_1 (v0 v2 v4 v6 v8 v10 v12 : Vec Ideal S1x1024 .f32) (l : Fin 1024) :
    bodyVal (F := Ideal) v0 v2 v4 v6 v8 v10 v12 (ix2 (⟨1, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (1 : Fin 6) :=
  (pay74_apply _ _ _ _ _ _ _ _ _ _ _ _ _ _ _ _ _ _ _ _ _ _ _ _ _ _ _ _ _ _ _ _ _ _ _ _ 1 (by omega) l _ rfl).trans
    ((row_1
      (k0_pay14 (k0_pay5 v8) (k0_pay6 v10) (k0_pay10 v0 v2 v4 v6 v8 v10))
      (k0_pay15 (k0_pay2 v2) (k0_pay3 v4) (k0_pay10 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 0 1))

theorem bodyVal_apply_0_2 (v0 v2 v4 v6 v8 v10 v12 : Vec Ideal S1x1024 .f32) (l : Fin 1024) :
    bodyVal (F := Ideal) v0 v2 v4 v6 v8 v10 v12 (ix2 (⟨2, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (2 : Fin 6) :=
  (pay74_apply _ _ _ _ _ _ _ _ _ _ _ _ _ _ _ _ _ _ _ _ _ _ _ _ _ _ _ _ _ _ _ _ _ _ _ _ 2 (by omega) l _ rfl).trans
    ((row_2
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 0 2))

theorem bodyVal_apply_0_3 (v0 v2 v4 v6 v8 v10 v12 : Vec Ideal S1x1024 .f32) (l : Fin 1024) :
    bodyVal (F := Ideal) v0 v2 v4 v6 v8 v10 v12 (ix2 (⟨3, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (3 : Fin 6) :=
  (pay74_apply _ _ _ _ _ _ _ _ _ _ _ _ _ _ _ _ _ _ _ _ _ _ _ _ _ _ _ _ _ _ _ _ _ _ _ _ 3 (by omega) l _ rfl).trans
    ((row_3
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay23 (k0_pay7 v12))
      (k0_pay24 (k0_pay7 v12))
      (k0_pay22 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 0 3))

theorem bodyVal_apply_0_4 (v0 v2 v4 v6 v8 v10 v12 : Vec Ideal S1x1024 .f32) (l : Fin 1024) :
    bodyVal (F := Ideal) v0 v2 v4 v6 v8 v10 v12 (ix2 (⟨4, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (4 : Fin 6) :=
  (pay74_apply _ _ _ _ _ _ _ _ _ _ _ _ _ _ _ _ _ _ _ _ _ _ _ _ _ _ _ _ _ _ _ _ _ _ _ _ 4 (by omega) l _ rfl).trans
    ((row_4
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 0 4))

theorem bodyVal_apply_0_5 (v0 v2 v4 v6 v8 v10 v12 : Vec Ideal S1x1024 .f32) (l : Fin 1024) :
    bodyVal (F := Ideal) v0 v2 v4 v6 v8 v10 v12 (ix2 (⟨5, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (0 : Fin 6) (5 : Fin 6) :=
  (pay74_apply _ _ _ _ _ _ _ _ _ _ _ _ _ _ _ _ _ _ _ _ _ _ _ _ _ _ _ _ _ _ _ _ _ _ _ _ 5 (by omega) l _ rfl).trans
    ((row_5
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 0 5))

theorem bodyVal_apply_1_0 (v0 v2 v4 v6 v8 v10 v12 : Vec Ideal S1x1024 .f32) (l : Fin 1024) :
    bodyVal (F := Ideal) v0 v2 v4 v6 v8 v10 v12 (ix2 (⟨6, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (0 : Fin 6) :=
  (pay74_apply _ _ _ _ _ _ _ _ _ _ _ _ _ _ _ _ _ _ _ _ _ _ _ _ _ _ _ _ _ _ _ _ _ _ _ _ 6 (by omega) l _ rfl).trans
    ((row_6
      (k0_pay14 (k0_pay5 v8) (k0_pay6 v10) (k0_pay10 v0 v2 v4 v6 v8 v10))
      (k0_pay15 (k0_pay2 v2) (k0_pay3 v4) (k0_pay10 v0 v2 v4 v6 v8 v10))
      (k0_pay20 (k0_pay1 v0) (k0_pay2 v2) (k0_pay3 v4) (k0_pay4 v6) (k0_pay5 v8) (k0_pay6 v10))
      (k0_pay24 (k0_pay7 v12))
      (k0_pay22 (k0_pay7 v12))
      (k0_pay23 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 1 0))

theorem bodyVal_apply_1_1 (v0 v2 v4 v6 v8 v10 v12 : Vec Ideal S1x1024 .f32) (l : Fin 1024) :
    bodyVal (F := Ideal) v0 v2 v4 v6 v8 v10 v12 (ix2 (⟨7, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (1 : Fin 6) :=
  (pay74_apply _ _ _ _ _ _ _ _ _ _ _ _ _ _ _ _ _ _ _ _ _ _ _ _ _ _ _ _ _ _ _ _ _ _ _ _ 7 (by omega) l _ rfl).trans
    ((row_7
      (k0_pay14 (k0_pay5 v8) (k0_pay6 v10) (k0_pay10 v0 v2 v4 v6 v8 v10))
      (k0_pay15 (k0_pay2 v2) (k0_pay3 v4) (k0_pay10 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 1 1))

theorem bodyVal_apply_1_2 (v0 v2 v4 v6 v8 v10 v12 : Vec Ideal S1x1024 .f32) (l : Fin 1024) :
    bodyVal (F := Ideal) v0 v2 v4 v6 v8 v10 v12 (ix2 (⟨8, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (2 : Fin 6) :=
  (pay74_apply _ _ _ _ _ _ _ _ _ _ _ _ _ _ _ _ _ _ _ _ _ _ _ _ _ _ _ _ _ _ _ _ _ _ _ _ 8 (by omega) l _ rfl).trans
    ((row_8
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 1 2))

theorem bodyVal_apply_1_3 (v0 v2 v4 v6 v8 v10 v12 : Vec Ideal S1x1024 .f32) (l : Fin 1024) :
    bodyVal (F := Ideal) v0 v2 v4 v6 v8 v10 v12 (ix2 (⟨9, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (3 : Fin 6) :=
  (pay74_apply _ _ _ _ _ _ _ _ _ _ _ _ _ _ _ _ _ _ _ _ _ _ _ _ _ _ _ _ _ _ _ _ _ _ _ _ 9 (by omega) l _ rfl).trans
    ((row_9
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 1 3))

theorem bodyVal_apply_1_4 (v0 v2 v4 v6 v8 v10 v12 : Vec Ideal S1x1024 .f32) (l : Fin 1024) :
    bodyVal (F := Ideal) v0 v2 v4 v6 v8 v10 v12 (ix2 (⟨10, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (4 : Fin 6) :=
  (pay74_apply _ _ _ _ _ _ _ _ _ _ _ _ _ _ _ _ _ _ _ _ _ _ _ _ _ _ _ _ _ _ _ _ _ _ _ _ 10 (by omega) l _ rfl).trans
    ((row_10
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 1 4))

theorem bodyVal_apply_1_5 (v0 v2 v4 v6 v8 v10 v12 : Vec Ideal S1x1024 .f32) (l : Fin 1024) :
    bodyVal (F := Ideal) v0 v2 v4 v6 v8 v10 v12 (ix2 (⟨11, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (1 : Fin 6) (5 : Fin 6) :=
  (pay74_apply _ _ _ _ _ _ _ _ _ _ _ _ _ _ _ _ _ _ _ _ _ _ _ _ _ _ _ _ _ _ _ _ _ _ _ _ 11 (by omega) l _ rfl).trans
    ((row_11
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 1 5))

theorem bodyVal_apply_2_0 (v0 v2 v4 v6 v8 v10 v12 : Vec Ideal S1x1024 .f32) (l : Fin 1024) :
    bodyVal (F := Ideal) v0 v2 v4 v6 v8 v10 v12 (ix2 (⟨12, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (0 : Fin 6) :=
  (pay74_apply _ _ _ _ _ _ _ _ _ _ _ _ _ _ _ _ _ _ _ _ _ _ _ _ _ _ _ _ _ _ _ _ _ _ _ _ 12 (by omega) l _ rfl).trans
    ((row_12
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 2 0))

theorem bodyVal_apply_2_1 (v0 v2 v4 v6 v8 v10 v12 : Vec Ideal S1x1024 .f32) (l : Fin 1024) :
    bodyVal (F := Ideal) v0 v2 v4 v6 v8 v10 v12 (ix2 (⟨13, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (1 : Fin 6) :=
  (pay74_apply _ _ _ _ _ _ _ _ _ _ _ _ _ _ _ _ _ _ _ _ _ _ _ _ _ _ _ _ _ _ _ _ _ _ _ _ 13 (by omega) l _ rfl).trans
    ((row_13
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay23 (k0_pay7 v12))
      (k0_pay24 (k0_pay7 v12))
      (k0_pay22 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 2 1))

theorem bodyVal_apply_2_2 (v0 v2 v4 v6 v8 v10 v12 : Vec Ideal S1x1024 .f32) (l : Fin 1024) :
    bodyVal (F := Ideal) v0 v2 v4 v6 v8 v10 v12 (ix2 (⟨14, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (2 : Fin 6) :=
  (pay74_apply _ _ _ _ _ _ _ _ _ _ _ _ _ _ _ _ _ _ _ _ _ _ _ _ _ _ _ _ _ _ _ _ _ _ _ _ 14 (by omega) l _ rfl).trans
    ((row_14
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 2 2))

theorem bodyVal_apply_2_3 (v0 v2 v4 v6 v8 v10 v12 : Vec Ideal S1x1024 .f32) (l : Fin 1024) :
    bodyVal (F := Ideal) v0 v2 v4 v6 v8 v10 v12 (ix2 (⟨15, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (3 : Fin 6) :=
  (pay74_apply _ _ _ _ _ _ _ _ _ _ _ _ _ _ _ _ _ _ _ _ _ _ _ _ _ _ _ _ _ _ _ _ _ _ _ _ 15 (by omega) l _ rfl).trans
    ((row_15
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 2 3))

theorem bodyVal_apply_2_4 (v0 v2 v4 v6 v8 v10 v12 : Vec Ideal S1x1024 .f32) (l : Fin 1024) :
    bodyVal (F := Ideal) v0 v2 v4 v6 v8 v10 v12 (ix2 (⟨16, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (4 : Fin 6) :=
  (pay74_apply _ _ _ _ _ _ _ _ _ _ _ _ _ _ _ _ _ _ _ _ _ _ _ _ _ _ _ _ _ _ _ _ _ _ _ _ 16 (by omega) l _ rfl).trans
    ((row_16
      (k0_pay17 (k0_pay1 v0) (k0_pay3 v4) (k0_pay8 v0 v2 v4 v6 v8 v10) (k0_pay11 v0 v2 v4 v6 v8 v10) (Scalar.ofBits .f32 0x3F800000#32 : Ideal .f32))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay24 (k0_pay7 v12))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay22 (k0_pay7 v12))
      (k0_pay23 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 2 4))

theorem bodyVal_apply_2_5 (v0 v2 v4 v6 v8 v10 v12 : Vec Ideal S1x1024 .f32) (l : Fin 1024) :
    bodyVal (F := Ideal) v0 v2 v4 v6 v8 v10 v12 (ix2 (⟨17, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (2 : Fin 6) (5 : Fin 6) :=
  (pay74_apply _ _ _ _ _ _ _ _ _ _ _ _ _ _ _ _ _ _ _ _ _ _ _ _ _ _ _ _ _ _ _ _ _ _ _ _ 17 (by omega) l _ rfl).trans
    ((row_17
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 2 5))

theorem bodyVal_apply_3_0 (v0 v2 v4 v6 v8 v10 v12 : Vec Ideal S1x1024 .f32) (l : Fin 1024) :
    bodyVal (F := Ideal) v0 v2 v4 v6 v8 v10 v12 (ix2 (⟨18, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (0 : Fin 6) :=
  (pay74_apply _ _ _ _ _ _ _ _ _ _ _ _ _ _ _ _ _ _ _ _ _ _ _ _ _ _ _ _ _ _ _ _ _ _ _ _ 18 (by omega) l _ rfl).trans
    ((row_18
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 3 0))

theorem bodyVal_apply_3_1 (v0 v2 v4 v6 v8 v10 v12 : Vec Ideal S1x1024 .f32) (l : Fin 1024) :
    bodyVal (F := Ideal) v0 v2 v4 v6 v8 v10 v12 (ix2 (⟨19, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (1 : Fin 6) :=
  (pay74_apply _ _ _ _ _ _ _ _ _ _ _ _ _ _ _ _ _ _ _ _ _ _ _ _ _ _ _ _ _ _ _ _ _ _ _ _ 19 (by omega) l _ rfl).trans
    ((row_19
      (k0_pay14 (k0_pay5 v8) (k0_pay6 v10) (k0_pay10 v0 v2 v4 v6 v8 v10))
      (k0_pay15 (k0_pay2 v2) (k0_pay3 v4) (k0_pay10 v0 v2 v4 v6 v8 v10))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 3 1))

theorem bodyVal_apply_3_2 (v0 v2 v4 v6 v8 v10 v12 : Vec Ideal S1x1024 .f32) (l : Fin 1024) :
    bodyVal (F := Ideal) v0 v2 v4 v6 v8 v10 v12 (ix2 (⟨20, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (2 : Fin 6) :=
  (pay74_apply _ _ _ _ _ _ _ _ _ _ _ _ _ _ _ _ _ _ _ _ _ _ _ _ _ _ _ _ _ _ _ _ _ _ _ _ 20 (by omega) l _ rfl).trans
    ((row_20
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 3 2))

theorem bodyVal_apply_3_3 (v0 v2 v4 v6 v8 v10 v12 : Vec Ideal S1x1024 .f32) (l : Fin 1024) :
    bodyVal (F := Ideal) v0 v2 v4 v6 v8 v10 v12 (ix2 (⟨21, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (3 : Fin 6) :=
  (pay74_apply _ _ _ _ _ _ _ _ _ _ _ _ _ _ _ _ _ _ _ _ _ _ _ _ _ _ _ _ _ _ _ _ _ _ _ _ 21 (by omega) l _ rfl).trans
    ((row_21
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay18 (k0_pay4 v6) (k0_pay5 v8) (k0_pay9 v0 v2 v4 v6 v8 v10)) (ix2 0 l))
      ((k0_pay19 (k0_pay1 v0) (k0_pay2 v2) (k0_pay9 v0 v2 v4 v6 v8 v10)) (ix2 0 l))
      (ix2 0 l)).trans (entry_of_base v0 v2 v4 v6 v8 v10 v12 (ix2 0 l) 3 3))

theorem bodyVal_apply_3_4 (v0 v2 v4 v6 v8 v10 v12 : Vec Ideal S1x1024 .f32) (l : Fin 1024) :
    bodyVal (F := Ideal) v0 v2 v4 v6 v8 v10 v12 (ix2 (⟨22, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (4 : Fin 6) :=
  (pay74_apply _ _ _ _ _ _ _ _ _ _ _ _ _ _ _ _ _ _ _ _ _ _ _ _ _ _ _ _ _ _ _ _ _ _ _ _ 22 (by omega) l _ rfl).trans
    ((row_22
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 3 4))

theorem bodyVal_apply_3_5 (v0 v2 v4 v6 v8 v10 v12 : Vec Ideal S1x1024 .f32) (l : Fin 1024) :
    bodyVal (F := Ideal) v0 v2 v4 v6 v8 v10 v12 (ix2 (⟨23, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (3 : Fin 6) (5 : Fin 6) :=
  (pay74_apply _ _ _ _ _ _ _ _ _ _ _ _ _ _ _ _ _ _ _ _ _ _ _ _ _ _ _ _ _ _ _ _ _ _ _ _ 23 (by omega) l _ rfl).trans
    ((row_23
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay20 (k0_pay1 v0) (k0_pay2 v2) (k0_pay3 v4) (k0_pay4 v6) (k0_pay5 v8) (k0_pay6 v10))
      (k0_pay23 (k0_pay7 v12))
      (k0_pay24 (k0_pay7 v12))
      (k0_pay19 (k0_pay1 v0) (k0_pay2 v2) (k0_pay9 v0 v2 v4 v6 v8 v10))
      (k0_pay22 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 3 5))

theorem bodyVal_apply_4_0 (v0 v2 v4 v6 v8 v10 v12 : Vec Ideal S1x1024 .f32) (l : Fin 1024) :
    bodyVal (F := Ideal) v0 v2 v4 v6 v8 v10 v12 (ix2 (⟨24, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (0 : Fin 6) :=
  (pay74_apply _ _ _ _ _ _ _ _ _ _ _ _ _ _ _ _ _ _ _ _ _ _ _ _ _ _ _ _ _ _ _ _ _ _ _ _ 24 (by omega) l _ rfl).trans
    ((row_24
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 4 0))

theorem bodyVal_apply_4_1 (v0 v2 v4 v6 v8 v10 v12 : Vec Ideal S1x1024 .f32) (l : Fin 1024) :
    bodyVal (F := Ideal) v0 v2 v4 v6 v8 v10 v12 (ix2 (⟨25, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (1 : Fin 6) :=
  (pay74_apply _ _ _ _ _ _ _ _ _ _ _ _ _ _ _ _ _ _ _ _ _ _ _ _ _ _ _ _ _ _ _ _ _ _ _ _ 25 (by omega) l _ rfl).trans
    ((row_25
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 4 1))

theorem bodyVal_apply_4_2 (v0 v2 v4 v6 v8 v10 v12 : Vec Ideal S1x1024 .f32) (l : Fin 1024) :
    bodyVal (F := Ideal) v0 v2 v4 v6 v8 v10 v12 (ix2 (⟨26, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (2 : Fin 6) :=
  (pay74_apply _ _ _ _ _ _ _ _ _ _ _ _ _ _ _ _ _ _ _ _ _ _ _ _ _ _ _ _ _ _ _ _ _ _ _ _ 26 (by omega) l _ rfl).trans
    ((row_26
      (k0_pay17 (k0_pay1 v0) (k0_pay3 v4) (k0_pay8 v0 v2 v4 v6 v8 v10) (k0_pay11 v0 v2 v4 v6 v8 v10) (Scalar.ofBits .f32 0x3F800000#32 : Ideal .f32))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay24 (k0_pay7 v12))
      (k0_pay16 (k0_pay4 v6) (k0_pay6 v10) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay22 (k0_pay7 v12))
      (k0_pay23 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 4 2))

theorem bodyVal_apply_4_3 (v0 v2 v4 v6 v8 v10 v12 : Vec Ideal S1x1024 .f32) (l : Fin 1024) :
    bodyVal (F := Ideal) v0 v2 v4 v6 v8 v10 v12 (ix2 (⟨27, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (3 : Fin 6) :=
  (pay74_apply _ _ _ _ _ _ _ _ _ _ _ _ _ _ _ _ _ _ _ _ _ _ _ _ _ _ _ _ _ _ _ _ _ _ _ _ 27 (by omega) l _ rfl).trans
    ((row_27
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 4 3))

theorem bodyVal_apply_4_4 (v0 v2 v4 v6 v8 v10 v12 : Vec Ideal S1x1024 .f32) (l : Fin 1024) :
    bodyVal (F := Ideal) v0 v2 v4 v6 v8 v10 v12 (ix2 (⟨28, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (4 : Fin 6) :=
  (pay74_apply _ _ _ _ _ _ _ _ _ _ _ _ _ _ _ _ _ _ _ _ _ _ _ _ _ _ _ _ _ _ _ _ _ _ _ _ 28 (by omega) l _ rfl).trans
    ((row_28
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 4 4))

theorem bodyVal_apply_4_5 (v0 v2 v4 v6 v8 v10 v12 : Vec Ideal S1x1024 .f32) (l : Fin 1024) :
    bodyVal (F := Ideal) v0 v2 v4 v6 v8 v10 v12 (ix2 (⟨29, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (4 : Fin 6) (5 : Fin 6) :=
  (pay74_apply _ _ _ _ _ _ _ _ _ _ _ _ _ _ _ _ _ _ _ _ _ _ _ _ _ _ _ _ _ _ _ _ _ _ _ _ 29 (by omega) l _ rfl).trans
    ((row_29
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 4 5))

theorem bodyVal_apply_5_0 (v0 v2 v4 v6 v8 v10 v12 : Vec Ideal S1x1024 .f32) (l : Fin 1024) :
    bodyVal (F := Ideal) v0 v2 v4 v6 v8 v10 v12 (ix2 (⟨30, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (0 : Fin 6) :=
  (pay74_apply _ _ _ _ _ _ _ _ _ _ _ _ _ _ _ _ _ _ _ _ _ _ _ _ _ _ _ _ _ _ _ _ _ _ _ _ 30 (by omega) l _ rfl).trans
    ((row_30
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 5 0))

theorem bodyVal_apply_5_1 (v0 v2 v4 v6 v8 v10 v12 : Vec Ideal S1x1024 .f32) (l : Fin 1024) :
    bodyVal (F := Ideal) v0 v2 v4 v6 v8 v10 v12 (ix2 (⟨31, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (1 : Fin 6) :=
  (pay74_apply _ _ _ _ _ _ _ _ _ _ _ _ _ _ _ _ _ _ _ _ _ _ _ _ _ _ _ _ _ _ _ _ _ _ _ _ 31 (by omega) l _ rfl).trans
    ((row_31
      (k0_pay14 (k0_pay5 v8) (k0_pay6 v10) (k0_pay10 v0 v2 v4 v6 v8 v10))
      (k0_pay15 (k0_pay2 v2) (k0_pay3 v4) (k0_pay10 v0 v2 v4 v6 v8 v10))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 5 1))

theorem bodyVal_apply_5_2 (v0 v2 v4 v6 v8 v10 v12 : Vec Ideal S1x1024 .f32) (l : Fin 1024) :
    bodyVal (F := Ideal) v0 v2 v4 v6 v8 v10 v12 (ix2 (⟨32, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (2 : Fin 6) :=
  (pay74_apply _ _ _ _ _ _ _ _ _ _ _ _ _ _ _ _ _ _ _ _ _ _ _ _ _ _ _ _ _ _ _ _ _ _ _ _ 32 (by omega) l _ rfl).trans
    ((row_32
      (k0_pay16 (k0_pay4 v6) (k0_pay6 v10) (k0_pay8 v0 v2 v4 v6 v8 v10) (k0_pay11 v0 v2 v4 v6 v8 v10) (Scalar.ofBits .f32 0x3F800000#32 : Ideal .f32))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 5 2))

theorem bodyVal_apply_5_3 (v0 v2 v4 v6 v8 v10 v12 : Vec Ideal S1x1024 .f32) (l : Fin 1024) :
    bodyVal (F := Ideal) v0 v2 v4 v6 v8 v10 v12 (ix2 (⟨33, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (3 : Fin 6) :=
  (pay74_apply _ _ _ _ _ _ _ _ _ _ _ _ _ _ _ _ _ _ _ _ _ _ _ _ _ _ _ _ _ _ _ _ _ _ _ _ 33 (by omega) l _ rfl).trans
    ((row_33
      (k0_pay16 (k0_pay4 v6) (k0_pay6 v10) (k0_pay8 v0 v2 v4 v6 v8 v10) (k0_pay11 v0 v2 v4 v6 v8 v10) (Scalar.ofBits .f32 0x3F800000#32 : Ideal .f32))
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay23 (k0_pay7 v12))
      (k0_pay24 (k0_pay7 v12))
      (k0_pay17 (k0_pay1 v0) (k0_pay3 v4) (k0_pay8 v0 v2 v4 v6 v8 v10) (k0_pay11 v0 v2 v4 v6 v8 v10) (Scalar.ofBits .f32 0x3F800000#32 : Ideal .f32))
      (k0_pay22 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      (ix2 0 l)).trans (entry_of_base v0 v2 v4 v6 v8 v10 v12 (ix2 0 l) 5 3))

theorem bodyVal_apply_5_4 (v0 v2 v4 v6 v8 v10 v12 : Vec Ideal S1x1024 .f32) (l : Fin 1024) :
    bodyVal (F := Ideal) v0 v2 v4 v6 v8 v10 v12 (ix2 (⟨34, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (4 : Fin 6) :=
  (pay74_apply _ _ _ _ _ _ _ _ _ _ _ _ _ _ _ _ _ _ _ _ _ _ _ _ _ _ _ _ _ _ _ _ _ _ _ _ 34 (by omega) l _ rfl).trans
    ((row_34
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 5 4))

theorem bodyVal_apply_5_5 (v0 v2 v4 v6 v8 v10 v12 : Vec Ideal S1x1024 .f32) (l : Fin 1024) :
    bodyVal (F := Ideal) v0 v2 v4 v6 v8 v10 v12 (ix2 (⟨35, by omega⟩ : Fin 36) l)
      = kerEntry (v0 (ix2 0 l)) (v2 (ix2 0 l)) (v4 (ix2 0 l)) (v6 (ix2 0 l)) (v8 (ix2 0 l)) (v10 (ix2 0 l)) (Ideal.ofBits .f32 0x3F000000#32)
        (selD (v12 (ix2 0 l)) (Ideal.ofBits .f32 0x3F000000#32) ((112406956574275 / 1099511627776 : ℝ) : EReal) ((148011179044927 / 549755813888 : ℝ) : EReal))
        (selD (v12 (ix2 0 l)) (Ideal.ofBits .f32 0x3F000000#32) ((110729242446295 / 2199023255552 : ℝ) : EReal) ((63433366048705 / 549755813888 : ℝ) : EReal))
        (selD (v12 (ix2 0 l)) (Ideal.ofBits .f32 0x3F000000#32) ((114084670702255 / 4398046511104 : ℝ) : EReal) ((169155638595521 / 2199023255552 : ℝ) : EReal))
        (5 : Fin 6) (5 : Fin 6) :=
  (pay74_apply _ _ _ _ _ _ _ _ _ _ _ _ _ _ _ _ _ _ _ _ _ _ _ _ _ _ _ _ _ _ _ _ _ _ _ _ 35 (by omega) l _ rfl).trans
    ((row_35
      (k0_pay18 (k0_pay4 v6) (k0_pay5 v8) (k0_pay9 v0 v2 v4 v6 v8 v10))
      (k0_pay19 (k0_pay1 v0) (k0_pay2 v2) (k0_pay9 v0 v2 v4 v6 v8 v10))
      (k0_pay20 (k0_pay1 v0) (k0_pay2 v2) (k0_pay3 v4) (k0_pay4 v6) (k0_pay5 v8) (k0_pay6 v10))
      (k0_pay22 (k0_pay7 v12))
      (k0_pay23 (k0_pay7 v12))
      (k0_pay24 (k0_pay7 v12))
      ((k0_pay14 (k0_pay5 v8) (k0_pay6 v10) (k0_pay10 v0 v2 v4 v6 v8 v10)) (ix2 0 l))
      ((k0_pay15 (k0_pay2 v2) (k0_pay3 v4) (k0_pay10 v0 v2 v4 v6 v8 v10)) (ix2 0 l))
      ((k0_pay16 (k0_pay4 v6) (k0_pay6 v10) (k0_pay8 v0 v2 v4 v6 v8 v10) (k0_pay11 v0 v2 v4 v6 v8 v10) (Scalar.ofBits .f32 0x3F800000#32 : Ideal .f32)) (ix2 0 l))
      ((k0_pay17 (k0_pay1 v0) (k0_pay3 v4) (k0_pay8 v0 v2 v4 v6 v8 v10) (k0_pay11 v0 v2 v4 v6 v8 v10) (Scalar.ofBits .f32 0x3F800000#32 : Ideal .f32)) (ix2 0 l))
      (ix2 0 l)).trans (entry_of_base v0 v2 v4 v6 v8 v10 v12 (ix2 0 l) 5 5))

/-- THE BODY'S VALUE AT AN INDEX: row `6 i + j` of the stored block, at lane `l`, is the stiffness entry `(i, j)` of the
    triangle whose coordinates and material flag the seven input blocks hold at lane `l`. -/
theorem bodyVal_apply (v0 v2 v4 v6 v8 v10 v12 : Vec Ideal S1x1024 .f32) (i j : Fin 6) (l : Fin 1024) :
    bodyVal (F := Ideal) v0 v2 v4 v6 v8 v10 v12 (ValueIdx.ix2 (⟨6 * i.val + j.val, by omega⟩ : Fin 36) l)
      = Cert.ElemStiff.kerEntry (v0 (ValueIdx.ix2 0 l)) (v2 (ValueIdx.ix2 0 l)) (v4 (ValueIdx.ix2 0 l)) (v6 (ValueIdx.ix2 0 l)) (v8 (ValueIdx.ix2 0 l)) (v10 (ValueIdx.ix2 0 l))
          (Ideal.ofBits .f32 0x3F000000#32)
          (Cert.ElemStiff.selD (v12 (ValueIdx.ix2 0 l)) (Ideal.ofBits .f32 0x3F000000#32) ((112406956574275 / 1099511627776 : ℝ) : EReal) ((148011179044927 / 549755813888 : ℝ) : EReal))
          (Cert.ElemStiff.selD (v12 (ValueIdx.ix2 0 l)) (Ideal.ofBits .f32 0x3F000000#32) ((110729242446295 / 2199023255552 : ℝ) : EReal) ((63433366048705 / 549755813888 : ℝ) : EReal))
          (Cert.ElemStiff.selD (v12 (ValueIdx.ix2 0 l)) (Ideal.ofBits .f32 0x3F000000#32) ((114084670702255 / 4398046511104 : ℝ) : EReal) ((169155638595521 / 2199023255552 : ℝ) : EReal))
          i j := by
  fin_cases i <;> fin_cases j
  · exact bodyVal_apply_0_0 v0 v2 v4 v6 v8 v10 v12 l
  · exact bodyVal_apply_0_1 v0 v2 v4 v6 v8 v10 v12 l
  · exact bodyVal_apply_0_2 v0 v2 v4 v6 v8 v10 v12 l
  · exact bodyVal_apply_0_3 v0 v2 v4 v6 v8 v10 v12 l
  · exact bodyVal_apply_0_4 v0 v2 v4 v6 v8 v10 v12 l
  · exact bodyVal_apply_0_5 v0 v2 v4 v6 v8 v10 v12 l
  · exact bodyVal_apply_1_0 v0 v2 v4 v6 v8 v10 v12 l
  · exact bodyVal_apply_1_1 v0 v2 v4 v6 v8 v10 v12 l
  · exact bodyVal_apply_1_2 v0 v2 v4 v6 v8 v10 v12 l
  · exact bodyVal_apply_1_3 v0 v2 v4 v6 v8 v10 v12 l
  · exact bodyVal_apply_1_4 v0 v2 v4 v6 v8 v10 v12 l
  · exact bodyVal_apply_1_5 v0 v2 v4 v6 v8 v10 v12 l
  · exact bodyVal_apply_2_0 v0 v2 v4 v6 v8 v10 v12 l
  · exact bodyVal_apply_2_1 v0 v2 v4 v6 v8 v10 v12 l
  · exact bodyVal_apply_2_2 v0 v2 v4 v6 v8 v10 v12 l
  · exact bodyVal_apply_2_3 v0 v2 v4 v6 v8 v10 v12 l
  · exact bodyVal_apply_2_4 v0 v2 v4 v6 v8 v10 v12 l
  · exact bodyVal_apply_2_5 v0 v2 v4 v6 v8 v10 v12 l
  · exact bodyVal_apply_3_0 v0 v2 v4 v6 v8 v10 v12 l
  · exact bodyVal_apply_3_1 v0 v2 v4 v6 v8 v10 v12 l
  · exact bodyVal_apply_3_2 v0 v2 v4 v6 v8 v10 v12 l
  · exact bodyVal_apply_3_3 v0 v2 v4 v6 v8 v10 v12 l
  · exact bodyVal_apply_3_4 v0 v2 v4 v6 v8 v10 v12 l
  · exact bodyVal_apply_3_5 v0 v2 v4 v6 v8 v10 v12 l
  · exact bodyVal_apply_4_0 v0 v2 v4 v6 v8 v10 v12 l
  · exact bodyVal_apply_4_1 v0 v2 v4 v6 v8 v10 v12 l
  · exact bodyVal_apply_4_2 v0 v2 v4 v6 v8 v10 v12 l
  · exact bodyVal_apply_4_3 v0 v2 v4 v6 v8 v10 v12 l
  · exact bodyVal_apply_4_4 v0 v2 v4 v6 v8 v10 v12 l
  · exact bodyVal_apply_4_5 v0 v2 v4 v6 v8 v10 v12 l
  · exact bodyVal_apply_5_0 v0 v2 v4 v6 v8 v10 v12 l
  · exact bodyVal_apply_5_1 v0 v2 v4 v6 v8 v10 v12 l
  · exact bodyVal_apply_5_2 v0 v2 v4 v6 v8 v10 v12 l
  · exact bodyVal_apply_5_3 v0 v2 v4 v6 v8 v10 v12 l
  · exact bodyVal_apply_5_4 v0 v2 v4 v6 v8 v10 v12 l
  · exact bodyVal_apply_5_5 v0 v2 v4 v6 v8 v10 v12 l

end Cert.KernelIdeal.Hand

end
-- ==== Proof.KILayout.lean ====
import proofs.«145649_j20933670601054_2_alg».proof.Proof.KIValue
import proofs.«145649_j20933670601054_2_alg».proof.Proof.KIRising
import Idealize.ShloMosaic.Lib.Pipeline.Value
import Idealize.ShloMosaic.Lib.ValueLayout
import Idealize.ShloMosaic.Lib.KernelVsHost

/-!
# The output window and the layout operations around the region, read at an index

The body's one store covers the output window and each of its loads reads a whole input window, so the output window
holds the body's value of the seven input blocks; with the value at an index, row `6 i + j` at lane `l` is the stiffness
entry `(i, j)` of the lane's triangle.  Around the region the program only moves data: each coordinate row is padded from
12000 to 12288 lanes and given a leading unit axis; the region's 36 × 12288 result is cut back to 12000 columns,
transposed, and its 36 rows regrouped as 6 × 6.  Each of these operations read at an index is its operand at one index; read off the final contents of the lines that
contain them, the element tensor at `(e, i, j)` is the region's result at `(6 i + j, e)` and each padded row at `(0, n)` is its
row at `n`.
-/

set_option maxRecDepth 16384

noncomputable section

namespace Cert.KernelIdeal.Hand

open Cert.KernelIdeal.Gen Cert.ElemStiff
open Idealize.ShloMosaic Idealize.ShloMosaic.ValueIdx

/-! ## The output window -/

theorem zero_off2 : (![0, 0] : Fin 2 → Nat) = fun _ => 0 := by
  funext a; fin_cases a <;> rfl

/-- The one whole-window store leaves its payload, and each whole-window load reads the block: the output window holds
    the body's value of the seven input blocks. -/
theorem out0_7_eq {F : FTy → Type} [FloatOps F] [Named F] (x0 x1 x2 x3 x4 x5 x6 : Vec F S1x1024 .f32) :
    out0_7 x0 x1 x2 x3 x4 x5 x6 = bodyVal x0 x1 x2 x3 x4 x5 x6 := by
  unfold out0_7
  rw [View.canon_unit_zero (S := S36x1024) zero_off2]
  simp only [View.ld_unit_zero (S := S1x1024) zero_off2]

theorem out0_7_apply (x0 x1 x2 x3 x4 x5 x6 : Vec Ideal S1x1024 .f32) (r : Fin 36) (l : Fin 1024) :
    out0_7 (F := Ideal) x0 x1 x2 x3 x4 x5 x6 (ValueIdx.ix2 r l) = bodyVal x0 x1 x2 x3 x4 x5 x6 (ValueIdx.ix2 r l) :=
  congrFun (out0_7_eq x0 x1 x2 x3 x4 x5 x6) _

/-- The output window at row `6 i + j`, lane `l`: the entry `(i, j)` of the lane's triangle. -/
theorem out0_7_entry (x0 x1 x2 x3 x4 x5 x6 : Vec Ideal S1x1024 .f32) (i j : Fin 6) (l : Fin 1024) :
    out0_7 (F := Ideal) x0 x1 x2 x3 x4 x5 x6 (ValueIdx.ix2 (⟨6 * i.val + j.val, by omega⟩ : Fin 36) l)
      = Cert.ElemStiff.kerEntry (x0 (ValueIdx.ix2 0 l)) (x1 (ValueIdx.ix2 0 l)) (x2 (ValueIdx.ix2 0 l)) (x3 (ValueIdx.ix2 0 l)) (x4 (ValueIdx.ix2 0 l)) (x5 (ValueIdx.ix2 0 l))
          (Ideal.ofBits .f32 0x3F000000#32)
          (Cert.ElemStiff.selD (x6 (ValueIdx.ix2 0 l)) (Ideal.ofBits .f32 0x3F000000#32) ((112406956574275 / 1099511627776 : ℝ) : EReal) ((148011179044927 / 549755813888 : ℝ) : EReal))
          (Cert.ElemStiff.selD (x6 (ValueIdx.ix2 0 l)) (Ideal.ofBits .f32 0x3F000000#32) ((110729242446295 / 2199023255552 : ℝ) : EReal) ((63433366048705 / 549755813888 : ℝ) : EReal))
          (Cert.ElemStiff.selD (x6 (ValueIdx.ix2 0 l)) (Ideal.ofBits .f32 0x3F000000#32) ((114084670702255 / 4398046511104 : ℝ) : EReal) ((169155638595521 / 2199023255552 : ℝ) : EReal))
          i j :=
  (out0_7_apply x0 x1 x2 x3 x4 x5 x6 _ l).trans (bodyVal_apply x0 x1 x2 x3 x4 x5 x6 i j l)

/-! ## The layout operations, each read at an index -/

section Layout
variable {α : Type}

/-- The pad from 12000 to 12288 lanes, read inside the operand: the operand there. -/
theorem pad_12288_apply (x : S12000.Idx → α) (v : S_.Idx → α) (n : Nat) (hn : n < 12000) :
    pad S12288 ![0] ![288] ![0] x v pads_S12000_S12288_02880 h_S_ (ValueIdx.ix1 (⟨n, by omega⟩ : Fin 12288))
      = x (ValueIdx.ix1 (⟨n, hn⟩ : Fin 12000)) :=
  pad_apply_of_inside _ _ _ x v _ _ _ _ (fun a => match a with
    | ⟨0, _⟩ => by show n = 0 + n * (0 + 1); omega)

/-- The leading unit axis added to a padded row: at `(0, n)` the operand at `n`. -/
theorem row_1x12288_apply (x : S12288.Idx → α) (n : Fin 12288) :
    shapeCast S1x12288 x shapeCasts_S12288_S1x12288 (ValueIdx.ix2 (0 : Fin 1) n) = x (ValueIdx.ix1 n) :=
  shapeCast_a_1a_apply x _ 0 n

/-- The cut back to 12000 columns: at `(r, e)` the operand at `(r, e)`. -/
theorem slice_36x12000_apply (x : S36x12288.Idx → α) (r : Fin 36) (e : Fin 12000) :
    extractStridedSlice S36x12000 ![0, 0] x slices_S36x12288_S36x12000_0_0 (ValueIdx.ix2 r e)
      = x (ValueIdx.ix2 r (⟨e.val, by omega⟩ : Fin 12288)) :=
  slice2_axis1_apply 0 x _ r e _ (by simp)

/-- The transpose: at `(e, r)` the operand at `(r, e)`. -/
theorem transpose_12000x36_apply (x : S36x12000.Idx → α) (e : Fin 12000) (r : Fin 36) :
    transpose S12000x36 [1, 0] x transposes_S36x12000_S12000x36_1_0 (ValueIdx.ix2 e r) = x (ValueIdx.ix2 r e) :=
  transpose_ix2_apply x _ e r

/-- The 36 columns regrouped as 6 × 6: at `(e, i, j)` the operand at `(e, 6 i + j)`. -/
theorem cast_12000x6x6_apply (x : S12000x36.Idx → α) (e : Fin 12000) (i j : Fin 6) :
    shapeCast S12000x6x6 x shapeCasts_S12000x36_S12000x6x6 (ValueIdx.ix3 e i j)
      = x (ValueIdx.ix2 e (⟨6 * i.val + j.val, by omega⟩ : Fin 36)) :=
  shapeCast_apply x _ _ _ (by
    rw [Shape.rowMajor_val_two, Shape.rowMajor_val_three]
    show e.val * 36 + (6 * i.val + j.val) = (e.val * 6 + i.val) * 6 + j.val
    omega)

/-- The three together: the regrouped transposed cut at `(e, i, j)` is the region's result at `(6 i + j, e)`. -/
theorem elem_of_result_apply (x : S36x12288.Idx → α) (e : Fin 12000) (i j : Fin 6) :
    shapeCast S12000x6x6 (transpose S12000x36 [1, 0] (extractStridedSlice S36x12000 ![0, 0] x slices_S36x12288_S36x12000_0_0)
        transposes_S36x12000_S12000x36_1_0) shapeCasts_S12000x36_S12000x6x6 (ValueIdx.ix3 e i j)
      = x (ValueIdx.ix2 (⟨6 * i.val + j.val, by omega⟩ : Fin 36) (⟨e.val, by omega⟩ : Fin 12288)) := by
  rw [cast_12000x6x6_apply, transpose_12000x36_apply, slice_36x12000_apply]

/-- The two together: a padded row with its unit axis at `(0, n)`, `n < 12000`, is the row at `n`. -/
theorem row_of_arg_apply (x : S12000.Idx → α) (v : S_.Idx → α) (n : Nat) (hn : n < 12000) :
    shapeCast S1x12288 (pad S12288 ![0] ![288] ![0] x v pads_S12000_S12288_02880 h_S_) shapeCasts_S12288_S1x12288
        (ValueIdx.ix2 (0 : Fin 1) (⟨n, by omega⟩ : Fin 12288))
      = x (ValueIdx.ix1 (⟨n, hn⟩ : Fin 12000)) := by
  rw [row_1x12288_apply, pad_12288_apply x v n hn]

end Layout

/-! ## The lines around the region, read off the final contents at an index -/

section Lines
open Cert.LibSsaAfter Idealize.ShloMosaic.StableHlo Idealize.ShloMosaic.TcCoe
variable {F : FTy → Type} [FloatOps F] [Named F]

/-- After the lines that follow the region, the element tensor at `(e, i, j)` is the region's result, as those lines
    found it, at `(6 i + j, e)`. -/
theorem sfx_elem_apply (U : Valuation τ sig (Elt F)) (e : Fin 12000) (i j : Fin 6) :
    after (hostOps1 : List (HloOp τ sig (Elt F))) U (Proc.devRef .tc main_v71) (ValueIdx.ix3 e i j)
      = U (Proc.devRef .tc main_v68) (ValueIdx.ix2 (⟨6 * i.val + j.val, by omega⟩ : Fin 36) (⟨e.val, by omega⟩ : Fin 12288)) := by
  have h2 := reshape_at_idx hostOps1_rising U 2 (x := main_v70) (y := main_v71) rfl
  have h1 := unary_at_idx hostOps1_rising U 1 (x := main_v69) (y := main_v70) rfl
  have h0 := unary_at_idx hostOps1_rising U 0 (x := main_v68) (y := main_v69) rfl
  have hb := after_of_lt hostOps1_rising U (b := Proc.devRef .tc main_v68) (by decide)
  rw [h2, h1, h0, hb]
  exact elem_of_result_apply _ e i j

/-- Before the region, padded row 0 at `(0, n)`, `n < 12000`, is its unpadded row at `n`. -/
theorem pre_row0_apply (V : Valuation τ sig (Elt F)) (n : Nat) (hn : n < 12000) :
    after (preOps : List (HloOp τ sig (Elt F))) V (Proc.devRef .tc main_v55) (ValueIdx.ix2 (0 : Fin 1) (⟨n, by omega⟩ : Fin 12288))
      = after (preOps : List (HloOp τ sig (Elt F))) V (Proc.devRef .tc main_v8) (ValueIdx.ix1 (⟨n, hn⟩ : Fin 12000)) := by
  have h1 := reshape_at_idx preOps_rising V 70 (x := main_v54) (y := main_v55) rfl
  have h0 := binary_at_idx preOps_rising V 69 (a := main_v8) (b := main_call0_v0) (y := main_v54) rfl
  rw [h1, h0]
  exact row_of_arg_apply _ _ n hn

/-- Before the region, padded row 1 at `(0, n)`, `n < 12000`, is its unpadded row at `n`. -/
theorem pre_row1_apply (V : Valuation τ sig (Elt F)) (n : Nat) (hn : n < 12000) :
    after (preOps : List (HloOp τ sig (Elt F))) V (Proc.devRef .tc main_v57) (ValueIdx.ix2 (0 : Fin 1) (⟨n, by omega⟩ : Fin 12288))
      = after (preOps : List (HloOp τ sig (Elt F))) V (Proc.devRef .tc main_v17) (ValueIdx.ix1 (⟨n, hn⟩ : Fin 12000)) := by
  have h1 := reshape_at_idx preOps_rising V 74 (x := main_v56) (y := main_v57) rfl
  have h0 := binary_at_idx preOps_rising V 73 (a := main_v17) (b := main_call1_v0) (y := main_v56) rfl
  rw [h1, h0]
  exact row_of_arg_apply _ _ n hn

/-- Before the region, padded row 2 at `(0, n)`, `n < 12000`, is its unpadded row at `n`. -/
theorem pre_row2_apply (V : Valuation τ sig (Elt F)) (n : Nat) (hn : n < 12000) :
    after (preOps : List (HloOp τ sig (Elt F))) V (Proc.devRef .tc main_v59) (ValueIdx.ix2 (0 : Fin 1) (⟨n, by omega⟩ : Fin 12288))
      = after (preOps : List (HloOp τ sig (Elt F))) V (Proc.devRef .tc main_v26) (ValueIdx.ix1 (⟨n, hn⟩ : Fin 12000)) := by
  have h1 := reshape_at_idx preOps_rising V 78 (x := main_v58) (y := main_v59) rfl
  have h0 := binary_at_idx preOps_rising V 77 (a := main_v26) (b := main_call2_v0) (y := main_v58) rfl
  rw [h1, h0]
  exact row_of_arg_apply _ _ n hn

/-- Before the region, padded row 3 at `(0, n)`, `n < 12000`, is its unpadded row at `n`. -/
theorem pre_row3_apply (V : Valuation τ sig (Elt F)) (n : Nat) (hn : n < 12000) :
    after (preOps : List (HloOp τ sig (Elt F))) V (Proc.devRef .tc main_v61) (ValueIdx.ix2 (0 : Fin 1) (⟨n, by omega⟩ : Fin 12288))
      = after (preOps : List (HloOp τ sig (Elt F))) V (Proc.devRef .tc main_v35) (ValueIdx.ix1 (⟨n, hn⟩ : Fin 12000)) := by
  have h1 := reshape_at_idx preOps_rising V 82 (x := main_v60) (y := main_v61) rfl
  have h0 := binary_at_idx preOps_rising V 81 (a := main_v35) (b := main_call3_v0) (y := main_v60) rfl
  rw [h1, h0]
  exact row_of_arg_apply _ _ n hn

/-- Before the region, padded row 4 at `(0, n)`, `n < 12000`, is its unpadded row at `n`. -/
theorem pre_row4_apply (V : Valuation τ sig (Elt F)) (n : Nat) (hn : n < 12000) :
    after (preOps : List (HloOp τ sig (Elt F))) V (Proc.devRef .tc main_v63) (ValueIdx.ix2 (0 : Fin 1) (⟨n, by omega⟩ : Fin 12288))
      = after (preOps : List (HloOp τ sig (Elt F))) V (Proc.devRef .tc main_v44) (ValueIdx.ix1 (⟨n, hn⟩ : Fin 12000)) := by
  have h1 := reshape_at_idx preOps_rising V 86 (x := main_v62) (y := main_v63) rfl
  have h0 := binary_at_idx preOps_rising V 85 (a := main_v44) (b := main_call4_v0) (y := main_v62) rfl
  rw [h1, h0]
  exact row_of_arg_apply _ _ n hn

/-- Before the region, padded row 5 at `(0, n)`, `n < 12000`, is its unpadded row at `n`. -/
theorem pre_row5_apply (V : Valuation τ sig (Elt F)) (n : Nat) (hn : n < 12000) :
    after (preOps : List (HloOp τ sig (Elt F))) V (Proc.devRef .tc main_v65) (ValueIdx.ix2 (0 : Fin 1) (⟨n, by omega⟩ : Fin 12288))
      = after (preOps : List (HloOp τ sig (Elt F))) V (Proc.devRef .tc main_v53) (ValueIdx.ix1 (⟨n, hn⟩ : Fin 12000)) := by
  have h1 := reshape_at_idx preOps_rising V 90 (x := main_v64) (y := main_v65) rfl
  have h0 := binary_at_idx preOps_rising V 89 (a := main_v53) (b := main_call5_v0) (y := main_v64) rfl
  rw [h1, h0]
  exact row_of_arg_apply _ _ n hn

/-- Before the region, padded row 6 at `(0, n)`, `n < 12000`, is its unpadded row at `n`. -/
theorem pre_row6_apply (V : Valuation τ sig (Elt F)) (n : Nat) (hn : n < 12000) :
    after (preOps : List (HloOp τ sig (Elt F))) V (Proc.devRef .tc main_v67) (ValueIdx.ix2 (0 : Fin 1) (⟨n, by omega⟩ : Fin 12288))
      = after (preOps : List (HloOp τ sig (Elt F))) V (Proc.devRef .tc main_arg3) (ValueIdx.ix1 (⟨n, hn⟩ : Fin 12000)) := by
  have h1 := reshape_at_idx preOps_rising V 94 (x := main_v66) (y := main_v67) rfl
  have h0 := binary_at_idx preOps_rising V 93 (a := main_arg3) (b := main_call6_v0) (y := main_v66) rfl
  rw [h1, h0]
  exact row_of_arg_apply _ _ n hn

end Lines

end Cert.KernelIdeal.Hand

end
-- ==== Proof.KIArr.lean ====
import proofs.«145649_j20933670601054_2_alg».proof.Proof.Assemble
import proofs.«145649_j20933670601054_2_alg».proof.Proof.KILayout
import Idealize.ShloMosaic.Lib.Pipeline.Value
import Idealize.ShloMosaic.Lib.ValueIdx
import Idealize.ShloMosaic.Lib.ValueLayout

/-! # The element-stiffness tensor, read at an index

The region leaves a 36 x 12288 array: row 6 i + j, column e holds entry (i, j) of triangle e's stiffness matrix.  Each of
the twelve grid points writes one block of 1024 columns, computed from the same 1024 columns of the seven padded input
rows; so the array is one function of the seven rows, column by column.  The lines after the region cut it to 12000
columns, transpose it and regroup its 36 rows into 6 x 6. -/

set_option maxRecDepth 16384

noncomputable section

namespace Cert.KernelIdeal.Hand

open Cert.KernelIdeal.Gen Cert.LibSsaAfter
open Idealize.ShloMosaic Idealize.ShloMosaic.TcCoe Idealize.ShloMosaic.ValueIdx
open Idealize.ShloMosaic.Pipeline (Dat Cfg Window)

variable {F : FTy → Type} [FloatOps F] [Named F]

variable (m : (ℓ : Loc nD τ sig) → Buf (Elt F) ℓ)

/-! ## One block of the output from one block of each input -/

/-- Block `q` of a padded row: its columns `1024 q` to `1024 q + 1023`. -/
def rowBlk (a : S1x12288.Idx → Elt F .f32) (q : Fin 12) : Vec F S1x1024 .f32 :=
  fun y => a (ix2 (0 : Fin 1) (⟨1024 * q.val + (y 1).val, by have h1 := idx2_lt1 y; have hq := q.isLt; omega⟩ : Fin 12288))

theorem rowBlk_apply (a : S1x12288.Idx → Elt F .f32) (q : Fin 12) (l : Fin 1024) :
    rowBlk a q (ix2 (0 : Fin 1) l) = a (ix2 (0 : Fin 1) (⟨1024 * q.val + l.val, by have hq := q.isLt; have hl := l.isLt; omega⟩ : Fin 12288)) := rfl

/-- The block a column of the array lies in. -/
def colBlk (i : S36x12288.Idx) : Fin 12 := ⟨(i 1).val / 1024, by have h1 := idx2_lt1 i; omega⟩

/-- THE ARRAY as one function of the seven padded rows: entry (r, col) is entry (r, col mod 1024) of the stored value
    computed from block col / 1024 of each row. -/
def Garr (a0 a1 a2 a3 a4 a5 a6 : S1x12288.Idx → Elt F .f32) : S36x12288.Idx → Elt F .f32 := fun i =>
  bodyVal (rowBlk a0 (colBlk i)) (rowBlk a1 (colBlk i)) (rowBlk a2 (colBlk i)) (rowBlk a3 (colBlk i)) (rowBlk a4 (colBlk i)) (rowBlk a5 (colBlk i)) (rowBlk a6 (colBlk i))
    (ix2 (⟨(i 0).val, idx2_lt0 i⟩ : Fin 36) (⟨(i 1).val % 1024, Nat.mod_lt _ (by norm_num)⟩ : Fin 1024))

theorem Garr_apply (a0 a1 a2 a3 a4 a5 a6 : S1x12288.Idx → Elt F .f32) (r : Fin 36) (col : Fin 12288) :
    Garr a0 a1 a2 a3 a4 a5 a6 (ix2 r col)
      = bodyVal (rowBlk a0 (⟨col.val / 1024, by have := col.isLt; omega⟩ : Fin 12)) (rowBlk a1 (⟨col.val / 1024, by have := col.isLt; omega⟩ : Fin 12)) (rowBlk a2 (⟨col.val / 1024, by have := col.isLt; omega⟩ : Fin 12)) (rowBlk a3 (⟨col.val / 1024, by have := col.isLt; omega⟩ : Fin 12)) (rowBlk a4 (⟨col.val / 1024, by have := col.isLt; omega⟩ : Fin 12)) (rowBlk a5 (⟨col.val / 1024, by have := col.isLt; omega⟩ : Fin 12)) (rowBlk a6 (⟨col.val / 1024, by have := col.isLt; omega⟩ : Fin 12))
          (ix2 r (⟨col.val % 1024, Nat.mod_lt _ (by norm_num)⟩ : Fin 1024)) := rfl

/-- The array function at a column below 12000, the column written as a triangle's number. -/
theorem Garr_elem (a0 a1 a2 a3 a4 a5 a6 : S1x12288.Idx → Elt F .f32) (r : Fin 36) (e : Fin 12000) :
    Garr a0 a1 a2 a3 a4 a5 a6 (ix2 r (⟨e.val, by omega⟩ : Fin 12288))
      = bodyVal (rowBlk a0 (⟨e.val / 1024, by omega⟩ : Fin 12)) (rowBlk a1 (⟨e.val / 1024, by omega⟩ : Fin 12)) (rowBlk a2 (⟨e.val / 1024, by omega⟩ : Fin 12)) (rowBlk a3 (⟨e.val / 1024, by omega⟩ : Fin 12)) (rowBlk a4 (⟨e.val / 1024, by omega⟩ : Fin 12)) (rowBlk a5 (⟨e.val / 1024, by omega⟩ : Fin 12)) (rowBlk a6 (⟨e.val / 1024, by omega⟩ : Fin 12))
          (ix2 r (⟨e.val % 1024, Nat.mod_lt _ (by norm_num)⟩ : Fin 1024)) := rfl

/-- Lane `e mod 1024` of block `e / 1024` of a row is the row's entry `e`. -/
theorem rowBlk_elem (a : S1x12288.Idx → Elt F .f32) (e : Fin 12000) :
    rowBlk a (⟨e.val / 1024, by omega⟩ : Fin 12) (ix2 (0 : Fin 1) (⟨e.val % 1024, Nat.mod_lt _ (by norm_num)⟩ : Fin 1024))
      = a (ix2 (0 : Fin 1) (⟨e.val, by omega⟩ : Fin 12288)) := by
  show a (ix2 (0 : Fin 1) (⟨1024 * (e.val / 1024) + e.val % 1024, _⟩ : Fin 12288)) = _
  refine congrArg a (congrArg (ix2 (0 : Fin 1)) (Fin.ext ?_))
  show 1024 * (e.val / 1024) + e.val % 1024 = e.val
  omega

/-- Entry `j` of the value stored at point `q` is the array function's entry at row `j 0`, column `1024 q + j 1`. -/
theorem bodyVal_eq_Garr (a0 a1 a2 a3 a4 a5 a6 : S1x12288.Idx → Elt F .f32) (q : Fin 12) (j : S36x1024.Idx) (i : S36x12288.Idx)
    (h0 : (i 0).val = (j 0).val) (h1 : (i 1).val = 1024 * q.val + (j 1).val) :
    bodyVal (rowBlk a0 q) (rowBlk a1 q) (rowBlk a2 q) (rowBlk a3 q) (rowBlk a4 q) (rowBlk a5 q) (rowBlk a6 q) j = Garr a0 a1 a2 a3 a4 a5 a6 i := by
  have hj1 := idx2_lt1 j
  have hq : colBlk i = q := Fin.ext (by show (i 1).val / 1024 = q.val; omega)
  have hj : ix2 (⟨(i 0).val, idx2_lt0 i⟩ : Fin 36) (⟨(i 1).val % 1024, Nat.mod_lt _ (by norm_num)⟩ : Fin 1024) = j := by
    funext a; apply Fin.ext
    match a with
    | ⟨0, _⟩ => exact h0
    | ⟨1, _⟩ => show (i 1).val % 1024 = (j 1).val; omega
  show _ = bodyVal (rowBlk a0 (colBlk i)) (rowBlk a1 (colBlk i)) (rowBlk a2 (colBlk i)) (rowBlk a3 (colBlk i)) (rowBlk a4 (colBlk i)) (rowBlk a5 (colBlk i)) (rowBlk a6 (colBlk i))
    (ix2 (⟨(i 0).val, idx2_lt0 i⟩ : Fin 36) (⟨(i 1).val % 1024, Nat.mod_lt _ (by norm_num)⟩ : Fin 1024))
  rw [hq, hj]

/-! ## The windows' blocks on the grid -/

/-- The printed index maps, decided over the grid: every window sits in row block 0 and, at point `t`, in column block `t`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- A grid point as a column block. -/
def pt (t : Fin cfg0.N) : Fin 12 := ⟨t.val, lt_of_lt_of_eq t.isLt (show cfg0.N = 12 from N_0)⟩

/-- Input window 0's block at point `t` is column block `t` of its row. -/
theorem blk_read0 (t : Fin cfg0.N) (a : S1x12288.Idx → Elt F .f32) :
    ((cfg0.win 0).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 0).blk t).view.emb y) = a _
  refine congrArg a ?_
  funext ax; apply Fin.ext
  match ax with
  | ⟨0, _⟩ => show win0_0.index t (0 : Fin 2) * 1 + 1 * (y 0).val = 0; omega
  | ⟨1, _⟩ => show win0_0.index t (1 : Fin 2) * 1024 + 1 * (y 1).val = 1024 * t.val + (y 1).val; omega
/-- Input window 1's block at point `t` is column block `t` of its row. -/
theorem blk_read1 (t : Fin cfg0.N) (a : S1x12288.Idx → Elt F .f32) :
    ((cfg0.win 1).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 1).blk t).view.emb y) = a _
  refine congrArg a ?_
  funext ax; apply Fin.ext
  match ax with
  | ⟨0, _⟩ => show win0_1.index t (0 : Fin 2) * 1 + 1 * (y 0).val = 0; omega
  | ⟨1, _⟩ => show win0_1.index t (1 : Fin 2) * 1024 + 1 * (y 1).val = 1024 * t.val + (y 1).val; omega
/-- Input window 2's block at point `t` is column block `t` of its row. -/
theorem blk_read2 (t : Fin cfg0.N) (a : S1x12288.Idx → Elt F .f32) :
    ((cfg0.win 2).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 2).blk t).view.emb y) = a _
  refine congrArg a ?_
  funext ax; apply Fin.ext
  match ax with
  | ⟨0, _⟩ => show win0_2.index t (0 : Fin 2) * 1 + 1 * (y 0).val = 0; omega
  | ⟨1, _⟩ => show win0_2.index t (1 : Fin 2) * 1024 + 1 * (y 1).val = 1024 * t.val + (y 1).val; omega
/-- Input window 3's block at point `t` is column block `t` of its row. -/
theorem blk_read3 (t : Fin cfg0.N) (a : S1x12288.Idx → Elt F .f32) :
    ((cfg0.win 3).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 3).blk t).view.emb y) = a _
  refine congrArg a ?_
  funext ax; apply Fin.ext
  match ax with
  | ⟨0, _⟩ => show win0_3.index t (0 : Fin 2) * 1 + 1 * (y 0).val = 0; omega
  | ⟨1, _⟩ => show win0_3.index t (1 : Fin 2) * 1024 + 1 * (y 1).val = 1024 * t.val + (y 1).val; omega
/-- Input window 4's block at point `t` is column block `t` of its row. -/
theorem blk_read4 (t : Fin cfg0.N) (a : S1x12288.Idx → Elt F .f32) :
    ((cfg0.win 4).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 4).blk t).view.emb y) = a _
  refine congrArg a ?_
  funext ax; apply Fin.ext
  match ax with
  | ⟨0, _⟩ => show win0_4.index t (0 : Fin 2) * 1 + 1 * (y 0).val = 0; omega
  | ⟨1, _⟩ => show win0_4.index t (1 : Fin 2) * 1024 + 1 * (y 1).val = 1024 * t.val + (y 1).val; omega
/-- Input window 5's block at point `t` is column block `t` of its row. -/
theorem blk_read5 (t : Fin cfg0.N) (a : S1x12288.Idx → Elt F .f32) :
    ((cfg0.win 5).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 5).blk t).view.emb y) = a _
  refine congrArg a ?_
  funext ax; apply Fin.ext
  match ax with
  | ⟨0, _⟩ => show win0_5.index t (0 : Fin 2) * 1 + 1 * (y 0).val = 0; omega
  | ⟨1, _⟩ => show win0_5.index t (1 : Fin 2) * 1024 + 1 * (y 1).val = 1024 * t.val + (y 1).val; omega
/-- Input window 6's block at point `t` is column block `t` of its row. -/
theorem blk_read6 (t : Fin cfg0.N) (a : S1x12288.Idx → Elt F .f32) :
    ((cfg0.win 6).blk t).view.read (Elt F) a = rowBlk a (pt t) := by
  funext y
  obtain ⟨e00, e01, e10, e11, e20, e21, e30, e31, e40, e41, e50, e51, e60, e61, e70, e71⟩ := idx_facts t
  have hy0 := idx2_lt0 y
  show a (((cfg0.win 6).blk t).view.emb y) = a _
  refine congrArg a ?_
  funext ax; apply Fin.ext
  match ax with
  | ⟨0, _⟩ => show win0_6.index t (0 : Fin 2) * 1 + 1 * (y 0).val = 0; omega
  | ⟨1, _⟩ => show win0_6.index t (1 : Fin 2) * 1024 + 1 * (y 1).val = 1024 * t.val + (y 1).val; omega

/-! ## What each point writes back, and the whole array -/

/-- WHAT POINT `t` WRITES BACK is block `t` of the array function of the seven rows as the region finds them. -/
theorem flushed7_eq (c : Dev nD) (t : Fin cfg0.N) :
    (dats m 0 c).flushed 7 t = ((cfg0.win 7).blk t).view.read (Elt F) (Garr (V m c main_v55) (V m c main_v57) (V m c main_v59) (V m c main_v61) (V m c main_v63) (V m c main_v65) (V m c main_v67)) := by
  show (cfg0.win 7).cut (grid0.coords t) ((dats m 0 c).after 7 t) = _
  rw [after0_7, out0_7_eq]
  rw [show iblk m c 0 t = rowBlk (V m c main_v55) (pt t) from blk_read0 t _,
    show iblk m c 1 t = rowBlk (V m c main_v57) (pt t) from blk_read1 t _,
    show iblk m c 2 t = rowBlk (V m c main_v59) (pt t) from blk_read2 t _,
    show iblk m c 3 t = rowBlk (V m c main_v61) (pt t) from blk_read3 t _,
    show iblk m c 4 t = rowBlk (V m c main_v63) (pt t) from blk_read4 t _,
    show iblk m c 5 t = rowBlk (V m c main_v65) (pt t) from blk_read5 t _,
    show iblk m c 6 t = rowBlk (V m c main_v67) (pt t) from blk_read6 t _]
  obtain ⟨e00, e01, e10, e11, e20, e21, e30, e31, e40, e41, e50, e51, e60, e61, e70, e71⟩ := idx_facts t
  funext j
  show bodyVal (rowBlk (V m c main_v55) (pt t)) (rowBlk (V m c main_v57) (pt t)) (rowBlk (V m c main_v59) (pt t)) (rowBlk (V m c main_v61) (pt t)) (rowBlk (V m c main_v63) (pt t)) (rowBlk (V m c main_v65) (pt t)) (rowBlk (V m c main_v67) (pt t)) j
    = Garr (V m c main_v55) (V m c main_v57) (V m c main_v59) (V m c main_v61) (V m c main_v63) (V m c main_v65) (V m c main_v67) (((cfg0.win 7).blk t).view.emb j)
  refine bodyVal_eq_Garr _ _ _ _ _ _ _ (pt t) j _ ?_ ?_
  · show win0_7.index t (0 : Fin 2) * 36 + 1 * (j 0).val = (j 0).val; omega
  · show win0_7.index t (1 : Fin 2) * 1024 + 1 * (j 1).val = 1024 * t.val + (j 1).val; omega

/-- An index of the array is in point `t`'s block iff each coordinate is in the block's range on its axis. -/
theorem mem_blk7 (t : Fin cfg0.N) (i : S36x12288.Idx) :
    i ∈ ((cfg0.win 7).blk t).view.set ↔ ∀ a : Fin 2, win0_7.index t a * S36x1024.size a ≤ (i a).val ∧ (i a).val < win0_7.index t a * S36x1024.size a + S36x1024.size a := by
  show i ∈ ((View.whole main_v68).slice (win0_7.rect t)).set ↔ _
  rw [View.set_slice_whole, Rect.mem_set_unit]
  exact Iff.rfl

/-- Every index of the array is in some point's block: column `col` in point `col / 1024`'s. -/
theorem cover7 (i : S36x12288.Idx) : ∃ t : Fin cfg0.N, (cfg0.win 7).flush t = true ∧ i ∈ ((cfg0.win 7).blk t).view.set := by
  have hi0 := idx2_lt0 i
  have hi1 := idx2_lt1 i
  have hN : cfg0.N = 12 := N_0
  refine ⟨⟨(i 1).val / 1024, by rw [hN]; omega⟩, flush0_7 _, ?_⟩
  rw [mem_blk7]
  obtain ⟨e00, e01, e10, e11, e20, e21, e30, e31, e40, e41, e50, e51, e60, e61, e70, e71⟩ := idx_facts ⟨(i 1).val / 1024, by rw [hN]; omega⟩
  intro a
  match a with
  | ⟨0, _⟩ => show win0_7.index _ (0 : Fin 2) * 36 ≤ (i 0).val ∧ (i 0).val < win0_7.index _ (0 : Fin 2) * 36 + 36; omega
  | ⟨1, _⟩ => show win0_7.index _ (1 : Fin 2) * 1024 ≤ (i 1).val ∧ (i 1).val < win0_7.index _ (1 : Fin 2) * 1024 + 1024; rw [e71]; show (i 1).val / 1024 * 1024 ≤ (i 1).val ∧ (i 1).val < (i 1).val / 1024 * 1024 + 1024; omega

/-- THE ARRAY after the grid: the array function of the seven padded rows as the region finds them. -/
theorem final7 (c : Dev nD) :
    (dats m 0 c).arrAt 7 cfg0.N = Garr (V m c main_v55) (V m c main_v57) (V m c main_v59) (V m c main_v61) (V m c main_v63) (V m c main_v65) (V m c main_v67) :=
  (dats m 0 c).arrAt_eq_of_cover 7 _ (fun t _ => flushed7_eq m c t) cover7

/-! ## The contents the lines after the region start from, at the exact instance -/

section Exact

variable (m : (ℓ : Loc nD τ sig) → Buf (Elt Ideal) ℓ)

/-- A buffer that is no array of the pipeline is left as the region found it. -/
theorem UK_of_ne (c : Dev nD) (b : Ref sig .tc) (h : ∀ w, Pipeline.arrRef spec0 w ≠ b) :
    Cert.Alg.UK m c (Proc.devRef .tc b) = V0 m c (Proc.devRef .tc b) :=
  Pipeline.withArrays_of_ne _ c (V0 m c) _ b h

theorem UK_main_arg0 (c : Dev nD) : Cert.Alg.UK m c (Proc.devRef .tc main_arg0) = m ((c.tc : Thread nD τ).loc main_arg0) :=
  (UK_of_ne m c main_arg0 (by decide)).trans (V_main_arg0 m c)
theorem UK_main_arg1 (c : Dev nD) : Cert.Alg.UK m c (Proc.devRef .tc main_arg1) = m ((c.tc : Thread nD τ).loc main_arg1) :=
  (UK_of_ne m c main_arg1 (by decide)).trans (V_main_arg1 m c)
theorem UK_main_arg2 (c : Dev nD) : Cert.Alg.UK m c (Proc.devRef .tc main_arg2) = m ((c.tc : Thread nD τ).loc main_arg2) :=
  (UK_of_ne m c main_arg2 (by decide)).trans (V_main_arg2 m c)
theorem UK_main_arg3 (c : Dev nD) : Cert.Alg.UK m c (Proc.devRef .tc main_arg3) = m ((c.tc : Thread nD τ).loc main_arg3) :=
  (UK_of_ne m c main_arg3 (by decide)).trans (V_main_arg3 m c)
theorem UK_main_arg4 (c : Dev nD) : Cert.Alg.UK m c (Proc.devRef .tc main_arg4) = m ((c.tc : Thread nD τ).loc main_arg4) :=
  (UK_of_ne m c main_arg4 (by decide)).trans (V_main_arg4 m c)
theorem UK_main_arg5 (c : Dev nD) : Cert.Alg.UK m c (Proc.devRef .tc main_arg5) = m ((c.tc : Thread nD τ).loc main_arg5) :=
  (UK_of_ne m c main_arg5 (by decide)).trans (V_main_arg5 m c)
theorem UK_main_arg6 (c : Dev nD) : Cert.Alg.UK m c (Proc.devRef .tc main_arg6) = m ((c.tc : Thread nD τ).loc main_arg6) :=
  (UK_of_ne m c main_arg6 (by decide)).trans (V_main_arg6 m c)
theorem UK_main_arg7 (c : Dev nD) : Cert.Alg.UK m c (Proc.devRef .tc main_arg7) = m ((c.tc : Thread nD τ).loc main_arg7) :=
  (UK_of_ne m c main_arg7 (by decide)).trans (V_main_arg7 m c)
theorem UK_main_arg8 (c : Dev nD) : Cert.Alg.UK m c (Proc.devRef .tc main_arg8) = m ((c.tc : Thread nD τ).loc main_arg8) :=
  (UK_of_ne m c main_arg8 (by decide)).trans (V_main_arg8 m c)
theorem UK_main_arg9 (c : Dev nD) : Cert.Alg.UK m c (Proc.devRef .tc main_arg9) = m ((c.tc : Thread nD τ).loc main_arg9) :=
  (UK_of_ne m c main_arg9 (by decide)).trans (V_main_arg9 m c)
theorem UK_main_arg10 (c : Dev nD) : Cert.Alg.UK m c (Proc.devRef .tc main_arg10) = m ((c.tc : Thread nD τ).loc main_arg10) :=
  (UK_of_ne m c main_arg10 (by decide)).trans (V_main_arg10 m c)

/-- The permutation table the lines before the region spell is still there. -/
theorem UK_main_c (c : Dev nD) :
    Cert.Alg.UK m c (Proc.devRef .tc main_c) = ((fun i => lit0 (S3.rowMajor i)) : main_c.ty.Contents (Elt Ideal)) :=
  (UK_of_ne m c main_c (by decide)).trans (nullary_at_idx preOps_rising (fun b => m (c, b)) 0 rfl)

/-- The output array is what the grid's twelve points wrote. -/
theorem UK_arr7 (c : Dev nD) : Cert.Alg.UK m c (Proc.devRef .tc main_v68) = (dats m 0 c).arrAt 7 cfg0.N :=
  Pipeline.withArrays_arr spec0 launch0.win.arr_inj c (V0 m c) (fun w => (dats m 0 c).arrAt w cfg0.N) 7

/-- The output array as the later lines find it: the array function of the seven padded rows. -/
theorem UK_main_v68 (c : Dev nD) :
    Cert.Alg.UK m c (Proc.devRef .tc main_v68) = Garr (V m c main_v55) (V m c main_v57) (V m c main_v59) (V m c main_v61) (V m c main_v63) (V m c main_v65) (V m c main_v67) :=
  (UK_arr7 m c).trans (final7 m c)

/-! ## The target: the element-stiffness tensor at an index -/

/-- Entry (e, i, j) of the tensor the later lines cut out of the region's output is the stiffness entry (i, j) of triangle
    `e`: of its six gathered vertex coordinates and of the material constants its flag selects. -/
theorem k_apply (c : Dev nD) (e : Fin 12000) (i j : Fin 6) :
    StableHlo.after (hostOps1 (F := Ideal)) (Cert.Alg.UK m c) (Proc.devRef .tc main_v71) (ix3 e i j)
      = Cert.ElemStiff.kerEntry (V0 m c (Proc.devRef .tc main_v8) (ix1 e)) (V0 m c (Proc.devRef .tc main_v17) (ix1 e)) (V0 m c (Proc.devRef .tc main_v26) (ix1 e)) (V0 m c (Proc.devRef .tc main_v35) (ix1 e)) (V0 m c (Proc.devRef .tc main_v44) (ix1 e)) (V0 m c (Proc.devRef .tc main_v53) (ix1 e))
          (Ideal.ofBits .f32 0x3F000000#32)
          (Cert.ElemStiff.selD (m ((c : Thread nD τ).loc main_arg3) (ix1 e)) (Ideal.ofBits .f32 0x3F000000#32) ((112406956574275 / 1099511627776 : ℝ) : EReal) ((148011179044927 / 549755813888 : ℝ) : EReal))
          (Cert.ElemStiff.selD (m ((c : Thread nD τ).loc main_arg3) (ix1 e)) (Ideal.ofBits .f32 0x3F000000#32) ((110729242446295 / 2199023255552 : ℝ) : EReal) ((63433366048705 / 549755813888 : ℝ) : EReal))
          (Cert.ElemStiff.selD (m ((c : Thread nD τ).loc main_arg3) (ix1 e)) (Ideal.ofBits .f32 0x3F000000#32) ((114084670702255 / 4398046511104 : ℝ) : EReal) ((169155638595521 / 2199023255552 : ℝ) : EReal))
          i j := by
  have h0 : rowBlk (V m c main_v55) (⟨e.val / 1024, by omega⟩ : Fin 12) (ix2 (0 : Fin 1) (⟨e.val % 1024, Nat.mod_lt _ (by norm_num)⟩ : Fin 1024)) = V0 m c (Proc.devRef .tc main_v8) (ix1 e) :=
    (rowBlk_elem _ e).trans (pre_row0_apply (fun b => m (c, b)) e.val e.isLt)
  have h1 : rowBlk (V m c main_v57) (⟨e.val / 1024, by omega⟩ : Fin 12) (ix2 (0 : Fin 1) (⟨e.val % 1024, Nat.mod_lt _ (by norm_num)⟩ : Fin 1024)) = V0 m c (Proc.devRef .tc main_v17) (ix1 e) :=
    (rowBlk_elem _ e).trans (pre_row1_apply (fun b => m (c, b)) e.val e.isLt)
  have h2 : rowBlk (V m c main_v59) (⟨e.val / 1024, by omega⟩ : Fin 12) (ix2 (0 : Fin 1) (⟨e.val % 1024, Nat.mod_lt _ (by norm_num)⟩ : Fin 1024)) = V0 m c (Proc.devRef .tc main_v26) (ix1 e) :=
    (rowBlk_elem _ e).trans (pre_row2_apply (fun b => m (c, b)) e.val e.isLt)
  have h3 : rowBlk (V m c main_v61) (⟨e.val / 1024, by omega⟩ : Fin 12) (ix2 (0 : Fin 1) (⟨e.val % 1024, Nat.mod_lt _ (by norm_num)⟩ : Fin 1024)) = V0 m c (Proc.devRef .tc main_v35) (ix1 e) :=
    (rowBlk_elem _ e).trans (pre_row3_apply (fun b => m (c, b)) e.val e.isLt)
  have h4 : rowBlk (V m c main_v63) (⟨e.val / 1024, by omega⟩ : Fin 12) (ix2 (0 : Fin 1) (⟨e.val % 1024, Nat.mod_lt _ (by norm_num)⟩ : Fin 1024)) = V0 m c (Proc.devRef .tc main_v44) (ix1 e) :=
    (rowBlk_elem _ e).trans (pre_row4_apply (fun b => m (c, b)) e.val e.isLt)
  have h5 : rowBlk (V m c main_v65) (⟨e.val / 1024, by omega⟩ : Fin 12) (ix2 (0 : Fin 1) (⟨e.val % 1024, Nat.mod_lt _ (by norm_num)⟩ : Fin 1024)) = V0 m c (Proc.devRef .tc main_v53) (ix1 e) :=
    (rowBlk_elem _ e).trans (pre_row5_apply (fun b => m (c, b)) e.val e.isLt)
  have h6 : rowBlk (V m c main_v67) (⟨e.val / 1024, by omega⟩ : Fin 12) (ix2 (0 : Fin 1) (⟨e.val % 1024, Nat.mod_lt _ (by norm_num)⟩ : Fin 1024)) = m ((c : Thread nD τ).loc main_arg3) (ix1 e) :=
    ((rowBlk_elem _ e).trans (pre_row6_apply (fun b => m (c, b)) e.val e.isLt)).trans (congrFun (V_main_arg3 m c) (ix1 e))
  rw [sfx_elem_apply (Cert.Alg.UK m c) e i j, UK_main_v68 m c, Garr_elem, bodyVal_apply, h0, h1, h2, h3, h4, h5, h6]

end Exact

end Cert.KernelIdeal.Hand

end
-- ==== Proof.RefElem.lean ====
/-
  The reference's element-stiffness tensor, read at one entry.

  For every triangle e the reference gathers six vertex coordinates, forms three denominators (each twice the signed
  area) and the determinant under the area's absolute value, six shape-function gradient components as quotients, the
  3×6 strain matrix B by placing those components and zeros side by side and stacking three rows, the plane-stress
  matrix D by choosing, entry by entry on the material flag, between two scaled 3×3 tables, and then
  K[e] = (Bᵀ D B) · area by two batched contractions and one product.

  Each of these is one operation of a single-assignment line, so what a buffer holds at the end of the line is its
  own operation applied to what its operands hold at the end. This module reads the line one operation at a time,
  then each buffer at an index — pointwise operations at the same index, a broadcast at the operand's coordinates, a
  concatenation at the piece the coordinate falls in, a contraction as the sum over its one contracted axis — and
  arrives at: entry (e, i, j) of the tensor is the doubly contracted Bᵀ D B at (i, j) of the element's gathered
  coordinates and selected plane-stress entries, times half the absolute determinant.
-/
import proofs.«145649_j20933670601054_2_alg».proof.Proof.RefRun
import proofs.«145649_j20933670601054_2_alg».proof.Proof.ElemStiff
import proofs.«145649_j20933670601054_2_alg».proof.Proof.Consts
import Idealize.ShloMosaic.Lib.ValueIdx
import Idealize.ShloMosaic.Lib.IdealHost
import Idealize.ShloMosaic.Lib.Pipeline.Value

noncomputable section

namespace Cert.Alg.RefElem

open Cert.ReferenceIdeal Cert.ReferenceIdeal.Gen Idealize.ShloMosaic Idealize.ShloMosaic.TcCoe Idealize.SL.Sem Idealize.ShloMosaic.StableHlo
open Idealize.ShloMosaic.ValueIdx
open Cert.LibSsaAfter Cert.ReferenceIdeal.RefRun

/-! ## One operation of many operands, read off a rising line -/

section Nary
variable {τ' : Topo} {sig' : RefSig} {Val : EltTy → Type}

theorem nary_at_idx {lo hi : ℕ} {ops' : List (HloOp τ' sig' Val)} (h : Rising lo hi ops') (V : Valuation τ' sig' Val)
    (i : ℕ) {n : ℕ} {xs : Fin n → Ref sig' .tc} {y : Ref sig' .tc}
    {f : ((k : Fin n) → (xs k).ty.Contents Val) → y.ty.Contents Val} {hxs hy}
    (hi' : ops'[i]? = some (nary (τ := τ') xs y f hxs hy)) (hne : ∀ k, xs k ≠ y := by decide) :
    after ops' V (Proc.devRef .tc y) = f (fun k => after ops' V (Proc.devRef .tc (xs k))) := by
  obtain ⟨l₁, l₂, rfl⟩ := List.append_of_mem (List.mem_of_getElem? hi')
  have hm : ∀ k : Fin n, (Proc.devRef .tc (xs k) : DevRef τ' sig') ∈ (nary (τ := τ') xs y f hxs hy).bufs :=
    fun k => Finset.mem_insert_of_mem (Finset.mem_image_of_mem _ (Finset.mem_univ k))
  rw [after_at_op h V (b := Proc.devRef .tc y) (by simp [nary]), nary_result]
  congr 1
  funext k
  exact (after_operand h V (b := Proc.devRef .tc (xs k)) (hm k) (by simp [nary, devRef_ne_of_ne (hne k)])).symm

end Nary

/-! ## The layout operations of this program, read at an index -/

section Layout
variable {α : Type}

/-- A vector made a column. -/
theorem bcast_col_apply (h : S12000.BroadcastsInDim S12000x1 (![0] : Fin 1 → Fin S12000x1.rank)) (x : S12000.Idx → α)
    (e : Fin 12000) (z : Fin 1) : broadcastInDim S12000x1 ![0] h x (ix2 e z) = x (ix1 e) :=
  broadcastInDim_apply _ h x _ _ fun a => by match a with | ⟨0, _⟩ => rfl

/-- Six columns side by side: column `c` is the `c`-th piece. -/
theorem cat6_apply (h : Shape.Concatenates [S12000x1, S12000x1, S12000x1, S12000x1, S12000x1, S12000x1] S12000x6 1)
    (u0 u1 u2 u3 u4 u5 : S12000x1.Idx → α) (e : Fin 12000) (c : Fin 6) :
    concatenate S12000x6 1 [⟨S12000x1, u0⟩, ⟨S12000x1, u1⟩, ⟨S12000x1, u2⟩, ⟨S12000x1, u3⟩, ⟨S12000x1, u4⟩, ⟨S12000x1, u5⟩] h (ix2 e c)
      = (![u0, u1, u2, u3, u4, u5] : Fin 6 → S12000x1.Idx → α) c (ix2 e 0) := by
  have hi : ∀ b : Fin S12000x1.rank, b.cast (rfl : S12000x1.rank = S12000x6.rank) ≠ (1 : Fin S12000x6.rank) →
      ((ix2 e (0 : Fin 1) : S12000x1.Idx) b).val = ((ix2 e c : S12000x6.Idx) (b.cast rfl)).val := fun b hb => by
    match b with
    | ⟨0, _⟩ => rfl
    | ⟨1, _⟩ => exact absurd rfl hb
  fin_cases c
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 0 (by simp) S12000x1 u0 rfl rfl 0 rfl (ix2 e 0) hi rfl
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 1 (by simp) S12000x1 u1 rfl rfl 1 rfl (ix2 e 0) hi rfl
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 2 (by simp) S12000x1 u2 rfl rfl 2 rfl (ix2 e 0) hi rfl
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 3 (by simp) S12000x1 u3 rfl rfl 3 rfl (ix2 e 0) hi rfl
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 4 (by simp) S12000x1 u4 rfl rfl 4 rfl (ix2 e 0) hi rfl
  · exact concatenate_apply_piece (t := S12000x6) 1 [⟨S12000x1, u0⟩, ⟨S12000x1, u1⟩, ⟨S12000x1, u2⟩, ⟨S12000x1, u3⟩, ⟨S12000x1, u4⟩, ⟨S12000x1, u5⟩] h _ 5 (by simp) S12000x1 u5 rfl rfl 5 rfl (ix2 e 0) hi rfl

/-- A matrix row block given a unit middle axis. -/
theorem bcast_mid_apply (h : S12000x6.BroadcastsInDim S12000x1x6 (![0, 2] : Fin 2 → Fin S12000x1x6.rank)) (x : S12000x6.Idx → α)
    (e : Fin 12000) (z : Fin 1) (a : Fin 6) : broadcastInDim S12000x1x6 ![0, 2] h x (ix3 e z a) = x (ix2 e a) :=
  broadcastInDim_apply _ h x _ _ fun b => by match b with | ⟨0, _⟩ => rfl | ⟨1, _⟩ => rfl

/-- Three row blocks stacked along the middle axis: row `k` is the `k`-th piece. -/
theorem cat3_apply (h : Shape.Concatenates [S12000x1x6, S12000x1x6, S12000x1x6] S12000x3x6 1)
    (u0 u1 u2 : S12000x1x6.Idx → α) (e : Fin 12000) (k : Fin 3) (a : Fin 6) :
    concatenate S12000x3x6 1 [⟨S12000x1x6, u0⟩, ⟨S12000x1x6, u1⟩, ⟨S12000x1x6, u2⟩] h (ix3 e k a)
      = (![u0, u1, u2] : Fin 3 → S12000x1x6.Idx → α) k (ix3 e 0 a) := by
  have hi : ∀ b : Fin S12000x1x6.rank, b.cast (rfl : S12000x1x6.rank = S12000x3x6.rank) ≠ (1 : Fin S12000x3x6.rank) →
      ((ix3 e (0 : Fin 1) a : S12000x1x6.Idx) b).val = ((ix3 e k a : S12000x3x6.Idx) (b.cast rfl)).val := fun b hb => by
    match b with
    | ⟨0, _⟩ => rfl
    | ⟨1, _⟩ => exact absurd rfl hb
    | ⟨2, _⟩ => rfl
  fin_cases k
  · exact concatenate_apply_piece (t := S12000x3x6) 1 [⟨S12000x1x6, u0⟩, ⟨S12000x1x6, u1⟩, ⟨S12000x1x6, u2⟩] h _ 0 (by simp) S12000x1x6 u0 rfl rfl 0 rfl (ix3 e 0 a) hi rfl
  · exact concatenate_apply_piece (t := S12000x3x6) 1 [⟨S12000x1x6, u0⟩, ⟨S12000x1x6, u1⟩, ⟨S12000x1x6, u2⟩] h _ 1 (by simp) S12000x1x6 u1 rfl rfl 1 rfl (ix3 e 0 a) hi rfl
  · exact concatenate_apply_piece (t := S12000x3x6) 1 [⟨S12000x1x6, u0⟩, ⟨S12000x1x6, u1⟩, ⟨S12000x1x6, u2⟩] h _ 2 (by simp) S12000x1x6 u2 rfl rfl 2 rfl (ix3 e 0 a) hi rfl

/-- A vector given two unit axes. -/
theorem bcast_e11_apply (h : S12000.BroadcastsInDim S12000x1x1 (![0] : Fin 1 → Fin S12000x1x1.rank)) (x : S12000.Idx → α)
    (e : Fin 12000) (z z' : Fin 1) : broadcastInDim S12000x1x1 ![0] h x (ix3 e z z') = x (ix1 e) :=
  broadcastInDim_apply _ h x _ _ fun b => by match b with | ⟨0, _⟩ => rfl

/-- One value per element spread over a 6×6 block. -/
theorem bcast_e66_apply (h : S12000x1x1.BroadcastsInDim S12000x6x6 (![0, 1, 2] : Fin 3 → Fin S12000x6x6.rank)) (x : S12000x1x1.Idx → α)
    (e : Fin 12000) (i j : Fin 6) : broadcastInDim S12000x6x6 ![0, 1, 2] h x (ix3 e i j) = x (ix3 e 0 0) :=
  broadcastInDim_apply _ h x _ _ fun b => by match b with | ⟨0, _⟩ => rfl | ⟨1, _⟩ => rfl | ⟨2, _⟩ => rfl

/-- One value per element spread over a 3×3 block. -/
theorem bcast_e33_apply (h : S12000x1x1.BroadcastsInDim S12000x3x3 (![0, 1, 2] : Fin 3 → Fin S12000x3x3.rank)) (x : S12000x1x1.Idx → α)
    (e : Fin 12000) (k l : Fin 3) : broadcastInDim S12000x3x3 ![0, 1, 2] h x (ix3 e k l) = x (ix3 e 0 0) :=
  broadcastInDim_apply _ h x _ _ fun b => by match b with | ⟨0, _⟩ => rfl | ⟨1, _⟩ => rfl | ⟨2, _⟩ => rfl

/-- One 3×3 table repeated for every element. -/
theorem bcast_t33_apply (h : S3x3.BroadcastsInDim S12000x3x3 (![1, 2] : Fin 2 → Fin S12000x3x3.rank)) (x : S3x3.Idx → α)
    (e : Fin 12000) (k l : Fin 3) : broadcastInDim S12000x3x3 ![1, 2] h x (ix3 e k l) = x (ix2 k l) :=
  broadcastInDim_apply _ h x _ _ fun b => by match b with | ⟨0, _⟩ => rfl | ⟨1, _⟩ => rfl

end Layout

variable (M : Valuation τ sig (Elt Ideal))

/-- What the reference's buffers hold after its operations have run from `M`. -/
abbrev W : Valuation τ sig (Elt Ideal) := StableHlo.after (ops (F := Ideal)) M

/-! ## The buffers on the way to the element matrix, each at its type -/

abbrev Rarg3 : FVec Ideal S12000 .f32 := W M (Proc.devRef .tc main_arg3)
abbrev Rcst : FVec Ideal S3x3 .f32 := W M (Proc.devRef .tc main_cst)
abbrev Rcst_0 : FVec Ideal S3x3 .f32 := W M (Proc.devRef .tc main_cst_0)
abbrev Rcst_1 : FVec Ideal S_ .f32 := W M (Proc.devRef .tc main_cst_1)
abbrev Rv0 : FVec Ideal S3x3 .f32 := W M (Proc.devRef .tc main_v0)
abbrev Rv1 : FVec Ideal S3x3 .f32 := W M (Proc.devRef .tc main_v1)
abbrev Rcst_2 : FVec Ideal S_ .f32 := W M (Proc.devRef .tc main_cst_2)
abbrev Rv2 : FVec Ideal S3x3 .f32 := W M (Proc.devRef .tc main_v2)
abbrev Rv3 : FVec Ideal S3x3 .f32 := W M (Proc.devRef .tc main_v3)
abbrev Rv12 : FVec Ideal S12000 .f32 := W M (Proc.devRef .tc main_v12)
abbrev Rv21 : FVec Ideal S12000 .f32 := W M (Proc.devRef .tc main_v21)
abbrev Rv30 : FVec Ideal S12000 .f32 := W M (Proc.devRef .tc main_v30)
abbrev Rv39 : FVec Ideal S12000 .f32 := W M (Proc.devRef .tc main_v39)
abbrev Rv48 : FVec Ideal S12000 .f32 := W M (Proc.devRef .tc main_v48)
abbrev Rv57 : FVec Ideal S12000 .f32 := W M (Proc.devRef .tc main_v57)
abbrev Rv58 : FVec Ideal S12000 .f32 := W M (Proc.devRef .tc main_v58)
abbrev Rv59 : FVec Ideal S12000 .f32 := W M (Proc.devRef .tc main_v59)
abbrev Rv60 : FVec Ideal S12000 .f32 := W M (Proc.devRef .tc main_v60)
abbrev Rv61 : FVec Ideal S12000 .f32 := W M (Proc.devRef .tc main_v61)
abbrev Rv62 : FVec Ideal S12000 .f32 := W M (Proc.devRef .tc main_v62)
abbrev Rv63 : FVec Ideal S12000 .f32 := W M (Proc.devRef .tc main_v63)
abbrev Rv64 : FVec Ideal S12000 .f32 := W M (Proc.devRef .tc main_v64)
abbrev Rv65 : FVec Ideal S12000 .f32 := W M (Proc.devRef .tc main_v65)
abbrev Rv66 : FVec Ideal S12000 .f32 := W M (Proc.devRef .tc main_v66)
abbrev Rv67 : FVec Ideal S12000 .f32 := W M (Proc.devRef .tc main_v67)
abbrev Rv68 : FVec Ideal S12000 .f32 := W M (Proc.devRef .tc main_v68)
abbrev Rv69 : FVec Ideal S12000 .f32 := W M (Proc.devRef .tc main_v69)
abbrev Rv70 : FVec Ideal S12000 .f32 := W M (Proc.devRef .tc main_v70)
abbrev Rv71 : FVec Ideal S12000 .f32 := W M (Proc.devRef .tc main_v71)
abbrev Rv72 : FVec Ideal S12000 .f32 := W M (Proc.devRef .tc main_v72)
abbrev Rv73 : FVec Ideal S12000 .f32 := W M (Proc.devRef .tc main_v73)
abbrev Rv74 : FVec Ideal S12000 .f32 := W M (Proc.devRef .tc main_v74)
abbrev Rv75 : FVec Ideal S12000 .f32 := W M (Proc.devRef .tc main_v75)
abbrev Rv76 : FVec Ideal S12000 .f32 := W M (Proc.devRef .tc main_v76)
abbrev Rv77 : FVec Ideal S12000 .f32 := W M (Proc.devRef .tc main_v77)
abbrev Rv78 : FVec Ideal S12000 .f32 := W M (Proc.devRef .tc main_v78)
abbrev Rv79 : FVec Ideal S12000 .f32 := W M (Proc.devRef .tc main_v79)
abbrev Rv80 : FVec Ideal S12000 .f32 := W M (Proc.devRef .tc main_v80)
abbrev Rv81 : FVec Ideal S12000 .f32 := W M (Proc.devRef .tc main_v81)
abbrev Rv82 : FVec Ideal S12000 .f32 := W M (Proc.devRef .tc main_v82)
abbrev Rv83 : FVec Ideal S12000 .f32 := W M (Proc.devRef .tc main_v83)
abbrev Rv84 : FVec Ideal S12000 .f32 := W M (Proc.devRef .tc main_v84)
abbrev Rv85 : FVec Ideal S12000 .f32 := W M (Proc.devRef .tc main_v85)
abbrev Rv86 : FVec Ideal S12000 .f32 := W M (Proc.devRef .tc main_v86)
abbrev Rv87 : FVec Ideal S12000 .f32 := W M (Proc.devRef .tc main_v87)
abbrev Rv88 : FVec Ideal S12000 .f32 := W M (Proc.devRef .tc main_v88)
abbrev Rv89 : FVec Ideal S12000 .f32 := W M (Proc.devRef .tc main_v89)
abbrev Rv90 : FVec Ideal S12000 .f32 := W M (Proc.devRef .tc main_v90)
abbrev Rv91 : FVec Ideal S12000 .f32 := W M (Proc.devRef .tc main_v91)
abbrev Rv92 : FVec Ideal S12000 .f32 := W M (Proc.devRef .tc main_v92)
abbrev Rv93 : FVec Ideal S12000 .f32 := W M (Proc.devRef .tc main_v93)
abbrev Rv94 : FVec Ideal S12000 .f32 := W M (Proc.devRef .tc main_v94)
abbrev Rv95 : FVec Ideal S12000 .f32 := W M (Proc.devRef .tc main_v95)
abbrev Rv96 : FVec Ideal S12000 .f32 := W M (Proc.devRef .tc main_v96)
abbrev Rv97 : FVec Ideal S12000 .f32 := W M (Proc.devRef .tc main_v97)
abbrev Rv98 : FVec Ideal S12000 .f32 := W M (Proc.devRef .tc main_v98)
abbrev Rv99 : FVec Ideal S12000 .f32 := W M (Proc.devRef .tc main_v99)
abbrev Rv100 : FVec Ideal S12000 .f32 := W M (Proc.devRef .tc main_v100)
abbrev Rv101 : FVec Ideal S12000 .f32 := W M (Proc.devRef .tc main_v101)
abbrev Rcst_15 : FVec Ideal S_ .f32 := W M (Proc.devRef .tc main_cst_15)
abbrev Rv102 : FVec Ideal S12000 .f32 := W M (Proc.devRef .tc main_v102)
abbrev Rv103 : FVec Ideal S12000 .f32 := W M (Proc.devRef .tc main_v103)
abbrev Rcst_16 : FVec Ideal S_ .f32 := W M (Proc.devRef .tc main_cst_16)
abbrev Rv104 : FVec Ideal S12000 .f32 := W M (Proc.devRef .tc main_v104)
abbrev Rv105 : FVec Ideal S12000x1 .f32 := W M (Proc.devRef .tc main_v105)
abbrev Rv106 : FVec Ideal S12000x1 .f32 := W M (Proc.devRef .tc main_v106)
abbrev Rv107 : FVec Ideal S12000x1 .f32 := W M (Proc.devRef .tc main_v107)
abbrev Rv108 : FVec Ideal S12000x1 .f32 := W M (Proc.devRef .tc main_v108)
abbrev Rv109 : FVec Ideal S12000x1 .f32 := W M (Proc.devRef .tc main_v109)
abbrev Rv110 : FVec Ideal S12000x1 .f32 := W M (Proc.devRef .tc main_v110)
abbrev Rv111 : FVec Ideal S12000x6 .f32 := W M (Proc.devRef .tc main_v111)
abbrev Rv112 : FVec Ideal S12000x1 .f32 := W M (Proc.devRef .tc main_v112)
abbrev Rv113 : FVec Ideal S12000x1 .f32 := W M (Proc.devRef .tc main_v113)
abbrev Rv114 : FVec Ideal S12000x1 .f32 := W M (Proc.devRef .tc main_v114)
abbrev Rv115 : FVec Ideal S12000x1 .f32 := W M (Proc.devRef .tc main_v115)
abbrev Rv116 : FVec Ideal S12000x1 .f32 := W M (Proc.devRef .tc main_v116)
abbrev Rv117 : FVec Ideal S12000x1 .f32 := W M (Proc.devRef .tc main_v117)
abbrev Rv118 : FVec Ideal S12000x6 .f32 := W M (Proc.devRef .tc main_v118)
abbrev Rv119 : FVec Ideal S12000x1 .f32 := W M (Proc.devRef .tc main_v119)
abbrev Rv120 : FVec Ideal S12000x1 .f32 := W M (Proc.devRef .tc main_v120)
abbrev Rv121 : FVec Ideal S12000x1 .f32 := W M (Proc.devRef .tc main_v121)
abbrev Rv122 : FVec Ideal S12000x1 .f32 := W M (Proc.devRef .tc main_v122)
abbrev Rv123 : FVec Ideal S12000x1 .f32 := W M (Proc.devRef .tc main_v123)
abbrev Rv124 : FVec Ideal S12000x1 .f32 := W M (Proc.devRef .tc main_v124)
abbrev Rv125 : FVec Ideal S12000x6 .f32 := W M (Proc.devRef .tc main_v125)
abbrev Rv126 : FVec Ideal S12000x1x6 .f32 := W M (Proc.devRef .tc main_v126)
abbrev Rv127 : FVec Ideal S12000x1x6 .f32 := W M (Proc.devRef .tc main_v127)
abbrev Rv128 : FVec Ideal S12000x1x6 .f32 := W M (Proc.devRef .tc main_v128)
abbrev Rv129 : FVec Ideal S12000x3x6 .f32 := W M (Proc.devRef .tc main_v129)
abbrev Rv130 : FVec Ideal S12000x1x1 .f32 := W M (Proc.devRef .tc main_v130)
abbrev Rcst_17 : FVec Ideal S_ .f32 := W M (Proc.devRef .tc main_cst_17)
abbrev Rv131 : FVec Ideal S12000x1x1 .f32 := W M (Proc.devRef .tc main_v131)
abbrev Rv132 : IVec S12000x1x1 1 := W M (Proc.devRef .tc main_v132)
abbrev Rcall0_v0 : IVec S12000x3x3 1 := W M (Proc.devRef .tc main_call0_v0)
abbrev Rcall0_v1 : FVec Ideal S12000x3x3 .f32 := W M (Proc.devRef .tc main_call0_v1)
abbrev Rcall0_v2 : FVec Ideal S12000x3x3 .f32 := W M (Proc.devRef .tc main_call0_v2)
abbrev Rv133 : FVec Ideal S12000x3x3 .f32 := W M (Proc.devRef .tc main_v133)
abbrev Rv134 : FVec Ideal S12000x3x6 .f32 := W M (Proc.devRef .tc main_v134)
abbrev Rv135 : FVec Ideal S12000x6x6 .f32 := W M (Proc.devRef .tc main_v135)
abbrev Rv136 : FVec Ideal S12000x1x1 .f32 := W M (Proc.devRef .tc main_v136)
abbrev Rv137 : FVec Ideal S12000x6x6 .f32 := W M (Proc.devRef .tc main_v137)
abbrev Rv138 : FVec Ideal S12000x6x6 .f32 := W M (Proc.devRef .tc main_v138)

/-! ## The operations, one at a time -/

theorem cst_eq : Rcst M = (fun i => Ideal.ofBits .f32 (lit0 (S3x3.rowMajor i))) :=
  nullary_at_idx (y := main_cst) rising M 0 (by rfl)
theorem cst_0_eq : Rcst_0 M = (fun i => Ideal.ofBits .f32 (lit1 (S3x3.rowMajor i))) :=
  nullary_at_idx (y := main_cst_0) rising M 1 (by rfl)
theorem cst_1_eq : Rcst_1 M = (constant (F := Ideal) S_ .f32 0x43C04EC5#32) :=
  nullary_at_idx (y := main_cst_1) rising M 3 (by rfl)
theorem v0_eq : Rv0 M = (broadcastInDim S3x3 ![] bcast_S_S3x3 : FVec Ideal S_ .f32 → FVec Ideal S3x3 .f32) (Rcst_1 M) :=
  unary_at_idx (x := main_cst_1) (y := main_v0) rising M 4 (by rfl)
theorem v1_eq : Rv1 M = (mulf : FVec Ideal S3x3 .f32 → FVec Ideal S3x3 .f32 → FVec Ideal S3x3 .f32) (Rv0 M) (Rcst M) :=
  binary_at_idx (a := main_v0) (b := main_cst) (y := main_v1) rising M 5 (by rfl)
theorem cst_2_eq : Rcst_2 M = (constant (F := Ideal) S_ .f32 0x4318965D#32) :=
  nullary_at_idx (y := main_cst_2) rising M 6 (by rfl)
theorem v2_eq : Rv2 M = (broadcastInDim S3x3 ![] bcast_S_S3x3 : FVec Ideal S_ .f32 → FVec Ideal S3x3 .f32) (Rcst_2 M) :=
  unary_at_idx (x := main_cst_2) (y := main_v2) rising M 7 (by rfl)
theorem v3_eq : Rv3 M = (mulf : FVec Ideal S3x3 .f32 → FVec Ideal S3x3 .f32 → FVec Ideal S3x3 .f32) (Rv2 M) (Rcst_0 M) :=
  binary_at_idx (a := main_v2) (b := main_cst_0) (y := main_v3) rising M 8 (by rfl)
theorem v58_eq : Rv58 M = (subf : FVec Ideal S12000 .f32 → FVec Ideal S12000 .f32 → FVec Ideal S12000 .f32) (Rv39 M) (Rv48 M) :=
  binary_at_idx (a := main_v39) (b := main_v48) (y := main_v58) rising M 75 (by rfl)
theorem v59_eq : Rv59 M = (subf : FVec Ideal S12000 .f32 → FVec Ideal S12000 .f32 → FVec Ideal S12000 .f32) (Rv30 M) (Rv21 M) :=
  binary_at_idx (a := main_v30) (b := main_v21) (y := main_v59) rising M 76 (by rfl)
theorem v60_eq : Rv60 M = (mulf : FVec Ideal S12000 .f32 → FVec Ideal S12000 .f32 → FVec Ideal S12000 .f32) (Rv58 M) (Rv59 M) :=
  binary_at_idx (a := main_v58) (b := main_v59) (y := main_v60) rising M 77 (by rfl)
theorem v61_eq : Rv61 M = (subf : FVec Ideal S12000 .f32 → FVec Ideal S12000 .f32 → FVec Ideal S12000 .f32) (Rv12 M) (Rv21 M) :=
  binary_at_idx (a := main_v12) (b := main_v21) (y := main_v61) rising M 78 (by rfl)
theorem v62_eq : Rv62 M = (subf : FVec Ideal S12000 .f32 → FVec Ideal S12000 .f32 → FVec Ideal S12000 .f32) (Rv57 M) (Rv48 M) :=
  binary_at_idx (a := main_v57) (b := main_v48) (y := main_v62) rising M 79 (by rfl)
theorem v63_eq : Rv63 M = (mulf : FVec Ideal S12000 .f32 → FVec Ideal S12000 .f32 → FVec Ideal S12000 .f32) (Rv61 M) (Rv62 M) :=
  binary_at_idx (a := main_v61) (b := main_v62) (y := main_v63) rising M 80 (by rfl)
theorem v64_eq : Rv64 M = (subf : FVec Ideal S12000 .f32 → FVec Ideal S12000 .f32 → FVec Ideal S12000 .f32) (Rv60 M) (Rv63 M) :=
  binary_at_idx (a := main_v60) (b := main_v63) (y := main_v64) rising M 81 (by rfl)
theorem v65_eq : Rv65 M = (subf : FVec Ideal S12000 .f32 → FVec Ideal S12000 .f32 → FVec Ideal S12000 .f32) (Rv48 M) (Rv57 M) :=
  binary_at_idx (a := main_v48) (b := main_v57) (y := main_v65) rising M 82 (by rfl)
theorem v66_eq : Rv66 M = (subf : FVec Ideal S12000 .f32 → FVec Ideal S12000 .f32 → FVec Ideal S12000 .f32) (Rv12 M) (Rv30 M) :=
  binary_at_idx (a := main_v12) (b := main_v30) (y := main_v66) rising M 83 (by rfl)
theorem v67_eq : Rv67 M = (mulf : FVec Ideal S12000 .f32 → FVec Ideal S12000 .f32 → FVec Ideal S12000 .f32) (Rv65 M) (Rv66 M) :=
  binary_at_idx (a := main_v65) (b := main_v66) (y := main_v67) rising M 84 (by rfl)
theorem v68_eq : Rv68 M = (subf : FVec Ideal S12000 .f32 → FVec Ideal S12000 .f32 → FVec Ideal S12000 .f32) (Rv21 M) (Rv30 M) :=
  binary_at_idx (a := main_v21) (b := main_v30) (y := main_v68) rising M 85 (by rfl)
theorem v69_eq : Rv69 M = (subf : FVec Ideal S12000 .f32 → FVec Ideal S12000 .f32 → FVec Ideal S12000 .f32) (Rv39 M) (Rv57 M) :=
  binary_at_idx (a := main_v39) (b := main_v57) (y := main_v69) rising M 86 (by rfl)
theorem v70_eq : Rv70 M = (mulf : FVec Ideal S12000 .f32 → FVec Ideal S12000 .f32 → FVec Ideal S12000 .f32) (Rv68 M) (Rv69 M) :=
  binary_at_idx (a := main_v68) (b := main_v69) (y := main_v70) rising M 87 (by rfl)
theorem v71_eq : Rv71 M = (subf : FVec Ideal S12000 .f32 → FVec Ideal S12000 .f32 → FVec Ideal S12000 .f32) (Rv67 M) (Rv70 M) :=
  binary_at_idx (a := main_v67) (b := main_v70) (y := main_v71) rising M 88 (by rfl)
theorem v72_eq : Rv72 M = (subf : FVec Ideal S12000 .f32 → FVec Ideal S12000 .f32 → FVec Ideal S12000 .f32) (Rv57 M) (Rv39 M) :=
  binary_at_idx (a := main_v57) (b := main_v39) (y := main_v72) rising M 89 (by rfl)
theorem v73_eq : Rv73 M = (subf : FVec Ideal S12000 .f32 → FVec Ideal S12000 .f32 → FVec Ideal S12000 .f32) (Rv21 M) (Rv12 M) :=
  binary_at_idx (a := main_v21) (b := main_v12) (y := main_v73) rising M 90 (by rfl)
theorem v74_eq : Rv74 M = (mulf : FVec Ideal S12000 .f32 → FVec Ideal S12000 .f32 → FVec Ideal S12000 .f32) (Rv72 M) (Rv73 M) :=
  binary_at_idx (a := main_v72) (b := main_v73) (y := main_v74) rising M 91 (by rfl)
theorem v75_eq : Rv75 M = (subf : FVec Ideal S12000 .f32 → FVec Ideal S12000 .f32 → FVec Ideal S12000 .f32) (Rv30 M) (Rv12 M) :=
  binary_at_idx (a := main_v30) (b := main_v12) (y := main_v75) rising M 92 (by rfl)
theorem v76_eq : Rv76 M = (subf : FVec Ideal S12000 .f32 → FVec Ideal S12000 .f32 → FVec Ideal S12000 .f32) (Rv48 M) (Rv39 M) :=
  binary_at_idx (a := main_v48) (b := main_v39) (y := main_v76) rising M 93 (by rfl)
theorem v77_eq : Rv77 M = (mulf : FVec Ideal S12000 .f32 → FVec Ideal S12000 .f32 → FVec Ideal S12000 .f32) (Rv75 M) (Rv76 M) :=
  binary_at_idx (a := main_v75) (b := main_v76) (y := main_v77) rising M 94 (by rfl)
theorem v78_eq : Rv78 M = (subf : FVec Ideal S12000 .f32 → FVec Ideal S12000 .f32 → FVec Ideal S12000 .f32) (Rv74 M) (Rv77 M) :=
  binary_at_idx (a := main_v74) (b := main_v77) (y := main_v78) rising M 95 (by rfl)
theorem v79_eq : Rv79 M = (subf : FVec Ideal S12000 .f32 → FVec Ideal S12000 .f32 → FVec Ideal S12000 .f32) (Rv57 M) (Rv48 M) :=
  binary_at_idx (a := main_v57) (b := main_v48) (y := main_v79) rising M 96 (by rfl)
theorem v80_eq : Rv80 M = (Host.negf : FVec Ideal S12000 .f32 → FVec Ideal S12000 .f32) (Rv79 M) :=
  unary_at_idx (x := main_v79) (y := main_v80) rising M 97 (by rfl)
theorem v81_eq : Rv81 M = (Host.divf : FVec Ideal S12000 .f32 → FVec Ideal S12000 .f32 → FVec Ideal S12000 .f32) (Rv80 M) (Rv64 M) :=
  binary_at_idx (a := main_v80) (b := main_v64) (y := main_v81) rising M 98 (by rfl)
theorem v82_eq : Rv82 M = (subf : FVec Ideal S12000 .f32 → FVec Ideal S12000 .f32 → FVec Ideal S12000 .f32) (Rv30 M) (Rv21 M) :=
  binary_at_idx (a := main_v30) (b := main_v21) (y := main_v82) rising M 99 (by rfl)
theorem v83_eq : Rv83 M = (Host.divf : FVec Ideal S12000 .f32 → FVec Ideal S12000 .f32 → FVec Ideal S12000 .f32) (Rv82 M) (Rv64 M) :=
  binary_at_idx (a := main_v82) (b := main_v64) (y := main_v83) rising M 100 (by rfl)
theorem v84_eq : Rv84 M = (subf : FVec Ideal S12000 .f32 → FVec Ideal S12000 .f32 → FVec Ideal S12000 .f32) (Rv39 M) (Rv57 M) :=
  binary_at_idx (a := main_v39) (b := main_v57) (y := main_v84) rising M 101 (by rfl)
theorem v85_eq : Rv85 M = (Host.negf : FVec Ideal S12000 .f32 → FVec Ideal S12000 .f32) (Rv84 M) :=
  unary_at_idx (x := main_v84) (y := main_v85) rising M 102 (by rfl)
theorem v86_eq : Rv86 M = (Host.divf : FVec Ideal S12000 .f32 → FVec Ideal S12000 .f32 → FVec Ideal S12000 .f32) (Rv85 M) (Rv71 M) :=
  binary_at_idx (a := main_v85) (b := main_v71) (y := main_v86) rising M 103 (by rfl)
theorem v87_eq : Rv87 M = (subf : FVec Ideal S12000 .f32 → FVec Ideal S12000 .f32 → FVec Ideal S12000 .f32) (Rv12 M) (Rv30 M) :=
  binary_at_idx (a := main_v12) (b := main_v30) (y := main_v87) rising M 104 (by rfl)
theorem v88_eq : Rv88 M = (Host.divf : FVec Ideal S12000 .f32 → FVec Ideal S12000 .f32 → FVec Ideal S12000 .f32) (Rv87 M) (Rv71 M) :=
  binary_at_idx (a := main_v87) (b := main_v71) (y := main_v88) rising M 105 (by rfl)
theorem v89_eq : Rv89 M = (subf : FVec Ideal S12000 .f32 → FVec Ideal S12000 .f32 → FVec Ideal S12000 .f32) (Rv48 M) (Rv39 M) :=
  binary_at_idx (a := main_v48) (b := main_v39) (y := main_v89) rising M 106 (by rfl)
theorem v90_eq : Rv90 M = (Host.negf : FVec Ideal S12000 .f32 → FVec Ideal S12000 .f32) (Rv89 M) :=
  unary_at_idx (x := main_v89) (y := main_v90) rising M 107 (by rfl)
theorem v91_eq : Rv91 M = (Host.divf : FVec Ideal S12000 .f32 → FVec Ideal S12000 .f32 → FVec Ideal S12000 .f32) (Rv90 M) (Rv78 M) :=
  binary_at_idx (a := main_v90) (b := main_v78) (y := main_v91) rising M 108 (by rfl)
theorem v92_eq : Rv92 M = (subf : FVec Ideal S12000 .f32 → FVec Ideal S12000 .f32 → FVec Ideal S12000 .f32) (Rv21 M) (Rv12 M) :=
  binary_at_idx (a := main_v21) (b := main_v12) (y := main_v92) rising M 109 (by rfl)
theorem v93_eq : Rv93 M = (Host.divf : FVec Ideal S12000 .f32 → FVec Ideal S12000 .f32 → FVec Ideal S12000 .f32) (Rv92 M) (Rv78 M) :=
  binary_at_idx (a := main_v92) (b := main_v78) (y := main_v93) rising M 110 (by rfl)
theorem v94_eq : Rv94 M = (subf : FVec Ideal S12000 .f32 → FVec Ideal S12000 .f32 → FVec Ideal S12000 .f32) (Rv21 M) (Rv12 M) :=
  binary_at_idx (a := main_v21) (b := main_v12) (y := main_v94) rising M 111 (by rfl)
theorem v95_eq : Rv95 M = (subf : FVec Ideal S12000 .f32 → FVec Ideal S12000 .f32 → FVec Ideal S12000 .f32) (Rv57 M) (Rv39 M) :=
  binary_at_idx (a := main_v57) (b := main_v39) (y := main_v95) rising M 112 (by rfl)
theorem v96_eq : Rv96 M = (mulf : FVec Ideal S12000 .f32 → FVec Ideal S12000 .f32 → FVec Ideal S12000 .f32) (Rv94 M) (Rv95 M) :=
  binary_at_idx (a := main_v94) (b := main_v95) (y := main_v96) rising M 113 (by rfl)
theorem v97_eq : Rv97 M = (subf : FVec Ideal S12000 .f32 → FVec Ideal S12000 .f32 → FVec Ideal S12000 .f32) (Rv30 M) (Rv12 M) :=
  binary_at_idx (a := main_v30) (b := main_v12) (y := main_v97) rising M 114 (by rfl)
theorem v98_eq : Rv98 M = (subf : FVec Ideal S12000 .f32 → FVec Ideal S12000 .f32 → FVec Ideal S12000 .f32) (Rv48 M) (Rv39 M) :=
  binary_at_idx (a := main_v48) (b := main_v39) (y := main_v98) rising M 115 (by rfl)
theorem v99_eq : Rv99 M = (mulf : FVec Ideal S12000 .f32 → FVec Ideal S12000 .f32 → FVec Ideal S12000 .f32) (Rv97 M) (Rv98 M) :=
  binary_at_idx (a := main_v97) (b := main_v98) (y := main_v99) rising M 116 (by rfl)
theorem v100_eq : Rv100 M = (subf : FVec Ideal S12000 .f32 → FVec Ideal S12000 .f32 → FVec Ideal S12000 .f32) (Rv96 M) (Rv99 M) :=
  binary_at_idx (a := main_v96) (b := main_v99) (y := main_v100) rising M 117 (by rfl)
theorem v101_eq : Rv101 M = (Host.absf : FVec Ideal S12000 .f32 → FVec Ideal S12000 .f32) (Rv100 M) :=
  unary_at_idx (x := main_v100) (y := main_v101) rising M 118 (by rfl)
theorem cst_15_eq : Rcst_15 M = (constant (F := Ideal) S_ .f32 0x3F000000#32) :=
  nullary_at_idx (y := main_cst_15) rising M 119 (by rfl)
theorem v102_eq : Rv102 M = (broadcastInDim S12000 ![] bcast_S_S12000 : FVec Ideal S_ .f32 → FVec Ideal S12000 .f32) (Rcst_15 M) :=
  unary_at_idx (x := main_cst_15) (y := main_v102) rising M 120 (by rfl)
theorem v103_eq : Rv103 M = (mulf : FVec Ideal S12000 .f32 → FVec Ideal S12000 .f32 → FVec Ideal S12000 .f32) (Rv102 M) (Rv101 M) :=
  binary_at_idx (a := main_v102) (b := main_v101) (y := main_v103) rising M 121 (by rfl)
theorem cst_16_eq : Rcst_16 M = (constant (F := Ideal) S_ .f32 0x00000000#32) :=
  nullary_at_idx (y := main_cst_16) rising M 122 (by rfl)
theorem v104_eq : Rv104 M = (broadcastInDim S12000 ![] bcast_S_S12000 : FVec Ideal S_ .f32 → FVec Ideal S12000 .f32) (Rcst_16 M) :=
  unary_at_idx (x := main_cst_16) (y := main_v104) rising M 123 (by rfl)
theorem v105_eq : Rv105 M = (broadcastInDim S12000x1 ![0] bcast_S12000_S12000x1_0 : FVec Ideal S12000 .f32 → FVec Ideal S12000x1 .f32) (Rv81 M) :=
  unary_at_idx (x := main_v81) (y := main_v105) rising M 124 (by rfl)
theorem v106_eq : Rv106 M = (broadcastInDim S12000x1 ![0] bcast_S12000_S12000x1_0 : FVec Ideal S12000 .f32 → FVec Ideal S12000x1 .f32) (Rv104 M) :=
  unary_at_idx (x := main_v104) (y := main_v106) rising M 125 (by rfl)
theorem v107_eq : Rv107 M = (broadcastInDim S12000x1 ![0] bcast_S12000_S12000x1_0 : FVec Ideal S12000 .f32 → FVec Ideal S12000x1 .f32) (Rv86 M) :=
  unary_at_idx (x := main_v86) (y := main_v107) rising M 126 (by rfl)
theorem v108_eq : Rv108 M = (broadcastInDim S12000x1 ![0] bcast_S12000_S12000x1_0 : FVec Ideal S12000 .f32 → FVec Ideal S12000x1 .f32) (Rv104 M) :=
  unary_at_idx (x := main_v104) (y := main_v108) rising M 127 (by rfl)
theorem v109_eq : Rv109 M = (broadcastInDim S12000x1 ![0] bcast_S12000_S12000x1_0 : FVec Ideal S12000 .f32 → FVec Ideal S12000x1 .f32) (Rv91 M) :=
  unary_at_idx (x := main_v91) (y := main_v109) rising M 128 (by rfl)
theorem v110_eq : Rv110 M = (broadcastInDim S12000x1 ![0] bcast_S12000_S12000x1_0 : FVec Ideal S12000 .f32 → FVec Ideal S12000x1 .f32) (Rv104 M) :=
  unary_at_idx (x := main_v104) (y := main_v110) rising M 129 (by rfl)
theorem v111_eq : Rv111 M = concatenate S12000x6 1 [⟨S12000x1, Rv105 M⟩, ⟨S12000x1, Rv106 M⟩, ⟨S12000x1, Rv107 M⟩, ⟨S12000x1, Rv108 M⟩, ⟨S12000x1, Rv109 M⟩, ⟨S12000x1, Rv110 M⟩] concatenates_S12000x1_S12000x1_S12000x1_S12000x1_S12000x1_S12000x1_S12000x6_d1 :=
  nary_at_idx rising M 130 (y := main_v111) (by rfl)
theorem v112_eq : Rv112 M = (broadcastInDim S12000x1 ![0] bcast_S12000_S12000x1_0 : FVec Ideal S12000 .f32 → FVec Ideal S12000x1 .f32) (Rv104 M) :=
  unary_at_idx (x := main_v104) (y := main_v112) rising M 131 (by rfl)
theorem v113_eq : Rv113 M = (broadcastInDim S12000x1 ![0] bcast_S12000_S12000x1_0 : FVec Ideal S12000 .f32 → FVec Ideal S12000x1 .f32) (Rv83 M) :=
  unary_at_idx (x := main_v83) (y := main_v113) rising M 132 (by rfl)
theorem v114_eq : Rv114 M = (broadcastInDim S12000x1 ![0] bcast_S12000_S12000x1_0 : FVec Ideal S12000 .f32 → FVec Ideal S12000x1 .f32) (Rv104 M) :=
  unary_at_idx (x := main_v104) (y := main_v114) rising M 133 (by rfl)
theorem v115_eq : Rv115 M = (broadcastInDim S12000x1 ![0] bcast_S12000_S12000x1_0 : FVec Ideal S12000 .f32 → FVec Ideal S12000x1 .f32) (Rv88 M) :=
  unary_at_idx (x := main_v88) (y := main_v115) rising M 134 (by rfl)
theorem v116_eq : Rv116 M = (broadcastInDim S12000x1 ![0] bcast_S12000_S12000x1_0 : FVec Ideal S12000 .f32 → FVec Ideal S12000x1 .f32) (Rv104 M) :=
  unary_at_idx (x := main_v104) (y := main_v116) rising M 135 (by rfl)
theorem v117_eq : Rv117 M = (broadcastInDim S12000x1 ![0] bcast_S12000_S12000x1_0 : FVec Ideal S12000 .f32 → FVec Ideal S12000x1 .f32) (Rv93 M) :=
  unary_at_idx (x := main_v93) (y := main_v117) rising M 136 (by rfl)
theorem v118_eq : Rv118 M = concatenate S12000x6 1 [⟨S12000x1, Rv112 M⟩, ⟨S12000x1, Rv113 M⟩, ⟨S12000x1, Rv114 M⟩, ⟨S12000x1, Rv115 M⟩, ⟨S12000x1, Rv116 M⟩, ⟨S12000x1, Rv117 M⟩] concatenates_S12000x1_S12000x1_S12000x1_S12000x1_S12000x1_S12000x1_S12000x6_d1 :=
  nary_at_idx rising M 137 (y := main_v118) (by rfl)
theorem v119_eq : Rv119 M = (broadcastInDim S12000x1 ![0] bcast_S12000_S12000x1_0 : FVec Ideal S12000 .f32 → FVec Ideal S12000x1 .f32) (Rv83 M) :=
  unary_at_idx (x := main_v83) (y := main_v119) rising M 138 (by rfl)
theorem v120_eq : Rv120 M = (broadcastInDim S12000x1 ![0] bcast_S12000_S12000x1_0 : FVec Ideal S12000 .f32 → FVec Ideal S12000x1 .f32) (Rv81 M) :=
  unary_at_idx (x := main_v81) (y := main_v120) rising M 139 (by rfl)
theorem v121_eq : Rv121 M = (broadcastInDim S12000x1 ![0] bcast_S12000_S12000x1_0 : FVec Ideal S12000 .f32 → FVec Ideal S12000x1 .f32) (Rv88 M) :=
  unary_at_idx (x := main_v88) (y := main_v121) rising M 140 (by rfl)
theorem v122_eq : Rv122 M = (broadcastInDim S12000x1 ![0] bcast_S12000_S12000x1_0 : FVec Ideal S12000 .f32 → FVec Ideal S12000x1 .f32) (Rv86 M) :=
  unary_at_idx (x := main_v86) (y := main_v122) rising M 141 (by rfl)
theorem v123_eq : Rv123 M = (broadcastInDim S12000x1 ![0] bcast_S12000_S12000x1_0 : FVec Ideal S12000 .f32 → FVec Ideal S12000x1 .f32) (Rv93 M) :=
  unary_at_idx (x := main_v93) (y := main_v123) rising M 142 (by rfl)
theorem v124_eq : Rv124 M = (broadcastInDim S12000x1 ![0] bcast_S12000_S12000x1_0 : FVec Ideal S12000 .f32 → FVec Ideal S12000x1 .f32) (Rv91 M) :=
  unary_at_idx (x := main_v91) (y := main_v124) rising M 143 (by rfl)
theorem v125_eq : Rv125 M = concatenate S12000x6 1 [⟨S12000x1, Rv119 M⟩, ⟨S12000x1, Rv120 M⟩, ⟨S12000x1, Rv121 M⟩, ⟨S12000x1, Rv122 M⟩, ⟨S12000x1, Rv123 M⟩, ⟨S12000x1, Rv124 M⟩] concatenates_S12000x1_S12000x1_S12000x1_S12000x1_S12000x1_S12000x1_S12000x6_d1 :=
  nary_at_idx rising M 144 (y := main_v125) (by rfl)
theorem v126_eq : Rv126 M = (broadcastInDim S12000x1x6 ![0, 2] bcast_S12000x6_S12000x1x6_0_2 : FVec Ideal S12000x6 .f32 → FVec Ideal S12000x1x6 .f32) (Rv111 M) :=
  unary_at_idx (x := main_v111) (y := main_v126) rising M 145 (by rfl)
theorem v127_eq : Rv127 M = (broadcastInDim S12000x1x6 ![0, 2] bcast_S12000x6_S12000x1x6_0_2 : FVec Ideal S12000x6 .f32 → FVec Ideal S12000x1x6 .f32) (Rv118 M) :=
  unary_at_idx (x := main_v118) (y := main_v127) rising M 146 (by rfl)
theorem v128_eq : Rv128 M = (broadcastInDim S12000x1x6 ![0, 2] bcast_S12000x6_S12000x1x6_0_2 : FVec Ideal S12000x6 .f32 → FVec Ideal S12000x1x6 .f32) (Rv125 M) :=
  unary_at_idx (x := main_v125) (y := main_v128) rising M 147 (by rfl)
theorem v129_eq : Rv129 M = concatenate S12000x3x6 1 [⟨S12000x1x6, Rv126 M⟩, ⟨S12000x1x6, Rv127 M⟩, ⟨S12000x1x6, Rv128 M⟩] concatenates_S12000x1x6_S12000x1x6_S12000x1x6_S12000x3x6_d1 :=
  nary_at_idx rising M 148 (y := main_v129) (by rfl)
theorem v130_eq : Rv130 M = (broadcastInDim S12000x1x1 ![0] bcast_S12000_S12000x1x1_0 : FVec Ideal S12000 .f32 → FVec Ideal S12000x1x1 .f32) (Rarg3 M) :=
  unary_at_idx (x := main_arg3) (y := main_v130) rising M 149 (by rfl)
theorem cst_17_eq : Rcst_17 M = (constant (F := Ideal) S_ .f32 0x3F000000#32) :=
  nullary_at_idx (y := main_cst_17) rising M 150 (by rfl)
theorem v131_eq : Rv131 M = (broadcastInDim S12000x1x1 ![] bcast_S_S12000x1x1 : FVec Ideal S_ .f32 → FVec Ideal S12000x1x1 .f32) (Rcst_17 M) :=
  unary_at_idx (x := main_cst_17) (y := main_v131) rising M 151 (by rfl)
theorem v132_eq : Rv132 M = (cmpf .ogt : FVec Ideal S12000x1x1 .f32 → FVec Ideal S12000x1x1 .f32 → IVec S12000x1x1 1) (Rv130 M) (Rv131 M) :=
  binary_at_idx (a := main_v130) (b := main_v131) (y := main_v132) rising M 152 (by rfl)
theorem call0_v0_eq : Rcall0_v0 M = (broadcastInDim S12000x3x3 ![0, 1, 2] bcast_S12000x1x1_S12000x3x3_0_1_2 : IVec S12000x1x1 1 → IVec S12000x3x3 1) (Rv132 M) :=
  unary_at_idx (x := main_v132) (y := main_call0_v0) rising M 153 (by rfl)
theorem call0_v1_eq : Rcall0_v1 M = (broadcastInDim S12000x3x3 ![1, 2] bcast_S3x3_S12000x3x3_1_2 : FVec Ideal S3x3 .f32 → FVec Ideal S12000x3x3 .f32) (Rv3 M) :=
  unary_at_idx (x := main_v3) (y := main_call0_v1) rising M 154 (by rfl)
theorem call0_v2_eq : Rcall0_v2 M = (broadcastInDim S12000x3x3 ![1, 2] bcast_S3x3_S12000x3x3_1_2 : FVec Ideal S3x3 .f32 → FVec Ideal S12000x3x3 .f32) (Rv1 M) :=
  unary_at_idx (x := main_v1) (y := main_call0_v2) rising M 155 (by rfl)
theorem v133_eq : Rv133 M = (select : IVec S12000x3x3 1 → FVec Ideal S12000x3x3 .f32 → FVec Ideal S12000x3x3 .f32 → FVec Ideal S12000x3x3 .f32) (Rcall0_v0 M) (Rcall0_v1 M) (Rcall0_v2 M) :=
  ternary_at_idx (c := main_call0_v0) (a := main_call0_v1) (b := main_call0_v2) (y := main_v133) rising M 156 (by rfl)
theorem v134_eq : Rv134 M = ((fun l r => Host.dotGeneral dot_S12000x3x3_S12000x3x6_S12000x3x6_1_1_2_2_0_0 none l r) : FVec Ideal S12000x3x3 .f32 → FVec Ideal S12000x3x6 .f32 → FVec Ideal S12000x3x6 .f32) (Rv133 M) (Rv129 M) :=
  binary_at_idx (a := main_v133) (b := main_v129) (y := main_v134) rising M 157 (by rfl)
theorem v135_eq : Rv135 M = ((fun l r => Host.dotGeneral dot_S12000x3x6_S12000x3x6_S12000x6x6_1_1_2_2_0_0 none l r) : FVec Ideal S12000x3x6 .f32 → FVec Ideal S12000x3x6 .f32 → FVec Ideal S12000x6x6 .f32) (Rv134 M) (Rv129 M) :=
  binary_at_idx (a := main_v134) (b := main_v129) (y := main_v135) rising M 158 (by rfl)
theorem v136_eq : Rv136 M = (broadcastInDim S12000x1x1 ![0] bcast_S12000_S12000x1x1_0 : FVec Ideal S12000 .f32 → FVec Ideal S12000x1x1 .f32) (Rv103 M) :=
  unary_at_idx (x := main_v103) (y := main_v136) rising M 159 (by rfl)
theorem v137_eq : Rv137 M = (broadcastInDim S12000x6x6 ![0, 1, 2] bcast_S12000x1x1_S12000x6x6_0_1_2 : FVec Ideal S12000x1x1 .f32 → FVec Ideal S12000x6x6 .f32) (Rv136 M) :=
  unary_at_idx (x := main_v136) (y := main_v137) rising M 160 (by rfl)
theorem v138_eq : Rv138 M = (mulf : FVec Ideal S12000x6x6 .f32 → FVec Ideal S12000x6x6 .f32 → FVec Ideal S12000x6x6 .f32) (Rv135 M) (Rv137 M) :=
  binary_at_idx (a := main_v135) (b := main_v137) (y := main_v138) rising M 161 (by rfl)

/-! ## The pointwise operations on the per-element vectors, read at an element -/

theorem v58_pt (e : Fin 12000) : Rv58 M (ix1 e) = Rv39 M (ix1 e) - Rv48 M (ix1 e) := congrFun (v58_eq M) (ix1 e)
theorem v59_pt (e : Fin 12000) : Rv59 M (ix1 e) = Rv30 M (ix1 e) - Rv21 M (ix1 e) := congrFun (v59_eq M) (ix1 e)
theorem v60_pt (e : Fin 12000) : Rv60 M (ix1 e) = Rv58 M (ix1 e) * Rv59 M (ix1 e) := congrFun (v60_eq M) (ix1 e)
theorem v61_pt (e : Fin 12000) : Rv61 M (ix1 e) = Rv12 M (ix1 e) - Rv21 M (ix1 e) := congrFun (v61_eq M) (ix1 e)
theorem v62_pt (e : Fin 12000) : Rv62 M (ix1 e) = Rv57 M (ix1 e) - Rv48 M (ix1 e) := congrFun (v62_eq M) (ix1 e)
theorem v63_pt (e : Fin 12000) : Rv63 M (ix1 e) = Rv61 M (ix1 e) * Rv62 M (ix1 e) := congrFun (v63_eq M) (ix1 e)
theorem v64_pt (e : Fin 12000) : Rv64 M (ix1 e) = Rv60 M (ix1 e) - Rv63 M (ix1 e) := congrFun (v64_eq M) (ix1 e)
theorem v65_pt (e : Fin 12000) : Rv65 M (ix1 e) = Rv48 M (ix1 e) - Rv57 M (ix1 e) := congrFun (v65_eq M) (ix1 e)
theorem v66_pt (e : Fin 12000) : Rv66 M (ix1 e) = Rv12 M (ix1 e) - Rv30 M (ix1 e) := congrFun (v66_eq M) (ix1 e)
theorem v67_pt (e : Fin 12000) : Rv67 M (ix1 e) = Rv65 M (ix1 e) * Rv66 M (ix1 e) := congrFun (v67_eq M) (ix1 e)
theorem v68_pt (e : Fin 12000) : Rv68 M (ix1 e) = Rv21 M (ix1 e) - Rv30 M (ix1 e) := congrFun (v68_eq M) (ix1 e)
theorem v69_pt (e : Fin 12000) : Rv69 M (ix1 e) = Rv39 M (ix1 e) - Rv57 M (ix1 e) := congrFun (v69_eq M) (ix1 e)
theorem v70_pt (e : Fin 12000) : Rv70 M (ix1 e) = Rv68 M (ix1 e) * Rv69 M (ix1 e) := congrFun (v70_eq M) (ix1 e)
theorem v71_pt (e : Fin 12000) : Rv71 M (ix1 e) = Rv67 M (ix1 e) - Rv70 M (ix1 e) := congrFun (v71_eq M) (ix1 e)
theorem v72_pt (e : Fin 12000) : Rv72 M (ix1 e) = Rv57 M (ix1 e) - Rv39 M (ix1 e) := congrFun (v72_eq M) (ix1 e)
theorem v73_pt (e : Fin 12000) : Rv73 M (ix1 e) = Rv21 M (ix1 e) - Rv12 M (ix1 e) := congrFun (v73_eq M) (ix1 e)
theorem v74_pt (e : Fin 12000) : Rv74 M (ix1 e) = Rv72 M (ix1 e) * Rv73 M (ix1 e) := congrFun (v74_eq M) (ix1 e)
theorem v75_pt (e : Fin 12000) : Rv75 M (ix1 e) = Rv30 M (ix1 e) - Rv12 M (ix1 e) := congrFun (v75_eq M) (ix1 e)
theorem v76_pt (e : Fin 12000) : Rv76 M (ix1 e) = Rv48 M (ix1 e) - Rv39 M (ix1 e) := congrFun (v76_eq M) (ix1 e)
theorem v77_pt (e : Fin 12000) : Rv77 M (ix1 e) = Rv75 M (ix1 e) * Rv76 M (ix1 e) := congrFun (v77_eq M) (ix1 e)
theorem v78_pt (e : Fin 12000) : Rv78 M (ix1 e) = Rv74 M (ix1 e) - Rv77 M (ix1 e) := congrFun (v78_eq M) (ix1 e)
theorem v79_pt (e : Fin 12000) : Rv79 M (ix1 e) = Rv57 M (ix1 e) - Rv48 M (ix1 e) := congrFun (v79_eq M) (ix1 e)
theorem v80_pt (e : Fin 12000) : Rv80 M (ix1 e) = -Rv79 M (ix1 e) := congrFun (v80_eq M) (ix1 e)
theorem v81_pt (e : Fin 12000) : Rv81 M (ix1 e) = Ideal.div (Rv80 M (ix1 e)) (Rv64 M (ix1 e)) := congrFun (v81_eq M) (ix1 e)
theorem v82_pt (e : Fin 12000) : Rv82 M (ix1 e) = Rv30 M (ix1 e) - Rv21 M (ix1 e) := congrFun (v82_eq M) (ix1 e)
theorem v83_pt (e : Fin 12000) : Rv83 M (ix1 e) = Ideal.div (Rv82 M (ix1 e)) (Rv64 M (ix1 e)) := congrFun (v83_eq M) (ix1 e)
theorem v84_pt (e : Fin 12000) : Rv84 M (ix1 e) = Rv39 M (ix1 e) - Rv57 M (ix1 e) := congrFun (v84_eq M) (ix1 e)
theorem v85_pt (e : Fin 12000) : Rv85 M (ix1 e) = -Rv84 M (ix1 e) := congrFun (v85_eq M) (ix1 e)
theorem v86_pt (e : Fin 12000) : Rv86 M (ix1 e) = Ideal.div (Rv85 M (ix1 e)) (Rv71 M (ix1 e)) := congrFun (v86_eq M) (ix1 e)
theorem v87_pt (e : Fin 12000) : Rv87 M (ix1 e) = Rv12 M (ix1 e) - Rv30 M (ix1 e) := congrFun (v87_eq M) (ix1 e)
theorem v88_pt (e : Fin 12000) : Rv88 M (ix1 e) = Ideal.div (Rv87 M (ix1 e)) (Rv71 M (ix1 e)) := congrFun (v88_eq M) (ix1 e)
theorem v89_pt (e : Fin 12000) : Rv89 M (ix1 e) = Rv48 M (ix1 e) - Rv39 M (ix1 e) := congrFun (v89_eq M) (ix1 e)
theorem v90_pt (e : Fin 12000) : Rv90 M (ix1 e) = -Rv89 M (ix1 e) := congrFun (v90_eq M) (ix1 e)
theorem v91_pt (e : Fin 12000) : Rv91 M (ix1 e) = Ideal.div (Rv90 M (ix1 e)) (Rv78 M (ix1 e)) := congrFun (v91_eq M) (ix1 e)
theorem v92_pt (e : Fin 12000) : Rv92 M (ix1 e) = Rv21 M (ix1 e) - Rv12 M (ix1 e) := congrFun (v92_eq M) (ix1 e)
theorem v93_pt (e : Fin 12000) : Rv93 M (ix1 e) = Ideal.div (Rv92 M (ix1 e)) (Rv78 M (ix1 e)) := congrFun (v93_eq M) (ix1 e)
theorem v94_pt (e : Fin 12000) : Rv94 M (ix1 e) = Rv21 M (ix1 e) - Rv12 M (ix1 e) := congrFun (v94_eq M) (ix1 e)
theorem v95_pt (e : Fin 12000) : Rv95 M (ix1 e) = Rv57 M (ix1 e) - Rv39 M (ix1 e) := congrFun (v95_eq M) (ix1 e)
theorem v96_pt (e : Fin 12000) : Rv96 M (ix1 e) = Rv94 M (ix1 e) * Rv95 M (ix1 e) := congrFun (v96_eq M) (ix1 e)
theorem v97_pt (e : Fin 12000) : Rv97 M (ix1 e) = Rv30 M (ix1 e) - Rv12 M (ix1 e) := congrFun (v97_eq M) (ix1 e)
theorem v98_pt (e : Fin 12000) : Rv98 M (ix1 e) = Rv48 M (ix1 e) - Rv39 M (ix1 e) := congrFun (v98_eq M) (ix1 e)
theorem v99_pt (e : Fin 12000) : Rv99 M (ix1 e) = Rv97 M (ix1 e) * Rv98 M (ix1 e) := congrFun (v99_eq M) (ix1 e)
theorem v100_pt (e : Fin 12000) : Rv100 M (ix1 e) = Rv96 M (ix1 e) - Rv99 M (ix1 e) := congrFun (v100_eq M) (ix1 e)
theorem v101_pt (e : Fin 12000) : Rv101 M (ix1 e) = max (Rv100 M (ix1 e)) (-Rv100 M (ix1 e)) := congrFun (v101_eq M) (ix1 e)
theorem v103_pt (e : Fin 12000) : Rv103 M (ix1 e) = Rv102 M (ix1 e) * Rv101 M (ix1 e) := congrFun (v103_eq M) (ix1 e)

/-! ## The scalar quantities of one element -/

/-- The six vertex coordinates of element `e`, as the reference gathers them, and its material flag. -/
abbrev xa (e : Fin 12000) : EReal := Rv12 M (ix1 e)
abbrev xb (e : Fin 12000) : EReal := Rv21 M (ix1 e)
abbrev xc (e : Fin 12000) : EReal := Rv30 M (ix1 e)
abbrev ya (e : Fin 12000) : EReal := Rv39 M (ix1 e)
abbrev yb (e : Fin 12000) : EReal := Rv48 M (ix1 e)
abbrev yc (e : Fin 12000) : EReal := Rv57 M (ix1 e)
abbrev mat (e : Fin 12000) : EReal := Rarg3 M (ix1 e)
/-- The binary32 word of one half. -/
abbrev half : EReal := Ideal.ofBits .f32 0x3F000000#32

open Cert.ElemStiff

theorem v64_apply (e : Fin 12000) : Rv64 M (ix1 e) = denA (xa M e) (xb M e) (xc M e) (ya M e) (yb M e) (yc M e) := by
  rw [v64_pt, v60_pt, v58_pt, v59_pt, v63_pt, v61_pt, v62_pt]; rfl
theorem v71_apply (e : Fin 12000) : Rv71 M (ix1 e) = denB (xa M e) (xb M e) (xc M e) (ya M e) (yb M e) (yc M e) := by
  rw [v71_pt, v67_pt, v65_pt, v66_pt, v70_pt, v68_pt, v69_pt]; rfl
theorem v78_apply (e : Fin 12000) : Rv78 M (ix1 e) = denC (xa M e) (xb M e) (xc M e) (ya M e) (yb M e) (yc M e) := by
  rw [v78_pt, v74_pt, v72_pt, v73_pt, v77_pt, v75_pt, v76_pt]; rfl
theorem v100_apply (e : Fin 12000) : Rv100 M (ix1 e) = detQ (xa M e) (xb M e) (xc M e) (ya M e) (yb M e) (yc M e) := by
  rw [v100_pt, v96_pt, v94_pt, v95_pt, v99_pt, v97_pt, v98_pt]; rfl

/-- The six gradient components. -/
theorem v81_apply (e : Fin 12000) : Rv81 M (ix1 e)
    = Ideal.div (-(yc M e - yb M e)) (denA (xa M e) (xb M e) (xc M e) (ya M e) (yb M e) (yc M e)) := by
  rw [v81_pt, v80_pt, v79_pt, v64_apply]
theorem v83_apply (e : Fin 12000) : Rv83 M (ix1 e)
    = Ideal.div (xc M e - xb M e) (denA (xa M e) (xb M e) (xc M e) (ya M e) (yb M e) (yc M e)) := by
  rw [v83_pt, v82_pt, v64_apply]
theorem v86_apply (e : Fin 12000) : Rv86 M (ix1 e)
    = Ideal.div (-(ya M e - yc M e)) (denB (xa M e) (xb M e) (xc M e) (ya M e) (yb M e) (yc M e)) := by
  rw [v86_pt, v85_pt, v84_pt, v71_apply]
theorem v88_apply (e : Fin 12000) : Rv88 M (ix1 e)
    = Ideal.div (xa M e - xc M e) (denB (xa M e) (xb M e) (xc M e) (ya M e) (yb M e) (yc M e)) := by
  rw [v88_pt, v87_pt, v71_apply]
theorem v91_apply (e : Fin 12000) : Rv91 M (ix1 e)
    = Ideal.div (-(yb M e - ya M e)) (denC (xa M e) (xb M e) (xc M e) (ya M e) (yb M e) (yc M e)) := by
  rw [v91_pt, v90_pt, v89_pt, v78_apply]
theorem v93_apply (e : Fin 12000) : Rv93 M (ix1 e)
    = Ideal.div (xb M e - xa M e) (denC (xa M e) (xb M e) (xc M e) (ya M e) (yb M e) (yc M e)) := by
  rw [v93_pt, v92_pt, v78_apply]

/-- A scalar constant spread over the elements. -/
theorem v102_apply (e : Fin 12000) : Rv102 M (ix1 e) = half := by
  rw [v102_eq, broadcastInDim_scalar_apply, cst_15_eq]; rfl
theorem v104_apply (e : Fin 12000) : Rv104 M (ix1 e) = 0 := by
  rw [v104_eq, broadcastInDim_scalar_apply, cst_16_eq]; exact Ideal.ofBits_zero_f32

/-- Half the absolute determinant. -/
theorem v103_apply (e : Fin 12000) : Rv103 M (ix1 e)
    = area (xa M e) (xb M e) (xc M e) (ya M e) (yb M e) (yc M e) half := by
  rw [v103_pt, v102_apply, v101_pt, v100_apply]; rfl

/-! ## The strain matrix -/

theorem v105_apply (e : Fin 12000) (z : Fin 1) : Rv105 M (ix2 e z) = Rv81 M (ix1 e) := by
  rw [v105_eq]; exact bcast_col_apply _ _ e z
theorem v106_apply (e : Fin 12000) (z : Fin 1) : Rv106 M (ix2 e z) = Rv104 M (ix1 e) := by
  rw [v106_eq]; exact bcast_col_apply _ _ e z
theorem v107_apply (e : Fin 12000) (z : Fin 1) : Rv107 M (ix2 e z) = Rv86 M (ix1 e) := by
  rw [v107_eq]; exact bcast_col_apply _ _ e z
theorem v108_apply (e : Fin 12000) (z : Fin 1) : Rv108 M (ix2 e z) = Rv104 M (ix1 e) := by
  rw [v108_eq]; exact bcast_col_apply _ _ e z
theorem v109_apply (e : Fin 12000) (z : Fin 1) : Rv109 M (ix2 e z) = Rv91 M (ix1 e) := by
  rw [v109_eq]; exact bcast_col_apply _ _ e z
theorem v110_apply (e : Fin 12000) (z : Fin 1) : Rv110 M (ix2 e z) = Rv104 M (ix1 e) := by
  rw [v110_eq]; exact bcast_col_apply _ _ e z
theorem v112_apply (e : Fin 12000) (z : Fin 1) : Rv112 M (ix2 e z) = Rv104 M (ix1 e) := by
  rw [v112_eq]; exact bcast_col_apply _ _ e z
theorem v113_apply (e : Fin 12000) (z : Fin 1) : Rv113 M (ix2 e z) = Rv83 M (ix1 e) := by
  rw [v113_eq]; exact bcast_col_apply _ _ e z
theorem v114_apply (e : Fin 12000) (z : Fin 1) : Rv114 M (ix2 e z) = Rv104 M (ix1 e) := by
  rw [v114_eq]; exact bcast_col_apply _ _ e z
theorem v115_apply (e : Fin 12000) (z : Fin 1) : Rv115 M (ix2 e z) = Rv88 M (ix1 e) := by
  rw [v115_eq]; exact bcast_col_apply _ _ e z
theorem v116_apply (e : Fin 12000) (z : Fin 1) : Rv116 M (ix2 e z) = Rv104 M (ix1 e) := by
  rw [v116_eq]; exact bcast_col_apply _ _ e z
theorem v117_apply (e : Fin 12000) (z : Fin 1) : Rv117 M (ix2 e z) = Rv93 M (ix1 e) := by
  rw [v117_eq]; exact bcast_col_apply _ _ e z
theorem v119_apply (e : Fin 12000) (z : Fin 1) : Rv119 M (ix2 e z) = Rv83 M (ix1 e) := by
  rw [v119_eq]; exact bcast_col_apply _ _ e z
theorem v120_apply (e : Fin 12000) (z : Fin 1) : Rv120 M (ix2 e z) = Rv81 M (ix1 e) := by
  rw [v120_eq]; exact bcast_col_apply _ _ e z
theorem v121_apply (e : Fin 12000) (z : Fin 1) : Rv121 M (ix2 e z) = Rv88 M (ix1 e) := by
  rw [v121_eq]; exact bcast_col_apply _ _ e z
theorem v122_apply (e : Fin 12000) (z : Fin 1) : Rv122 M (ix2 e z) = Rv86 M (ix1 e) := by
  rw [v122_eq]; exact bcast_col_apply _ _ e z
theorem v123_apply (e : Fin 12000) (z : Fin 1) : Rv123 M (ix2 e z) = Rv93 M (ix1 e) := by
  rw [v123_eq]; exact bcast_col_apply _ _ e z
theorem v124_apply (e : Fin 12000) (z : Fin 1) : Rv124 M (ix2 e z) = Rv91 M (ix1 e) := by
  rw [v124_eq]; exact bcast_col_apply _ _ e z
theorem v111_apply (e : Fin 12000) (c : Fin 6) : Rv111 M (ix2 e c) = refB (xa M e) (xb M e) (xc M e) (ya M e) (yb M e) (yc M e) 0 c := by
  rw [v111_eq, cat6_apply]
  fin_cases c
  · show Rv105 M (ix2 e 0) = _
    rw [v105_apply, v81_apply]; rfl
  · show Rv106 M (ix2 e 0) = _
    rw [v106_apply, v104_apply]; rfl
  · show Rv107 M (ix2 e 0) = _
    rw [v107_apply, v86_apply]; rfl
  · show Rv108 M (ix2 e 0) = _
    rw [v108_apply, v104_apply]; rfl
  · show Rv109 M (ix2 e 0) = _
    rw [v109_apply, v91_apply]; rfl
  · show Rv110 M (ix2 e 0) = _
    rw [v110_apply, v104_apply]; rfl
theorem v118_apply (e : Fin 12000) (c : Fin 6) : Rv118 M (ix2 e c) = refB (xa M e) (xb M e) (xc M e) (ya M e) (yb M e) (yc M e) 1 c := by
  rw [v118_eq, cat6_apply]
  fin_cases c
  · show Rv112 M (ix2 e 0) = _
    rw [v112_apply, v104_apply]; rfl
  · show Rv113 M (ix2 e 0) = _
    rw [v113_apply, v83_apply]; rfl
  · show Rv114 M (ix2 e 0) = _
    rw [v114_apply, v104_apply]; rfl
  · show Rv115 M (ix2 e 0) = _
    rw [v115_apply, v88_apply]; rfl
  · show Rv116 M (ix2 e 0) = _
    rw [v116_apply, v104_apply]; rfl
  · show Rv117 M (ix2 e 0) = _
    rw [v117_apply, v93_apply]; rfl
theorem v125_apply (e : Fin 12000) (c : Fin 6) : Rv125 M (ix2 e c) = refB (xa M e) (xb M e) (xc M e) (ya M e) (yb M e) (yc M e) 2 c := by
  rw [v125_eq, cat6_apply]
  fin_cases c
  · show Rv119 M (ix2 e 0) = _
    rw [v119_apply, v83_apply]; rfl
  · show Rv120 M (ix2 e 0) = _
    rw [v120_apply, v81_apply]; rfl
  · show Rv121 M (ix2 e 0) = _
    rw [v121_apply, v88_apply]; rfl
  · show Rv122 M (ix2 e 0) = _
    rw [v122_apply, v86_apply]; rfl
  · show Rv123 M (ix2 e 0) = _
    rw [v123_apply, v93_apply]; rfl
  · show Rv124 M (ix2 e 0) = _
    rw [v124_apply, v91_apply]; rfl
theorem v126_apply (e : Fin 12000) (z : Fin 1) (a : Fin 6) : Rv126 M (ix3 e z a) = Rv111 M (ix2 e a) := by
  rw [v126_eq]; exact bcast_mid_apply _ _ e z a
theorem v127_apply (e : Fin 12000) (z : Fin 1) (a : Fin 6) : Rv127 M (ix3 e z a) = Rv118 M (ix2 e a) := by
  rw [v127_eq]; exact bcast_mid_apply _ _ e z a
theorem v128_apply (e : Fin 12000) (z : Fin 1) (a : Fin 6) : Rv128 M (ix3 e z a) = Rv125 M (ix2 e a) := by
  rw [v128_eq]; exact bcast_mid_apply _ _ e z a
/-- The strain matrix of element `e`. -/
theorem v129_apply (e : Fin 12000) (k : Fin 3) (a : Fin 6) : Rv129 M (ix3 e k a) = refB (xa M e) (xb M e) (xc M e) (ya M e) (yb M e) (yc M e) k a := by
  rw [v129_eq, cat3_apply]
  fin_cases k
  · show Rv126 M (ix3 e 0 a) = _
    rw [v126_apply, v111_apply]; rfl
  · show Rv127 M (ix3 e 0 a) = _
    rw [v127_apply, v118_apply]; rfl
  · show Rv128 M (ix3 e 0 a) = _
    rw [v128_apply, v125_apply]; rfl

/-! ## The plane-stress matrix of the element's material -/

/-- The two materials' tables, scaled. -/
theorem v1_apply (k l : Fin 3) : Rv1 M (ix2 k l) = Ideal.ofBits .f32 0x43C04EC5#32 * Ideal.ofBits .f32 (lit0 (S3x3.rowMajor (ix2 k l))) := by
  rw [v1_eq, mulf_apply, v0_eq, broadcastInDim_scalar_apply, cst_1_eq, cst_eq]; rfl
theorem v3_apply (k l : Fin 3) : Rv3 M (ix2 k l) = Ideal.ofBits .f32 0x4318965D#32 * Ideal.ofBits .f32 (lit1 (S3x3.rowMajor (ix2 k l))) := by
  rw [v3_eq, mulf_apply, v2_eq, broadcastInDim_scalar_apply, cst_2_eq, cst_0_eq]; rfl

/-- The material test of element `e`. -/
theorem v132_apply (e : Fin 12000) : Rv132 M (ix3 e 0 0) = Ideal.cmp .ogt (mat M e) half := by
  rw [v132_eq, cmpf_apply, v130_eq, bcast_e11_apply, v131_eq, broadcastInDim_scalar_apply, cst_17_eq]; rfl

theorem v133_apply' (e : Fin 12000) (k l : Fin 3) : Rv133 M (ix3 e k l)
    = Scalar.select (Ideal.cmp .ogt (mat M e) half)
        (Ideal.ofBits .f32 0x4318965D#32 * Ideal.ofBits .f32 (lit1 (S3x3.rowMajor (ix2 k l))))
        (Ideal.ofBits .f32 0x43C04EC5#32 * Ideal.ofBits .f32 (lit0 (S3x3.rowMajor (ix2 k l)))) := by
  rw [v133_eq, select_apply, call0_v0_eq, bcast_e33_apply, v132_apply, call0_v1_eq, bcast_t33_apply, v3_apply,
    call0_v2_eq, bcast_t33_apply, v1_apply]

/-- The element's plane-stress matrix: each entry the aluminium or the steel product by the material test. -/
abbrev Dsel (e : Fin 12000) : Fin 3 → Fin 3 → EReal :=
  Dmat (selD (mat M e) half ((112406956574275 / 1099511627776 : ℝ) : EReal) ((148011179044927 / 549755813888 : ℝ) : EReal))
    (selD (mat M e) half ((110729242446295 / 2199023255552 : ℝ) : EReal) ((63433366048705 / 549755813888 : ℝ) : EReal))
    (selD (mat M e) half ((114084670702255 / 4398046511104 : ℝ) : EReal) ((169155638595521 / 2199023255552 : ℝ) : EReal))

theorem select_self {α : Type} (c : BitVec 1) (a : α) : Scalar.select c a a = a := by
  unfold Scalar.select; exact ite_self a

theorem v133_apply (e : Fin 12000) (k l : Fin 3) : Rv133 M (ix3 e k l) = Dsel M e k l := by
  rw [v133_apply']
  fin_cases k <;> fin_cases l
  · show Scalar.select _ (Ideal.ofBits .f32 0x4318965D#32 * Ideal.ofBits .f32 0x3F2B851F#32) (Ideal.ofBits .f32 0x43C04EC5#32 * Ideal.ofBits .f32 0x3F333333#32) = _
    rw [Cert.Consts.prod_al00, Cert.Consts.prod_st00]; rfl
  · show Scalar.select _ (Ideal.ofBits .f32 0x4318965D#32 * Ideal.ofBits .f32 0x3EA8F5C3#32) (Ideal.ofBits .f32 0x43C04EC5#32 * Ideal.ofBits .f32 0x3E99999A#32) = _
    rw [Cert.Consts.prod_al01, Cert.Consts.prod_st01]; rfl
  · show Scalar.select _ (Ideal.ofBits .f32 0x4318965D#32 * Ideal.ofBits .f32 0x00000000#32) (Ideal.ofBits .f32 0x43C04EC5#32 * Ideal.ofBits .f32 0x00000000#32) = _
    rw [Ideal.ofBits_zero_f32, mul_zero, mul_zero, select_self]; rfl
  · show Scalar.select _ (Ideal.ofBits .f32 0x4318965D#32 * Ideal.ofBits .f32 0x3EA8F5C3#32) (Ideal.ofBits .f32 0x43C04EC5#32 * Ideal.ofBits .f32 0x3E99999A#32) = _
    rw [Cert.Consts.prod_al01, Cert.Consts.prod_st01]; rfl
  · show Scalar.select _ (Ideal.ofBits .f32 0x4318965D#32 * Ideal.ofBits .f32 0x3F2B851F#32) (Ideal.ofBits .f32 0x43C04EC5#32 * Ideal.ofBits .f32 0x3F333333#32) = _
    rw [Cert.Consts.prod_al00, Cert.Consts.prod_st00]; rfl
  · show Scalar.select _ (Ideal.ofBits .f32 0x4318965D#32 * Ideal.ofBits .f32 0x00000000#32) (Ideal.ofBits .f32 0x43C04EC5#32 * Ideal.ofBits .f32 0x00000000#32) = _
    rw [Ideal.ofBits_zero_f32, mul_zero, mul_zero, select_self]; rfl
  · show Scalar.select _ (Ideal.ofBits .f32 0x4318965D#32 * Ideal.ofBits .f32 0x00000000#32) (Ideal.ofBits .f32 0x43C04EC5#32 * Ideal.ofBits .f32 0x00000000#32) = _
    rw [Ideal.ofBits_zero_f32, mul_zero, mul_zero, select_self]; rfl
  · show Scalar.select _ (Ideal.ofBits .f32 0x4318965D#32 * Ideal.ofBits .f32 0x00000000#32) (Ideal.ofBits .f32 0x43C04EC5#32 * Ideal.ofBits .f32 0x00000000#32) = _
    rw [Ideal.ofBits_zero_f32, mul_zero, mul_zero, select_self]; rfl
  · show Scalar.select _ (Ideal.ofBits .f32 0x4318965D#32 * Ideal.ofBits .f32 0x3E2E147B#32) (Ideal.ofBits .f32 0x43C04EC5#32 * Ideal.ofBits .f32 0x3E4CCCCD#32) = _
    rw [Cert.Consts.prod_al22, Cert.Consts.prod_st22]; rfl

/-! ## The two contractions -/

section T

theorem lhsT_0 (i : S12000x3x6.Idx) (q : dot_S12000x3x3_S12000x3x6_S12000x3x6_1_1_2_2_0_0.contr.Idx) : (dot_S12000x3x3_S12000x3x6_S12000x3x6_1_1_2_2_0_0.lhsIdx i q 0).val = (i 0).val := by
  unfold DotDims.lhsIdx
  rw [dif_pos (show (0 : Fin S12000x3x3.rank) ∈ dot_S12000x3x3_S12000x3x6_S12000x3x6_1_1_2_2_0_0.lhsBatch by decide)]
  rfl
theorem lhsT_1 (i : S12000x3x6.Idx) (q : dot_S12000x3x3_S12000x3x6_S12000x3x6_1_1_2_2_0_0.contr.Idx) : (dot_S12000x3x3_S12000x3x6_S12000x3x6_1_1_2_2_0_0.lhsIdx i q 1).val = (q ⟨0, by decide⟩).val :=
  dot_S12000x3x3_S12000x3x6_S12000x3x6_1_1_2_2_0_0.lhsIdx_val_of_single rfl i q
theorem lhsT_2 (i : S12000x3x6.Idx) (q : dot_S12000x3x3_S12000x3x6_S12000x3x6_1_1_2_2_0_0.contr.Idx) : (dot_S12000x3x3_S12000x3x6_S12000x3x6_1_1_2_2_0_0.lhsIdx i q 2).val = (i 1).val := by
  unfold DotDims.lhsIdx
  rw [dif_neg (show ¬(2 : Fin S12000x3x3.rank) ∈ dot_S12000x3x3_S12000x3x6_S12000x3x6_1_1_2_2_0_0.lhsBatch by decide), dif_pos (show (2 : Fin S12000x3x3.rank) ∈ dot_S12000x3x3_S12000x3x6_S12000x3x6_1_1_2_2_0_0.lhsNonContracting by decide)]
  rfl
theorem rhsT_0 (i : S12000x3x6.Idx) (q : dot_S12000x3x3_S12000x3x6_S12000x3x6_1_1_2_2_0_0.contr.Idx) : (dot_S12000x3x3_S12000x3x6_S12000x3x6_1_1_2_2_0_0.rhsIdx i q 0).val = (i 0).val := by
  unfold DotDims.rhsIdx
  rw [dif_pos (show (0 : Fin S12000x3x6.rank) ∈ dot_S12000x3x3_S12000x3x6_S12000x3x6_1_1_2_2_0_0.rhsBatch by decide)]
  rfl
theorem rhsT_1 (i : S12000x3x6.Idx) (q : dot_S12000x3x3_S12000x3x6_S12000x3x6_1_1_2_2_0_0.contr.Idx) : (dot_S12000x3x3_S12000x3x6_S12000x3x6_1_1_2_2_0_0.rhsIdx i q 1).val = (q ⟨0, by decide⟩).val :=
  dot_S12000x3x3_S12000x3x6_S12000x3x6_1_1_2_2_0_0.rhsIdx_val_of_single rfl i q
theorem rhsT_2 (i : S12000x3x6.Idx) (q : dot_S12000x3x3_S12000x3x6_S12000x3x6_1_1_2_2_0_0.contr.Idx) : (dot_S12000x3x3_S12000x3x6_S12000x3x6_1_1_2_2_0_0.rhsIdx i q 2).val = (i 2).val := by
  unfold DotDims.rhsIdx
  rw [dif_neg (show ¬(2 : Fin S12000x3x6.rank) ∈ dot_S12000x3x3_S12000x3x6_S12000x3x6_1_1_2_2_0_0.rhsBatch by decide), dif_pos (show (2 : Fin S12000x3x6.rank) ∈ dot_S12000x3x3_S12000x3x6_S12000x3x6_1_1_2_2_0_0.rhsNonContracting by decide)]
  rfl

theorem v134_apply (e : Fin 12000) (l : Fin 3) (j : Fin 6) :
    Rv134 M (ix3 e l j) = ∑ k : Fin 3, Rv133 M (ix3 e k l) * Rv129 M (ix3 e k j) := by
  rw [v134_eq]
  simp only [Host.dotGeneral]
  rw [Ideal.dotGeneral_apply, ← Equiv.sum_comp (ValueIdx.contrEquiv1 dot_S12000x3x3_S12000x3x6_S12000x3x6_1_1_2_2_0_0 3 rfl rfl).symm]
  refine Finset.sum_congr rfl fun k _ => ?_
  have hk := ValueIdx.contrEquiv1_symm_val dot_S12000x3x3_S12000x3x6_S12000x3x6_1_1_2_2_0_0 3 rfl rfl k
  have el : dot_S12000x3x3_S12000x3x6_S12000x3x6_1_1_2_2_0_0.lhsIdx (ix3 e l j) ((ValueIdx.contrEquiv1 dot_S12000x3x3_S12000x3x6_S12000x3x6_1_1_2_2_0_0 3 rfl rfl).symm k) = ix3 e k l := funext fun a => Fin.ext (by
    match a with
    | ⟨0, _⟩ => exact lhsT_0 _ _
    | ⟨1, _⟩ => exact (lhsT_1 _ _).trans hk
    | ⟨2, _⟩ => exact lhsT_2 _ _)
  have er : dot_S12000x3x3_S12000x3x6_S12000x3x6_1_1_2_2_0_0.rhsIdx (ix3 e l j) ((ValueIdx.contrEquiv1 dot_S12000x3x3_S12000x3x6_S12000x3x6_1_1_2_2_0_0 3 rfl rfl).symm k) = ix3 e k j := funext fun a => Fin.ext (by
    match a with
    | ⟨0, _⟩ => exact rhsT_0 _ _
    | ⟨1, _⟩ => exact (rhsT_1 _ _).trans hk
    | ⟨2, _⟩ => exact rhsT_2 _ _)
  rw [el, er]

end T

section K

theorem lhsK_0 (i : S12000x6x6.Idx) (q : dot_S12000x3x6_S12000x3x6_S12000x6x6_1_1_2_2_0_0.contr.Idx) : (dot_S12000x3x6_S12000x3x6_S12000x6x6_1_1_2_2_0_0.lhsIdx i q 0).val = (i 0).val := by
  unfold DotDims.lhsIdx
  rw [dif_pos (show (0 : Fin S12000x3x6.rank) ∈ dot_S12000x3x6_S12000x3x6_S12000x6x6_1_1_2_2_0_0.lhsBatch by decide)]
  rfl
theorem lhsK_1 (i : S12000x6x6.Idx) (q : dot_S12000x3x6_S12000x3x6_S12000x6x6_1_1_2_2_0_0.contr.Idx) : (dot_S12000x3x6_S12000x3x6_S12000x6x6_1_1_2_2_0_0.lhsIdx i q 1).val = (q ⟨0, by decide⟩).val :=
  dot_S12000x3x6_S12000x3x6_S12000x6x6_1_1_2_2_0_0.lhsIdx_val_of_single rfl i q
theorem lhsK_2 (i : S12000x6x6.Idx) (q : dot_S12000x3x6_S12000x3x6_S12000x6x6_1_1_2_2_0_0.contr.Idx) : (dot_S12000x3x6_S12000x3x6_S12000x6x6_1_1_2_2_0_0.lhsIdx i q 2).val = (i 1).val := by
  unfold DotDims.lhsIdx
  rw [dif_neg (show ¬(2 : Fin S12000x3x6.rank) ∈ dot_S12000x3x6_S12000x3x6_S12000x6x6_1_1_2_2_0_0.lhsBatch by decide), dif_pos (show (2 : Fin S12000x3x6.rank) ∈ dot_S12000x3x6_S12000x3x6_S12000x6x6_1_1_2_2_0_0.lhsNonContracting by decide)]
  rfl
theorem rhsK_0 (i : S12000x6x6.Idx) (q : dot_S12000x3x6_S12000x3x6_S12000x6x6_1_1_2_2_0_0.contr.Idx) : (dot_S12000x3x6_S12000x3x6_S12000x6x6_1_1_2_2_0_0.rhsIdx i q 0).val = (i 0).val := by
  unfold DotDims.rhsIdx
  rw [dif_pos (show (0 : Fin S12000x3x6.rank) ∈ dot_S12000x3x6_S12000x3x6_S12000x6x6_1_1_2_2_0_0.rhsBatch by decide)]
  rfl
theorem rhsK_1 (i : S12000x6x6.Idx) (q : dot_S12000x3x6_S12000x3x6_S12000x6x6_1_1_2_2_0_0.contr.Idx) : (dot_S12000x3x6_S12000x3x6_S12000x6x6_1_1_2_2_0_0.rhsIdx i q 1).val = (q ⟨0, by decide⟩).val :=
  dot_S12000x3x6_S12000x3x6_S12000x6x6_1_1_2_2_0_0.rhsIdx_val_of_single rfl i q
theorem rhsK_2 (i : S12000x6x6.Idx) (q : dot_S12000x3x6_S12000x3x6_S12000x6x6_1_1_2_2_0_0.contr.Idx) : (dot_S12000x3x6_S12000x3x6_S12000x6x6_1_1_2_2_0_0.rhsIdx i q 2).val = (i 2).val := by
  unfold DotDims.rhsIdx
  rw [dif_neg (show ¬(2 : Fin S12000x3x6.rank) ∈ dot_S12000x3x6_S12000x3x6_S12000x6x6_1_1_2_2_0_0.rhsBatch by decide), dif_pos (show (2 : Fin S12000x3x6.rank) ∈ dot_S12000x3x6_S12000x3x6_S12000x6x6_1_1_2_2_0_0.rhsNonContracting by decide)]
  rfl

theorem v135_apply (e : Fin 12000) (i j : Fin 6) :
    Rv135 M (ix3 e i j) = ∑ l : Fin 3, Rv134 M (ix3 e l i) * Rv129 M (ix3 e l j) := by
  rw [v135_eq]
  simp only [Host.dotGeneral]
  rw [Ideal.dotGeneral_apply, ← Equiv.sum_comp (ValueIdx.contrEquiv1 dot_S12000x3x6_S12000x3x6_S12000x6x6_1_1_2_2_0_0 3 rfl rfl).symm]
  refine Finset.sum_congr rfl fun l _ => ?_
  have hk := ValueIdx.contrEquiv1_symm_val dot_S12000x3x6_S12000x3x6_S12000x6x6_1_1_2_2_0_0 3 rfl rfl l
  have el : dot_S12000x3x6_S12000x3x6_S12000x6x6_1_1_2_2_0_0.lhsIdx (ix3 e i j) ((ValueIdx.contrEquiv1 dot_S12000x3x6_S12000x3x6_S12000x6x6_1_1_2_2_0_0 3 rfl rfl).symm l) = ix3 e l i := funext fun a => Fin.ext (by
    match a with
    | ⟨0, _⟩ => exact lhsK_0 _ _
    | ⟨1, _⟩ => exact (lhsK_1 _ _).trans hk
    | ⟨2, _⟩ => exact lhsK_2 _ _)
  have er : dot_S12000x3x6_S12000x3x6_S12000x6x6_1_1_2_2_0_0.rhsIdx (ix3 e i j) ((ValueIdx.contrEquiv1 dot_S12000x3x6_S12000x3x6_S12000x6x6_1_1_2_2_0_0 3 rfl rfl).symm l) = ix3 e l j := funext fun a => Fin.ext (by
    match a with
    | ⟨0, _⟩ => exact rhsK_0 _ _
    | ⟨1, _⟩ => exact (rhsK_1 _ _).trans hk
    | ⟨2, _⟩ => exact rhsK_2 _ _)
  rw [el, er]

end K

/-! ## The element matrix -/

theorem v137_apply (e : Fin 12000) (i j : Fin 6) : Rv137 M (ix3 e i j) = area (xa M e) (xb M e) (xc M e) (ya M e) (yb M e) (yc M e) half := by
  rw [v137_eq, bcast_e66_apply, v136_eq, bcast_e11_apply, v103_apply]

/-- Equal summands, one common factor. -/
private theorem sum_mul_congr {f g : Fin 3 → EReal} (c : EReal) (h : ∀ l, f l = g l) :
    (∑ l, f l) * c = (∑ l, g l) * c := by
  rw [show f = g from funext h]

theorem v138_apply (e : Fin 12000) (i j : Fin 6) :
    Rv138 M (ix3 e i j) = refEntry (xa M e) (xb M e) (xc M e) (ya M e) (yb M e) (yc M e) half (Dsel M e) i j := by
  rw [v138_eq, mulf_apply, v135_apply, v137_apply]
  unfold refEntry conTerm
  rw [zero_add]
  refine sum_mul_congr _ fun l => ?_
  beta_reduce
  rw [v134_apply, v129_apply, zero_add]
  refine sum_mul_congr _ fun k => ?_
  beta_reduce
  rw [v133_apply, v129_apply]

/-- THE READ: the reference's element-stiffness tensor at element `e`, entry `(i, j)`, is the doubly contracted
    Bᵀ D B of the element's gathered coordinates and its material's plane-stress matrix, times the element's area. -/
theorem ref_k_apply (M : Valuation τ sig (Elt Ideal)) (e : Fin 12000) (i j : Fin 6) :
    StableHlo.after (ops (F := Ideal)) M (Proc.devRef .tc main_v138) (ValueIdx.ix3 e i j)
      = Cert.ElemStiff.refEntry
          (StableHlo.after (ops (F := Ideal)) M (Proc.devRef .tc main_v12) (ValueIdx.ix1 e))
          (StableHlo.after (ops (F := Ideal)) M (Proc.devRef .tc main_v21) (ValueIdx.ix1 e))
          (StableHlo.after (ops (F := Ideal)) M (Proc.devRef .tc main_v30) (ValueIdx.ix1 e))
          (StableHlo.after (ops (F := Ideal)) M (Proc.devRef .tc main_v39) (ValueIdx.ix1 e))
          (StableHlo.after (ops (F := Ideal)) M (Proc.devRef .tc main_v48) (ValueIdx.ix1 e))
          (StableHlo.after (ops (F := Ideal)) M (Proc.devRef .tc main_v57) (ValueIdx.ix1 e))
          (Ideal.ofBits .f32 0x3F000000#32)
          (Cert.ElemStiff.Dmat
            (Cert.ElemStiff.selD (StableHlo.after (ops (F := Ideal)) M (Proc.devRef .tc main_arg3) (ValueIdx.ix1 e)) (Ideal.ofBits .f32 0x3F000000#32)
              ((112406956574275 / 1099511627776 : ℝ) : EReal) ((148011179044927 / 549755813888 : ℝ) : EReal))
            (Cert.ElemStiff.selD (StableHlo.after (ops (F := Ideal)) M (Proc.devRef .tc main_arg3) (ValueIdx.ix1 e)) (Ideal.ofBits .f32 0x3F000000#32)
              ((110729242446295 / 2199023255552 : ℝ) : EReal) ((63433366048705 / 549755813888 : ℝ) : EReal))
            (Cert.ElemStiff.selD (StableHlo.after (ops (F := Ideal)) M (Proc.devRef .tc main_arg3) (ValueIdx.ix1 e)) (Ideal.ofBits .f32 0x3F000000#32)
              ((114084670702255 / 4398046511104 : ℝ) : EReal) ((169155638595521 / 2199023255552 : ℝ) : EReal)))
          i j :=
  v138_apply M e i j

/-- The material flag is the argument's: no operation writes an argument. -/
theorem mat_eq (M : Valuation τ sig (Elt Ideal)) :
    StableHlo.after (ops (F := Ideal)) M (Proc.devRef .tc main_arg3) = M (Proc.devRef .tc main_arg3) :=
  Cert.LibSsaAfter.after_of_lt rising M (by decide)

end Cert.Alg.RefElem

end
-- ==== Proof.LibScatter2.lean ====
/-
  The accumulating scatter, the overwriting scatter and the gather of StableHLO READ AT AN INDEX, at the exact
  (extended-real) reading of floats, for the dimension numbers that assembling a matrix from per-element blocks uses.

  * `scatterAdd_congr`, `scatterAdd_mul_mask`, `scatterAdd_zero_mul_mask` (and the `mask_mul` forms): the accumulating
    scatter sends each update to one entry of the operand and adds up what lands there. If every update that lands on
    entry `i` carries the factor `g i ∈ {0, 1}`, the factor comes out of the sum: masking the updates BEFORE the
    scatter is masking the assembled entry AFTER it.
  * `scatter_set_induction`, `scatter_set_mem`, `scatter_set_zero_one`, `one_sub_mask`: every entry of the OVERWRITING
    scatter is the operand's entry or one of the updates; ones written into zeros leave a `0`/`1` array, and so does
    its complement `1 - ·`.
  * `elemScatterDims`, `elemScatter_resultIdx`, `elemScatter_resultIdx_eq_some` (`_iff`): the scatter that sends update
    `(e, a, b)` to the matrix entry `(idx[e, a, b, 0], idx[e, a, b, 1])` — both components read signed, not clamped, the
    update dropped when either is outside the matrix.
  * `gather_take_eq`, `gather_take_inrange`: the gather of entries of a vector at an in-range index is the entry there.
  * `elemScatterAdd_rowmask`: the three together — a `0`/`1` row mask gathered by the row index and multiplied into
    the updates before the two-index accumulating scatter is the mask multiplied into the assembled rows after it.
-/
import Idealize.ShloMosaic.PureOps.Ideal
import Idealize.ShloMosaic.PureOps.Dims
import Idealize.ShloMosaic.PureOps.Ideal.Laws
import Idealize.ShloMosaic.Lib.ValueIdx

noncomputable section

open scoped BigOperators

namespace Cert.LibScatter2

open Idealize.ShloMosaic Idealize.ShloMosaic.ValueIdx

/-! ## The accumulating scatter and a 0/1 mask -/

section ScatterAdd
variable {s si su : Shape} (d : ScatterDims s si su) {w : Nat}

/-- The accumulating scatter read at entry `i`: the operand's entry plus the sum of the updates landing on `i`. -/
theorem scatterAdd_apply (x : s.Idx → EReal) (idx : IVec si w) (upd : su.Idx → EReal) (i : s.Idx) :
    Ideal.hostScatterAdd d x idx upd i
      = x i + ∑ j ∈ Finset.univ.filter (fun j => d.resultIdx? j idx = some i), upd j := rfl

/-- Entry `i` of an accumulating scatter depends only on the operand's entry `i` and on the updates that land on `i`:
    two operands equal at `i` and two families of updates equal wherever they land on `i` give the same entry. -/
theorem scatterAdd_congr_at (x x' : s.Idx → EReal) (idx : IVec si w) (upd upd' : su.Idx → EReal) (i : s.Idx)
    (hx : x i = x' i) (hu : ∀ j, d.resultIdx? j idx = some i → upd j = upd' j) :
    Ideal.hostScatterAdd d x idx upd i = Ideal.hostScatterAdd d x' idx upd' i := by
  unfold Ideal.hostScatterAdd
  rw [hx]
  congr 1
  exact Finset.sum_congr rfl (fun j hj => hu j (Finset.mem_filter.1 hj).2)

/-- Pointwise equal updates give the same accumulating scatter, entry by entry. -/
theorem scatterAdd_congr (x : s.Idx → EReal) (idx : IVec si w) (upd upd' : su.Idx → EReal)
    (hu : ∀ j, upd j = upd' j) (i : s.Idx) :
    Ideal.hostScatterAdd d x idx upd i = Ideal.hostScatterAdd d x idx upd' i :=
  scatterAdd_congr_at d x x idx upd upd' i rfl (fun j _ => hu j)

/-- A factor `c ∈ {0, 1}` comes out of a finite sum of extended reals (multiplication by `0` or `1` is additive on
    the extended reals, where multiplication does not distribute over addition in general). -/
theorem sum_mul_zero_one {ι : Type*} (t : Finset ι) (f : ι → EReal) (c : EReal) (hc : c = 0 ∨ c = 1) :
    ∑ j ∈ t, f j * c = (∑ j ∈ t, f j) * c := by
  rcases hc with rfl | rfl
  · simp only [mul_zero, Finset.sum_const_zero]
  · simp only [mul_one]

/-- MASK BEFORE = MASK AFTER, general operand. If every update landing on entry `i` is multiplied by a factor `h j`
    equal to `g i`, and `g i` is `0` or `1`, then entry `i` of the accumulating scatter of the masked updates is the
    operand's entry plus `g i` times the sum of the unmasked updates landing on `i`. -/
theorem scatterAdd_mul_mask (x : s.Idx → EReal) (idx : IVec si w) (upd h : su.Idx → EReal) (g : s.Idx → EReal)
    (i : s.Idx) (hg : g i = 0 ∨ g i = 1) (hh : ∀ j, d.resultIdx? j idx = some i → h j = g i) :
    Ideal.hostScatterAdd d x idx (fun j => upd j * h j) i
      = x i + Ideal.hostScatterAdd d (fun _ => 0) idx upd i * g i := by
  unfold Ideal.hostScatterAdd
  rw [zero_add, ← sum_mul_zero_one _ _ _ hg]
  congr 1
  exact Finset.sum_congr rfl (fun j hj => by
    show upd j * h j = upd j * g i
    rw [hh j (Finset.mem_filter.1 hj).2])

/-- MASK BEFORE = MASK AFTER, into a zero operand. Scattering-and-adding the updates `upd j * h j` into zeros, where
    every update landing on entry `i` has `h j = g i` and `g` takes the values `0` and `1` only, is
    scattering-and-adding `upd` into zeros and then multiplying entry `i` by `g i`. -/
theorem scatterAdd_zero_mul_mask (idx : IVec si w) (upd h : su.Idx → EReal) (g : s.Idx → EReal)
    (hg : ∀ i, g i = 0 ∨ g i = 1) (hh : ∀ j i, d.resultIdx? j idx = some i → h j = g i) (i : s.Idx) :
    Ideal.hostScatterAdd d (fun _ => 0) idx (fun j => upd j * h j) i
      = Ideal.hostScatterAdd d (fun _ => 0) idx upd i * g i := by
  rw [scatterAdd_mul_mask d (fun _ => 0) idx upd h g i (hg i) (fun j hj => hh j i hj), zero_add]

/-- The same with the factor written on the left of each update: `h j * upd j`. -/
theorem scatterAdd_mask_mul (x : s.Idx → EReal) (idx : IVec si w) (upd h : su.Idx → EReal) (g : s.Idx → EReal)
    (i : s.Idx) (hg : g i = 0 ∨ g i = 1) (hh : ∀ j, d.resultIdx? j idx = some i → h j = g i) :
    Ideal.hostScatterAdd d x idx (fun j => h j * upd j) i
      = x i + g i * Ideal.hostScatterAdd d (fun _ => 0) idx upd i := by
  rw [mul_comm (g i), ← scatterAdd_mul_mask d x idx upd h g i hg hh]
  exact scatterAdd_congr d x idx _ _ (fun j => mul_comm _ _) i

/-- The same into a zero operand, the factor on the left. -/
theorem scatterAdd_zero_mask_mul (idx : IVec si w) (upd h : su.Idx → EReal) (g : s.Idx → EReal)
    (hg : ∀ i, g i = 0 ∨ g i = 1) (hh : ∀ j i, d.resultIdx? j idx = some i → h j = g i) (i : s.Idx) :
    Ideal.hostScatterAdd d (fun _ => 0) idx (fun j => h j * upd j) i
      = g i * Ideal.hostScatterAdd d (fun _ => 0) idx upd i := by
  rw [scatterAdd_mask_mul d (fun _ => 0) idx upd h g i (hg i) (fun j hj => hh j i hj), zero_add]

end ScatterAdd

/-! ## The overwriting scatter: every entry is the operand's or an update -/

section ScatterSet
variable {α : Type} {s si u : Shape} {w : Nat}

/-- The overwriting scatter (its body returns the update) takes the updates one by one and puts each at the entry it
    lands on. So a property that holds of every entry of the operand and of every update holds of every entry of the
    result. -/
theorem scatter_set_induction (P : α → Prop) (d : ScatterDims s si u) (x : s.Idx → α) (idx : IVec si w)
    (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    cases hr : d.resultIdx? (u.rowMajor.symm n) idx with
    | none => exact hx i'
    | some i0 =>
      show P (if i' = i0 then upd (u.rowMajor.symm n) else x i')
      by_cases h : i' = i0
      · rw [if_pos h]; exact hu _
      · rw [if_neg h]; exact hx i'

/-- Every entry of an overwriting scatter is the operand's entry there or one of the updates. -/
theorem scatter_set_mem (d : ScatterDims s si u) (x : s.Idx → α) (idx : IVec si w) (upd : u.Idx → α) (i : s.Idx) :
    Host.scatter d (fun _ b => b) x idx upd i = x i ∨ ∃ j, Host.scatter d (fun _ b => b) x idx upd i = upd j := by
  unfold Host.scatter
  generalize List.finRange u.numel = l
  suffices H : ∀ (l : List (Fin u.numel)) (r : s.Idx → α), (∀ i, r i = x i ∨ ∃ j, r i = upd j) →
      ∀ i, (l.foldl (fun r n =>
        match d.resultIdx? (u.rowMajor.symm n) idx with
        | some i => fun i' => if i' = i then (fun _ b => b) (r i) (upd (u.rowMajor.symm n)) else r i'
        | none => r) r) i = x i ∨ ∃ j, (l.foldl (fun r n =>
        match d.resultIdx? (u.rowMajor.symm n) idx with
        | some i => fun i' => if i' = i then (fun _ b => b) (r i) (upd (u.rowMajor.symm n)) else r i'
        | none => r) r) i = upd j from H l x (fun i => Or.inl rfl) i
  intro l
  induction l with
  | nil => intro r hr i; exact hr i
  | cons n l ih =>
    intro r hr i
    rw [List.foldl_cons]
    apply ih
    intro i'
    cases hres : d.resultIdx? (u.rowMajor.symm n) idx with
    | none => exact hr i'
    | some i0 =>
      show (if i' = i0 then upd (u.rowMajor.symm n) else r i') = x i' ∨ ∃ j, (if i' = i0 then upd (u.rowMajor.symm n) else r i') = upd j
      by_cases h : i' = i0
      · rw [if_pos h]; exact Or.inr ⟨_, rfl⟩
      · rw [if_neg h]; exact hr i'

/-- Zeros overwritten by ones: every entry of the overwriting scatter of updates that are all `1` into an operand
    that is all `0` is `0` or `1` (it is `1` exactly where some update lands). -/
theorem scatter_set_zero_one (d : ScatterDims s si u) (x : s.Idx → EReal) (idx : IVec si w) (upd : u.Idx → EReal)
    (hx : ∀ i, x i = 0) (hu : ∀ j, upd j = 1) (i : s.Idx) :
    Host.scatter d (fun _ b => b) x idx upd i = 0 ∨ Host.scatter d (fun _ b => b) x idx upd i = 1 :=
  scatter_set_induction (fun v => v = 0 ∨ v = 1) d x idx upd (fun i => Or.inl (hx i)) (fun j => Or.inr (hu j)) i

/-- The complement of a `0`/`1` value is a `0`/`1` value: `1 - 0 = 1` and `1 - 1 = 0` on the extended reals. -/
theorem one_sub_mask (x : EReal) (h : x = 0 ∨ x = 1) : (1 : EReal) - x = 0 ∨ (1 : EReal) - x = 1 := by
  rcases h with rfl | rfl
  · right; exact sub_zero _
  · left
    rw [← EReal.coe_one, ← EReal.coe_sub, sub_self, EReal.coe_zero]

/-- The same, read the other way round: `1 - x` is `1` where `x = 0` and `0` where `x = 1`. -/
theorem one_sub_mask' (x : EReal) (h : x = 0 ∨ x = 1) : (1 : EReal) - x = 1 ∨ (1 : EReal) - x = 0 :=
  (one_sub_mask x h).symm

/-- `1 - (overwriting scatter of ones into zeros)` is `0` or `1` at every entry: the keep-mask of the rows that no
    update names. -/
theorem one_sub_scatter_set_zero_one (d : ScatterDims s si u) (x : s.Idx → EReal) (idx : IVec si w)
    (upd : u.Idx → EReal) (hx : ∀ i, x i = 0) (hu : ∀ j, upd j = 1) (i : s.Idx) :
    (1 : EReal) - Host.scatter d (fun _ b => b) x idx upd i = 0
      ∨ (1 : EReal) - Host.scatter d (fun _ b => b) x idx upd i = 1 :=
  one_sub_mask _ (scatter_set_zero_one d x idx upd hx hu i)

end ScatterSet

/-! ## Where an update of the two-index scatter lands

The scatter that adds entry `(e, a, b)` of the updates `[E, A, B]` to entry `(idx[e, a, b, 0], idx[e, a, b, 1])` of an
operand `[N, M]`: update_window_dims `[]`, inserted_window_dims `[0, 1]`, scatter_dims_to_operand_dims `[0, 1]`,
index_vector_dim 3 over indices `[E, A, B, 2]`. Both index components are read SIGNED and are not clamped: an update
whose row or column index is outside the operand is dropped. -/

section ElemScatter

/-- Those dimension numbers; their conditions `wf` are decided on literal shapes. The record is reducible, so a
    structure literal with the same lists and any proof of the same conditions is definitionally this record. -/
abbrev elemScatterDims (N M E A B : Nat)
    (wf : ScatterDims.WF ⟨2, ![N, M]⟩ ⟨4, ![E, A, B, 2]⟩ ⟨3, ![E, A, B]⟩ [] [0, 1] [0, 1] 3) :
    ScatterDims ⟨2, ![N, M]⟩ ⟨4, ![E, A, B, 2]⟩ ⟨3, ![E, A, B]⟩ where
  updateWindowDims := []
  insertedWindowDims := [0, 1]
  scatterDimsToOperandDims := [0, 1]
  indexVectorDim := 3
  wf := wf

variable {N M E A B w : Nat}
  (wf : ScatterDims.WF ⟨2, ![N, M]⟩ ⟨4, ![E, A, B, 2]⟩ ⟨3, ![E, A, B]⟩ [] [0, 1] [0, 1] 3)
  (idx : IVec ⟨4, ![E, A, B, 2]⟩ w) (e : Fin E) (a : Fin A) (b : Fin B)

/-- On operand axis 0 (rows) the window of update `(e, a, b)` starts at `idx[e, a, b, 0]`, read signed, not clamped. -/
theorem elemScatter_start0 :
    (elemScatterDims N M E A B wf).start (ix3 e a b) idx (0 : Fin 2) = (idx (ix4 e a b (0 : Fin 2))).toInt := by
  unfold ScatterDims.start
  have hm : (0 : Fin 2) ∈ (elemScatterDims N M E A B wf).scatterDimsToOperandDims :=
    show (0 : Fin 2) ∈ ([0, 1] : List (Fin 2)) by decide
  rw [dif_pos hm]
  have hsi : (elemScatterDims N M E A B wf).siIdx (ix3 e a b)
      ⟨List.idxOf (0 : Fin 2) (elemScatterDims N M E A B wf).scatterDimsToOperandDims,
        List.idxOf_lt_length_iff.2 hm⟩ = ix4 e a b (0 : Fin 2) := by
    funext c; refine Fin.ext ?_
    match c with
    | ⟨0, _⟩ => rfl
    | ⟨1, _⟩ => rfl
    | ⟨2, _⟩ => rfl
    | ⟨3, _⟩ => rfl
  rw [hsi]

/-- On operand axis 1 (columns) it starts at `idx[e, a, b, 1]`, read signed, not clamped. -/
theorem elemScatter_start1 :
    (elemScatterDims N M E A B wf).start (ix3 e a b) idx (1 : Fin 2) = (idx (ix4 e a b (1 : Fin 2))).toInt := by
  unfold ScatterDims.start
  have hm : (1 : Fin 2) ∈ (elemScatterDims N M E A B wf).scatterDimsToOperandDims :=
    show (1 : Fin 2) ∈ ([0, 1] : List (Fin 2)) by decide
  rw [dif_pos hm]
  have hsi : (elemScatterDims N M E A B wf).siIdx (ix3 e a b)
      ⟨List.idxOf (1 : Fin 2) (elemScatterDims N M E A B wf).scatterDimsToOperandDims,
        List.idxOf_lt_length_iff.2 hm⟩ = ix4 e a b (1 : Fin 2) := by
    funext c; refine Fin.ext ?_
    match c with
    | ⟨0, _⟩ => rfl
    | ⟨1, _⟩ => rfl
    | ⟨2, _⟩ => rfl
    | ⟨3, _⟩ => rfl
  rw [hsi]

/-- Both operand axes are inserted axes (the updates have no window axis): the window coordinate is 0 on each. -/
theorem elemScatter_window (c : Fin 2) : (elemScatterDims N M E A B wf).window (ix3 e a b) c = 0 := by
  unfold ScatterDims.window
  have hk : c ∉ (elemScatterDims N M E A B wf).sKept := by
    show c ∉ (List.finRange 2).filter (· ∉ ([0, 1] : List (Fin 2)))
    revert c; decide
  rw [dif_neg hk]

/-- WHERE UPDATE `(e, a, b)` LANDS: with `r = idx[e, a, b, 0]` and `c = idx[e, a, b, 1]` read signed, at `(r, c)` when
    `0 ≤ r < N` and `0 ≤ c < M`; otherwise the update is dropped. -/
theorem elemScatter_resultIdx :
    (elemScatterDims N M E A B wf).resultIdx? (ix3 e a b) idx
      = if h : (0 ≤ (idx (ix4 e a b (0 : Fin 2))).toInt ∧ (idx (ix4 e a b (0 : Fin 2))).toInt < (N : Int)) ∧
            (0 ≤ (idx (ix4 e a b (1 : Fin 2))).toInt ∧ (idx (ix4 e a b (1 : Fin 2))).toInt < (M : Int)) then
          some (ix2 (⟨(idx (ix4 e a b (0 : Fin 2))).toInt.toNat, by omega⟩ : Fin N)
                    (⟨(idx (ix4 e a b (1 : Fin 2))).toInt.toNat, by omega⟩ : Fin M))
        else none := by
  unfold ScatterDims.resultIdx?
  by_cases h : (0 ≤ (idx (ix4 e a b (0 : Fin 2))).toInt ∧ (idx (ix4 e a b (0 : Fin 2))).toInt < (N : Int)) ∧
      (0 ≤ (idx (ix4 e a b (1 : Fin 2))).toInt ∧ (idx (ix4 e a b (1 : Fin 2))).toInt < (M : Int))
  · have H : ∀ c : Fin 2,
        0 ≤ (elemScatterDims N M E A B wf).start (ix3 e a b) idx c + ((elemScatterDims N M E A B wf).window (ix3 e a b) c : Int) ∧
        (elemScatterDims N M E A B wf).start (ix3 e a b) idx c + ((elemScatterDims N M E A B wf).window (ix3 e a b) c : Int)
          < ((⟨2, ![N, M]⟩ : Shape).size c : Int) := by
      intro c
      match c with
      | ⟨0, _⟩ =>
        show 0 ≤ (elemScatterDims N M E A B wf).start (ix3 e a b) idx (0 : Fin 2) + ((elemScatterDims N M E A B wf).window (ix3 e a b) (0 : Fin 2) : Int) ∧
          (elemScatterDims N M E A B wf).start (ix3 e a b) idx (0 : Fin 2) + ((elemScatterDims N M E A B wf).window (ix3 e a b) (0 : Fin 2) : Int) < (N : Int)
        rw [elemScatter_start0, elemScatter_window]
        omega
      | ⟨1, _⟩ =>
        show 0 ≤ (elemScatterDims N M E A B wf).start (ix3 e a b) idx (1 : Fin 2) + ((elemScatterDims N M E A B wf).window (ix3 e a b) (1 : Fin 2) : Int) ∧
          (elemScatterDims N M E A B wf).start (ix3 e a b) idx (1 : Fin 2) + ((elemScatterDims N M E A B wf).window (ix3 e a b) (1 : Fin 2) : Int) < (M : Int)
        rw [elemScatter_start1, elemScatter_window]
        omega
    rw [dif_pos H, dif_pos h]
    congr 1
    funext c
    refine Fin.ext ?_
    match c with
    | ⟨0, _⟩ =>
      show ((elemScatterDims N M E A B wf).start (ix3 e a b) idx (0 : Fin 2) + ((elemScatterDims N M E A B wf).window (ix3 e a b) (0 : Fin 2) : Int)).toNat
        = (idx (ix4 e a b (0 : Fin 2))).toInt.toNat
      rw [elemScatter_start0, elemScatter_window]
      simp
    | ⟨1, _⟩ =>
      show ((elemScatterDims N M E A B wf).start (ix3 e a b) idx (1 : Fin 2) + ((elemScatterDims N M E A B wf).window (ix3 e a b) (1 : Fin 2) : Int)).toNat
        = (idx (ix4 e a b (1 : Fin 2))).toInt.toNat
      rw [elemScatter_start1, elemScatter_window]
      simp
  · rw [dif_neg h, dif_neg]
    intro H
    apply h
    have H0 := H (0 : Fin 2)
    have H1 := H (1 : Fin 2)
    rw [elemScatter_start0, elemScatter_window] at H0
    rw [elemScatter_start1, elemScatter_window] at H1
    have h0 : (idx (ix4 e a b (0 : Fin 2))).toInt + ((0 : Nat) : Int) < (N : Int) := H0.2
    have h1 : (idx (ix4 e a b (1 : Fin 2))).toInt + ((0 : Nat) : Int) < (M : Int) := H1.2
    have h0' := H0.1
    have h1' := H1.1
    omega

/-- Update `(e, a, b)` lands on operand entry `p` only if its two index components, read signed, are `p`'s row and
    column. -/
theorem elemScatter_resultIdx_eq_some (p : (⟨2, ![N, M]⟩ : Shape).Idx)
    (hp : (elemScatterDims N M E A B wf).resultIdx? (ix3 e a b) idx = some p) :
    (idx (ix4 e a b (0 : Fin 2))).toInt = ((p 0).val : Int) ∧ (idx (ix4 e a b (1 : Fin 2))).toInt = ((p 1).val : Int) := by
  rw [elemScatter_resultIdx] at hp
  by_cases h : (0 ≤ (idx (ix4 e a b (0 : Fin 2))).toInt ∧ (idx (ix4 e a b (0 : Fin 2))).toInt < (N : Int)) ∧
      (0 ≤ (idx (ix4 e a b (1 : Fin 2))).toInt ∧ (idx (ix4 e a b (1 : Fin 2))).toInt < (M : Int))
  · rw [dif_pos h] at hp
    have hp' := Option.some.inj hp
    have h0 : (idx (ix4 e a b (0 : Fin 2))).toInt.toNat = (p 0).val := congrArg Fin.val (congrFun hp' (0 : Fin 2))
    have h1 : (idx (ix4 e a b (1 : Fin 2))).toInt.toNat = (p 1).val := congrArg Fin.val (congrFun hp' (1 : Fin 2))
    omega
  · rw [dif_neg h] at hp; cases hp

/-- Update `(e, a, b)` lands on operand entry `(r, c)` exactly when its index components `idx[e, a, b, 0]` and
    `idx[e, a, b, 1]`, read signed, are `r` and `c`. -/
theorem elemScatter_resultIdx_eq_some_iff (r : Fin N) (c : Fin M) :
    (elemScatterDims N M E A B wf).resultIdx? (ix3 e a b) idx = some (ix2 r c)
      ↔ (idx (ix4 e a b (0 : Fin 2))).toInt = (r.val : Int) ∧ (idx (ix4 e a b (1 : Fin 2))).toInt = (c.val : Int) := by
  constructor
  · intro H; exact elemScatter_resultIdx_eq_some wf idx e a b (ix2 r c) H
  · rintro ⟨hr, hc⟩
    rw [elemScatter_resultIdx]
    have h : (0 ≤ (idx (ix4 e a b (0 : Fin 2))).toInt ∧ (idx (ix4 e a b (0 : Fin 2))).toInt < (N : Int)) ∧
        (0 ≤ (idx (ix4 e a b (1 : Fin 2))).toInt ∧ (idx (ix4 e a b (1 : Fin 2))).toInt < (M : Int)) := by
      have := r.isLt; have := c.isLt; omega
    rw [dif_pos h]
    have e0 : (⟨(idx (ix4 e a b (0 : Fin 2))).toInt.toNat, by omega⟩ : Fin N) = r := Fin.ext (by
      show (idx (ix4 e a b (0 : Fin 2))).toInt.toNat = r.val; omega)
    have e1 : (⟨(idx (ix4 e a b (1 : Fin 2))).toInt.toNat, by omega⟩ : Fin M) = c := Fin.ext (by
      show (idx (ix4 e a b (1 : Fin 2))).toInt.toNat = c.val; omega)
    rw [e0, e1]

end ElemScatter

/-! ## The gather of entries of a vector at an array of indices, where the index is in range -/

section Take
variable {α : Type}

/-- The start-indices index of result index `(e, i)` is `[e, i, 0]`. -/
theorem takeIdx_ix2 {R C : Nat} (e : Fin R) (i : Fin C) : takeIdx (ix2 e i) = ix3 e i (0 : Fin 1) := by
  funext a
  refine Fin.ext ?_
  match a with
  | ⟨0, _⟩ => rfl
  | ⟨1, _⟩ => rfl
  | ⟨2, _⟩ => rfl

/-- The gather of entries of `x : [N]` at the indices `idx : [R, C, 1]`, read at `(e, i)`: when `idx[e, i, 0]`, read
    signed, is `n < N`, the clamping does nothing and the entry is `x[n]`. -/
theorem gather_take_eq {N R C w : Nat}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (e : Fin R) (i : Fin C) (n : Fin N)
    (h : (idx (ix3 e i (0 : Fin 1))).toInt = (n.val : Int)) :
    Host.gather (takeDims N R C wf) x idx (ix2 e i) = x (ix1 n) := by
  have hN : 0 < N := Nat.lt_of_le_of_lt (Nat.zero_le _) n.isLt
  refine (gather_take_apply hN wf x idx (ix2 e i)).trans (congrArg x ?_)
  funext a
  obtain rfl : a = 0 := Subsingleton.elim _ _
  refine Fin.ext ?_
  show min (idx (takeIdx (ix2 e i))).toInt.toNat (N - 1) = n.val
  rw [takeIdx_ix2, h]
  have := n.isLt
  omega

/-- The same with the range stated on the index: if `0 ≤ idx[e, i, 0] < N` (read signed) the gathered entry is the
    operand's at that index. -/
theorem gather_take_inrange {N R C w : Nat}
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (e : Fin R) (i : Fin C)
    (h0 : 0 ≤ (idx (ix3 e i (0 : Fin 1))).toInt) (h1 : (idx (ix3 e i (0 : Fin 1))).toInt < (N : Int)) :
    Host.gather (takeDims N R C wf) x idx (ix2 e i)
      = x (ix1 (⟨(idx (ix3 e i (0 : Fin 1))).toInt.toNat, by omega⟩ : Fin N)) :=
  gather_take_eq wf x idx e i ⟨(idx (ix3 e i (0 : Fin 1))).toInt.toNat, by omega⟩ (by
    show (idx (ix3 e i (0 : Fin 1))).toInt = (((idx (ix3 e i (0 : Fin 1))).toInt.toNat : Nat) : Int)
    omega)

end Take

/-! ## A row mask applied before the two-index scatter is the row mask applied after it -/

section RowMask

/-- ASSEMBLY WITH A ROW MASK. Updates `[E, A, B]` are added into a zero matrix `[N, M]` at `(idx[e,a,b,0], idx[e,a,b,1])`.
    Suppose update `(e, a, b)` is first multiplied by `keep[rowidx[e, a, 0]]` (a gather of the `0`/`1` vector `keep`),
    where `rowidx[e, a, 0]` is, as a signed integer, the update's own row index `idx[e, a, b, 0]`. Then entry `(r, c)` of
    the assembled matrix is the unmasked assembly's entry times `keep[r]`: every update landing in row `r` carried the
    factor `keep[r]`, which is `0` or `1` and so comes out of the sum. -/
theorem elemScatterAdd_rowmask {N M E A B w w' : Nat}
    (wf : ScatterDims.WF ⟨2, ![N, M]⟩ ⟨4, ![E, A, B, 2]⟩ ⟨3, ![E, A, B]⟩ [] [0, 1] [0, 1] 3)
    (wfg : GatherDims.WF ⟨1, ![N]⟩ ⟨3, ![E, A, 1]⟩ ⟨2, ![E, A]⟩ [] [0] [] [0] [] 2 ![1])
    (idx : IVec ⟨4, ![E, A, B, 2]⟩ w) (rowidx : IVec ⟨3, ![E, A, 1]⟩ w')
    (keep : (⟨1, ![N]⟩ : Shape).Idx → EReal) (hkeep : ∀ n, keep n = 0 ∨ keep n = 1)
    (hrow : ∀ (e : Fin E) (a : Fin A) (b : Fin B),
      (idx (ix4 e a b (0 : Fin 2))).toInt = (rowidx (ix3 e a (0 : Fin 1))).toInt)
    (upd h : (⟨3, ![E, A, B]⟩ : Shape).Idx → EReal)
    (hh : ∀ (e : Fin E) (a : Fin A) (b : Fin B),
      h (ix3 e a b) = Host.gather (takeDims N E A wfg) keep rowidx (ix2 e a))
    (r : Fin N) (c : Fin M) :
    Ideal.hostScatterAdd (elemScatterDims N M E A B wf) (fun _ => 0) idx (fun j => upd j * h j) (ix2 r c)
      = Ideal.hostScatterAdd (elemScatterDims N M E A B wf) (fun _ => 0) idx upd (ix2 r c) * keep (ix1 r) := by
  have key := scatterAdd_mul_mask (elemScatterDims N M E A B wf) (fun _ => 0) idx upd h (fun _ => keep (ix1 r))
    (ix2 r c) (hkeep (ix1 r)) (by
      intro j hj
      obtain ⟨e, a, b, rfl⟩ : ∃ (e : Fin E) (a : Fin A) (b : Fin B), j = ix3 e a b := ⟨j 0, j 1, j 2, eq_ix3 j⟩
      have hv := ((elemScatter_resultIdx_eq_some_iff wf idx e a b r c).1 hj).1
      rw [hh e a b]
      exact gather_take_eq wfg keep rowidx e a r (by rw [← hrow e a b]; exact hv))
  rw [key, zero_add]

end RowMask

end Cert.LibScatter2

end
-- ==== Proof.EqStiff.lean ====
/-
  The assembled stiffness matrix.

  Both programs scatter-add the 6×6 element matrices into a 12000×12000 zero matrix at (row, column) = (the element's
  i-th, j-th degree of freedom), zero the rows of the constrained degrees of freedom, and write ones on their diagonal.
  One program zeroes a row by multiplying every element-matrix entry headed for it by the row's keep factor (1 on a free
  row, 0 on a constrained one) BEFORE the scatter-add; the other multiplies the assembled row by the same factor AFTER
  it. An entry of the assembled matrix is the sum of the updates landing on it; all of them carry the row's factor, which
  is 0 or 1, so the factor comes out of the sum and the two matrices agree entry by entry.
-/
import proofs.«145649_j20933670601054_2_alg».proof.Proof.KIRising
import proofs.«145649_j20933670601054_2_alg».proof.Proof.RefRun
import proofs.«145649_j20933670601054_2_alg».proof.Proof.LibSsaAfter
import proofs.«145649_j20933670601054_2_alg».proof.Proof.LibScatter2
import proofs.«145649_j20933670601054_2_alg».proof.Proof.Consts
import Idealize.ShloMosaic.Lib.Pipeline.Value

set_option maxRecDepth 16384

noncomputable section

namespace Cert.Alg

open Idealize.ShloMosaic Idealize.ShloMosaic.StableHlo Cert.LibSsaAfter Idealize.ShloMosaic.ValueIdx

local notation "KV" => Valuation Cert.KernelIdeal.τ Cert.KernelIdeal.sig (Elt Ideal)
local notation "RV" => Valuation Cert.ReferenceIdeal.τ Cert.ReferenceIdeal.sig (Elt Ideal)
local notation "Kops" => (Cert.KernelIdeal.Gen.hostOps1 (F := Ideal))
local notation "Rops" => (Cert.ReferenceIdeal.RefRun.ops (F := Ideal))

/-! ## The integer tables: both programs compute them by the same operations -/

/-- The table of degrees of freedom (two per vertex, six per element) is one function of the connectivity table. -/
theorem dofs_eq (U : KV) (M : RV) (h2 : U (Proc.devRef .tc Cert.KernelIdeal.main_arg2) = M (Proc.devRef .tc Cert.ReferenceIdeal.main_arg2)) :
    after Kops U (Proc.devRef .tc Cert.KernelIdeal.main_v81) = after Rops M (Proc.devRef .tc Cert.ReferenceIdeal.main_v148) := by
  rw [reshape_at_idx Cert.KernelIdeal.Hand.hostOps1_rising U 15 rfl,
    binary_at_idx Cert.KernelIdeal.Hand.hostOps1_rising U 14 rfl,
    unary_at_idx Cert.KernelIdeal.Hand.hostOps1_rising U 13 rfl,
    unary_at_idx Cert.KernelIdeal.Hand.hostOps1_rising U 12 rfl,
    binary_at_idx Cert.KernelIdeal.Hand.hostOps1_rising U 11 rfl,
    unary_at_idx Cert.KernelIdeal.Hand.hostOps1_rising U 10 rfl,
    nullary_at_idx Cert.KernelIdeal.Hand.hostOps1_rising U 9 rfl,
    binary_at_idx Cert.KernelIdeal.Hand.hostOps1_rising U 8 rfl,
    unary_at_idx Cert.KernelIdeal.Hand.hostOps1_rising U 7 rfl,
    nullary_at_idx Cert.KernelIdeal.Hand.hostOps1_rising U 6 rfl,
    binary_at_idx Cert.KernelIdeal.Hand.hostOps1_rising U 5 rfl,
    unary_at_idx Cert.KernelIdeal.Hand.hostOps1_rising U 4 rfl,
    nullary_at_idx Cert.KernelIdeal.Hand.hostOps1_rising U 3 rfl,
    after_of_lt Cert.KernelIdeal.Hand.hostOps1_rising U (b := Proc.devRef .tc Cert.KernelIdeal.main_arg2) (by decide)]
  rw [reshape_at_idx Cert.ReferenceIdeal.RefRun.rising M 174 rfl,
    binary_at_idx Cert.ReferenceIdeal.RefRun.rising M 173 rfl,
    unary_at_idx Cert.ReferenceIdeal.RefRun.rising M 172 rfl,
    unary_at_idx Cert.ReferenceIdeal.RefRun.rising M 171 rfl,
    binary_at_idx Cert.ReferenceIdeal.RefRun.rising M 170 rfl,
    unary_at_idx Cert.ReferenceIdeal.RefRun.rising M 169 rfl,
    nullary_at_idx Cert.ReferenceIdeal.RefRun.rising M 168 rfl,
    binary_at_idx Cert.ReferenceIdeal.RefRun.rising M 167 rfl,
    unary_at_idx Cert.ReferenceIdeal.RefRun.rising M 166 rfl,
    nullary_at_idx Cert.ReferenceIdeal.RefRun.rising M 165 rfl,
    binary_at_idx Cert.ReferenceIdeal.RefRun.rising M 164 rfl,
    unary_at_idx Cert.ReferenceIdeal.RefRun.rising M 163 rfl,
    nullary_at_idx Cert.ReferenceIdeal.RefRun.rising M 162 rfl,
    after_of_lt Cert.ReferenceIdeal.RefRun.rising M (b := Proc.devRef .tc Cert.ReferenceIdeal.main_arg2) (by decide)]
  rw [h2]
  rfl

/-- The (row, column) index tensor of the scatter-add is one function of the table of degrees of freedom. -/
theorem idx_eq (U : KV) (M : RV) (h2 : U (Proc.devRef .tc Cert.KernelIdeal.main_arg2) = M (Proc.devRef .tc Cert.ReferenceIdeal.main_arg2)) :
    after Kops U (Proc.devRef .tc Cert.KernelIdeal.main_v123) = after Rops M (Proc.devRef .tc Cert.ReferenceIdeal.main_v166) := by
  rw [binary_at_idx Cert.KernelIdeal.Hand.hostOps1_rising U 70 rfl,
    unary_at_idx Cert.KernelIdeal.Hand.hostOps1_rising U 69 rfl,
    unary_at_idx Cert.KernelIdeal.Hand.hostOps1_rising U 68 rfl,
    unary_at_idx Cert.KernelIdeal.Hand.hostOps1_rising U 67 rfl,
    unary_at_idx Cert.KernelIdeal.Hand.hostOps1_rising U 66 rfl,
    ternary_at_idx Cert.KernelIdeal.Hand.hostOps1_rising U 65 rfl,
    binary_at_idx Cert.KernelIdeal.Hand.hostOps1_rising U 64 rfl,
    unary_at_idx Cert.KernelIdeal.Hand.hostOps1_rising U 63 rfl,
    nullary_at_idx Cert.KernelIdeal.Hand.hostOps1_rising U 62 rfl,
    binary_at_idx Cert.KernelIdeal.Hand.hostOps1_rising U 61 rfl,
    unary_at_idx Cert.KernelIdeal.Hand.hostOps1_rising U 60 rfl,
    nullary_at_idx Cert.KernelIdeal.Hand.hostOps1_rising U 59 rfl,
    ternary_at_idx Cert.KernelIdeal.Hand.hostOps1_rising U 58 rfl,
    binary_at_idx Cert.KernelIdeal.Hand.hostOps1_rising U 57 rfl,
    unary_at_idx Cert.KernelIdeal.Hand.hostOps1_rising U 56 rfl,
    nullary_at_idx Cert.KernelIdeal.Hand.hostOps1_rising U 55 rfl,
    binary_at_idx Cert.KernelIdeal.Hand.hostOps1_rising U 54 rfl,
    unary_at_idx Cert.KernelIdeal.Hand.hostOps1_rising U 53 rfl,
    nullary_at_idx Cert.KernelIdeal.Hand.hostOps1_rising U 52 rfl,
    unary_at_idx Cert.KernelIdeal.Hand.hostOps1_rising U 51 rfl,
    unary_at_idx Cert.KernelIdeal.Hand.hostOps1_rising U 50 rfl]
  rw [binary_at_idx Cert.ReferenceIdeal.RefRun.rising M 197 rfl,
    unary_at_idx Cert.ReferenceIdeal.RefRun.rising M 196 rfl,
    unary_at_idx Cert.ReferenceIdeal.RefRun.rising M 195 rfl,
    unary_at_idx Cert.ReferenceIdeal.RefRun.rising M 194 rfl,
    unary_at_idx Cert.ReferenceIdeal.RefRun.rising M 193 rfl,
    ternary_at_idx Cert.ReferenceIdeal.RefRun.rising M 192 rfl,
    binary_at_idx Cert.ReferenceIdeal.RefRun.rising M 191 rfl,
    unary_at_idx Cert.ReferenceIdeal.RefRun.rising M 190 rfl,
    nullary_at_idx Cert.ReferenceIdeal.RefRun.rising M 189 rfl,
    binary_at_idx Cert.ReferenceIdeal.RefRun.rising M 188 rfl,
    unary_at_idx Cert.ReferenceIdeal.RefRun.rising M 187 rfl,
    nullary_at_idx Cert.ReferenceIdeal.RefRun.rising M 186 rfl,
    ternary_at_idx Cert.ReferenceIdeal.RefRun.rising M 185 rfl,
    binary_at_idx Cert.ReferenceIdeal.RefRun.rising M 184 rfl,
    unary_at_idx Cert.ReferenceIdeal.RefRun.rising M 183 rfl,
    nullary_at_idx Cert.ReferenceIdeal.RefRun.rising M 182 rfl,
    binary_at_idx Cert.ReferenceIdeal.RefRun.rising M 181 rfl,
    unary_at_idx Cert.ReferenceIdeal.RefRun.rising M 180 rfl,
    nullary_at_idx Cert.ReferenceIdeal.RefRun.rising M 179 rfl,
    unary_at_idx Cert.ReferenceIdeal.RefRun.rising M 178 rfl,
    unary_at_idx Cert.ReferenceIdeal.RefRun.rising M 177 rfl]
  rw [dofs_eq U M h2]

/-- The constrained degrees of freedom are one function of the constrained vertices and directions. -/
theorem rw_eq (U : KV) (M : RV) (h8 : U (Proc.devRef .tc Cert.KernelIdeal.main_arg8) = M (Proc.devRef .tc Cert.ReferenceIdeal.main_arg8)) (h9 : U (Proc.devRef .tc Cert.KernelIdeal.main_arg9) = M (Proc.devRef .tc Cert.ReferenceIdeal.main_arg9)) :
    after Kops U (Proc.devRef .tc Cert.KernelIdeal.main_v84) = after Rops M (Proc.devRef .tc Cert.ReferenceIdeal.main_v274) := by
  rw [binary_at_idx Cert.KernelIdeal.Hand.hostOps1_rising U 19 rfl,
    binary_at_idx Cert.KernelIdeal.Hand.hostOps1_rising U 18 rfl,
    unary_at_idx Cert.KernelIdeal.Hand.hostOps1_rising U 17 rfl,
    nullary_at_idx Cert.KernelIdeal.Hand.hostOps1_rising U 16 rfl,
    after_of_lt Cert.KernelIdeal.Hand.hostOps1_rising U (b := Proc.devRef .tc Cert.KernelIdeal.main_arg8) (by decide),
    after_of_lt Cert.KernelIdeal.Hand.hostOps1_rising U (b := Proc.devRef .tc Cert.KernelIdeal.main_arg9) (by decide)]
  rw [binary_at_idx Cert.ReferenceIdeal.RefRun.rising M 334 rfl,
    binary_at_idx Cert.ReferenceIdeal.RefRun.rising M 333 rfl,
    unary_at_idx Cert.ReferenceIdeal.RefRun.rising M 332 rfl,
    nullary_at_idx Cert.ReferenceIdeal.RefRun.rising M 331 rfl,
    after_of_lt Cert.ReferenceIdeal.RefRun.rising M (b := Proc.devRef .tc Cert.ReferenceIdeal.main_arg8) (by decide),
    after_of_lt Cert.ReferenceIdeal.RefRun.rising M (b := Proc.devRef .tc Cert.ReferenceIdeal.main_arg9) (by decide)]
  rw [h8, h9]

/-- The keep factor of every row (1 − the overwriting scatter of ones at the constrained rows) is one function of them. -/
theorem keep_eq (U : KV) (M : RV) (h8 : U (Proc.devRef .tc Cert.KernelIdeal.main_arg8) = M (Proc.devRef .tc Cert.ReferenceIdeal.main_arg8)) (h9 : U (Proc.devRef .tc Cert.KernelIdeal.main_arg9) = M (Proc.devRef .tc Cert.ReferenceIdeal.main_arg9)) :
    after Kops U (Proc.devRef .tc Cert.KernelIdeal.main_v95) = after Rops M (Proc.devRef .tc Cert.ReferenceIdeal.main_v285) := by
  rw [binary_at_idx Cert.KernelIdeal.Hand.hostOps1_rising U 35 rfl,
    unary_at_idx Cert.KernelIdeal.Hand.hostOps1_rising U 34 rfl,
    nullary_at_idx Cert.KernelIdeal.Hand.hostOps1_rising U 33 rfl,
    ternary_at_idx Cert.KernelIdeal.Hand.hostOps1_rising U 32 rfl,
    unary_at_idx Cert.KernelIdeal.Hand.hostOps1_rising U 31 rfl,
    nullary_at_idx Cert.KernelIdeal.Hand.hostOps1_rising U 30 rfl,
    unary_at_idx Cert.KernelIdeal.Hand.hostOps1_rising U 29 rfl,
    ternary_at_idx Cert.KernelIdeal.Hand.hostOps1_rising U 28 rfl,
    binary_at_idx Cert.KernelIdeal.Hand.hostOps1_rising U 27 rfl,
    unary_at_idx Cert.KernelIdeal.Hand.hostOps1_rising U 26 rfl,
    nullary_at_idx Cert.KernelIdeal.Hand.hostOps1_rising U 25 rfl,
    binary_at_idx Cert.KernelIdeal.Hand.hostOps1_rising U 24 rfl,
    unary_at_idx Cert.KernelIdeal.Hand.hostOps1_rising U 23 rfl,
    nullary_at_idx Cert.KernelIdeal.Hand.hostOps1_rising U 22 rfl,
    unary_at_idx Cert.KernelIdeal.Hand.hostOps1_rising U 21 rfl,
    nullary_at_idx Cert.KernelIdeal.Hand.hostOps1_rising U 20 rfl]
  rw [binary_at_idx Cert.ReferenceIdeal.RefRun.rising M 350 rfl,
    unary_at_idx Cert.ReferenceIdeal.RefRun.rising M 349 rfl,
    nullary_at_idx Cert.ReferenceIdeal.RefRun.rising M 348 rfl,
    ternary_at_idx Cert.ReferenceIdeal.RefRun.rising M 347 rfl,
    unary_at_idx Cert.ReferenceIdeal.RefRun.rising M 346 rfl,
    nullary_at_idx Cert.ReferenceIdeal.RefRun.rising M 345 rfl,
    unary_at_idx Cert.ReferenceIdeal.RefRun.rising M 344 rfl,
    ternary_at_idx Cert.ReferenceIdeal.RefRun.rising M 343 rfl,
    binary_at_idx Cert.ReferenceIdeal.RefRun.rising M 342 rfl,
    unary_at_idx Cert.ReferenceIdeal.RefRun.rising M 341 rfl,
    nullary_at_idx Cert.ReferenceIdeal.RefRun.rising M 340 rfl,
    binary_at_idx Cert.ReferenceIdeal.RefRun.rising M 339 rfl,
    unary_at_idx Cert.ReferenceIdeal.RefRun.rising M 338 rfl,
    nullary_at_idx Cert.ReferenceIdeal.RefRun.rising M 337 rfl,
    unary_at_idx Cert.ReferenceIdeal.RefRun.rising M 336 rfl,
    nullary_at_idx Cert.ReferenceIdeal.RefRun.rising M 335 rfl]
  rw [rw_eq U M h8 h9]
  rfl

/-- The diagonal positions of the constrained rows are one function of them. -/
theorem diag_eq (U : KV) (M : RV) (h8 : U (Proc.devRef .tc Cert.KernelIdeal.main_arg8) = M (Proc.devRef .tc Cert.ReferenceIdeal.main_arg8)) (h9 : U (Proc.devRef .tc Cert.KernelIdeal.main_arg9) = M (Proc.devRef .tc Cert.ReferenceIdeal.main_arg9)) :
    after Kops U (Proc.devRef .tc Cert.KernelIdeal.main_v137) = after Rops M (Proc.devRef .tc Cert.ReferenceIdeal.main_v301) := by
  rw [binary_at_idx Cert.KernelIdeal.Hand.hostOps1_rising U 88 rfl,
    unary_at_idx Cert.KernelIdeal.Hand.hostOps1_rising U 87 rfl,
    unary_at_idx Cert.KernelIdeal.Hand.hostOps1_rising U 86 rfl,
    ternary_at_idx Cert.KernelIdeal.Hand.hostOps1_rising U 85 rfl,
    binary_at_idx Cert.KernelIdeal.Hand.hostOps1_rising U 84 rfl,
    unary_at_idx Cert.KernelIdeal.Hand.hostOps1_rising U 83 rfl,
    nullary_at_idx Cert.KernelIdeal.Hand.hostOps1_rising U 82 rfl,
    binary_at_idx Cert.KernelIdeal.Hand.hostOps1_rising U 81 rfl,
    unary_at_idx Cert.KernelIdeal.Hand.hostOps1_rising U 80 rfl,
    nullary_at_idx Cert.KernelIdeal.Hand.hostOps1_rising U 79 rfl,
    ternary_at_idx Cert.KernelIdeal.Hand.hostOps1_rising U 78 rfl,
    binary_at_idx Cert.KernelIdeal.Hand.hostOps1_rising U 77 rfl,
    unary_at_idx Cert.KernelIdeal.Hand.hostOps1_rising U 76 rfl,
    nullary_at_idx Cert.KernelIdeal.Hand.hostOps1_rising U 75 rfl,
    binary_at_idx Cert.KernelIdeal.Hand.hostOps1_rising U 74 rfl,
    unary_at_idx Cert.KernelIdeal.Hand.hostOps1_rising U 73 rfl,
    nullary_at_idx Cert.KernelIdeal.Hand.hostOps1_rising U 72 rfl]
  rw [binary_at_idx Cert.ReferenceIdeal.RefRun.rising M 370 rfl,
    unary_at_idx Cert.ReferenceIdeal.RefRun.rising M 369 rfl,
    unary_at_idx Cert.ReferenceIdeal.RefRun.rising M 368 rfl,
    ternary_at_idx Cert.ReferenceIdeal.RefRun.rising M 367 rfl,
    binary_at_idx Cert.ReferenceIdeal.RefRun.rising M 366 rfl,
    unary_at_idx Cert.ReferenceIdeal.RefRun.rising M 365 rfl,
    nullary_at_idx Cert.ReferenceIdeal.RefRun.rising M 364 rfl,
    binary_at_idx Cert.ReferenceIdeal.RefRun.rising M 363 rfl,
    unary_at_idx Cert.ReferenceIdeal.RefRun.rising M 362 rfl,
    nullary_at_idx Cert.ReferenceIdeal.RefRun.rising M 361 rfl,
    ternary_at_idx Cert.ReferenceIdeal.RefRun.rising M 360 rfl,
    binary_at_idx Cert.ReferenceIdeal.RefRun.rising M 359 rfl,
    unary_at_idx Cert.ReferenceIdeal.RefRun.rising M 358 rfl,
    nullary_at_idx Cert.ReferenceIdeal.RefRun.rising M 357 rfl,
    binary_at_idx Cert.ReferenceIdeal.RefRun.rising M 356 rfl,
    unary_at_idx Cert.ReferenceIdeal.RefRun.rising M 355 rfl,
    nullary_at_idx Cert.ReferenceIdeal.RefRun.rising M 354 rfl]
  rw [rw_eq U M h8 h9]

/-- The ones written on the diagonal. -/
theorem ones_eq (U : KV) (M : RV) :
    after Kops U (Proc.devRef .tc Cert.KernelIdeal.main_v138) = after Rops M (Proc.devRef .tc Cert.ReferenceIdeal.main_v302) := by
  rw [unary_at_idx Cert.KernelIdeal.Hand.hostOps1_rising U 90 rfl,
    nullary_at_idx Cert.KernelIdeal.Hand.hostOps1_rising U 89 rfl]
  rw [unary_at_idx Cert.ReferenceIdeal.RefRun.rising M 372 rfl,
    nullary_at_idx Cert.ReferenceIdeal.RefRun.rising M 371 rfl]

/-! ## Reading the kernel program's masked scatter-add -/

local notation "wfS" => (Cert.KernelIdeal.Facts₀.scatter_S12000x12000_S12000x6x6x2_S12000x6x6_n_01_01_3_wf)
local notation "wfG" => (Cert.KernelIdeal.Facts₀.gather_S12000_S12000x6x1_S12000x6_n_0_n_n_0_2_1_wf)
local notation "dE" => (Cert.LibScatter2.elemScatterDims 12000 12000 12000 6 6 wfS)
/-- Wrapping a negative index (`x < 0 ? x + n : x`) is done entry by entry: two arrays that agree at a pair of
    indices, wrapped with constants that agree there, agree there after the wrap. -/
theorem wrap_read {s s' : Shape} (X C0 C1 : IVec s 32) (Y C0' C1' : IVec s' 32) (i : s.Idx) (i' : s'.Idx)
    (hX : X i = Y i') (h0 : C0 i = C0' i') (h1 : C1 i = C1' i') :
    select (cmpi .slt X C0) (addi X C1) X i = select (cmpi .slt Y C0') (addi Y C1') Y i' := by
  show Scalar.select (IntOp.cmpi .slt (X i) (C0 i)) (IntOp.addi (X i) (C1 i)) (X i)
    = Scalar.select (IntOp.cmpi .slt (Y i') (C0' i')) (IntOp.addi (Y i') (C1' i')) (Y i')
  rw [hX, h0, h1]

/-- The keep factor of every row is 0 or 1: it is 1 minus an array of zeros overwritten by ones. -/
theorem keep_zero_one (U : KV) (n : (⟨1, ![12000]⟩ : Shape).Idx) :
    after Kops U (Proc.devRef .tc Cert.KernelIdeal.main_v95) n = (0 : EReal) ∨ after Kops U (Proc.devRef .tc Cert.KernelIdeal.main_v95) n = (1 : EReal) := by
  rw [binary_at_idx Cert.KernelIdeal.Hand.hostOps1_rising U 35 rfl, unary_at_idx Cert.KernelIdeal.Hand.hostOps1_rising U 34 rfl, nullary_at_idx Cert.KernelIdeal.Hand.hostOps1_rising U 33 rfl,
    ternary_at_idx Cert.KernelIdeal.Hand.hostOps1_rising U 32 rfl, unary_at_idx Cert.KernelIdeal.Hand.hostOps1_rising U 31 rfl, nullary_at_idx Cert.KernelIdeal.Hand.hostOps1_rising U 30 rfl,
    unary_at_idx Cert.KernelIdeal.Hand.hostOps1_rising U 21 rfl, nullary_at_idx Cert.KernelIdeal.Hand.hostOps1_rising U 20 rfl]
  have hone : Ideal.ofBits .f32 0x3F800000#32 = (1 : EReal) := by rw [Cert.Consts.ofBits_one]; exact EReal.coe_one
  have h1 : ∀ (T : Shape) (h : (⟨0, ![]⟩ : Shape).BroadcastsInDim T ![]) (j : T.Idx),
      broadcastInDim T ![] h (constant (F := Ideal) ⟨0, ![]⟩ .f32 0x3F800000#32) j = (1 : EReal) := fun _ _ _ => hone
  have h0 : ∀ (T : Shape) (h : (⟨0, ![]⟩ : Shape).BroadcastsInDim T ![]) (j : T.Idx),
      broadcastInDim T ![] h (constant (F := Ideal) ⟨0, ![]⟩ .f32 0x00000000#32) j = (0 : EReal) := fun _ _ _ => Ideal.ofBits_zero_f32
  rw [subf_apply, h1]
  refine Cert.LibScatter2.one_sub_scatter_set_zero_one _ _ _ _ ?_ ?_ n
  · intro i; exact h0 _ _ i
  · intro j; exact h1 _ _ j

/-- The factor multiplied into update (e, a, b) is the keep factor gathered at the wrapped degree of freedom (e, a). -/
theorem kfactor_read (U : KV) (e : Fin 12000) (a b : Fin 6) :
    after Kops U (Proc.devRef .tc Cert.KernelIdeal.main_v104) (ix3 e a b)
      = Host.gather (takeDims 12000 12000 6 wfG) (after Kops U (Proc.devRef .tc Cert.KernelIdeal.main_v95)) (after Kops U (Proc.devRef .tc Cert.KernelIdeal.main_v101)) (ix2 e a) := by
  rw [unary_at_idx Cert.KernelIdeal.Hand.hostOps1_rising U 46 rfl]
  have hk5 : ∀ ax : Fin 3, ((ix3 e a (0 : Fin 1)) ax).val = if (⟨3, ![12000, 6, 1]⟩ : Shape).size ax = 1 then 0 else ((ix3 e a b) ((![0, 1, 2] : Fin 3 → Fin 3) ax)).val := by intro ax; match ax with | ⟨0, _⟩ => rfl | ⟨1, _⟩ => rfl | ⟨2, _⟩ => rfl
  refine (broadcastInDim_apply (s := ⟨3, ![12000, 6, 1]⟩) (t := ⟨3, ![12000, 6, 6]⟩) ![0, 1, 2] _ (after Kops U (Proc.devRef .tc Cert.KernelIdeal.main_v103)) (ix3 e a b) (ix3 e a (0 : Fin 1)) hk5).trans ?_
  rw [unary_at_idx Cert.KernelIdeal.Hand.hostOps1_rising U 45 rfl]
  have hk6 : ∀ ax : Fin 2, ((ix2 e a) ax).val = if (⟨2, ![12000, 6]⟩ : Shape).size ax = 1 then 0 else ((ix3 e a (0 : Fin 1)) ((![0, 1] : Fin 2 → Fin 3) ax)).val := by intro ax; match ax with | ⟨0, _⟩ => rfl | ⟨1, _⟩ => rfl
  refine (broadcastInDim_apply (s := ⟨2, ![12000, 6]⟩) (t := ⟨3, ![12000, 6, 1]⟩) ![0, 1] _ (after Kops U (Proc.devRef .tc Cert.KernelIdeal.main_v102)) (ix3 e a (0 : Fin 1)) (ix2 e a) hk6).trans ?_
  rw [binary_at_idx Cert.KernelIdeal.Hand.hostOps1_rising U 44 rfl]
  rfl

/-- The row component of update (e, a, b)'s scatter index is the same word as the index the keep factor was gathered
    at: the wrapped degree of freedom (e, a). -/
theorem krow_read (U : KV) (e : Fin 12000) (a b : Fin 6) :
    after Kops U (Proc.devRef .tc Cert.KernelIdeal.main_v123) (ix4 e a b (0 : Fin 2)) = after Kops U (Proc.devRef .tc Cert.KernelIdeal.main_v101) (ix3 e a (0 : Fin 1)) := by
  rw [binary_at_idx Cert.KernelIdeal.Hand.hostOps1_rising U 70 rfl]
  have hi : ∀ ax : Fin 4, ((ix4 e a b (0 : Fin 1)) ax).val = ((ix4 e a b (0 : Fin 2)) (ax.cast rfl)).val := by intro ax; match ax with | ⟨0, _⟩ => rfl | ⟨1, _⟩ => rfl | ⟨2, _⟩ => rfl | ⟨3, _⟩ => rfl
  refine (concatenate_pair_apply_left (t := ⟨4, ![12000, 6, 6, 2]⟩) (s₁ := ⟨4, ![12000, 6, 6, 1]⟩) (s₂ := ⟨4, ![12000, 6, 6, 1]⟩) (3 : Fin 4)
    (after Kops U (Proc.devRef .tc Cert.KernelIdeal.main_v121)) (after Kops U (Proc.devRef .tc Cert.KernelIdeal.main_v122)) _
    (ix4 e a b (0 : Fin 2)) rfl (ix4 e a b (0 : Fin 1)) hi).trans ?_
  rw [unary_at_idx Cert.KernelIdeal.Hand.hostOps1_rising U 68 rfl]
  have hk1 : ∀ ax : Fin 3, ((ix3 e a b) ax).val = if (⟨3, ![12000, 6, 6]⟩ : Shape).size ax = 1 then 0 else ((ix4 e a b (0 : Fin 1)) ((![0, 1, 2] : Fin 3 → Fin 4) ax)).val := by intro ax; match ax with | ⟨0, _⟩ => rfl | ⟨1, _⟩ => rfl | ⟨2, _⟩ => rfl
  refine (broadcastInDim_apply (s := ⟨3, ![12000, 6, 6]⟩) (t := ⟨4, ![12000, 6, 6, 1]⟩) ![0, 1, 2] _ (after Kops U (Proc.devRef .tc Cert.KernelIdeal.main_v119)) (ix4 e a b (0 : Fin 1)) (ix3 e a b) hk1).trans ?_
  rw [unary_at_idx Cert.KernelIdeal.Hand.hostOps1_rising U 66 rfl]
  have hk2 : ∀ ax : Fin 3, ((ix3 e a (0 : Fin 1)) ax).val = if (⟨3, ![12000, 6, 1]⟩ : Shape).size ax = 1 then 0 else ((ix3 e a b) ((![0, 1, 2] : Fin 3 → Fin 3) ax)).val := by intro ax; match ax with | ⟨0, _⟩ => rfl | ⟨1, _⟩ => rfl | ⟨2, _⟩ => rfl
  refine (broadcastInDim_apply (s := ⟨3, ![12000, 6, 1]⟩) (t := ⟨3, ![12000, 6, 6]⟩) ![0, 1, 2] _ (after Kops U (Proc.devRef .tc Cert.KernelIdeal.main_v113)) (ix3 e a b) (ix3 e a (0 : Fin 1)) hk2).trans ?_
  rw [unary_at_idx Cert.KernelIdeal.Hand.hostOps1_rising U 43 rfl]
  have hk3 : ∀ ax : Fin 2, ((ix2 e a) ax).val = if (⟨2, ![12000, 6]⟩ : Shape).size ax = 1 then 0 else ((ix3 e a (0 : Fin 1)) ((![0, 1] : Fin 2 → Fin 3) ax)).val := by intro ax; match ax with | ⟨0, _⟩ => rfl | ⟨1, _⟩ => rfl
  refine Eq.trans ?_ (broadcastInDim_apply (s := ⟨2, ![12000, 6]⟩) (t := ⟨3, ![12000, 6, 1]⟩) ![0, 1] _ (after Kops U (Proc.devRef .tc Cert.KernelIdeal.main_v100)) (ix3 e a (0 : Fin 1)) (ix2 e a) hk3).symm
  rw [ternary_at_idx Cert.KernelIdeal.Hand.hostOps1_rising U 58 rfl, binary_at_idx Cert.KernelIdeal.Hand.hostOps1_rising U 57 rfl, binary_at_idx Cert.KernelIdeal.Hand.hostOps1_rising U 54 rfl,
    ternary_at_idx Cert.KernelIdeal.Hand.hostOps1_rising U 42 rfl, binary_at_idx Cert.KernelIdeal.Hand.hostOps1_rising U 41 rfl, binary_at_idx Cert.KernelIdeal.Hand.hostOps1_rising U 38 rfl]
  refine wrap_read _ _ _ _ _ _ _ _ ?_ ?_ ?_
  · rw [unary_at_idx Cert.KernelIdeal.Hand.hostOps1_rising U 50 rfl]
    have hk4 : ∀ ax : Fin 2, ((ix2 e a) ax).val = if (⟨2, ![12000, 6]⟩ : Shape).size ax = 1 then 0 else ((ix3 e a (0 : Fin 1)) ((![0, 1] : Fin 2 → Fin 3) ax)).val := by intro ax; match ax with | ⟨0, _⟩ => rfl | ⟨1, _⟩ => rfl
    exact broadcastInDim_apply (s := ⟨2, ![12000, 6]⟩) (t := ⟨3, ![12000, 6, 1]⟩) ![0, 1] _ (after Kops U (Proc.devRef .tc Cert.KernelIdeal.main_v81)) (ix3 e a (0 : Fin 1)) (ix2 e a) hk4
  · rw [unary_at_idx Cert.KernelIdeal.Hand.hostOps1_rising U 53 rfl, nullary_at_idx Cert.KernelIdeal.Hand.hostOps1_rising U 52 rfl, unary_at_idx Cert.KernelIdeal.Hand.hostOps1_rising U 37 rfl, nullary_at_idx Cert.KernelIdeal.Hand.hostOps1_rising U 36 rfl]
    rfl
  · rw [unary_at_idx Cert.KernelIdeal.Hand.hostOps1_rising U 56 rfl, nullary_at_idx Cert.KernelIdeal.Hand.hostOps1_rising U 55 rfl, unary_at_idx Cert.KernelIdeal.Hand.hostOps1_rising U 40 rfl, nullary_at_idx Cert.KernelIdeal.Hand.hostOps1_rising U 39 rfl]
    rfl
/-- ENTRY (r, c) OF THE KERNEL PROGRAM'S ASSEMBLY: the scatter-add of the element matrices, each entry multiplied
    beforehand by the keep factor of its row, is the scatter-add of the plain element matrices times the keep factor of
    row r. -/
theorem kstiff_entry (U : KV) (r c : Fin 12000) :
    after Kops U (Proc.devRef .tc Cert.KernelIdeal.main_v124) (ix2 r c)
      = Ideal.hostScatterAdd dE (fun _ => 0) (after Kops U (Proc.devRef .tc Cert.KernelIdeal.main_v123)) (after Kops U (Proc.devRef .tc Cert.KernelIdeal.main_v71)) (ix2 r c)
        * after Kops U (Proc.devRef .tc Cert.KernelIdeal.main_v95) (ix1 r) := by
  have key := Cert.LibScatter2.elemScatterAdd_rowmask wfS wfG (after Kops U (Proc.devRef .tc Cert.KernelIdeal.main_v123)) (after Kops U (Proc.devRef .tc Cert.KernelIdeal.main_v101))
    (after Kops U (Proc.devRef .tc Cert.KernelIdeal.main_v95)) (keep_zero_one U)
    (fun e a b => congrArg BitVec.toInt (krow_read U e a b)) (after Kops U (Proc.devRef .tc Cert.KernelIdeal.main_v71)) (after Kops U (Proc.devRef .tc Cert.KernelIdeal.main_v104))
    (kfactor_read U) r c
  refine Eq.trans ?_ key
  rw [ternary_at_idx Cert.KernelIdeal.Hand.hostOps1_rising U 71 rfl, unary_at_idx Cert.KernelIdeal.Hand.hostOps1_rising U 49 rfl, nullary_at_idx Cert.KernelIdeal.Hand.hostOps1_rising U 48 rfl,
    binary_at_idx Cert.KernelIdeal.Hand.hostOps1_rising U 47 rfl]
  exact Cert.LibScatter2.scatterAdd_congr_at dE _ _ _ _ _ (ix2 r c) Ideal.ofBits_zero_f32 (fun j _ => rfl)

/-! ## Reading the reference's scatter-add and row mask -/

/-- ENTRY (r, c) OF THE REFERENCE'S ASSEMBLY: the scatter-add of the plain element matrices, times the keep factor of
    row r (the keep vector broadcast along the rows). -/
theorem rstiff_entry (M : RV) (r c : Fin 12000) :
    after Rops M (Proc.devRef .tc Cert.ReferenceIdeal.main_v288) (ix2 r c)
      = Ideal.hostScatterAdd dE (fun _ => 0) (after Rops M (Proc.devRef .tc Cert.ReferenceIdeal.main_v166)) (after Rops M (Proc.devRef .tc Cert.ReferenceIdeal.main_v138)) (ix2 r c)
        * after Rops M (Proc.devRef .tc Cert.ReferenceIdeal.main_v285) (ix1 r) := by
  have e1 : after Rops M (Proc.devRef .tc Cert.ReferenceIdeal.main_v167) (ix2 r c)
      = Ideal.hostScatterAdd dE (fun _ => 0) (after Rops M (Proc.devRef .tc Cert.ReferenceIdeal.main_v166)) (after Rops M (Proc.devRef .tc Cert.ReferenceIdeal.main_v138)) (ix2 r c) := by
    rw [ternary_at_idx Cert.ReferenceIdeal.RefRun.rising M 198 rfl, unary_at_idx Cert.ReferenceIdeal.RefRun.rising M 176 rfl, nullary_at_idx Cert.ReferenceIdeal.RefRun.rising M 175 rfl]
    exact Cert.LibScatter2.scatterAdd_congr_at dE _ _ _ _ _ (ix2 r c) Ideal.ofBits_zero_f32 (fun j _ => rfl)
  have e2 : after Rops M (Proc.devRef .tc Cert.ReferenceIdeal.main_v287) (ix2 r c) = after Rops M (Proc.devRef .tc Cert.ReferenceIdeal.main_v285) (ix1 r) := by
    rw [unary_at_idx Cert.ReferenceIdeal.RefRun.rising M 352 rfl]
    have hk7 : ∀ ax : Fin 2, ((ix2 r (0 : Fin 1)) ax).val = if (⟨2, ![12000, 1]⟩ : Shape).size ax = 1 then 0 else ((ix2 r c) ((![0, 1] : Fin 2 → Fin 2) ax)).val := by intro ax; match ax with | ⟨0, _⟩ => rfl | ⟨1, _⟩ => rfl
    refine (broadcastInDim_apply (s := ⟨2, ![12000, 1]⟩) (t := ⟨2, ![12000, 12000]⟩) ![0, 1] _ (after Rops M (Proc.devRef .tc Cert.ReferenceIdeal.main_v286)) (ix2 r c) (ix2 r (0 : Fin 1)) hk7).trans ?_
    rw [unary_at_idx Cert.ReferenceIdeal.RefRun.rising M 351 rfl]
    have hk8 : ∀ ax : Fin 1, ((ix1 r) ax).val = if (⟨1, ![12000]⟩ : Shape).size ax = 1 then 0 else ((ix2 r (0 : Fin 1)) ((![0] : Fin 1 → Fin 2) ax)).val := by intro ax; match ax with | ⟨0, _⟩ => rfl
    exact broadcastInDim_apply (s := ⟨1, ![12000]⟩) (t := ⟨2, ![12000, 1]⟩) ![0] _ (after Rops M (Proc.devRef .tc Cert.ReferenceIdeal.main_v285)) (ix2 r (0 : Fin 1)) (ix1 r) hk8
  rw [binary_at_idx Cert.ReferenceIdeal.RefRun.rising M 353 rfl, mulf_apply, e1, e2]

/-! ## The assembled matrices agree -/

/-- THE ASSEMBLED STIFFNESS MATRIX. From equal connectivity tables and constraint tables, and equal element matrices,
    the two programs assemble the same 12000×12000 matrix: entry by entry the masked-then-summed and the
    summed-then-masked assemblies agree, and the same ones are then written on the same diagonal positions. -/
theorem stiff_eq (U : KV) (M : RV) (h2 : U (Proc.devRef .tc Cert.KernelIdeal.main_arg2) = M (Proc.devRef .tc Cert.ReferenceIdeal.main_arg2))
    (h8 : U (Proc.devRef .tc Cert.KernelIdeal.main_arg8) = M (Proc.devRef .tc Cert.ReferenceIdeal.main_arg8))
    (h9 : U (Proc.devRef .tc Cert.KernelIdeal.main_arg9) = M (Proc.devRef .tc Cert.ReferenceIdeal.main_arg9))
    (hk : after Kops U (Proc.devRef .tc Cert.KernelIdeal.main_v71) = after Rops M (Proc.devRef .tc Cert.ReferenceIdeal.main_v138)) :
    after Kops U (Proc.devRef .tc Cert.KernelIdeal.main_v139) = after Rops M (Proc.devRef .tc Cert.ReferenceIdeal.main_v303) := by
  have hA : after Kops U (Proc.devRef .tc Cert.KernelIdeal.main_v124) = after Rops M (Proc.devRef .tc Cert.ReferenceIdeal.main_v288) := by
    funext p
    obtain ⟨r, c, rfl⟩ : ∃ (r : Fin 12000) (c : Fin 12000), p = ix2 r c := ⟨p 0, p 1, eq_ix2 p⟩
    rw [kstiff_entry U r c, rstiff_entry M r c, idx_eq U M h2, hk, keep_eq U M h8 h9]
  rw [ternary_at_idx Cert.KernelIdeal.Hand.hostOps1_rising U 91 rfl, ternary_at_idx Cert.ReferenceIdeal.RefRun.rising M 373 rfl, hA, diag_eq U M h8 h9, ones_eq U M]
  rfl

end Cert.Alg

end
-- ==== Proof.EqResid.lean ====
/-
  The load vector is computed by the same host operations in both programs.

  After its region the kernel program computes the load vector by a line of host operations; the reference computes
  it by a line of its own. Read backwards from the two final buffers, the two lines are the same expression tree:
  operation for operation the same function of corresponding operands, down to the argument arrays and the constant
  index table. Both lines are in single-assignment order, so each operation can be read on its own off the final
  contents: the buffer it writes holds its function of what its operands' buffers hold. Hence, leaf by leaf and then
  operation by operation, corresponding buffers hold equal contents whenever the two programs' arguments agree.
-/
import proofs.«145649_j20933670601054_2_alg».proof.Proof.RefRun
import proofs.«145649_j20933670601054_2_alg».proof.Proof.KIRising

set_option maxRecDepth 16384

noncomputable section

namespace Cert.Alg

open Idealize.ShloMosaic Idealize.ShloMosaic.TcCoe Idealize.SL.Sem Idealize.ShloMosaic.StableHlo Cert.LibSsaAfter

/-- The kernel program's host line after its region, and the reference's whole line, at the exact values. -/
abbrev kops : List (HloOp Cert.KernelIdeal.τ Cert.KernelIdeal.sig (Elt Ideal)) := Cert.KernelIdeal.Gen.hostOps1 (F := Ideal)
abbrev rops : List (HloOp Cert.ReferenceIdeal.τ Cert.ReferenceIdeal.sig (Elt Ideal)) := Cert.ReferenceIdeal.RefRun.ops (F := Ideal)

theorem krising : Rising 107 341 kops := Cert.KernelIdeal.Hand.hostOps1_rising (F := Ideal)
theorem rrising : Rising 11 395 rops := Cert.ReferenceIdeal.RefRun.rising (F := Ideal)

/-! ## What the two starting contents share

The argument arrays the load vector reads hold the same contents in both, and the kernel program's constant index table is
in place (the reference's line writes its own). Every equation below is stated at the reference's name of the array type;
the kernel program's name of it is the same literal shape. -/

section

variable {U : Valuation Cert.KernelIdeal.τ Cert.KernelIdeal.sig (Elt Ideal)} {M : Valuation Cert.ReferenceIdeal.τ Cert.ReferenceIdeal.sig (Elt Ideal)}
  (h0 : @Eq ((⟨Cert.ReferenceIdeal.S6000, .f32⟩ : BufTy).Contents (Elt Ideal)) (U (Proc.devRef .tc Cert.KernelIdeal.main_arg0)) (M (Proc.devRef .tc Cert.ReferenceIdeal.main_arg0)))
  (h1 : @Eq ((⟨Cert.ReferenceIdeal.S6000, .f32⟩ : BufTy).Contents (Elt Ideal)) (U (Proc.devRef .tc Cert.KernelIdeal.main_arg1)) (M (Proc.devRef .tc Cert.ReferenceIdeal.main_arg1)))
  (h2 : @Eq ((⟨Cert.ReferenceIdeal.S12000x3, .i32⟩ : BufTy).Contents (Elt Ideal)) (U (Proc.devRef .tc Cert.KernelIdeal.main_arg2)) (M (Proc.devRef .tc Cert.ReferenceIdeal.main_arg2)))
  (h4 : @Eq ((⟨Cert.ReferenceIdeal.S400, .i32⟩ : BufTy).Contents (Elt Ideal)) (U (Proc.devRef .tc Cert.KernelIdeal.main_arg4)) (M (Proc.devRef .tc Cert.ReferenceIdeal.main_arg4)))
  (h5 : @Eq ((⟨Cert.ReferenceIdeal.S400, .i32⟩ : BufTy).Contents (Elt Ideal)) (U (Proc.devRef .tc Cert.KernelIdeal.main_arg5)) (M (Proc.devRef .tc Cert.ReferenceIdeal.main_arg5)))
  (h6 : @Eq ((⟨Cert.ReferenceIdeal.S400, .f32⟩ : BufTy).Contents (Elt Ideal)) (U (Proc.devRef .tc Cert.KernelIdeal.main_arg6)) (M (Proc.devRef .tc Cert.ReferenceIdeal.main_arg6)))
  (h7 : @Eq ((⟨Cert.ReferenceIdeal.S400, .f32⟩ : BufTy).Contents (Elt Ideal)) (U (Proc.devRef .tc Cert.KernelIdeal.main_arg7)) (M (Proc.devRef .tc Cert.ReferenceIdeal.main_arg7)))
  (h8 : @Eq ((⟨Cert.ReferenceIdeal.S200, .i32⟩ : BufTy).Contents (Elt Ideal)) (U (Proc.devRef .tc Cert.KernelIdeal.main_arg8)) (M (Proc.devRef .tc Cert.ReferenceIdeal.main_arg8)))
  (h9 : @Eq ((⟨Cert.ReferenceIdeal.S200, .i32⟩ : BufTy).Contents (Elt Ideal)) (U (Proc.devRef .tc Cert.KernelIdeal.main_arg9)) (M (Proc.devRef .tc Cert.ReferenceIdeal.main_arg9)))
  (h10 : @Eq ((⟨Cert.ReferenceIdeal.S200, .f32⟩ : BufTy).Contents (Elt Ideal)) (U (Proc.devRef .tc Cert.KernelIdeal.main_arg10)) (M (Proc.devRef .tc Cert.ReferenceIdeal.main_arg10)))
  (hc : @Eq ((⟨Cert.ReferenceIdeal.S3, .i32⟩ : BufTy).Contents (Elt Ideal)) (U (Proc.devRef .tc Cert.KernelIdeal.main_c)) (fun i => Cert.KernelIdeal.lit0 (Cert.KernelIdeal.S3.rowMajor i)))

include h0 h1 h2 h4 h5 h6 h7 h8 h9 h10 hc

/-! ## The leaves: the arguments (below both lines' ranks) and the constant index table -/

theorem e_arg0 :
    @Eq ((⟨Cert.ReferenceIdeal.S6000, .f32⟩ : BufTy).Contents (Elt Ideal))
      (after kops U (Proc.devRef .tc Cert.KernelIdeal.main_arg0)) (after rops M (Proc.devRef .tc Cert.ReferenceIdeal.main_arg0)) :=
  (after_of_lt krising U (b := Proc.devRef .tc Cert.KernelIdeal.main_arg0) (by decide)).trans
    (h0.trans (after_of_lt rrising M (b := Proc.devRef .tc Cert.ReferenceIdeal.main_arg0) (by decide)).symm)

theorem e_arg1 :
    @Eq ((⟨Cert.ReferenceIdeal.S6000, .f32⟩ : BufTy).Contents (Elt Ideal))
      (after kops U (Proc.devRef .tc Cert.KernelIdeal.main_arg1)) (after rops M (Proc.devRef .tc Cert.ReferenceIdeal.main_arg1)) :=
  (after_of_lt krising U (b := Proc.devRef .tc Cert.KernelIdeal.main_arg1) (by decide)).trans
    (h1.trans (after_of_lt rrising M (b := Proc.devRef .tc Cert.ReferenceIdeal.main_arg1) (by decide)).symm)

theorem e_arg2 :
    @Eq ((⟨Cert.ReferenceIdeal.S12000x3, .i32⟩ : BufTy).Contents (Elt Ideal))
      (after kops U (Proc.devRef .tc Cert.KernelIdeal.main_arg2)) (after rops M (Proc.devRef .tc Cert.ReferenceIdeal.main_arg2)) :=
  (after_of_lt krising U (b := Proc.devRef .tc Cert.KernelIdeal.main_arg2) (by decide)).trans
    (h2.trans (after_of_lt rrising M (b := Proc.devRef .tc Cert.ReferenceIdeal.main_arg2) (by decide)).symm)

theorem e_arg4 :
    @Eq ((⟨Cert.ReferenceIdeal.S400, .i32⟩ : BufTy).Contents (Elt Ideal))
      (after kops U (Proc.devRef .tc Cert.KernelIdeal.main_arg4)) (after rops M (Proc.devRef .tc Cert.ReferenceIdeal.main_arg4)) :=
  (after_of_lt krising U (b := Proc.devRef .tc Cert.KernelIdeal.main_arg4) (by decide)).trans
    (h4.trans (after_of_lt rrising M (b := Proc.devRef .tc Cert.ReferenceIdeal.main_arg4) (by decide)).symm)

theorem e_arg5 :
    @Eq ((⟨Cert.ReferenceIdeal.S400, .i32⟩ : BufTy).Contents (Elt Ideal))
      (after kops U (Proc.devRef .tc Cert.KernelIdeal.main_arg5)) (after rops M (Proc.devRef .tc Cert.ReferenceIdeal.main_arg5)) :=
  (after_of_lt krising U (b := Proc.devRef .tc Cert.KernelIdeal.main_arg5) (by decide)).trans
    (h5.trans (after_of_lt rrising M (b := Proc.devRef .tc Cert.ReferenceIdeal.main_arg5) (by decide)).symm)

theorem e_arg6 :
    @Eq ((⟨Cert.ReferenceIdeal.S400, .f32⟩ : BufTy).Contents (Elt Ideal))
      (after kops U (Proc.devRef .tc Cert.KernelIdeal.main_arg6)) (after rops M (Proc.devRef .tc Cert.ReferenceIdeal.main_arg6)) :=
  (after_of_lt krising U (b := Proc.devRef .tc Cert.KernelIdeal.main_arg6) (by decide)).trans
    (h6.trans (after_of_lt rrising M (b := Proc.devRef .tc Cert.ReferenceIdeal.main_arg6) (by decide)).symm)

theorem e_arg7 :
    @Eq ((⟨Cert.ReferenceIdeal.S400, .f32⟩ : BufTy).Contents (Elt Ideal))
      (after kops U (Proc.devRef .tc Cert.KernelIdeal.main_arg7)) (after rops M (Proc.devRef .tc Cert.ReferenceIdeal.main_arg7)) :=
  (after_of_lt krising U (b := Proc.devRef .tc Cert.KernelIdeal.main_arg7) (by decide)).trans
    (h7.trans (after_of_lt rrising M (b := Proc.devRef .tc Cert.ReferenceIdeal.main_arg7) (by decide)).symm)

theorem e_arg8 :
    @Eq ((⟨Cert.ReferenceIdeal.S200, .i32⟩ : BufTy).Contents (Elt Ideal))
      (after kops U (Proc.devRef .tc Cert.KernelIdeal.main_arg8)) (after rops M (Proc.devRef .tc Cert.ReferenceIdeal.main_arg8)) :=
  (after_of_lt krising U (b := Proc.devRef .tc Cert.KernelIdeal.main_arg8) (by decide)).trans
    (h8.trans (after_of_lt rrising M (b := Proc.devRef .tc Cert.ReferenceIdeal.main_arg8) (by decide)).symm)

theorem e_arg9 :
    @Eq ((⟨Cert.ReferenceIdeal.S200, .i32⟩ : BufTy).Contents (Elt Ideal))
      (after kops U (Proc.devRef .tc Cert.KernelIdeal.main_arg9)) (after rops M (Proc.devRef .tc Cert.ReferenceIdeal.main_arg9)) :=
  (after_of_lt krising U (b := Proc.devRef .tc Cert.KernelIdeal.main_arg9) (by decide)).trans
    (h9.trans (after_of_lt rrising M (b := Proc.devRef .tc Cert.ReferenceIdeal.main_arg9) (by decide)).symm)

theorem e_arg10 :
    @Eq ((⟨Cert.ReferenceIdeal.S200, .f32⟩ : BufTy).Contents (Elt Ideal))
      (after kops U (Proc.devRef .tc Cert.KernelIdeal.main_arg10)) (after rops M (Proc.devRef .tc Cert.ReferenceIdeal.main_arg10)) :=
  (after_of_lt krising U (b := Proc.devRef .tc Cert.KernelIdeal.main_arg10) (by decide)).trans
    (h10.trans (after_of_lt rrising M (b := Proc.devRef .tc Cert.ReferenceIdeal.main_arg10) (by decide)).symm)

theorem e_c :
    @Eq ((⟨Cert.ReferenceIdeal.S3, .i32⟩ : BufTy).Contents (Elt Ideal))
      (after kops U (Proc.devRef .tc Cert.KernelIdeal.main_c)) (after rops M (Proc.devRef .tc Cert.ReferenceIdeal.main_c)) :=
  (after_of_lt krising U (b := Proc.devRef .tc Cert.KernelIdeal.main_c) (by decide)).trans
    (hc.trans (nullary_at_idx rrising M 2 rfl).symm)

/-! ## Operation by operation, in the kernel program's order -/

theorem e_c_22 :
    @Eq ((⟨Cert.ReferenceIdeal.S_, .i32⟩ : BufTy).Contents (Elt Ideal))
      (after kops U (Proc.devRef .tc Cert.KernelIdeal.main_c_22)) (after rops M (Proc.devRef .tc Cert.ReferenceIdeal.main_c_54)) := by
  rw [nullary_at_idx krising U 16 rfl, nullary_at_idx rrising M 331 rfl]
  all_goals rfl

theorem e_v82 :
    @Eq ((⟨Cert.ReferenceIdeal.S200, .i32⟩ : BufTy).Contents (Elt Ideal))
      (after kops U (Proc.devRef .tc Cert.KernelIdeal.main_v82)) (after rops M (Proc.devRef .tc Cert.ReferenceIdeal.main_v272)) := by
  rw [unary_at_idx krising U 17 rfl, unary_at_idx rrising M 332 rfl, e_c_22 h0 h1 h2 h4 h5 h6 h7 h8 h9 h10 hc]
  all_goals rfl

theorem e_v83 :
    @Eq ((⟨Cert.ReferenceIdeal.S200, .i32⟩ : BufTy).Contents (Elt Ideal))
      (after kops U (Proc.devRef .tc Cert.KernelIdeal.main_v83)) (after rops M (Proc.devRef .tc Cert.ReferenceIdeal.main_v273)) := by
  rw [binary_at_idx krising U 18 rfl, binary_at_idx rrising M 333 rfl, e_v82 h0 h1 h2 h4 h5 h6 h7 h8 h9 h10 hc, e_arg8 h0 h1 h2 h4 h5 h6 h7 h8 h9 h10 hc]
  all_goals rfl

theorem e_v84 :
    @Eq ((⟨Cert.ReferenceIdeal.S200, .i32⟩ : BufTy).Contents (Elt Ideal))
      (after kops U (Proc.devRef .tc Cert.KernelIdeal.main_v84)) (after rops M (Proc.devRef .tc Cert.ReferenceIdeal.main_v274)) := by
  rw [binary_at_idx krising U 19 rfl, binary_at_idx rrising M 334 rfl, e_v83 h0 h1 h2 h4 h5 h6 h7 h8 h9 h10 hc, e_arg9 h0 h1 h2 h4 h5 h6 h7 h8 h9 h10 hc]
  all_goals rfl

theorem e_c_39 :
    @Eq ((⟨Cert.ReferenceIdeal.S_, .i32⟩ : BufTy).Contents (Elt Ideal))
      (after kops U (Proc.devRef .tc Cert.KernelIdeal.main_c_39)) (after rops M (Proc.devRef .tc Cert.ReferenceIdeal.main_c_26)) := by
  rw [nullary_at_idx krising U 92 rfl, nullary_at_idx rrising M 199 rfl]
  all_goals rfl

theorem e_v140 :
    @Eq ((⟨Cert.ReferenceIdeal.S400, .i32⟩ : BufTy).Contents (Elt Ideal))
      (after kops U (Proc.devRef .tc Cert.KernelIdeal.main_v140)) (after rops M (Proc.devRef .tc Cert.ReferenceIdeal.main_v168)) := by
  rw [unary_at_idx krising U 93 rfl, unary_at_idx rrising M 200 rfl, e_c_39 h0 h1 h2 h4 h5 h6 h7 h8 h9 h10 hc]
  all_goals rfl

theorem e_v141 :
    @Eq ((⟨Cert.ReferenceIdeal.S400, .i1⟩ : BufTy).Contents (Elt Ideal))
      (after kops U (Proc.devRef .tc Cert.KernelIdeal.main_v141)) (after rops M (Proc.devRef .tc Cert.ReferenceIdeal.main_v169)) := by
  rw [binary_at_idx krising U 94 rfl, binary_at_idx rrising M 201 rfl, e_arg4 h0 h1 h2 h4 h5 h6 h7 h8 h9 h10 hc, e_v140 h0 h1 h2 h4 h5 h6 h7 h8 h9 h10 hc]
  all_goals rfl

theorem e_c_40 :
    @Eq ((⟨Cert.ReferenceIdeal.S_, .i32⟩ : BufTy).Contents (Elt Ideal))
      (after kops U (Proc.devRef .tc Cert.KernelIdeal.main_c_40)) (after rops M (Proc.devRef .tc Cert.ReferenceIdeal.main_c_27)) := by
  rw [nullary_at_idx krising U 95 rfl, nullary_at_idx rrising M 202 rfl]
  all_goals rfl

theorem e_v142 :
    @Eq ((⟨Cert.ReferenceIdeal.S400, .i32⟩ : BufTy).Contents (Elt Ideal))
      (after kops U (Proc.devRef .tc Cert.KernelIdeal.main_v142)) (after rops M (Proc.devRef .tc Cert.ReferenceIdeal.main_v170)) := by
  rw [unary_at_idx krising U 96 rfl, unary_at_idx rrising M 203 rfl, e_c_40 h0 h1 h2 h4 h5 h6 h7 h8 h9 h10 hc]
  all_goals rfl

theorem e_v143 :
    @Eq ((⟨Cert.ReferenceIdeal.S400, .i32⟩ : BufTy).Contents (Elt Ideal))
      (after kops U (Proc.devRef .tc Cert.KernelIdeal.main_v143)) (after rops M (Proc.devRef .tc Cert.ReferenceIdeal.main_v171)) := by
  rw [binary_at_idx krising U 97 rfl, binary_at_idx rrising M 204 rfl, e_arg4 h0 h1 h2 h4 h5 h6 h7 h8 h9 h10 hc, e_v142 h0 h1 h2 h4 h5 h6 h7 h8 h9 h10 hc]
  all_goals rfl

theorem e_v144 :
    @Eq ((⟨Cert.ReferenceIdeal.S400, .i32⟩ : BufTy).Contents (Elt Ideal))
      (after kops U (Proc.devRef .tc Cert.KernelIdeal.main_v144)) (after rops M (Proc.devRef .tc Cert.ReferenceIdeal.main_v172)) := by
  rw [ternary_at_idx krising U 98 rfl, ternary_at_idx rrising M 205 rfl, e_v141 h0 h1 h2 h4 h5 h6 h7 h8 h9 h10 hc, e_v143 h0 h1 h2 h4 h5 h6 h7 h8 h9 h10 hc, e_arg4 h0 h1 h2 h4 h5 h6 h7 h8 h9 h10 hc]
  all_goals rfl

theorem e_c_41 :
    @Eq ((⟨Cert.ReferenceIdeal.S_, .i32⟩ : BufTy).Contents (Elt Ideal))
      (after kops U (Proc.devRef .tc Cert.KernelIdeal.main_c_41)) (after rops M (Proc.devRef .tc Cert.ReferenceIdeal.main_c_28)) := by
  rw [nullary_at_idx krising U 99 rfl, nullary_at_idx rrising M 206 rfl]
  all_goals rfl

theorem e_v145 :
    @Eq ((⟨Cert.ReferenceIdeal.S400, .i32⟩ : BufTy).Contents (Elt Ideal))
      (after kops U (Proc.devRef .tc Cert.KernelIdeal.main_v145)) (after rops M (Proc.devRef .tc Cert.ReferenceIdeal.main_v173)) := by
  rw [unary_at_idx krising U 100 rfl, unary_at_idx rrising M 207 rfl, e_c_41 h0 h1 h2 h4 h5 h6 h7 h8 h9 h10 hc]
  all_goals rfl

theorem e_v146 :
    @Eq ((⟨Cert.ReferenceIdeal.S400, .i1⟩ : BufTy).Contents (Elt Ideal))
      (after kops U (Proc.devRef .tc Cert.KernelIdeal.main_v146)) (after rops M (Proc.devRef .tc Cert.ReferenceIdeal.main_v174)) := by
  rw [binary_at_idx krising U 101 rfl, binary_at_idx rrising M 208 rfl, e_arg5 h0 h1 h2 h4 h5 h6 h7 h8 h9 h10 hc, e_v145 h0 h1 h2 h4 h5 h6 h7 h8 h9 h10 hc]
  all_goals rfl

theorem e_c_42 :
    @Eq ((⟨Cert.ReferenceIdeal.S_, .i32⟩ : BufTy).Contents (Elt Ideal))
      (after kops U (Proc.devRef .tc Cert.KernelIdeal.main_c_42)) (after rops M (Proc.devRef .tc Cert.ReferenceIdeal.main_c_29)) := by
  rw [nullary_at_idx krising U 102 rfl, nullary_at_idx rrising M 209 rfl]
  all_goals rfl

theorem e_v147 :
    @Eq ((⟨Cert.ReferenceIdeal.S400, .i32⟩ : BufTy).Contents (Elt Ideal))
      (after kops U (Proc.devRef .tc Cert.KernelIdeal.main_v147)) (after rops M (Proc.devRef .tc Cert.ReferenceIdeal.main_v175)) := by
  rw [unary_at_idx krising U 103 rfl, unary_at_idx rrising M 210 rfl, e_c_42 h0 h1 h2 h4 h5 h6 h7 h8 h9 h10 hc]
  all_goals rfl

theorem e_v148 :
    @Eq ((⟨Cert.ReferenceIdeal.S400, .i32⟩ : BufTy).Contents (Elt Ideal))
      (after kops U (Proc.devRef .tc Cert.KernelIdeal.main_v148)) (after rops M (Proc.devRef .tc Cert.ReferenceIdeal.main_v176)) := by
  rw [binary_at_idx krising U 104 rfl, binary_at_idx rrising M 211 rfl, e_arg5 h0 h1 h2 h4 h5 h6 h7 h8 h9 h10 hc, e_v147 h0 h1 h2 h4 h5 h6 h7 h8 h9 h10 hc]
  all_goals rfl

theorem e_v149 :
    @Eq ((⟨Cert.ReferenceIdeal.S400, .i32⟩ : BufTy).Contents (Elt Ideal))
      (after kops U (Proc.devRef .tc Cert.KernelIdeal.main_v149)) (after rops M (Proc.devRef .tc Cert.ReferenceIdeal.main_v177)) := by
  rw [ternary_at_idx krising U 105 rfl, ternary_at_idx rrising M 212 rfl, e_v146 h0 h1 h2 h4 h5 h6 h7 h8 h9 h10 hc, e_v148 h0 h1 h2 h4 h5 h6 h7 h8 h9 h10 hc, e_arg5 h0 h1 h2 h4 h5 h6 h7 h8 h9 h10 hc]
  all_goals rfl

theorem e_v150 :
    @Eq ((⟨Cert.ReferenceIdeal.S400x1, .i32⟩ : BufTy).Contents (Elt Ideal))
      (after kops U (Proc.devRef .tc Cert.KernelIdeal.main_v150)) (after rops M (Proc.devRef .tc Cert.ReferenceIdeal.main_v178)) := by
  rw [unary_at_idx krising U 106 rfl, unary_at_idx rrising M 213 rfl, e_v144 h0 h1 h2 h4 h5 h6 h7 h8 h9 h10 hc]
  all_goals rfl

theorem e_v151 :
    @Eq ((⟨Cert.ReferenceIdeal.S400x1, .i32⟩ : BufTy).Contents (Elt Ideal))
      (after kops U (Proc.devRef .tc Cert.KernelIdeal.main_v151)) (after rops M (Proc.devRef .tc Cert.ReferenceIdeal.main_v179)) := by
  rw [unary_at_idx krising U 107 rfl, unary_at_idx rrising M 214 rfl, e_v149 h0 h1 h2 h4 h5 h6 h7 h8 h9 h10 hc]
  all_goals rfl

theorem e_v152 :
    @Eq ((⟨Cert.ReferenceIdeal.S400x2, .i32⟩ : BufTy).Contents (Elt Ideal))
      (after kops U (Proc.devRef .tc Cert.KernelIdeal.main_v152)) (after rops M (Proc.devRef .tc Cert.ReferenceIdeal.main_v180)) := by
  rw [binary_at_idx krising U 108 rfl, binary_at_idx rrising M 215 rfl, e_v150 h0 h1 h2 h4 h5 h6 h7 h8 h9 h10 hc, e_v151 h0 h1 h2 h4 h5 h6 h7 h8 h9 h10 hc]
  all_goals rfl

theorem e_v153 :
    @Eq ((⟨Cert.ReferenceIdeal.S400, .i32⟩ : BufTy).Contents (Elt Ideal))
      (after kops U (Proc.devRef .tc Cert.KernelIdeal.main_v153)) (after rops M (Proc.devRef .tc Cert.ReferenceIdeal.main_v181)) := by
  rw [binary_at_idx krising U 109 rfl, binary_at_idx rrising M 216 rfl, e_arg2 h0 h1 h2 h4 h5 h6 h7 h8 h9 h10 hc, e_v152 h0 h1 h2 h4 h5 h6 h7 h8 h9 h10 hc]
  all_goals rfl

theorem e_c_43 :
    @Eq ((⟨Cert.ReferenceIdeal.S_, .i32⟩ : BufTy).Contents (Elt Ideal))
      (after kops U (Proc.devRef .tc Cert.KernelIdeal.main_c_43)) (after rops M (Proc.devRef .tc Cert.ReferenceIdeal.main_c_30)) := by
  rw [nullary_at_idx krising U 110 rfl, nullary_at_idx rrising M 217 rfl]
  all_goals rfl

theorem e_v154 :
    @Eq ((⟨Cert.ReferenceIdeal.S400, .i32⟩ : BufTy).Contents (Elt Ideal))
      (after kops U (Proc.devRef .tc Cert.KernelIdeal.main_v154)) (after rops M (Proc.devRef .tc Cert.ReferenceIdeal.main_v182)) := by
  rw [unary_at_idx krising U 111 rfl, unary_at_idx rrising M 218 rfl, e_c_43 h0 h1 h2 h4 h5 h6 h7 h8 h9 h10 hc]
  all_goals rfl

theorem e_v155 :
    @Eq ((⟨Cert.ReferenceIdeal.S400, .i1⟩ : BufTy).Contents (Elt Ideal))
      (after kops U (Proc.devRef .tc Cert.KernelIdeal.main_v155)) (after rops M (Proc.devRef .tc Cert.ReferenceIdeal.main_v183)) := by
  rw [binary_at_idx krising U 112 rfl, binary_at_idx rrising M 219 rfl, e_arg5 h0 h1 h2 h4 h5 h6 h7 h8 h9 h10 hc, e_v154 h0 h1 h2 h4 h5 h6 h7 h8 h9 h10 hc]
  all_goals rfl

theorem e_c_44 :
    @Eq ((⟨Cert.ReferenceIdeal.S_, .i32⟩ : BufTy).Contents (Elt Ideal))
      (after kops U (Proc.devRef .tc Cert.KernelIdeal.main_c_44)) (after rops M (Proc.devRef .tc Cert.ReferenceIdeal.main_c_31)) := by
  rw [nullary_at_idx krising U 113 rfl, nullary_at_idx rrising M 220 rfl]
  all_goals rfl

theorem e_v156 :
    @Eq ((⟨Cert.ReferenceIdeal.S400, .i32⟩ : BufTy).Contents (Elt Ideal))
      (after kops U (Proc.devRef .tc Cert.KernelIdeal.main_v156)) (after rops M (Proc.devRef .tc Cert.ReferenceIdeal.main_v184)) := by
  rw [unary_at_idx krising U 114 rfl, unary_at_idx rrising M 221 rfl, e_c_44 h0 h1 h2 h4 h5 h6 h7 h8 h9 h10 hc]
  all_goals rfl

theorem e_v157 :
    @Eq ((⟨Cert.ReferenceIdeal.S400, .i32⟩ : BufTy).Contents (Elt Ideal))
      (after kops U (Proc.devRef .tc Cert.KernelIdeal.main_v157)) (after rops M (Proc.devRef .tc Cert.ReferenceIdeal.main_v185)) := by
  rw [binary_at_idx krising U 115 rfl, binary_at_idx rrising M 222 rfl, e_arg5 h0 h1 h2 h4 h5 h6 h7 h8 h9 h10 hc, e_v156 h0 h1 h2 h4 h5 h6 h7 h8 h9 h10 hc]
  all_goals rfl

theorem e_v158 :
    @Eq ((⟨Cert.ReferenceIdeal.S400, .i32⟩ : BufTy).Contents (Elt Ideal))
      (after kops U (Proc.devRef .tc Cert.KernelIdeal.main_v158)) (after rops M (Proc.devRef .tc Cert.ReferenceIdeal.main_v186)) := by
  rw [ternary_at_idx krising U 116 rfl, ternary_at_idx rrising M 223 rfl, e_v155 h0 h1 h2 h4 h5 h6 h7 h8 h9 h10 hc, e_v157 h0 h1 h2 h4 h5 h6 h7 h8 h9 h10 hc, e_arg5 h0 h1 h2 h4 h5 h6 h7 h8 h9 h10 hc]
  all_goals rfl

theorem e_v159 :
    @Eq ((⟨Cert.ReferenceIdeal.S400x1, .i32⟩ : BufTy).Contents (Elt Ideal))
      (after kops U (Proc.devRef .tc Cert.KernelIdeal.main_v159)) (after rops M (Proc.devRef .tc Cert.ReferenceIdeal.main_v187)) := by
  rw [unary_at_idx krising U 117 rfl, unary_at_idx rrising M 224 rfl, e_v158 h0 h1 h2 h4 h5 h6 h7 h8 h9 h10 hc]
  all_goals rfl

theorem e_v160 :
    @Eq ((⟨Cert.ReferenceIdeal.S400, .i32⟩ : BufTy).Contents (Elt Ideal))
      (after kops U (Proc.devRef .tc Cert.KernelIdeal.main_v160)) (after rops M (Proc.devRef .tc Cert.ReferenceIdeal.main_v188)) := by
  rw [binary_at_idx krising U 118 rfl, binary_at_idx rrising M 225 rfl, e_c h0 h1 h2 h4 h5 h6 h7 h8 h9 h10 hc, e_v159 h0 h1 h2 h4 h5 h6 h7 h8 h9 h10 hc]
  all_goals rfl

theorem e_c_45 :
    @Eq ((⟨Cert.ReferenceIdeal.S_, .i32⟩ : BufTy).Contents (Elt Ideal))
      (after kops U (Proc.devRef .tc Cert.KernelIdeal.main_c_45)) (after rops M (Proc.devRef .tc Cert.ReferenceIdeal.main_c_32)) := by
  rw [nullary_at_idx krising U 119 rfl, nullary_at_idx rrising M 226 rfl]
  all_goals rfl

theorem e_v161 :
    @Eq ((⟨Cert.ReferenceIdeal.S400, .i32⟩ : BufTy).Contents (Elt Ideal))
      (after kops U (Proc.devRef .tc Cert.KernelIdeal.main_v161)) (after rops M (Proc.devRef .tc Cert.ReferenceIdeal.main_v189)) := by
  rw [unary_at_idx krising U 120 rfl, unary_at_idx rrising M 227 rfl, e_c_45 h0 h1 h2 h4 h5 h6 h7 h8 h9 h10 hc]
  all_goals rfl

theorem e_v162 :
    @Eq ((⟨Cert.ReferenceIdeal.S400, .i1⟩ : BufTy).Contents (Elt Ideal))
      (after kops U (Proc.devRef .tc Cert.KernelIdeal.main_v162)) (after rops M (Proc.devRef .tc Cert.ReferenceIdeal.main_v190)) := by
  rw [binary_at_idx krising U 121 rfl, binary_at_idx rrising M 228 rfl, e_arg4 h0 h1 h2 h4 h5 h6 h7 h8 h9 h10 hc, e_v161 h0 h1 h2 h4 h5 h6 h7 h8 h9 h10 hc]
  all_goals rfl

theorem e_c_46 :
    @Eq ((⟨Cert.ReferenceIdeal.S_, .i32⟩ : BufTy).Contents (Elt Ideal))
      (after kops U (Proc.devRef .tc Cert.KernelIdeal.main_c_46)) (after rops M (Proc.devRef .tc Cert.ReferenceIdeal.main_c_33)) := by
  rw [nullary_at_idx krising U 122 rfl, nullary_at_idx rrising M 229 rfl]
  all_goals rfl

theorem e_v163 :
    @Eq ((⟨Cert.ReferenceIdeal.S400, .i32⟩ : BufTy).Contents (Elt Ideal))
      (after kops U (Proc.devRef .tc Cert.KernelIdeal.main_v163)) (after rops M (Proc.devRef .tc Cert.ReferenceIdeal.main_v191)) := by
  rw [unary_at_idx krising U 123 rfl, unary_at_idx rrising M 230 rfl, e_c_46 h0 h1 h2 h4 h5 h6 h7 h8 h9 h10 hc]
  all_goals rfl

theorem e_v164 :
    @Eq ((⟨Cert.ReferenceIdeal.S400, .i32⟩ : BufTy).Contents (Elt Ideal))
      (after kops U (Proc.devRef .tc Cert.KernelIdeal.main_v164)) (after rops M (Proc.devRef .tc Cert.ReferenceIdeal.main_v192)) := by
  rw [binary_at_idx krising U 124 rfl, binary_at_idx rrising M 231 rfl, e_arg4 h0 h1 h2 h4 h5 h6 h7 h8 h9 h10 hc, e_v163 h0 h1 h2 h4 h5 h6 h7 h8 h9 h10 hc]
  all_goals rfl

theorem e_v165 :
    @Eq ((⟨Cert.ReferenceIdeal.S400, .i32⟩ : BufTy).Contents (Elt Ideal))
      (after kops U (Proc.devRef .tc Cert.KernelIdeal.main_v165)) (after rops M (Proc.devRef .tc Cert.ReferenceIdeal.main_v193)) := by
  rw [ternary_at_idx krising U 125 rfl, ternary_at_idx rrising M 232 rfl, e_v162 h0 h1 h2 h4 h5 h6 h7 h8 h9 h10 hc, e_v164 h0 h1 h2 h4 h5 h6 h7 h8 h9 h10 hc, e_arg4 h0 h1 h2 h4 h5 h6 h7 h8 h9 h10 hc]
  all_goals rfl

theorem e_c_47 :
    @Eq ((⟨Cert.ReferenceIdeal.S_, .i32⟩ : BufTy).Contents (Elt Ideal))
      (after kops U (Proc.devRef .tc Cert.KernelIdeal.main_c_47)) (after rops M (Proc.devRef .tc Cert.ReferenceIdeal.main_c_34)) := by
  rw [nullary_at_idx krising U 126 rfl, nullary_at_idx rrising M 233 rfl]
  all_goals rfl

theorem e_v166 :
    @Eq ((⟨Cert.ReferenceIdeal.S400, .i32⟩ : BufTy).Contents (Elt Ideal))
      (after kops U (Proc.devRef .tc Cert.KernelIdeal.main_v166)) (after rops M (Proc.devRef .tc Cert.ReferenceIdeal.main_v194)) := by
  rw [unary_at_idx krising U 127 rfl, unary_at_idx rrising M 234 rfl, e_c_47 h0 h1 h2 h4 h5 h6 h7 h8 h9 h10 hc]
  all_goals rfl

theorem e_v167 :
    @Eq ((⟨Cert.ReferenceIdeal.S400, .i1⟩ : BufTy).Contents (Elt Ideal))
      (after kops U (Proc.devRef .tc Cert.KernelIdeal.main_v167)) (after rops M (Proc.devRef .tc Cert.ReferenceIdeal.main_v195)) := by
  rw [binary_at_idx krising U 128 rfl, binary_at_idx rrising M 235 rfl, e_v160 h0 h1 h2 h4 h5 h6 h7 h8 h9 h10 hc, e_v166 h0 h1 h2 h4 h5 h6 h7 h8 h9 h10 hc]
  all_goals rfl

theorem e_c_48 :
    @Eq ((⟨Cert.ReferenceIdeal.S_, .i32⟩ : BufTy).Contents (Elt Ideal))
      (after kops U (Proc.devRef .tc Cert.KernelIdeal.main_c_48)) (after rops M (Proc.devRef .tc Cert.ReferenceIdeal.main_c_35)) := by
  rw [nullary_at_idx krising U 129 rfl, nullary_at_idx rrising M 236 rfl]
  all_goals rfl

theorem e_v168 :
    @Eq ((⟨Cert.ReferenceIdeal.S400, .i32⟩ : BufTy).Contents (Elt Ideal))
      (after kops U (Proc.devRef .tc Cert.KernelIdeal.main_v168)) (after rops M (Proc.devRef .tc Cert.ReferenceIdeal.main_v196)) := by
  rw [unary_at_idx krising U 130 rfl, unary_at_idx rrising M 237 rfl, e_c_48 h0 h1 h2 h4 h5 h6 h7 h8 h9 h10 hc]
  all_goals rfl

theorem e_v169 :
    @Eq ((⟨Cert.ReferenceIdeal.S400, .i32⟩ : BufTy).Contents (Elt Ideal))
      (after kops U (Proc.devRef .tc Cert.KernelIdeal.main_v169)) (after rops M (Proc.devRef .tc Cert.ReferenceIdeal.main_v197)) := by
  rw [binary_at_idx krising U 131 rfl, binary_at_idx rrising M 238 rfl, e_v160 h0 h1 h2 h4 h5 h6 h7 h8 h9 h10 hc, e_v168 h0 h1 h2 h4 h5 h6 h7 h8 h9 h10 hc]
  all_goals rfl

theorem e_v170 :
    @Eq ((⟨Cert.ReferenceIdeal.S400, .i32⟩ : BufTy).Contents (Elt Ideal))
      (after kops U (Proc.devRef .tc Cert.KernelIdeal.main_v170)) (after rops M (Proc.devRef .tc Cert.ReferenceIdeal.main_v198)) := by
  rw [ternary_at_idx krising U 132 rfl, ternary_at_idx rrising M 239 rfl, e_v167 h0 h1 h2 h4 h5 h6 h7 h8 h9 h10 hc, e_v169 h0 h1 h2 h4 h5 h6 h7 h8 h9 h10 hc, e_v160 h0 h1 h2 h4 h5 h6 h7 h8 h9 h10 hc]
  all_goals rfl

theorem e_v171 :
    @Eq ((⟨Cert.ReferenceIdeal.S400x1, .i32⟩ : BufTy).Contents (Elt Ideal))
      (after kops U (Proc.devRef .tc Cert.KernelIdeal.main_v171)) (after rops M (Proc.devRef .tc Cert.ReferenceIdeal.main_v199)) := by
  rw [unary_at_idx krising U 133 rfl, unary_at_idx rrising M 240 rfl, e_v165 h0 h1 h2 h4 h5 h6 h7 h8 h9 h10 hc]
  all_goals rfl

theorem e_v172 :
    @Eq ((⟨Cert.ReferenceIdeal.S400x1, .i32⟩ : BufTy).Contents (Elt Ideal))
      (after kops U (Proc.devRef .tc Cert.KernelIdeal.main_v172)) (after rops M (Proc.devRef .tc Cert.ReferenceIdeal.main_v200)) := by
  rw [unary_at_idx krising U 134 rfl, unary_at_idx rrising M 241 rfl, e_v170 h0 h1 h2 h4 h5 h6 h7 h8 h9 h10 hc]
  all_goals rfl

theorem e_v173 :
    @Eq ((⟨Cert.ReferenceIdeal.S400x2, .i32⟩ : BufTy).Contents (Elt Ideal))
      (after kops U (Proc.devRef .tc Cert.KernelIdeal.main_v173)) (after rops M (Proc.devRef .tc Cert.ReferenceIdeal.main_v201)) := by
  rw [binary_at_idx krising U 135 rfl, binary_at_idx rrising M 242 rfl, e_v171 h0 h1 h2 h4 h5 h6 h7 h8 h9 h10 hc, e_v172 h0 h1 h2 h4 h5 h6 h7 h8 h9 h10 hc]
  all_goals rfl

theorem e_v174 :
    @Eq ((⟨Cert.ReferenceIdeal.S400, .i32⟩ : BufTy).Contents (Elt Ideal))
      (after kops U (Proc.devRef .tc Cert.KernelIdeal.main_v174)) (after rops M (Proc.devRef .tc Cert.ReferenceIdeal.main_v202)) := by
  rw [binary_at_idx krising U 136 rfl, binary_at_idx rrising M 243 rfl, e_arg2 h0 h1 h2 h4 h5 h6 h7 h8 h9 h10 hc, e_v173 h0 h1 h2 h4 h5 h6 h7 h8 h9 h10 hc]
  all_goals rfl

theorem e_c_49 :
    @Eq ((⟨Cert.ReferenceIdeal.S_, .i32⟩ : BufTy).Contents (Elt Ideal))
      (after kops U (Proc.devRef .tc Cert.KernelIdeal.main_c_49)) (after rops M (Proc.devRef .tc Cert.ReferenceIdeal.main_c_36)) := by
  rw [nullary_at_idx krising U 137 rfl, nullary_at_idx rrising M 244 rfl]
  all_goals rfl

theorem e_v175 :
    @Eq ((⟨Cert.ReferenceIdeal.S400, .i32⟩ : BufTy).Contents (Elt Ideal))
      (after kops U (Proc.devRef .tc Cert.KernelIdeal.main_v175)) (after rops M (Proc.devRef .tc Cert.ReferenceIdeal.main_v203)) := by
  rw [unary_at_idx krising U 138 rfl, unary_at_idx rrising M 245 rfl, e_c_49 h0 h1 h2 h4 h5 h6 h7 h8 h9 h10 hc]
  all_goals rfl

theorem e_v176 :
    @Eq ((⟨Cert.ReferenceIdeal.S400, .i1⟩ : BufTy).Contents (Elt Ideal))
      (after kops U (Proc.devRef .tc Cert.KernelIdeal.main_v176)) (after rops M (Proc.devRef .tc Cert.ReferenceIdeal.main_v204)) := by
  rw [binary_at_idx krising U 139 rfl, binary_at_idx rrising M 246 rfl, e_v153 h0 h1 h2 h4 h5 h6 h7 h8 h9 h10 hc, e_v175 h0 h1 h2 h4 h5 h6 h7 h8 h9 h10 hc]
  all_goals rfl

theorem e_c_50 :
    @Eq ((⟨Cert.ReferenceIdeal.S_, .i32⟩ : BufTy).Contents (Elt Ideal))
      (after kops U (Proc.devRef .tc Cert.KernelIdeal.main_c_50)) (after rops M (Proc.devRef .tc Cert.ReferenceIdeal.main_c_37)) := by
  rw [nullary_at_idx krising U 140 rfl, nullary_at_idx rrising M 247 rfl]
  all_goals rfl

theorem e_v177 :
    @Eq ((⟨Cert.ReferenceIdeal.S400, .i32⟩ : BufTy).Contents (Elt Ideal))
      (after kops U (Proc.devRef .tc Cert.KernelIdeal.main_v177)) (after rops M (Proc.devRef .tc Cert.ReferenceIdeal.main_v205)) := by
  rw [unary_at_idx krising U 141 rfl, unary_at_idx rrising M 248 rfl, e_c_50 h0 h1 h2 h4 h5 h6 h7 h8 h9 h10 hc]
  all_goals rfl

theorem e_v178 :
    @Eq ((⟨Cert.ReferenceIdeal.S400, .i32⟩ : BufTy).Contents (Elt Ideal))
      (after kops U (Proc.devRef .tc Cert.KernelIdeal.main_v178)) (after rops M (Proc.devRef .tc Cert.ReferenceIdeal.main_v206)) := by
  rw [binary_at_idx krising U 142 rfl, binary_at_idx rrising M 249 rfl, e_v153 h0 h1 h2 h4 h5 h6 h7 h8 h9 h10 hc, e_v177 h0 h1 h2 h4 h5 h6 h7 h8 h9 h10 hc]
  all_goals rfl

theorem e_v179 :
    @Eq ((⟨Cert.ReferenceIdeal.S400, .i32⟩ : BufTy).Contents (Elt Ideal))
      (after kops U (Proc.devRef .tc Cert.KernelIdeal.main_v179)) (after rops M (Proc.devRef .tc Cert.ReferenceIdeal.main_v207)) := by
  rw [ternary_at_idx krising U 143 rfl, ternary_at_idx rrising M 250 rfl, e_v176 h0 h1 h2 h4 h5 h6 h7 h8 h9 h10 hc, e_v178 h0 h1 h2 h4 h5 h6 h7 h8 h9 h10 hc, e_v153 h0 h1 h2 h4 h5 h6 h7 h8 h9 h10 hc]
  all_goals rfl

theorem e_v180 :
    @Eq ((⟨Cert.ReferenceIdeal.S400x1, .i32⟩ : BufTy).Contents (Elt Ideal))
      (after kops U (Proc.devRef .tc Cert.KernelIdeal.main_v180)) (after rops M (Proc.devRef .tc Cert.ReferenceIdeal.main_v208)) := by
  rw [unary_at_idx krising U 144 rfl, unary_at_idx rrising M 251 rfl, e_v179 h0 h1 h2 h4 h5 h6 h7 h8 h9 h10 hc]
  all_goals rfl

theorem e_v181 :
    @Eq ((⟨Cert.ReferenceIdeal.S400, .f32⟩ : BufTy).Contents (Elt Ideal))
      (after kops U (Proc.devRef .tc Cert.KernelIdeal.main_v181)) (after rops M (Proc.devRef .tc Cert.ReferenceIdeal.main_v209)) := by
  rw [binary_at_idx krising U 145 rfl, binary_at_idx rrising M 252 rfl, e_arg0 h0 h1 h2 h4 h5 h6 h7 h8 h9 h10 hc, e_v180 h0 h1 h2 h4 h5 h6 h7 h8 h9 h10 hc]
  all_goals rfl

theorem e_c_51 :
    @Eq ((⟨Cert.ReferenceIdeal.S_, .i32⟩ : BufTy).Contents (Elt Ideal))
      (after kops U (Proc.devRef .tc Cert.KernelIdeal.main_c_51)) (after rops M (Proc.devRef .tc Cert.ReferenceIdeal.main_c_38)) := by
  rw [nullary_at_idx krising U 146 rfl, nullary_at_idx rrising M 253 rfl]
  all_goals rfl

theorem e_v182 :
    @Eq ((⟨Cert.ReferenceIdeal.S400, .i32⟩ : BufTy).Contents (Elt Ideal))
      (after kops U (Proc.devRef .tc Cert.KernelIdeal.main_v182)) (after rops M (Proc.devRef .tc Cert.ReferenceIdeal.main_v210)) := by
  rw [unary_at_idx krising U 147 rfl, unary_at_idx rrising M 254 rfl, e_c_51 h0 h1 h2 h4 h5 h6 h7 h8 h9 h10 hc]
  all_goals rfl

theorem e_v183 :
    @Eq ((⟨Cert.ReferenceIdeal.S400, .i1⟩ : BufTy).Contents (Elt Ideal))
      (after kops U (Proc.devRef .tc Cert.KernelIdeal.main_v183)) (after rops M (Proc.devRef .tc Cert.ReferenceIdeal.main_v211)) := by
  rw [binary_at_idx krising U 148 rfl, binary_at_idx rrising M 255 rfl, e_v174 h0 h1 h2 h4 h5 h6 h7 h8 h9 h10 hc, e_v182 h0 h1 h2 h4 h5 h6 h7 h8 h9 h10 hc]
  all_goals rfl

theorem e_c_52 :
    @Eq ((⟨Cert.ReferenceIdeal.S_, .i32⟩ : BufTy).Contents (Elt Ideal))
      (after kops U (Proc.devRef .tc Cert.KernelIdeal.main_c_52)) (after rops M (Proc.devRef .tc Cert.ReferenceIdeal.main_c_39)) := by
  rw [nullary_at_idx krising U 149 rfl, nullary_at_idx rrising M 256 rfl]
  all_goals rfl

theorem e_v184 :
    @Eq ((⟨Cert.ReferenceIdeal.S400, .i32⟩ : BufTy).Contents (Elt Ideal))
      (after kops U (Proc.devRef .tc Cert.KernelIdeal.main_v184)) (after rops M (Proc.devRef .tc Cert.ReferenceIdeal.main_v212)) := by
  rw [unary_at_idx krising U 150 rfl, unary_at_idx rrising M 257 rfl, e_c_52 h0 h1 h2 h4 h5 h6 h7 h8 h9 h10 hc]
  all_goals rfl

theorem e_v185 :
    @Eq ((⟨Cert.ReferenceIdeal.S400, .i32⟩ : BufTy).Contents (Elt Ideal))
      (after kops U (Proc.devRef .tc Cert.KernelIdeal.main_v185)) (after rops M (Proc.devRef .tc Cert.ReferenceIdeal.main_v213)) := by
  rw [binary_at_idx krising U 151 rfl, binary_at_idx rrising M 258 rfl, e_v174 h0 h1 h2 h4 h5 h6 h7 h8 h9 h10 hc, e_v184 h0 h1 h2 h4 h5 h6 h7 h8 h9 h10 hc]
  all_goals rfl

theorem e_v186 :
    @Eq ((⟨Cert.ReferenceIdeal.S400, .i32⟩ : BufTy).Contents (Elt Ideal))
      (after kops U (Proc.devRef .tc Cert.KernelIdeal.main_v186)) (after rops M (Proc.devRef .tc Cert.ReferenceIdeal.main_v214)) := by
  rw [ternary_at_idx krising U 152 rfl, ternary_at_idx rrising M 259 rfl, e_v183 h0 h1 h2 h4 h5 h6 h7 h8 h9 h10 hc, e_v185 h0 h1 h2 h4 h5 h6 h7 h8 h9 h10 hc, e_v174 h0 h1 h2 h4 h5 h6 h7 h8 h9 h10 hc]
  all_goals rfl

theorem e_v187 :
    @Eq ((⟨Cert.ReferenceIdeal.S400x1, .i32⟩ : BufTy).Contents (Elt Ideal))
      (after kops U (Proc.devRef .tc Cert.KernelIdeal.main_v187)) (after rops M (Proc.devRef .tc Cert.ReferenceIdeal.main_v215)) := by
  rw [unary_at_idx krising U 153 rfl, unary_at_idx rrising M 260 rfl, e_v186 h0 h1 h2 h4 h5 h6 h7 h8 h9 h10 hc]
  all_goals rfl

theorem e_v188 :
    @Eq ((⟨Cert.ReferenceIdeal.S400, .f32⟩ : BufTy).Contents (Elt Ideal))
      (after kops U (Proc.devRef .tc Cert.KernelIdeal.main_v188)) (after rops M (Proc.devRef .tc Cert.ReferenceIdeal.main_v216)) := by
  rw [binary_at_idx krising U 154 rfl, binary_at_idx rrising M 261 rfl, e_arg0 h0 h1 h2 h4 h5 h6 h7 h8 h9 h10 hc, e_v187 h0 h1 h2 h4 h5 h6 h7 h8 h9 h10 hc]
  all_goals rfl

theorem e_v189 :
    @Eq ((⟨Cert.ReferenceIdeal.S400, .f32⟩ : BufTy).Contents (Elt Ideal))
      (after kops U (Proc.devRef .tc Cert.KernelIdeal.main_v189)) (after rops M (Proc.devRef .tc Cert.ReferenceIdeal.main_v217)) := by
  rw [binary_at_idx krising U 155 rfl, binary_at_idx rrising M 262 rfl, e_v181 h0 h1 h2 h4 h5 h6 h7 h8 h9 h10 hc, e_v188 h0 h1 h2 h4 h5 h6 h7 h8 h9 h10 hc]
  all_goals rfl

theorem e_c_53 :
    @Eq ((⟨Cert.ReferenceIdeal.S_, .i32⟩ : BufTy).Contents (Elt Ideal))
      (after kops U (Proc.devRef .tc Cert.KernelIdeal.main_c_53)) (after rops M (Proc.devRef .tc Cert.ReferenceIdeal.main_c_40)) := by
  rw [nullary_at_idx krising U 156 rfl, nullary_at_idx rrising M 263 rfl]
  all_goals rfl

theorem e_v190 :
    @Eq ((⟨Cert.ReferenceIdeal.S400, .i32⟩ : BufTy).Contents (Elt Ideal))
      (after kops U (Proc.devRef .tc Cert.KernelIdeal.main_v190)) (after rops M (Proc.devRef .tc Cert.ReferenceIdeal.main_v218)) := by
  rw [unary_at_idx krising U 157 rfl, unary_at_idx rrising M 264 rfl, e_c_53 h0 h1 h2 h4 h5 h6 h7 h8 h9 h10 hc]
  all_goals rfl

theorem e_v191 :
    @Eq ((⟨Cert.ReferenceIdeal.S400, .i1⟩ : BufTy).Contents (Elt Ideal))
      (after kops U (Proc.devRef .tc Cert.KernelIdeal.main_v191)) (after rops M (Proc.devRef .tc Cert.ReferenceIdeal.main_v219)) := by
  rw [binary_at_idx krising U 158 rfl, binary_at_idx rrising M 265 rfl, e_v153 h0 h1 h2 h4 h5 h6 h7 h8 h9 h10 hc, e_v190 h0 h1 h2 h4 h5 h6 h7 h8 h9 h10 hc]
  all_goals rfl

theorem e_c_54 :
    @Eq ((⟨Cert.ReferenceIdeal.S_, .i32⟩ : BufTy).Contents (Elt Ideal))
      (after kops U (Proc.devRef .tc Cert.KernelIdeal.main_c_54)) (after rops M (Proc.devRef .tc Cert.ReferenceIdeal.main_c_41)) := by
  rw [nullary_at_idx krising U 159 rfl, nullary_at_idx rrising M 266 rfl]
  all_goals rfl

theorem e_v192 :
    @Eq ((⟨Cert.ReferenceIdeal.S400, .i32⟩ : BufTy).Contents (Elt Ideal))
      (after kops U (Proc.devRef .tc Cert.KernelIdeal.main_v192)) (after rops M (Proc.devRef .tc Cert.ReferenceIdeal.main_v220)) := by
  rw [unary_at_idx krising U 160 rfl, unary_at_idx rrising M 267 rfl, e_c_54 h0 h1 h2 h4 h5 h6 h7 h8 h9 h10 hc]
  all_goals rfl

theorem e_v193 :
    @Eq ((⟨Cert.ReferenceIdeal.S400, .i32⟩ : BufTy).Contents (Elt Ideal))
      (after kops U (Proc.devRef .tc Cert.KernelIdeal.main_v193)) (after rops M (Proc.devRef .tc Cert.ReferenceIdeal.main_v221)) := by
  rw [binary_at_idx krising U 161 rfl, binary_at_idx rrising M 268 rfl, e_v153 h0 h1 h2 h4 h5 h6 h7 h8 h9 h10 hc, e_v192 h0 h1 h2 h4 h5 h6 h7 h8 h9 h10 hc]
  all_goals rfl

theorem e_v194 :
    @Eq ((⟨Cert.ReferenceIdeal.S400, .i32⟩ : BufTy).Contents (Elt Ideal))
      (after kops U (Proc.devRef .tc Cert.KernelIdeal.main_v194)) (after rops M (Proc.devRef .tc Cert.ReferenceIdeal.main_v222)) := by
  rw [ternary_at_idx krising U 162 rfl, ternary_at_idx rrising M 269 rfl, e_v191 h0 h1 h2 h4 h5 h6 h7 h8 h9 h10 hc, e_v193 h0 h1 h2 h4 h5 h6 h7 h8 h9 h10 hc, e_v153 h0 h1 h2 h4 h5 h6 h7 h8 h9 h10 hc]
  all_goals rfl

theorem e_v195 :
    @Eq ((⟨Cert.ReferenceIdeal.S400x1, .i32⟩ : BufTy).Contents (Elt Ideal))
      (after kops U (Proc.devRef .tc Cert.KernelIdeal.main_v195)) (after rops M (Proc.devRef .tc Cert.ReferenceIdeal.main_v223)) := by
  rw [unary_at_idx krising U 163 rfl, unary_at_idx rrising M 270 rfl, e_v194 h0 h1 h2 h4 h5 h6 h7 h8 h9 h10 hc]
  all_goals rfl

theorem e_v196 :
    @Eq ((⟨Cert.ReferenceIdeal.S400, .f32⟩ : BufTy).Contents (Elt Ideal))
      (after kops U (Proc.devRef .tc Cert.KernelIdeal.main_v196)) (after rops M (Proc.devRef .tc Cert.ReferenceIdeal.main_v224)) := by
  rw [binary_at_idx krising U 164 rfl, binary_at_idx rrising M 271 rfl, e_arg1 h0 h1 h2 h4 h5 h6 h7 h8 h9 h10 hc, e_v195 h0 h1 h2 h4 h5 h6 h7 h8 h9 h10 hc]
  all_goals rfl

theorem e_c_55 :
    @Eq ((⟨Cert.ReferenceIdeal.S_, .i32⟩ : BufTy).Contents (Elt Ideal))
      (after kops U (Proc.devRef .tc Cert.KernelIdeal.main_c_55)) (after rops M (Proc.devRef .tc Cert.ReferenceIdeal.main_c_42)) := by
  rw [nullary_at_idx krising U 165 rfl, nullary_at_idx rrising M 272 rfl]
  all_goals rfl

theorem e_v197 :
    @Eq ((⟨Cert.ReferenceIdeal.S400, .i32⟩ : BufTy).Contents (Elt Ideal))
      (after kops U (Proc.devRef .tc Cert.KernelIdeal.main_v197)) (after rops M (Proc.devRef .tc Cert.ReferenceIdeal.main_v225)) := by
  rw [unary_at_idx krising U 166 rfl, unary_at_idx rrising M 273 rfl, e_c_55 h0 h1 h2 h4 h5 h6 h7 h8 h9 h10 hc]
  all_goals rfl

theorem e_v198 :
    @Eq ((⟨Cert.ReferenceIdeal.S400, .i1⟩ : BufTy).Contents (Elt Ideal))
      (after kops U (Proc.devRef .tc Cert.KernelIdeal.main_v198)) (after rops M (Proc.devRef .tc Cert.ReferenceIdeal.main_v226)) := by
  rw [binary_at_idx krising U 167 rfl, binary_at_idx rrising M 274 rfl, e_v174 h0 h1 h2 h4 h5 h6 h7 h8 h9 h10 hc, e_v197 h0 h1 h2 h4 h5 h6 h7 h8 h9 h10 hc]
  all_goals rfl

theorem e_c_56 :
    @Eq ((⟨Cert.ReferenceIdeal.S_, .i32⟩ : BufTy).Contents (Elt Ideal))
      (after kops U (Proc.devRef .tc Cert.KernelIdeal.main_c_56)) (after rops M (Proc.devRef .tc Cert.ReferenceIdeal.main_c_43)) := by
  rw [nullary_at_idx krising U 168 rfl, nullary_at_idx rrising M 275 rfl]
  all_goals rfl

theorem e_v199 :
    @Eq ((⟨Cert.ReferenceIdeal.S400, .i32⟩ : BufTy).Contents (Elt Ideal))
      (after kops U (Proc.devRef .tc Cert.KernelIdeal.main_v199)) (after rops M (Proc.devRef .tc Cert.ReferenceIdeal.main_v227)) := by
  rw [unary_at_idx krising U 169 rfl, unary_at_idx rrising M 276 rfl, e_c_56 h0 h1 h2 h4 h5 h6 h7 h8 h9 h10 hc]
  all_goals rfl

theorem e_v200 :
    @Eq ((⟨Cert.ReferenceIdeal.S400, .i32⟩ : BufTy).Contents (Elt Ideal))
      (after kops U (Proc.devRef .tc Cert.KernelIdeal.main_v200)) (after rops M (Proc.devRef .tc Cert.ReferenceIdeal.main_v228)) := by
  rw [binary_at_idx krising U 170 rfl, binary_at_idx rrising M 277 rfl, e_v174 h0 h1 h2 h4 h5 h6 h7 h8 h9 h10 hc, e_v199 h0 h1 h2 h4 h5 h6 h7 h8 h9 h10 hc]
  all_goals rfl

theorem e_v201 :
    @Eq ((⟨Cert.ReferenceIdeal.S400, .i32⟩ : BufTy).Contents (Elt Ideal))
      (after kops U (Proc.devRef .tc Cert.KernelIdeal.main_v201)) (after rops M (Proc.devRef .tc Cert.ReferenceIdeal.main_v229)) := by
  rw [ternary_at_idx krising U 171 rfl, ternary_at_idx rrising M 278 rfl, e_v198 h0 h1 h2 h4 h5 h6 h7 h8 h9 h10 hc, e_v200 h0 h1 h2 h4 h5 h6 h7 h8 h9 h10 hc, e_v174 h0 h1 h2 h4 h5 h6 h7 h8 h9 h10 hc]
  all_goals rfl

theorem e_v202 :
    @Eq ((⟨Cert.ReferenceIdeal.S400x1, .i32⟩ : BufTy).Contents (Elt Ideal))
      (after kops U (Proc.devRef .tc Cert.KernelIdeal.main_v202)) (after rops M (Proc.devRef .tc Cert.ReferenceIdeal.main_v230)) := by
  rw [unary_at_idx krising U 172 rfl, unary_at_idx rrising M 279 rfl, e_v201 h0 h1 h2 h4 h5 h6 h7 h8 h9 h10 hc]
  all_goals rfl

theorem e_v203 :
    @Eq ((⟨Cert.ReferenceIdeal.S400, .f32⟩ : BufTy).Contents (Elt Ideal))
      (after kops U (Proc.devRef .tc Cert.KernelIdeal.main_v203)) (after rops M (Proc.devRef .tc Cert.ReferenceIdeal.main_v231)) := by
  rw [binary_at_idx krising U 173 rfl, binary_at_idx rrising M 280 rfl, e_arg1 h0 h1 h2 h4 h5 h6 h7 h8 h9 h10 hc, e_v202 h0 h1 h2 h4 h5 h6 h7 h8 h9 h10 hc]
  all_goals rfl

theorem e_v204 :
    @Eq ((⟨Cert.ReferenceIdeal.S400, .f32⟩ : BufTy).Contents (Elt Ideal))
      (after kops U (Proc.devRef .tc Cert.KernelIdeal.main_v204)) (after rops M (Proc.devRef .tc Cert.ReferenceIdeal.main_v232)) := by
  rw [binary_at_idx krising U 174 rfl, binary_at_idx rrising M 281 rfl, e_v196 h0 h1 h2 h4 h5 h6 h7 h8 h9 h10 hc, e_v203 h0 h1 h2 h4 h5 h6 h7 h8 h9 h10 hc]
  all_goals rfl

theorem e_v205 :
    @Eq ((⟨Cert.ReferenceIdeal.S400, .f32⟩ : BufTy).Contents (Elt Ideal))
      (after kops U (Proc.devRef .tc Cert.KernelIdeal.main_v205)) (after rops M (Proc.devRef .tc Cert.ReferenceIdeal.main_v233)) := by
  rw [binary_at_idx krising U 175 rfl, binary_at_idx rrising M 282 rfl, e_v189 h0 h1 h2 h4 h5 h6 h7 h8 h9 h10 hc]
  all_goals rfl

theorem e_v206 :
    @Eq ((⟨Cert.ReferenceIdeal.S400, .f32⟩ : BufTy).Contents (Elt Ideal))
      (after kops U (Proc.devRef .tc Cert.KernelIdeal.main_v206)) (after rops M (Proc.devRef .tc Cert.ReferenceIdeal.main_v234)) := by
  rw [binary_at_idx krising U 176 rfl, binary_at_idx rrising M 283 rfl, e_v204 h0 h1 h2 h4 h5 h6 h7 h8 h9 h10 hc]
  all_goals rfl

theorem e_v207 :
    @Eq ((⟨Cert.ReferenceIdeal.S400, .f32⟩ : BufTy).Contents (Elt Ideal))
      (after kops U (Proc.devRef .tc Cert.KernelIdeal.main_v207)) (after rops M (Proc.devRef .tc Cert.ReferenceIdeal.main_v235)) := by
  rw [binary_at_idx krising U 177 rfl, binary_at_idx rrising M 284 rfl, e_v205 h0 h1 h2 h4 h5 h6 h7 h8 h9 h10 hc, e_v206 h0 h1 h2 h4 h5 h6 h7 h8 h9 h10 hc]
  all_goals rfl

theorem e_v208 :
    @Eq ((⟨Cert.ReferenceIdeal.S400, .f32⟩ : BufTy).Contents (Elt Ideal))
      (after kops U (Proc.devRef .tc Cert.KernelIdeal.main_v208)) (after rops M (Proc.devRef .tc Cert.ReferenceIdeal.main_v236)) := by
  rw [unary_at_idx krising U 178 rfl, unary_at_idx rrising M 285 rfl, e_v207 h0 h1 h2 h4 h5 h6 h7 h8 h9 h10 hc]
  all_goals rfl

theorem e_cst_57 :
    @Eq ((⟨Cert.ReferenceIdeal.S_, .f32⟩ : BufTy).Contents (Elt Ideal))
      (after kops U (Proc.devRef .tc Cert.KernelIdeal.main_cst_57)) (after rops M (Proc.devRef .tc Cert.ReferenceIdeal.main_cst_44)) := by
  rw [nullary_at_idx krising U 179 rfl, nullary_at_idx rrising M 286 rfl]
  all_goals rfl

theorem e_v209 :
    @Eq ((⟨Cert.ReferenceIdeal.S400, .f32⟩ : BufTy).Contents (Elt Ideal))
      (after kops U (Proc.devRef .tc Cert.KernelIdeal.main_v209)) (after rops M (Proc.devRef .tc Cert.ReferenceIdeal.main_v237)) := by
  rw [unary_at_idx krising U 180 rfl, unary_at_idx rrising M 287 rfl, e_cst_57 h0 h1 h2 h4 h5 h6 h7 h8 h9 h10 hc]
  all_goals rfl

theorem e_v210 :
    @Eq ((⟨Cert.ReferenceIdeal.S400, .f32⟩ : BufTy).Contents (Elt Ideal))
      (after kops U (Proc.devRef .tc Cert.KernelIdeal.main_v210)) (after rops M (Proc.devRef .tc Cert.ReferenceIdeal.main_v238)) := by
  rw [binary_at_idx krising U 181 rfl, binary_at_idx rrising M 288 rfl, e_v209 h0 h1 h2 h4 h5 h6 h7 h8 h9 h10 hc, e_v208 h0 h1 h2 h4 h5 h6 h7 h8 h9 h10 hc]
  all_goals rfl

theorem e_c_58 :
    @Eq ((⟨Cert.ReferenceIdeal.S_, .i32⟩ : BufTy).Contents (Elt Ideal))
      (after kops U (Proc.devRef .tc Cert.KernelIdeal.main_c_58)) (after rops M (Proc.devRef .tc Cert.ReferenceIdeal.main_c_45)) := by
  rw [nullary_at_idx krising U 182 rfl, nullary_at_idx rrising M 289 rfl]
  all_goals rfl

theorem e_v211 :
    @Eq ((⟨Cert.ReferenceIdeal.S400, .i32⟩ : BufTy).Contents (Elt Ideal))
      (after kops U (Proc.devRef .tc Cert.KernelIdeal.main_v211)) (after rops M (Proc.devRef .tc Cert.ReferenceIdeal.main_v239)) := by
  rw [unary_at_idx krising U 183 rfl, unary_at_idx rrising M 290 rfl, e_c_58 h0 h1 h2 h4 h5 h6 h7 h8 h9 h10 hc]
  all_goals rfl

theorem e_v212 :
    @Eq ((⟨Cert.ReferenceIdeal.S400, .i32⟩ : BufTy).Contents (Elt Ideal))
      (after kops U (Proc.devRef .tc Cert.KernelIdeal.main_v212)) (after rops M (Proc.devRef .tc Cert.ReferenceIdeal.main_v240)) := by
  rw [binary_at_idx krising U 184 rfl, binary_at_idx rrising M 291 rfl, e_v211 h0 h1 h2 h4 h5 h6 h7 h8 h9 h10 hc, e_v153 h0 h1 h2 h4 h5 h6 h7 h8 h9 h10 hc]
  all_goals rfl

theorem e_c_59 :
    @Eq ((⟨Cert.ReferenceIdeal.S_, .i32⟩ : BufTy).Contents (Elt Ideal))
      (after kops U (Proc.devRef .tc Cert.KernelIdeal.main_c_59)) (after rops M (Proc.devRef .tc Cert.ReferenceIdeal.main_c_46)) := by
  rw [nullary_at_idx krising U 185 rfl, nullary_at_idx rrising M 292 rfl]
  all_goals rfl

theorem e_v213 :
    @Eq ((⟨Cert.ReferenceIdeal.S400, .i32⟩ : BufTy).Contents (Elt Ideal))
      (after kops U (Proc.devRef .tc Cert.KernelIdeal.main_v213)) (after rops M (Proc.devRef .tc Cert.ReferenceIdeal.main_v241)) := by
  rw [unary_at_idx krising U 186 rfl, unary_at_idx rrising M 293 rfl, e_c_59 h0 h1 h2 h4 h5 h6 h7 h8 h9 h10 hc]
  all_goals rfl

theorem e_v214 :
    @Eq ((⟨Cert.ReferenceIdeal.S400, .i32⟩ : BufTy).Contents (Elt Ideal))
      (after kops U (Proc.devRef .tc Cert.KernelIdeal.main_v214)) (after rops M (Proc.devRef .tc Cert.ReferenceIdeal.main_v242)) := by
  rw [binary_at_idx krising U 187 rfl, binary_at_idx rrising M 294 rfl, e_v213 h0 h1 h2 h4 h5 h6 h7 h8 h9 h10 hc, e_v153 h0 h1 h2 h4 h5 h6 h7 h8 h9 h10 hc]
  all_goals rfl

theorem e_c_60 :
    @Eq ((⟨Cert.ReferenceIdeal.S_, .i32⟩ : BufTy).Contents (Elt Ideal))
      (after kops U (Proc.devRef .tc Cert.KernelIdeal.main_c_60)) (after rops M (Proc.devRef .tc Cert.ReferenceIdeal.main_c_47)) := by
  rw [nullary_at_idx krising U 188 rfl, nullary_at_idx rrising M 295 rfl]
  all_goals rfl

theorem e_v215 :
    @Eq ((⟨Cert.ReferenceIdeal.S400, .i32⟩ : BufTy).Contents (Elt Ideal))
      (after kops U (Proc.devRef .tc Cert.KernelIdeal.main_v215)) (after rops M (Proc.devRef .tc Cert.ReferenceIdeal.main_v243)) := by
  rw [unary_at_idx krising U 189 rfl, unary_at_idx rrising M 296 rfl, e_c_60 h0 h1 h2 h4 h5 h6 h7 h8 h9 h10 hc]
  all_goals rfl

theorem e_v216 :
    @Eq ((⟨Cert.ReferenceIdeal.S400, .i32⟩ : BufTy).Contents (Elt Ideal))
      (after kops U (Proc.devRef .tc Cert.KernelIdeal.main_v216)) (after rops M (Proc.devRef .tc Cert.ReferenceIdeal.main_v244)) := by
  rw [binary_at_idx krising U 190 rfl, binary_at_idx rrising M 297 rfl, e_v214 h0 h1 h2 h4 h5 h6 h7 h8 h9 h10 hc, e_v215 h0 h1 h2 h4 h5 h6 h7 h8 h9 h10 hc]
  all_goals rfl

theorem e_c_61 :
    @Eq ((⟨Cert.ReferenceIdeal.S_, .i32⟩ : BufTy).Contents (Elt Ideal))
      (after kops U (Proc.devRef .tc Cert.KernelIdeal.main_c_61)) (after rops M (Proc.devRef .tc Cert.ReferenceIdeal.main_c_48)) := by
  rw [nullary_at_idx krising U 191 rfl, nullary_at_idx rrising M 298 rfl]
  all_goals rfl

theorem e_v217 :
    @Eq ((⟨Cert.ReferenceIdeal.S400, .i32⟩ : BufTy).Contents (Elt Ideal))
      (after kops U (Proc.devRef .tc Cert.KernelIdeal.main_v217)) (after rops M (Proc.devRef .tc Cert.ReferenceIdeal.main_v245)) := by
  rw [unary_at_idx krising U 192 rfl, unary_at_idx rrising M 299 rfl, e_c_61 h0 h1 h2 h4 h5 h6 h7 h8 h9 h10 hc]
  all_goals rfl

theorem e_v218 :
    @Eq ((⟨Cert.ReferenceIdeal.S400, .i32⟩ : BufTy).Contents (Elt Ideal))
      (after kops U (Proc.devRef .tc Cert.KernelIdeal.main_v218)) (after rops M (Proc.devRef .tc Cert.ReferenceIdeal.main_v246)) := by
  rw [binary_at_idx krising U 193 rfl, binary_at_idx rrising M 300 rfl, e_v217 h0 h1 h2 h4 h5 h6 h7 h8 h9 h10 hc, e_v174 h0 h1 h2 h4 h5 h6 h7 h8 h9 h10 hc]
  all_goals rfl

theorem e_c_62 :
    @Eq ((⟨Cert.ReferenceIdeal.S_, .i32⟩ : BufTy).Contents (Elt Ideal))
      (after kops U (Proc.devRef .tc Cert.KernelIdeal.main_c_62)) (after rops M (Proc.devRef .tc Cert.ReferenceIdeal.main_c_49)) := by
  rw [nullary_at_idx krising U 194 rfl, nullary_at_idx rrising M 301 rfl]
  all_goals rfl

theorem e_v219 :
    @Eq ((⟨Cert.ReferenceIdeal.S400, .i32⟩ : BufTy).Contents (Elt Ideal))
      (after kops U (Proc.devRef .tc Cert.KernelIdeal.main_v219)) (after rops M (Proc.devRef .tc Cert.ReferenceIdeal.main_v247)) := by
  rw [unary_at_idx krising U 195 rfl, unary_at_idx rrising M 302 rfl, e_c_62 h0 h1 h2 h4 h5 h6 h7 h8 h9 h10 hc]
  all_goals rfl

theorem e_v220 :
    @Eq ((⟨Cert.ReferenceIdeal.S400, .i32⟩ : BufTy).Contents (Elt Ideal))
      (after kops U (Proc.devRef .tc Cert.KernelIdeal.main_v220)) (after rops M (Proc.devRef .tc Cert.ReferenceIdeal.main_v248)) := by
  rw [binary_at_idx krising U 196 rfl, binary_at_idx rrising M 303 rfl, e_v219 h0 h1 h2 h4 h5 h6 h7 h8 h9 h10 hc, e_v174 h0 h1 h2 h4 h5 h6 h7 h8 h9 h10 hc]
  all_goals rfl

theorem e_c_63 :
    @Eq ((⟨Cert.ReferenceIdeal.S_, .i32⟩ : BufTy).Contents (Elt Ideal))
      (after kops U (Proc.devRef .tc Cert.KernelIdeal.main_c_63)) (after rops M (Proc.devRef .tc Cert.ReferenceIdeal.main_c_50)) := by
  rw [nullary_at_idx krising U 197 rfl, nullary_at_idx rrising M 304 rfl]
  all_goals rfl

theorem e_v221 :
    @Eq ((⟨Cert.ReferenceIdeal.S400, .i32⟩ : BufTy).Contents (Elt Ideal))
      (after kops U (Proc.devRef .tc Cert.KernelIdeal.main_v221)) (after rops M (Proc.devRef .tc Cert.ReferenceIdeal.main_v249)) := by
  rw [unary_at_idx krising U 198 rfl, unary_at_idx rrising M 305 rfl, e_c_63 h0 h1 h2 h4 h5 h6 h7 h8 h9 h10 hc]
  all_goals rfl

theorem e_v222 :
    @Eq ((⟨Cert.ReferenceIdeal.S400, .i32⟩ : BufTy).Contents (Elt Ideal))
      (after kops U (Proc.devRef .tc Cert.KernelIdeal.main_v222)) (after rops M (Proc.devRef .tc Cert.ReferenceIdeal.main_v250)) := by
  rw [binary_at_idx krising U 199 rfl, binary_at_idx rrising M 306 rfl, e_v220 h0 h1 h2 h4 h5 h6 h7 h8 h9 h10 hc, e_v221 h0 h1 h2 h4 h5 h6 h7 h8 h9 h10 hc]
  all_goals rfl

theorem e_v223 :
    @Eq ((⟨Cert.ReferenceIdeal.S400x1, .i32⟩ : BufTy).Contents (Elt Ideal))
      (after kops U (Proc.devRef .tc Cert.KernelIdeal.main_v223)) (after rops M (Proc.devRef .tc Cert.ReferenceIdeal.main_v251)) := by
  rw [unary_at_idx krising U 200 rfl, unary_at_idx rrising M 307 rfl, e_v212 h0 h1 h2 h4 h5 h6 h7 h8 h9 h10 hc]
  all_goals rfl

theorem e_v224 :
    @Eq ((⟨Cert.ReferenceIdeal.S400x1, .i32⟩ : BufTy).Contents (Elt Ideal))
      (after kops U (Proc.devRef .tc Cert.KernelIdeal.main_v224)) (after rops M (Proc.devRef .tc Cert.ReferenceIdeal.main_v252)) := by
  rw [unary_at_idx krising U 201 rfl, unary_at_idx rrising M 308 rfl, e_v216 h0 h1 h2 h4 h5 h6 h7 h8 h9 h10 hc]
  all_goals rfl

theorem e_v225 :
    @Eq ((⟨Cert.ReferenceIdeal.S400x1, .i32⟩ : BufTy).Contents (Elt Ideal))
      (after kops U (Proc.devRef .tc Cert.KernelIdeal.main_v225)) (after rops M (Proc.devRef .tc Cert.ReferenceIdeal.main_v253)) := by
  rw [unary_at_idx krising U 202 rfl, unary_at_idx rrising M 309 rfl, e_v218 h0 h1 h2 h4 h5 h6 h7 h8 h9 h10 hc]
  all_goals rfl

theorem e_v226 :
    @Eq ((⟨Cert.ReferenceIdeal.S400x1, .i32⟩ : BufTy).Contents (Elt Ideal))
      (after kops U (Proc.devRef .tc Cert.KernelIdeal.main_v226)) (after rops M (Proc.devRef .tc Cert.ReferenceIdeal.main_v254)) := by
  rw [unary_at_idx krising U 203 rfl, unary_at_idx rrising M 310 rfl, e_v222 h0 h1 h2 h4 h5 h6 h7 h8 h9 h10 hc]
  all_goals rfl

theorem e_v227 :
    @Eq ((⟨Cert.ReferenceIdeal.S400x4, .i32⟩ : BufTy).Contents (Elt Ideal))
      (after kops U (Proc.devRef .tc Cert.KernelIdeal.main_v227)) (after rops M (Proc.devRef .tc Cert.ReferenceIdeal.main_v255)) := by
  rw [nary4_at_idx krising U 204 rfl, nary4_at_idx rrising M 311 rfl, e_v223 h0 h1 h2 h4 h5 h6 h7 h8 h9 h10 hc, e_v224 h0 h1 h2 h4 h5 h6 h7 h8 h9 h10 hc, e_v225 h0 h1 h2 h4 h5 h6 h7 h8 h9 h10 hc, e_v226 h0 h1 h2 h4 h5 h6 h7 h8 h9 h10 hc]
  all_goals rfl

theorem e_v228 :
    @Eq ((⟨Cert.ReferenceIdeal.S400x1, .f32⟩ : BufTy).Contents (Elt Ideal))
      (after kops U (Proc.devRef .tc Cert.KernelIdeal.main_v228)) (after rops M (Proc.devRef .tc Cert.ReferenceIdeal.main_v256)) := by
  rw [unary_at_idx krising U 205 rfl, unary_at_idx rrising M 312 rfl, e_arg6 h0 h1 h2 h4 h5 h6 h7 h8 h9 h10 hc]
  all_goals rfl

theorem e_v229 :
    @Eq ((⟨Cert.ReferenceIdeal.S400x1, .f32⟩ : BufTy).Contents (Elt Ideal))
      (after kops U (Proc.devRef .tc Cert.KernelIdeal.main_v229)) (after rops M (Proc.devRef .tc Cert.ReferenceIdeal.main_v257)) := by
  rw [unary_at_idx krising U 206 rfl, unary_at_idx rrising M 313 rfl, e_arg7 h0 h1 h2 h4 h5 h6 h7 h8 h9 h10 hc]
  all_goals rfl

theorem e_v230 :
    @Eq ((⟨Cert.ReferenceIdeal.S400x1, .f32⟩ : BufTy).Contents (Elt Ideal))
      (after kops U (Proc.devRef .tc Cert.KernelIdeal.main_v230)) (after rops M (Proc.devRef .tc Cert.ReferenceIdeal.main_v258)) := by
  rw [unary_at_idx krising U 207 rfl, unary_at_idx rrising M 314 rfl, e_arg6 h0 h1 h2 h4 h5 h6 h7 h8 h9 h10 hc]
  all_goals rfl

theorem e_v231 :
    @Eq ((⟨Cert.ReferenceIdeal.S400x1, .f32⟩ : BufTy).Contents (Elt Ideal))
      (after kops U (Proc.devRef .tc Cert.KernelIdeal.main_v231)) (after rops M (Proc.devRef .tc Cert.ReferenceIdeal.main_v259)) := by
  rw [unary_at_idx krising U 208 rfl, unary_at_idx rrising M 315 rfl, e_arg7 h0 h1 h2 h4 h5 h6 h7 h8 h9 h10 hc]
  all_goals rfl

theorem e_v232 :
    @Eq ((⟨Cert.ReferenceIdeal.S400x4, .f32⟩ : BufTy).Contents (Elt Ideal))
      (after kops U (Proc.devRef .tc Cert.KernelIdeal.main_v232)) (after rops M (Proc.devRef .tc Cert.ReferenceIdeal.main_v260)) := by
  rw [nary4_at_idx krising U 209 rfl, nary4_at_idx rrising M 316 rfl, e_v228 h0 h1 h2 h4 h5 h6 h7 h8 h9 h10 hc, e_v229 h0 h1 h2 h4 h5 h6 h7 h8 h9 h10 hc, e_v230 h0 h1 h2 h4 h5 h6 h7 h8 h9 h10 hc, e_v231 h0 h1 h2 h4 h5 h6 h7 h8 h9 h10 hc]
  all_goals rfl

theorem e_v233 :
    @Eq ((⟨Cert.ReferenceIdeal.S400x1, .f32⟩ : BufTy).Contents (Elt Ideal))
      (after kops U (Proc.devRef .tc Cert.KernelIdeal.main_v233)) (after rops M (Proc.devRef .tc Cert.ReferenceIdeal.main_v261)) := by
  rw [unary_at_idx krising U 210 rfl, unary_at_idx rrising M 317 rfl, e_v210 h0 h1 h2 h4 h5 h6 h7 h8 h9 h10 hc]
  all_goals rfl

theorem e_v234 :
    @Eq ((⟨Cert.ReferenceIdeal.S400x4, .f32⟩ : BufTy).Contents (Elt Ideal))
      (after kops U (Proc.devRef .tc Cert.KernelIdeal.main_v234)) (after rops M (Proc.devRef .tc Cert.ReferenceIdeal.main_v262)) := by
  rw [unary_at_idx krising U 211 rfl, unary_at_idx rrising M 318 rfl, e_v233 h0 h1 h2 h4 h5 h6 h7 h8 h9 h10 hc]
  all_goals rfl

theorem e_v235 :
    @Eq ((⟨Cert.ReferenceIdeal.S400x4, .f32⟩ : BufTy).Contents (Elt Ideal))
      (after kops U (Proc.devRef .tc Cert.KernelIdeal.main_v235)) (after rops M (Proc.devRef .tc Cert.ReferenceIdeal.main_v263)) := by
  rw [binary_at_idx krising U 212 rfl, binary_at_idx rrising M 319 rfl, e_v232 h0 h1 h2 h4 h5 h6 h7 h8 h9 h10 hc, e_v234 h0 h1 h2 h4 h5 h6 h7 h8 h9 h10 hc]
  all_goals rfl

theorem e_cst_64 :
    @Eq ((⟨Cert.ReferenceIdeal.S_, .f32⟩ : BufTy).Contents (Elt Ideal))
      (after kops U (Proc.devRef .tc Cert.KernelIdeal.main_cst_64)) (after rops M (Proc.devRef .tc Cert.ReferenceIdeal.main_cst_51)) := by
  rw [nullary_at_idx krising U 213 rfl, nullary_at_idx rrising M 320 rfl]
  all_goals rfl

theorem e_v236 :
    @Eq ((⟨Cert.ReferenceIdeal.S12000, .f32⟩ : BufTy).Contents (Elt Ideal))
      (after kops U (Proc.devRef .tc Cert.KernelIdeal.main_v236)) (after rops M (Proc.devRef .tc Cert.ReferenceIdeal.main_v264)) := by
  rw [unary_at_idx krising U 214 rfl, unary_at_idx rrising M 321 rfl, e_cst_64 h0 h1 h2 h4 h5 h6 h7 h8 h9 h10 hc]
  all_goals rfl

theorem e_c_65 :
    @Eq ((⟨Cert.ReferenceIdeal.S_, .i32⟩ : BufTy).Contents (Elt Ideal))
      (after kops U (Proc.devRef .tc Cert.KernelIdeal.main_c_65)) (after rops M (Proc.devRef .tc Cert.ReferenceIdeal.main_c_52)) := by
  rw [nullary_at_idx krising U 215 rfl, nullary_at_idx rrising M 322 rfl]
  all_goals rfl

theorem e_v237 :
    @Eq ((⟨Cert.ReferenceIdeal.S400x4, .i32⟩ : BufTy).Contents (Elt Ideal))
      (after kops U (Proc.devRef .tc Cert.KernelIdeal.main_v237)) (after rops M (Proc.devRef .tc Cert.ReferenceIdeal.main_v265)) := by
  rw [unary_at_idx krising U 216 rfl, unary_at_idx rrising M 323 rfl, e_c_65 h0 h1 h2 h4 h5 h6 h7 h8 h9 h10 hc]
  all_goals rfl

theorem e_v238 :
    @Eq ((⟨Cert.ReferenceIdeal.S400x4, .i1⟩ : BufTy).Contents (Elt Ideal))
      (after kops U (Proc.devRef .tc Cert.KernelIdeal.main_v238)) (after rops M (Proc.devRef .tc Cert.ReferenceIdeal.main_v266)) := by
  rw [binary_at_idx krising U 217 rfl, binary_at_idx rrising M 324 rfl, e_v227 h0 h1 h2 h4 h5 h6 h7 h8 h9 h10 hc, e_v237 h0 h1 h2 h4 h5 h6 h7 h8 h9 h10 hc]
  all_goals rfl

theorem e_c_66 :
    @Eq ((⟨Cert.ReferenceIdeal.S_, .i32⟩ : BufTy).Contents (Elt Ideal))
      (after kops U (Proc.devRef .tc Cert.KernelIdeal.main_c_66)) (after rops M (Proc.devRef .tc Cert.ReferenceIdeal.main_c_53)) := by
  rw [nullary_at_idx krising U 218 rfl, nullary_at_idx rrising M 325 rfl]
  all_goals rfl

theorem e_v239 :
    @Eq ((⟨Cert.ReferenceIdeal.S400x4, .i32⟩ : BufTy).Contents (Elt Ideal))
      (after kops U (Proc.devRef .tc Cert.KernelIdeal.main_v239)) (after rops M (Proc.devRef .tc Cert.ReferenceIdeal.main_v267)) := by
  rw [unary_at_idx krising U 219 rfl, unary_at_idx rrising M 326 rfl, e_c_66 h0 h1 h2 h4 h5 h6 h7 h8 h9 h10 hc]
  all_goals rfl

theorem e_v240 :
    @Eq ((⟨Cert.ReferenceIdeal.S400x4, .i32⟩ : BufTy).Contents (Elt Ideal))
      (after kops U (Proc.devRef .tc Cert.KernelIdeal.main_v240)) (after rops M (Proc.devRef .tc Cert.ReferenceIdeal.main_v268)) := by
  rw [binary_at_idx krising U 220 rfl, binary_at_idx rrising M 327 rfl, e_v227 h0 h1 h2 h4 h5 h6 h7 h8 h9 h10 hc, e_v239 h0 h1 h2 h4 h5 h6 h7 h8 h9 h10 hc]
  all_goals rfl

theorem e_v241 :
    @Eq ((⟨Cert.ReferenceIdeal.S400x4, .i32⟩ : BufTy).Contents (Elt Ideal))
      (after kops U (Proc.devRef .tc Cert.KernelIdeal.main_v241)) (after rops M (Proc.devRef .tc Cert.ReferenceIdeal.main_v269)) := by
  rw [ternary_at_idx krising U 221 rfl, ternary_at_idx rrising M 328 rfl, e_v238 h0 h1 h2 h4 h5 h6 h7 h8 h9 h10 hc, e_v240 h0 h1 h2 h4 h5 h6 h7 h8 h9 h10 hc, e_v227 h0 h1 h2 h4 h5 h6 h7 h8 h9 h10 hc]
  all_goals rfl

theorem e_v242 :
    @Eq ((⟨Cert.ReferenceIdeal.S400x4x1, .i32⟩ : BufTy).Contents (Elt Ideal))
      (after kops U (Proc.devRef .tc Cert.KernelIdeal.main_v242)) (after rops M (Proc.devRef .tc Cert.ReferenceIdeal.main_v270)) := by
  rw [unary_at_idx krising U 222 rfl, unary_at_idx rrising M 329 rfl, e_v241 h0 h1 h2 h4 h5 h6 h7 h8 h9 h10 hc]
  all_goals rfl

theorem e_v243 :
    @Eq ((⟨Cert.ReferenceIdeal.S12000, .f32⟩ : BufTy).Contents (Elt Ideal))
      (after kops U (Proc.devRef .tc Cert.KernelIdeal.main_v243)) (after rops M (Proc.devRef .tc Cert.ReferenceIdeal.main_v271)) := by
  rw [ternary_at_idx krising U 223 rfl, ternary_at_idx rrising M 330 rfl, e_v236 h0 h1 h2 h4 h5 h6 h7 h8 h9 h10 hc, e_v242 h0 h1 h2 h4 h5 h6 h7 h8 h9 h10 hc, e_v235 h0 h1 h2 h4 h5 h6 h7 h8 h9 h10 hc]
  all_goals rfl

theorem e_c_67 :
    @Eq ((⟨Cert.ReferenceIdeal.S_, .i32⟩ : BufTy).Contents (Elt Ideal))
      (after kops U (Proc.devRef .tc Cert.KernelIdeal.main_c_67)) (after rops M (Proc.devRef .tc Cert.ReferenceIdeal.main_c_65)) := by
  rw [nullary_at_idx krising U 224 rfl, nullary_at_idx rrising M 374 rfl]
  all_goals rfl

theorem e_v244 :
    @Eq ((⟨Cert.ReferenceIdeal.S200, .i32⟩ : BufTy).Contents (Elt Ideal))
      (after kops U (Proc.devRef .tc Cert.KernelIdeal.main_v244)) (after rops M (Proc.devRef .tc Cert.ReferenceIdeal.main_v304)) := by
  rw [unary_at_idx krising U 225 rfl, unary_at_idx rrising M 375 rfl, e_c_67 h0 h1 h2 h4 h5 h6 h7 h8 h9 h10 hc]
  all_goals rfl

theorem e_v245 :
    @Eq ((⟨Cert.ReferenceIdeal.S200, .i1⟩ : BufTy).Contents (Elt Ideal))
      (after kops U (Proc.devRef .tc Cert.KernelIdeal.main_v245)) (after rops M (Proc.devRef .tc Cert.ReferenceIdeal.main_v305)) := by
  rw [binary_at_idx krising U 226 rfl, binary_at_idx rrising M 376 rfl, e_v84 h0 h1 h2 h4 h5 h6 h7 h8 h9 h10 hc, e_v244 h0 h1 h2 h4 h5 h6 h7 h8 h9 h10 hc]
  all_goals rfl

theorem e_c_68 :
    @Eq ((⟨Cert.ReferenceIdeal.S_, .i32⟩ : BufTy).Contents (Elt Ideal))
      (after kops U (Proc.devRef .tc Cert.KernelIdeal.main_c_68)) (after rops M (Proc.devRef .tc Cert.ReferenceIdeal.main_c_66)) := by
  rw [nullary_at_idx krising U 227 rfl, nullary_at_idx rrising M 377 rfl]
  all_goals rfl

theorem e_v246 :
    @Eq ((⟨Cert.ReferenceIdeal.S200, .i32⟩ : BufTy).Contents (Elt Ideal))
      (after kops U (Proc.devRef .tc Cert.KernelIdeal.main_v246)) (after rops M (Proc.devRef .tc Cert.ReferenceIdeal.main_v306)) := by
  rw [unary_at_idx krising U 228 rfl, unary_at_idx rrising M 378 rfl, e_c_68 h0 h1 h2 h4 h5 h6 h7 h8 h9 h10 hc]
  all_goals rfl

theorem e_v247 :
    @Eq ((⟨Cert.ReferenceIdeal.S200, .i32⟩ : BufTy).Contents (Elt Ideal))
      (after kops U (Proc.devRef .tc Cert.KernelIdeal.main_v247)) (after rops M (Proc.devRef .tc Cert.ReferenceIdeal.main_v307)) := by
  rw [binary_at_idx krising U 229 rfl, binary_at_idx rrising M 379 rfl, e_v84 h0 h1 h2 h4 h5 h6 h7 h8 h9 h10 hc, e_v246 h0 h1 h2 h4 h5 h6 h7 h8 h9 h10 hc]
  all_goals rfl

theorem e_v248 :
    @Eq ((⟨Cert.ReferenceIdeal.S200, .i32⟩ : BufTy).Contents (Elt Ideal))
      (after kops U (Proc.devRef .tc Cert.KernelIdeal.main_v248)) (after rops M (Proc.devRef .tc Cert.ReferenceIdeal.main_v308)) := by
  rw [ternary_at_idx krising U 230 rfl, ternary_at_idx rrising M 380 rfl, e_v245 h0 h1 h2 h4 h5 h6 h7 h8 h9 h10 hc, e_v247 h0 h1 h2 h4 h5 h6 h7 h8 h9 h10 hc, e_v84 h0 h1 h2 h4 h5 h6 h7 h8 h9 h10 hc]
  all_goals rfl

theorem e_v249 :
    @Eq ((⟨Cert.ReferenceIdeal.S200x1, .i32⟩ : BufTy).Contents (Elt Ideal))
      (after kops U (Proc.devRef .tc Cert.KernelIdeal.main_v249)) (after rops M (Proc.devRef .tc Cert.ReferenceIdeal.main_v309)) := by
  rw [unary_at_idx krising U 231 rfl, unary_at_idx rrising M 381 rfl, e_v248 h0 h1 h2 h4 h5 h6 h7 h8 h9 h10 hc]
  all_goals rfl

theorem e_v250 :
    @Eq ((⟨Cert.ReferenceIdeal.S12000, .f32⟩ : BufTy).Contents (Elt Ideal))
      (after kops U (Proc.devRef .tc Cert.KernelIdeal.main_v250)) (after rops M (Proc.devRef .tc Cert.ReferenceIdeal.main_v310)) := by
  rw [ternary_at_idx krising U 232 rfl, ternary_at_idx rrising M 382 rfl, e_v243 h0 h1 h2 h4 h5 h6 h7 h8 h9 h10 hc, e_v249 h0 h1 h2 h4 h5 h6 h7 h8 h9 h10 hc, e_arg10 h0 h1 h2 h4 h5 h6 h7 h8 h9 h10 hc]
  all_goals rfl

theorem e_v251 :
    @Eq ((⟨Cert.ReferenceIdeal.S12000x1, .f32⟩ : BufTy).Contents (Elt Ideal))
      (after kops U (Proc.devRef .tc Cert.KernelIdeal.main_v251)) (after rops M (Proc.devRef .tc Cert.ReferenceIdeal.main_v311)) := by
  rw [unary_at_idx krising U 233 rfl, unary_at_idx rrising M 383 rfl, e_v250 h0 h1 h2 h4 h5 h6 h7 h8 h9 h10 hc]
  all_goals rfl

end

/-! ## The load vectors agree -/

/-- The two final load-vector buffers hold equal contents, every equation stated at the reference's name of the array
    type (no comparison of the two programs' buffer tables is needed to read it). -/
theorem resid_eq' (U : Valuation Cert.KernelIdeal.τ Cert.KernelIdeal.sig (Elt Ideal)) (M : Valuation Cert.ReferenceIdeal.τ Cert.ReferenceIdeal.sig (Elt Ideal))
    (h0 : @Eq ((⟨Cert.ReferenceIdeal.S6000, .f32⟩ : BufTy).Contents (Elt Ideal)) (U (Proc.devRef .tc Cert.KernelIdeal.main_arg0)) (M (Proc.devRef .tc Cert.ReferenceIdeal.main_arg0)))
    (h1 : @Eq ((⟨Cert.ReferenceIdeal.S6000, .f32⟩ : BufTy).Contents (Elt Ideal)) (U (Proc.devRef .tc Cert.KernelIdeal.main_arg1)) (M (Proc.devRef .tc Cert.ReferenceIdeal.main_arg1)))
    (h2 : @Eq ((⟨Cert.ReferenceIdeal.S12000x3, .i32⟩ : BufTy).Contents (Elt Ideal)) (U (Proc.devRef .tc Cert.KernelIdeal.main_arg2)) (M (Proc.devRef .tc Cert.ReferenceIdeal.main_arg2)))
    (h4 : @Eq ((⟨Cert.ReferenceIdeal.S400, .i32⟩ : BufTy).Contents (Elt Ideal)) (U (Proc.devRef .tc Cert.KernelIdeal.main_arg4)) (M (Proc.devRef .tc Cert.ReferenceIdeal.main_arg4)))
    (h5 : @Eq ((⟨Cert.ReferenceIdeal.S400, .i32⟩ : BufTy).Contents (Elt Ideal)) (U (Proc.devRef .tc Cert.KernelIdeal.main_arg5)) (M (Proc.devRef .tc Cert.ReferenceIdeal.main_arg5)))
    (h6 : @Eq ((⟨Cert.ReferenceIdeal.S400, .f32⟩ : BufTy).Contents (Elt Ideal)) (U (Proc.devRef .tc Cert.KernelIdeal.main_arg6)) (M (Proc.devRef .tc Cert.ReferenceIdeal.main_arg6)))
    (h7 : @Eq ((⟨Cert.ReferenceIdeal.S400, .f32⟩ : BufTy).Contents (Elt Ideal)) (U (Proc.devRef .tc Cert.KernelIdeal.main_arg7)) (M (Proc.devRef .tc Cert.ReferenceIdeal.main_arg7)))
    (h8 : @Eq ((⟨Cert.ReferenceIdeal.S200, .i32⟩ : BufTy).Contents (Elt Ideal)) (U (Proc.devRef .tc Cert.KernelIdeal.main_arg8)) (M (Proc.devRef .tc Cert.ReferenceIdeal.main_arg8)))
    (h9 : @Eq ((⟨Cert.ReferenceIdeal.S200, .i32⟩ : BufTy).Contents (Elt Ideal)) (U (Proc.devRef .tc Cert.KernelIdeal.main_arg9)) (M (Proc.devRef .tc Cert.ReferenceIdeal.main_arg9)))
    (h10 : @Eq ((⟨Cert.ReferenceIdeal.S200, .f32⟩ : BufTy).Contents (Elt Ideal)) (U (Proc.devRef .tc Cert.KernelIdeal.main_arg10)) (M (Proc.devRef .tc Cert.ReferenceIdeal.main_arg10)))
    (hc : @Eq ((⟨Cert.ReferenceIdeal.S3, .i32⟩ : BufTy).Contents (Elt Ideal)) (U (Proc.devRef .tc Cert.KernelIdeal.main_c)) (fun i => Cert.KernelIdeal.lit0 (Cert.KernelIdeal.S3.rowMajor i))) :
    @Eq ((⟨Cert.ReferenceIdeal.S12000x1, .f32⟩ : BufTy).Contents (Elt Ideal))
      (after kops U (Proc.devRef .tc Cert.KernelIdeal.main_v251)) (after rops M (Proc.devRef .tc Cert.ReferenceIdeal.main_v311)) :=
  e_v251 h0 h1 h2 h4 h5 h6 h7 h8 h9 h10 hc

/-- The same, with each equation between the two programs' own buffers as they are. -/
theorem resid_eq (U : Valuation Cert.KernelIdeal.τ Cert.KernelIdeal.sig (Elt Ideal)) (M : Valuation Cert.ReferenceIdeal.τ Cert.ReferenceIdeal.sig (Elt Ideal))
    (h0 : U (Proc.devRef .tc Cert.KernelIdeal.main_arg0) = M (Proc.devRef .tc Cert.ReferenceIdeal.main_arg0))
    (h1 : U (Proc.devRef .tc Cert.KernelIdeal.main_arg1) = M (Proc.devRef .tc Cert.ReferenceIdeal.main_arg1))
    (h2 : U (Proc.devRef .tc Cert.KernelIdeal.main_arg2) = M (Proc.devRef .tc Cert.ReferenceIdeal.main_arg2))
    (h4 : U (Proc.devRef .tc Cert.KernelIdeal.main_arg4) = M (Proc.devRef .tc Cert.ReferenceIdeal.main_arg4))
    (h5 : U (Proc.devRef .tc Cert.KernelIdeal.main_arg5) = M (Proc.devRef .tc Cert.ReferenceIdeal.main_arg5))
    (h6 : U (Proc.devRef .tc Cert.KernelIdeal.main_arg6) = M (Proc.devRef .tc Cert.ReferenceIdeal.main_arg6))
    (h7 : U (Proc.devRef .tc Cert.KernelIdeal.main_arg7) = M (Proc.devRef .tc Cert.ReferenceIdeal.main_arg7))
    (h8 : U (Proc.devRef .tc Cert.KernelIdeal.main_arg8) = M (Proc.devRef .tc Cert.ReferenceIdeal.main_arg8))
    (h9 : U (Proc.devRef .tc Cert.KernelIdeal.main_arg9) = M (Proc.devRef .tc Cert.ReferenceIdeal.main_arg9))
    (h10 : U (Proc.devRef .tc Cert.KernelIdeal.main_arg10) = M (Proc.devRef .tc Cert.ReferenceIdeal.main_arg10))
    (hc : U (Proc.devRef .tc Cert.KernelIdeal.main_c) = (fun i => Cert.KernelIdeal.lit0 (Cert.KernelIdeal.S3.rowMajor i) : (⟨Cert.KernelIdeal.S3, .i32⟩ : BufTy).Contents (Elt Ideal))) :
    StableHlo.after (Cert.KernelIdeal.Gen.hostOps1 (F := Ideal)) U (Proc.devRef .tc Cert.KernelIdeal.main_v251)
      = StableHlo.after (Cert.ReferenceIdeal.RefRun.ops (F := Ideal)) M (Proc.devRef .tc Cert.ReferenceIdeal.main_v311) :=
  e_v251 h0 h1 h2 h4 h5 h6 h7 h8 h9 h10 hc

end Cert.Alg

end
-- ==== Proof.Algebraic.lean ====
/-
  The algebraic conjunct: both programs, run from memories that agree on the arguments, end with equal matrices and
  equal load vectors.

  The load vector is computed by the same host operations in both programs. For the matrix, the per-triangle entries are
  equal (one triangle's entry, two ways, at finite coordinates), and masking the rows of fixed degrees of freedom before the
  assembly sum equals masking them after it, the mask having entries 0 and 1.
-/
import proofs.«145649_j20933670601054_2_alg».proof.Proof.Assemble
import proofs.«145649_j20933670601054_2_alg».proof.Proof.KEntry
import proofs.«145649_j20933670601054_2_alg».proof.Proof.KIArr
import proofs.«145649_j20933670601054_2_alg».proof.Proof.RefElem
import proofs.«145649_j20933670601054_2_alg».proof.Proof.EqStiff
import proofs.«145649_j20933670601054_2_alg».proof.Proof.EqResid

set_option maxRecDepth 16384

noncomputable section

namespace Cert.Alg

open Idealize.ShloMosaic Idealize.SL.Sem Idealize.ShloMosaic.StableHlo Cert.LibSsaAfter

variable [hKernelIdeal : Cert.KernelIdeal.Facts] [hReferenceIdeal : Cert.ReferenceIdeal.Facts] [hPre_finite_inputs : Cert.Pre_finite_inputs.Facts]

/-- The two final buffer pairs are equal, for agreeing arguments with finite coordinates. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal m)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    after (Cert.KernelIdeal.Gen.hostOps1 (F := Ideal)) (UK m c) (Proc.devRef .tc Cert.KernelIdeal.main_v139)
        = after (Cert.ReferenceIdeal.RefRun.ops (F := Ideal)) (fun b => m' (c, b)) (Proc.devRef .tc Cert.ReferenceIdeal.main_v303)
      ∧ after (Cert.KernelIdeal.Gen.hostOps1 (F := Ideal)) (UK m c) (Proc.devRef .tc Cert.KernelIdeal.main_v251)
        = after (Cert.ReferenceIdeal.RefRun.ops (F := Ideal)) (fun b => m' (c, b)) (Proc.devRef .tc Cert.ReferenceIdeal.main_v311) := by
  obtain ⟨a0, a1, a2, a3, a4, a5, a6, a7, a8, a9, a10⟩ := hagree
  -- the arguments as the two tails find them
  have u0 : UK m c (Proc.devRef .tc Cert.KernelIdeal.main_arg0) = (fun b => m' (c, b)) (Proc.devRef .tc Cert.ReferenceIdeal.main_arg0) :=
    (Cert.KernelIdeal.Hand.UK_main_arg0 m c).trans a0.symm
  have u1 : UK m c (Proc.devRef .tc Cert.KernelIdeal.main_arg1) = (fun b => m' (c, b)) (Proc.devRef .tc Cert.ReferenceIdeal.main_arg1) :=
    (Cert.KernelIdeal.Hand.UK_main_arg1 m c).trans a1.symm
  have u2 : UK m c (Proc.devRef .tc Cert.KernelIdeal.main_arg2) = (fun b => m' (c, b)) (Proc.devRef .tc Cert.ReferenceIdeal.main_arg2) :=
    (Cert.KernelIdeal.Hand.UK_main_arg2 m c).trans a2.symm
  have u3 : UK m c (Proc.devRef .tc Cert.KernelIdeal.main_arg3) = (fun b => m' (c, b)) (Proc.devRef .tc Cert.ReferenceIdeal.main_arg3) :=
    (Cert.KernelIdeal.Hand.UK_main_arg3 m c).trans a3.symm
  have u4 : UK m c (Proc.devRef .tc Cert.KernelIdeal.main_arg4) = (fun b => m' (c, b)) (Proc.devRef .tc Cert.ReferenceIdeal.main_arg4) :=
    (Cert.KernelIdeal.Hand.UK_main_arg4 m c).trans a4.symm
  have u5 : UK m c (Proc.devRef .tc Cert.KernelIdeal.main_arg5) = (fun b => m' (c, b)) (Proc.devRef .tc Cert.ReferenceIdeal.main_arg5) :=
    (Cert.KernelIdeal.Hand.UK_main_arg5 m c).trans a5.symm
  have u6 : UK m c (Proc.devRef .tc Cert.KernelIdeal.main_arg6) = (fun b => m' (c, b)) (Proc.devRef .tc Cert.ReferenceIdeal.main_arg6) :=
    (Cert.KernelIdeal.Hand.UK_main_arg6 m c).trans a6.symm
  have u7 : UK m c (Proc.devRef .tc Cert.KernelIdeal.main_arg7) = (fun b => m' (c, b)) (Proc.devRef .tc Cert.ReferenceIdeal.main_arg7) :=
    (Cert.KernelIdeal.Hand.UK_main_arg7 m c).trans a7.symm
  have u8 : UK m c (Proc.devRef .tc Cert.KernelIdeal.main_arg8) = (fun b => m' (c, b)) (Proc.devRef .tc Cert.ReferenceIdeal.main_arg8) :=
    (Cert.KernelIdeal.Hand.UK_main_arg8 m c).trans a8.symm
  have u9 : UK m c (Proc.devRef .tc Cert.KernelIdeal.main_arg9) = (fun b => m' (c, b)) (Proc.devRef .tc Cert.ReferenceIdeal.main_arg9) :=
    (Cert.KernelIdeal.Hand.UK_main_arg9 m c).trans a9.symm
  have u10 : UK m c (Proc.devRef .tc Cert.KernelIdeal.main_arg10) = (fun b => m' (c, b)) (Proc.devRef .tc Cert.ReferenceIdeal.main_arg10) :=
    (Cert.KernelIdeal.Hand.UK_main_arg10 m c).trans a10.symm
  -- finite coordinates
  obtain ⟨hx, hy⟩ := finite_xy _ _ _ _ _ _ _ _ _ _ _ (hpre c)
  -- the per-triangle entries
  have hk : after (Cert.KernelIdeal.Gen.hostOps1 (F := Ideal)) (UK m c) (Proc.devRef .tc Cert.KernelIdeal.main_v71)
      = after (Cert.ReferenceIdeal.RefRun.ops (F := Ideal)) (fun b => m' (c, b)) (Proc.devRef .tc Cert.ReferenceIdeal.main_v138) := by
    funext idx
    obtain ⟨e, i, j, rfl⟩ : ∃ (e : Fin 12000) (i j : Fin 6), idx = ValueIdx.ix3 e i j := ⟨idx 0, idx 1, idx 2, ValueIdx.eq_ix3 idx⟩
    rw [Cert.KernelIdeal.Hand.k_apply m c e i j, Cert.Alg.RefElem.ref_k_apply _ e i j,
      after_of_lt Cert.ReferenceIdeal.RefRun.rising _ (b := Proc.devRef .tc Cert.ReferenceIdeal.main_arg3) (by decide)]
    rw [show m' (c, Proc.devRef .tc Cert.ReferenceIdeal.main_arg3)
        = m ((c.tc : Thread Cert.KernelIdeal.nD Cert.KernelIdeal.τ).loc Cert.KernelIdeal.main_arg3) from a3]
    exact entry_eq (fun b => m (c, b)) (fun b => m' (c, b)) a0.symm a1.symm a2.symm hx hy _ e i j
  exact ⟨stiff_eq (UK m c) (fun b => m' (c, b)) u2 u8 u9 hk,
    resid_eq (UK m c) (fun b => m' (c, b)) u0 u1 u2 u4 u5 u6 u7 u8 u9 u10 (Cert.KernelIdeal.Hand.UK_main_c m c)⟩

/-- The algebraic conjunct. -/
theorem algebraic : Cert.algebraic_KernelIdeal_ReferenceIdeal := algebraic_of results_eq

end Cert.Alg

end
-- ==== Proof.lean ====
/-
  The certificate's five conjuncts.

  The kernel program computes, per triangle, the 36 entries of its element stiffness matrix in one device kernel and
  assembles the global matrix and the load vector on the host; the reference does all of it on the host. At the exact
  instance both produce the same matrix and the same vector (the algebraic conjunct); each program runs to the end
  leaving its arguments as they were (the three frames); and the kernel's six folded material constants are named as
  the exact products of the reference's two words each (the six conjuncts of the idealization's ledger).
-/
import proofs.«145649_j20933670601054_2_alg».proof.Defs
import proofs.«145649_j20933670601054_2_alg».proof.Proof.Gen.Kernel
import proofs.«145649_j20933670601054_2_alg».proof.Proof.Gen.Kernel.Skeleton
import proofs.«145649_j20933670601054_2_alg».proof.Proof.Gen.Kernel.Launch
import proofs.«145649_j20933670601054_2_alg».proof.Proof.Gen.Kernel.Points
import proofs.«145649_j20933670601054_2_alg».proof.Proof.Gen.KernelIdeal
import proofs.«145649_j20933670601054_2_alg».proof.Proof.Gen.KernelIdeal.Skeleton
import proofs.«145649_j20933670601054_2_alg».proof.Proof.Gen.KernelIdeal.Launch
import proofs.«145649_j20933670601054_2_alg».proof.Proof.Gen.KernelIdeal.Points
import proofs.«145649_j20933670601054_2_alg».proof.Proof.Gen.ReferenceIdeal
import proofs.«145649_j20933670601054_2_alg».proof.Proof.Gen.Pre_finite_inputs
import proofs.«145649_j20933670601054_2_alg».proof.Proof.KFrame
import proofs.«145649_j20933670601054_2_alg».proof.Proof.KIFrame
import proofs.«145649_j20933670601054_2_alg».proof.Proof.RefRun
import proofs.«145649_j20933670601054_2_alg».proof.Proof.Algebraic
import Idealize.ShloMosaic.Adequacy
import Idealize.ShloMosaic.Init

noncomputable section

namespace Cert.Proof

open Idealize.ShloMosaic Idealize.SL.Sem Cert.Kernel

/-- Each folded material constant of the kernel denotes, by the certificate's table, the exact product of the two
    binary32 words the reference multiplies. -/
theorem preserves : Cert.preserves_Kernel_KernelIdeal :=
  ⟨IdealRules.named_const.statement Cert.KernelIdeal.κ "d_al_00" .f32 0x42CC7791#32 ((112406956574275 / 1099511627776 : ℝ) : EReal) rfl,
   IdealRules.named_const.statement Cert.KernelIdeal.κ "d_st_00" .f32 0x43869D8A#32 ((148011179044927 / 549755813888 : ℝ) : EReal) rfl,
   IdealRules.named_const.statement Cert.KernelIdeal.κ "d_al_01" .f32 0x42496A52#32 ((110729242446295 / 2199023255552 : ℝ) : EReal) rfl,
   IdealRules.named_const.statement Cert.KernelIdeal.κ "d_st_01" .f32 0x42E6C4ED#32 ((63433366048705 / 549755813888 : ℝ) : EReal) rfl,
   IdealRules.named_const.statement Cert.KernelIdeal.κ "d_al_22" .f32 0x41CF84D1#32 ((114084670702255 / 4398046511104 : ℝ) : EReal) rfl,
   IdealRules.named_const.statement Cert.KernelIdeal.κ "d_st_22" .f32 0x4299D89E#32 ((169155638595521 / 2199023255552 : ℝ) : EReal) rfl⟩

theorem claim : Cert.Claim := ⟨Cert.Kernel.Gen.facts, Cert.KernelIdeal.Gen.facts, Cert.ReferenceIdeal.Gen.facts, Cert.Pre_finite_inputs.Gen.facts, by
  exact ⟨fun m ρ _ => Cert.Kernel.Hand.frame (F := Bits) m ρ,
    fun m ρ _ => Cert.KernelIdeal.Hand.frame (F := Ideal) m ρ,
    fun m ρ _ => Cert.ReferenceIdeal.RefRun.frame (F := Ideal) m ρ,
    preserves,
    Cert.Alg.algebraic⟩⟩

end Cert.Proof

end
